-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x32x32 : Shape := ⟨4, ![16, 256, 32, 32]⟩
abbrev S16x128x64x64 : Shape := ⟨4, ![16, 128, 64, 64]⟩
abbrev S256x128x2x2 : Shape := ⟨4, ![256, 128, 2, 2]⟩
abbrev S128 : Shape := ⟨1, ![128]⟩
abbrev S128x256x3x3 : Shape := ⟨4, ![128, 256, 3, 3]⟩
abbrev S128x128x3x3 : Shape := ⟨4, ![128, 128, 3, 3]⟩
abbrev S128x256x1x1 : Shape := ⟨4, ![128, 256, 1, 1]⟩
abbrev S_ : Shape := ⟨0, ![]⟩

class Facts : Prop where
  bcast_S_S16x256x32x32 : S_.BroadcastsInDim S16x256x32x32 (![] : Fin 0 → Fin S16x256x32x32.rank)
  reducesTo_S16x256x32x32_S_d0_1_2_3 : S16x256x32x32.ReducesTo [0, 1, 2, 3] S_
  h_S_ : 0 < S_.numel
  bcast_S_S16x128x64x64 : S_.BroadcastsInDim S16x128x64x64 (![] : Fin 0 → Fin S16x128x64x64.rank)
  reducesTo_S16x128x64x64_S_d0_1_2_3 : S16x128x64x64.ReducesTo [0, 1, 2, 3] S_
  bcast_S_S256x128x2x2 : S_.BroadcastsInDim S256x128x2x2 (![] : Fin 0 → Fin S256x128x2x2.rank)
  reducesTo_S256x128x2x2_S_d0_1_2_3 : S256x128x2x2.ReducesTo [0, 1, 2, 3] S_
  bcast_S_S128 : S_.BroadcastsInDim S128 (![] : Fin 0 → Fin S128.rank)
  reducesTo_S128_S_d0 : S128.ReducesTo [0] S_
  bcast_S_S128x256x3x3 : S_.BroadcastsInDim S128x256x3x3 (![] : Fin 0 → Fin S128x256x3x3.rank)
  reducesTo_S128x256x3x3_S_d0_1_2_3 : S128x256x3x3.ReducesTo [0, 1, 2, 3] S_
  bcast_S_S128x128x3x3 : S_.BroadcastsInDim S128x128x3x3 (![] : Fin 0 → Fin S128x128x3x3.rank)
  reducesTo_S128x128x3x3_S_d0_1_2_3 : S128x128x3x3.ReducesTo [0, 1, 2, 3] S_
  bcast_S_S128x256x1x1 : S_.BroadcastsInDim S128x256x1x1 (![] : Fin 0 → Fin S128x256x1x1.rank)
  reducesTo_S128x256x1x1_S_d0_1_2_3 : S128x256x1x1.ReducesTo [0, 1, 2, 3] S_

variable [Facts]

def fn_part2 {F : FTy → Type} [FloatOps F] (main_arg7 : FVec F S128 .f32) (main_arg8 : FVec F S128x256x1x1 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256x1x1 .f32 := Host.absf main_arg8
  let main_cst_14 : FVec F S_ .f32 := constant S_ .f32 0x7F800000#32
  let main_v40 : FVec F S128x256x1x1 .f32 := broadcastInDim S128x256x1x1 ![] bcast_S_S128x256x1x1 main_cst_14
  let main_v41 : IVec S128x256x1x1 1 := cmpf .olt main_v39 main_v40
  let main_c_15 : IVec S_ 1 := constantI S_ 1 1#1
  let main_v42 : IVec S_ 1 := (fun x v => Host.reduce IntOp.andi x v reducesTo_S128x256x1x1_S_d0_1_2_3 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x256x3x3 .f32) (main_arg5 : FVec F S128 .f32) (main_arg6 : FVec F S128x128x3x3 .f32) (main_arg7 : FVec F S128 .f32) (main_arg8 : FVec F S128x256x1x1 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256x3x3 .f32 := Host.absf main_arg4
  let main_cst_6 : FVec F S_ .f32 := constant S_ .f32 0x7F800000#32
  let main_v20 : FVec F S128x256x3x3 .f32 := broadcastInDim S128x256x3x3 ![] bcast_S_S128x256x3x3 main_cst_6
  let main_v21 : IVec S128x256x3x3 1 := cmpf .olt main_v19 main_v20
  let main_c_7 : IVec S_ 1 := constantI S_ 1 1#1
  let main_v22 : IVec S_ 1 := (fun x v => Host.reduce IntOp.andi x v reducesTo_S128x256x3x3_S_d0_1_2_3 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128x3x3 .f32 := Host.absf main_arg6
  let main_cst_10 : FVec F S_ .f32 := constant S_ .f32 0x7F800000#32
  let main_v30 : FVec F S128x128x3x3 .f32 := broadcastInDim S128x128x3x3 ![] bcast_S_S128x128x3x3 main_cst_10
  let main_v31 : IVec S128x128x3x3 1 := cmpf .olt main_v29 main_v30
  let main_c_11 : IVec S_ 1 := constantI S_ 1 1#1
  let main_v32 : IVec S_ 1 := (fun x v => Host.reduce IntOp.andi x v reducesTo_S128x128x3x3_S_d0_1_2_3 h_S_) main_v31 main_c_11
  let main_v33 : IVec S_ 1 := andi main_v28 main_v32
  fn_part2 (F := F) main_arg7 main_arg8 main_arg9 main_v33

def fn {F : FTy → Type} [FloatOps F] (main_arg0 : FVec F S16x256x32x32 .f32) (main_arg1 : FVec F S16x128x64x64 .f32) (main_arg2 : FVec F S256x128x2x2 .f32) (main_arg3 : FVec F S128 .f32) (main_arg4 : FVec F S128x256x3x3 .f32) (main_arg5 : FVec F S128 .f32) (main_arg6 : FVec F S128x128x3x3 .f32) (main_arg7 : FVec F S128 .f32) (main_arg8 : FVec F S128x256x1x1 .f32) (main_arg9 : FVec F S128 .f32) : IVec S_ 1 :=
  let main_v0 : FVec F S16x256x32x32 .f32 := Host.absf main_arg0
  let main_cst : FVec F S_ .f32 := constant S_ .f32 0x7F800000#32
  let main_v1 : FVec F S16x256x32x32 .f32 := broadcastInDim S16x256x32x32 ![] bcast_S_S16x256x32x32 main_cst
  let main_v2 : IVec S16x256x32x32 1 := cmpf .olt main_v0 main_v1
  let main_c : IVec S_ 1 := constantI S_ 1 1#1
  let main_v3 : IVec S_ 1 := (fun x v => Host.reduce IntOp.andi x v reducesTo_S16x256x32x32_S_d0_1_2_3 h_S_) main_v2 main_c
  let main_v4 : FVec F S16x128x64x64 .f32 := Host.absf main_arg1
  let main_cst_0 : FVec F S_ .f32 := constant S_ .f32 0x7F800000#32
  let main_v5 : FVec F S16x128x64x64 .f32 := broadcastInDim S16x128x64x64 ![] bcast_S_S16x128x64x64 main_cst_0
  let main_v6 : IVec S16x128x64x64 1 := cmpf .olt main_v4 main_v5
  let main_c_1 : IVec S_ 1 := constantI S_ 1 1#1
  let main_v7 : IVec S_ 1 := (fun x v => Host.reduce IntOp.andi x v reducesTo_S16x128x64x64_S_d0_1_2_3 h_S_) main_v6 main_c_1
  let main_v8 : IVec S_ 1 := andi main_v3 main_v7
  let main_v9 : FVec F S256x128x2x2 .f32 := Host.absf main_arg2
  let main_cst_2 : FVec F S_ .f32 := constant S_ .f32 0x7F800000#32
  let main_v10 : FVec F S256x128x2x2 .f32 := broadcastInDim S256x128x2x2 ![] bcast_S_S256x128x2x2 main_cst_2
  let main_v11 : IVec S256x128x2x2 1 := cmpf .olt main_v9 main_v10
  let main_c_3 : IVec S_ 1 := constantI S_ 1 1#1
  let main_v12 : IVec S_ 1 := (fun x v => Host.reduce IntOp.andi x v reducesTo_S256x128x2x2_S_d0_1_2_3 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S16x256x32x32 : Shape := ⟨4, ![16, 256, 32, 32]⟩
abbrev S16x128x64x64 : Shape := ⟨4, ![16, 128, 64, 64]⟩
abbrev S256x128x2x2 : Shape := ⟨4, ![256, 128, 2, 2]⟩
abbrev S128 : Shape := ⟨1, ![128]⟩
abbrev S128x256x3x3 : Shape := ⟨4, ![128, 256, 3, 3]⟩
abbrev S128x128x3x3 : Shape := ⟨4, ![128, 128, 3, 3]⟩
abbrev S128x256x1x1 : Shape := ⟨4, ![128, 256, 1, 1]⟩
abbrev S256x2x2x128 : Shape := ⟨4, ![256, 2, 2, 128]⟩
abbrev S256x512 : Shape := ⟨2, ![256, 512]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S3x3x256x128 : Shape := ⟨4, ![3, 3, 256, 128]⟩
abbrev S9x256x128 : Shape := ⟨3, ![9, 256, 128]⟩
abbrev S3x3x128x128 : Shape := ⟨4, ![3, 3, 128, 128]⟩
abbrev S9x128x128 : Shape := ⟨3, ![9, 128, 128]⟩
abbrev S128x256 : Shape := ⟨2, ![128, 256]⟩
abbrev S256x128 : Shape := ⟨2, ![256, 128]⟩
abbrev S16x64x64x128 : Shape := ⟨4, ![16, 64, 64, 128]⟩
abbrev S1x256x32x32 : Shape := ⟨4, ![1, 256, 32, 32]⟩
abbrev S1x64x64x128 : Shape := ⟨4, ![1, 64, 64, 128]⟩
abbrev S66x66x256 : Shape := ⟨3, ![66, 66, 256]⟩
abbrev S66x66x128 : Shape := ⟨3, ![66, 66, 128]⟩
abbrev S1x66x256 : Shape := ⟨3, ![1, 66, 256]⟩
abbrev S66x1x256 : Shape := ⟨3, ![66, 1, 256]⟩
abbrev S66x2x256 : Shape := ⟨3, ![66, 2, 256]⟩
abbrev S1x66x128 : Shape := ⟨3, ![1, 66, 128]⟩
abbrev S66x1x128 : Shape := ⟨3, ![66, 1, 128]⟩
abbrev S66x2x128 : Shape := ⟨3, ![66, 2, 128]⟩
abbrev S256x32x32 : Shape := ⟨3, ![256, 32, 32]⟩
abbrev S256x1024 : Shape := ⟨2, ![256, 1024]⟩
abbrev S1024x512 : Shape := ⟨2, ![1024, 512]⟩
abbrev S32x32x2x2x128 : Shape := ⟨5, ![32, 32, 2, 2, 128]⟩
abbrev S32x2x32x2x128 : Shape := ⟨5, ![32, 2, 32, 2, 128]⟩
abbrev S64x64x128 : Shape := ⟨3, ![64, 64, 128]⟩
abbrev S64x66x128 : Shape := ⟨3, ![64, 66, 128]⟩
abbrev S4096x128 : Shape := ⟨2, ![4096, 128]⟩
abbrev S64x64x256 : Shape := ⟨3, ![64, 64, 256]⟩
abbrev S4096x256 : Shape := ⟨2, ![4096, 256]⟩
abbrev S1x256x128 : Shape := ⟨3, ![1, 256, 128]⟩
abbrev S1x128x128 : Shape := ⟨3, ![1, 128, 128]⟩
abbrev S128x128 : Shape := ⟨2, ![128, 128]⟩

abbrev nBuf : Space → Nat
  | .hbm => 34
  | .vmem => 16
  | .smem => 0
  | _ => 0

abbrev bufTy : (tb : Table) → Fin (tcTables nBuf tb) → BufTy
  | .hbm, ⟨0, _⟩ => ⟨S16x256x32x32, .f32⟩
  | .hbm, ⟨1, _⟩ => ⟨S16x128x64x64, .f32⟩
  | .hbm, ⟨2, _⟩ => ⟨S256x128x2x2, .f32⟩
  | .hbm, ⟨3, _⟩ => ⟨S128, .f32⟩
  | .hbm, ⟨4, _⟩ => ⟨S128x256x3x3, .f32⟩
  | .hbm, ⟨5, _⟩ => ⟨S128, .f32⟩
  | .hbm, ⟨6, _⟩ => ⟨S128x128x3x3, .f32⟩
  | .hbm, ⟨7, _⟩ => ⟨S128, .f32⟩
  | .hbm, ⟨8, _⟩ => ⟨S128x256x1x1, .f32⟩
  | .hbm, ⟨9, _⟩ => ⟨S128, .f32⟩
  | .hbm, ⟨10, _⟩ => ⟨S256x2x2x128, .f32⟩
  | .hbm, ⟨11, _⟩ => ⟨S256x512, .f32⟩
  | .hbm, ⟨12, _⟩ => ⟨S256x512, .bf16⟩
  | .hbm, ⟨13, _⟩ => ⟨S1x128, .f32⟩
  | .hbm, ⟨14, _⟩ => ⟨S4x128, .f32⟩
  | .hbm, ⟨15, _⟩ => ⟨S512, .f32⟩
  | .hbm, ⟨16, _⟩ => ⟨S1x512, .f32⟩
  | .hbm, ⟨17, _⟩ => ⟨S3x3x256x128, .f32⟩
  | .hbm, ⟨18, _⟩ => ⟨S9x256x128, .f32⟩
  | .hbm, ⟨19, _⟩ => ⟨S9x256x128, .bf16⟩
  | .hbm, ⟨20, _⟩ => ⟨S3x3x128x128, .f32⟩
  | .hbm, ⟨21, _⟩ => ⟨S9x128x128, .f32⟩
  | .hbm, ⟨22, _⟩ => ⟨S9x128x128, .bf16⟩
  | .hbm, ⟨23, _⟩ => ⟨S128x256, .f32⟩
  | .hbm, ⟨24, _⟩ => ⟨S256x128, .f32⟩
  | .hbm, ⟨25, _⟩ => ⟨S256x128, .bf16⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S16x256x32x32, .bf16⟩
  | .hbm, ⟨30, _⟩ => ⟨S16x64x64x128, .f32⟩
  | .hbm, ⟨31, _⟩ => ⟨S16x64x64x128, .bf16⟩
  | .hbm, ⟨32, _⟩ => ⟨S16x64x64x128, .f32⟩
  | .hbm, ⟨33, _⟩ => ⟨S16x128x64x64, .f32⟩
  | .local _ .vmem, ⟨0, _⟩ => ⟨S1x256x32x32, .bf16⟩
  | .local _ .vmem, ⟨1, _⟩ => ⟨S1x256x32x32, .bf16⟩
  | .local _ .vmem, ⟨2, _⟩ => ⟨S1x64x64x128, .bf16⟩
  | .local _ .vmem, ⟨3, _⟩ => ⟨S1x64x64x128, .bf16⟩
  | .local _ .vmem, ⟨4, _⟩ => ⟨S256x512, .bf16⟩
  | .local _ .vmem, ⟨5, _⟩ => ⟨S1x512, .f32⟩
  | .local _ .vmem, ⟨6, _⟩ => ⟨S9x256x128, .bf16⟩
  | .local _ .vmem, ⟨7, _⟩ => ⟨S1x128, .f32⟩
  | .local _ .vmem, ⟨8, _⟩ => ⟨S9x128x128, .bf16⟩
  | .local _ .vmem, ⟨9, _⟩ => ⟨S1x128, .f32⟩
  | .local _ .vmem, ⟨10, _⟩ => ⟨S256x128, .bf16⟩
  | .local _ .vmem, ⟨11, _⟩ => ⟨S1x128, .f32⟩
  | .local _ .vmem, ⟨12, _⟩ => ⟨S1x64x64x128, .f32⟩
  | .local _ .vmem, ⟨13, _⟩ => ⟨S1x64x64x128, .f32⟩
  | .local _ .vmem, ⟨14, _⟩ => ⟨S66x66x256, .bf16⟩
  | .local _ .vmem, ⟨15, _⟩ => ⟨S66x66x128, .bf16⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x32x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S9x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x64x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S256x128x2x2_S256x2x2x128_0_2_3_1 : S256x128x2x2.Transposes [0, 2, 3, 1] S256x2x2x128
  shapeCasts_S256x2x2x128_S256x512 : S256x2x2x128.ShapeCasts S256x512
  bitsLt_bf16_f32 : FTy.bits .bf16 < FTy.bits .f32
  shapeCasts_S128_S1x128 : S128.ShapeCasts S1x128
  bcast_S1x128_S4x128_0_1 : S1x128.BroadcastsInDim S4x128 (![0, 1] : Fin 2 → Fin S4x128.rank)
  shapeCasts_S4x128_S512 : S4x128.ShapeCasts S512
  shapeCasts_S512_S1x512 : S512.ShapeCasts S1x512
  transposes_S128x256x3x3_S3x3x256x128_2_3_1_0 : S128x256x3x3.Transposes [2, 3, 1, 0] S3x3x256x128
  shapeCasts_S3x3x256x128_S9x256x128 : S3x3x256x128.ShapeCasts S9x256x128
  transposes_S128x128x3x3_S3x3x128x128_2_3_1_0 : S128x128x3x3.Transposes [2, 3, 1, 0] S3x3x128x128
  shapeCasts_S3x3x128x128_S9x128x128 : S3x3x128x128.ShapeCasts S9x128x128
  shapeCasts_S128x256x1x1_S128x256 : S128x256x1x1.ShapeCasts S128x256
  transposes_S128x256_S256x128_1_0 : S128x256.Transposes [1, 0] S256x128
  transposes_S16x128x64x64_S16x64x64x128_0_2_3_1 : S16x128x64x64.Transposes [0, 2, 3, 1] S16x64x64x128
  inb_S66x66x256_S1x66x256_0_0_0 : ∀ a, (![0, 0, 0] : Fin 3 → Nat) a + S1x66x256.size a ≤ S66x66x256.size a
  h_S1x66x256 : 0 < S1x66x256.numel
  shapeCasts_S1x66x256_S1x66x256 : S1x66x256.ShapeCasts S1x66x256
  packedbf16_S66x66x256_S1x66x256_0_0_0 : (Rect.unit (s := S66x66x256) ![0, 0, 0] S1x66x256.size inb_S66x66x256_S1x66x256_0_0_0).PackedRows (EltTy.packing .bf16)
  inb_S66x66x256_S1x66x256_65_0_0 : ∀ a, (![65, 0, 0] : Fin 3 → Nat) a + S1x66x256.size a ≤ S66x66x256.size a
  packedbf16_S66x66x256_S1x66x256_65_0_0 : (Rect.unit (s := S66x66x256) ![65, 0, 0] S1x66x256.size inb_S66x66x256_S1x66x256_65_0_0).PackedRows (EltTy.packing .bf16)
  inb_S66x66x256_S66x1x256_0_0_0 : ∀ a, (![0, 0, 0] : Fin 3 → Nat) a + S66x1x256.size a ≤ S66x66x256.size a
  h_S66x1x256 : 0 < S66x1x256.numel
  shapeCasts_S66x1x256_S66x1x256 : S66x1x256.ShapeCasts S66x1x256
  inb_S66x66x256_S66x2x256_0_0_0 : ∀ a, (![0, 0, 0] : Fin 3 → Nat) a + S66x2x256.size a ≤ S66x66x256.size a
  h_S66x2x256 : 0 < S66x2x256.numel
  slices_S66x2x256_S66x1x256_0_0_0 : S66x2x256.Slices ![0, 0, 0] S66x1x256
  packedbf16_S66x66x256_S66x2x256_0_0_0 : (Rect.unit (s := S66x66x256) ![0, 0, 0] S66x2x256.size inb_S66x66x256_S66x2x256_0_0_0).PackedRows (EltTy.packing .bf16)
  inb_S66x66x256_S66x1x256_0_65_0 : ∀ a, (![0, 65, 0] : Fin 3 → Nat) a + S66x1x256.size a ≤ S66x66x256.size a
  inb_S66x66x256_S66x2x256_0_64_0 : ∀ a, (![0, 64, 0] : Fin 3 → Nat) a + S66x2x256.size a ≤ S66x66x256.size a
  slices_S66x2x256_S66x1x256_0_1_0 : S66x2x256.Slices ![0, 1, 0] S66x1x256
  packedbf16_S66x66x256_S66x2x256_0_64_0 : (Rect.unit (s := S66x66x256) ![0, 64, 0] S66x2x256.size inb_S66x66x256_S66x2x256_0_64_0).PackedRows (EltTy.packing .bf16)
  inb_S66x66x128_S1x66x128_0_0_0 : ∀ a, (![0, 0, 0] : Fin 3 → Nat) a + S1x66x128.size a ≤ S66x66x128.size a
  h_S1x66x128 : 0 < S1x66x128.numel
  shapeCasts_S1x66x128_S1x66x128 : S1x66x128.ShapeCasts S1x66x128
  packedbf16_S66x66x128_S1x66x128_0_0_0 : (Rect.unit (s := S66x66x128) ![0, 0, 0] S1x66x128.size inb_S66x66x128_S1x66x128_0_0_0).PackedRows (EltTy.packing .bf16)
  inb_S66x66x128_S1x66x128_65_0_0 : ∀ a, (![65, 0, 0] : Fin 3 → Nat) a + S1x66x128.size a ≤ S66x66x128.size a
  packedbf16_S66x66x128_S1x66x128_65_0_0 : (Rect.unit (s := S66x66x128) ![65, 0, 0] S1x66x128.size inb_S66x66x128_S1x66x128_65_0_0).PackedRows (EltTy.packing .bf16)
  inb_S66x66x128_S66x1x128_0_0_0 : ∀ a, (![0, 0, 0] : Fin 3 → Nat) a + S66x1x128.size a ≤ S66x66x128.size a
  h_S66x1x128 : 0 < S66x1x128.numel
  shapeCasts_S66x1x128_S66x1x128 : S66x1x128.ShapeCasts S66x1x128
  inb_S66x66x128_S66x2x128_0_0_0 : ∀ a, (![0, 0, 0] : Fin 3 → Nat) a + S66x2x128.size a ≤ S66x66x128.size a
  h_S66x2x128 : 0 < S66x2x128.numel
  slices_S66x2x128_S66x1x128_0_0_0 : S66x2x128.Slices ![0, 0, 0] S66x1x128
  packedbf16_S66x66x128_S66x2x128_0_0_0 : (Rect.unit (s := S66x66x128) ![0, 0, 0] S66x2x128.size inb_S66x66x128_S66x2x128_0_0_0).PackedRows (EltTy.packing .bf16)
  inb_S66x66x128_S66x1x128_0_65_0 : ∀ a, (![0, 65, 0] : Fin 3 → Nat) a + S66x1x128.size a ≤ S66x66x128.size a
  inb_S66x66x128_S66x2x128_0_64_0 : ∀ a, (![0, 64, 0] : Fin 3 → Nat) a + S66x2x128.size a ≤ S66x66x128.size a
  slices_S66x2x128_S66x1x128_0_1_0 : S66x2x128.Slices ![0, 1, 0] S66x1x128
  packedbf16_S66x66x128_S66x2x128_0_64_0 : (Rect.unit (s := S66x66x128) ![0, 64, 0] S66x2x128.size inb_S66x66x128_S66x2x128_0_64_0).PackedRows (EltTy.packing .bf16)
  inb_S1x256x32x32_S1x256x32x32_0_0_0_0 : ∀ a, (![0, 0, 0, 0] : Fin 4 → Nat) a + S1x256x32x32.size a ≤ S1x256x32x32.size a
  h_S1x256x32x32 : 0 < S1x256x32x32.numel
  shapeCasts_S1x256x32x32_S256x32x32 : S1x256x32x32.ShapeCasts S256x32x32
  shapeCasts_S256x32x32_S256x1024 : S256x32x32.ShapeCasts S256x1024
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S32x32x2x2x128 : S1024x512.ShapeCasts S32x32x2x2x128
  transposes_S32x32x2x2x128_p0_2_1_3_4_S32x2x32x2x128 : S32x32x2x2x128.Transposes [0, 2, 1, 3, 4] S32x2x32x2x128
  shapeCasts_S32x2x32x2x128_S64x64x128 : S32x2x32x2x128.ShapeCasts S64x64x128
  inb_S66x66x256_S64x64x128_1_1_0 : ∀ a, (![1, 1, 0] : Fin 3 → Nat) a + S64x64x128.size a ≤ S66x66x256.size a
  h_S64x64x128 : 0 < S64x64x128.numel
  shapeCasts_S64x64x128_S64x64x128 : S64x64x128.ShapeCasts S64x64x128
  inb_S66x66x256_S64x66x128_1_0_0 : ∀ a, (![1, 0, 0] : Fin 3 → Nat) a + S64x66x128.size a ≤ S66x66x256.size a
  h_S64x66x128 : 0 < S64x66x128.numel
  slices_S64x66x128_S64x64x128_0_1_0 : S64x66x128.Slices ![0, 1, 0] S64x64x128
  packedbf16_S66x66x256_S64x66x128_1_0_0 : (Rect.unit (s := S66x66x256) ![1, 0, 0] S64x66x128.size inb_S66x66x256_S64x66x128_1_0_0).PackedRows (EltTy.packing .bf16)
  inb_S1x64x64x128_S1x64x64x128_0_0_0_0 : ∀ a, (![0, 0, 0, 0] : Fin 4 → Nat) a + S1x64x64x128.size a ≤ S1x64x64x128.size a
  h_S1x64x64x128 : 0 < S1x64x64x128.numel
  shapeCasts_S1x64x64x128_S64x64x128 : S1x64x64x128.ShapeCasts S64x64x128
  inb_S66x66x256_S64x64x128_1_1_128 : ∀ a, (![1, 1, 128] : Fin 3 → Nat) a + S64x64x128.size a ≤ S66x66x256.size a
  inb_S66x66x256_S64x66x128_1_0_128 : ∀ a, (![1, 0, 128] : Fin 3 → Nat) a + S64x66x128.size a ≤ S66x66x256.size a
  packedbf16_S66x66x256_S64x66x128_1_0_128 : (Rect.unit (s := S66x66x256) ![1, 0, 128] S64x66x128.size inb_S66x66x256_S64x66x128_1_0_128).PackedRows (EltTy.packing .bf16)
  inb_S66x66x256_S64x64x256_0_0_0 : ∀ a, (![0, 0, 0] : Fin 3 → Nat) a + S64x64x256.size a ≤ S66x66x256.size a
  h_S64x64x256 : 0 < S64x64x256.numel
  shapeCasts_S64x64x256_S4096x256 : S64x64x256.ShapeCasts S4096x256
  inb_S9x256x128_S1x256x128_0_0_0 : ∀ a, (![0, 0, 0] : Fin 3 → Nat) a + S1x256x128.size a ≤ S9x256x128.size a
  h_S1x256x128 : 0 < S1x256x128.numel
  shapeCasts_S1x256x128_S256x128 : S1x256x128.ShapeCasts S256x128
  inb_S66x66x256_S64x64x256_0_1_0 : ∀ a, (![0, 1, 0] : Fin 3 → Nat) a + S64x64x256.size a ≤ S66x66x256.size a
  inb_S9x256x128_S1x256x128_1_0_0 : ∀ a, (![1, 0, 0] : Fin 3 → Nat) a + S1x256x128.size a ≤ S9x256x128.size a
  inb_S66x66x256_S64x64x256_0_2_0 : ∀ a, (![0, 2, 0] : Fin 3 → Nat) a + S64x64x256.size a ≤ S66x66x256.size a
  inb_S9x256x128_S1x256x128_2_0_0 : ∀ a, (![2, 0, 0] : Fin 3 → Nat) a + S1x256x128.size a ≤ S9x256x128.size a
  inb_S66x66x256_S64x64x256_1_0_0 : ∀ a, (![1, 0, 0] : Fin 3 → Nat) a + S64x64x256.size a ≤ S66x66x256.size a
  inb_S9x256x128_S1x256x128_3_0_0 : ∀ a, (![3, 0, 0] : Fin 3 → Nat) a + S1x256x128.size a ≤ S9x256x128.size a
  inb_S66x66x256_S64x64x256_1_1_0 : ∀ a, (![1, 1, 0] : Fin 3 → Nat) a + S64x64x256.size a ≤ S66x66x256.size a
  inb_S9x256x128_S1x256x128_4_0_0 : ∀ a, (![4, 0, 0] : Fin 3 → Nat) a + S1x256x128.size a ≤ S9x256x128.size a
  inb_S66x66x256_S64x64x256_1_2_0 : ∀ a, (![1, 2, 0] : Fin 3 → Nat) a + S64x64x256.size a ≤ S66x66x256.size a
  inb_S9x256x128_S1x256x128_5_0_0 : ∀ a, (![5, 0, 0] : Fin 3 → Nat) a + S1x256x128.size a ≤ S9x256x128.size a
  inb_S66x66x256_S64x64x256_2_0_0 : ∀ a, (![2, 0, 0] : Fin 3 → Nat) a + S64x64x256.size a ≤ S66x66x256.size a
  inb_S9x256x128_S1x256x128_6_0_0 : ∀ a, (![6, 0, 0] : Fin 3 → Nat) a + S1x256x128.size a ≤ S9x256x128.size a
  inb_S66x66x256_S64x64x256_2_1_0 : ∀ a, (![2, 1, 0] : Fin 3 → Nat) a + S64x64x256.size a ≤ S66x66x256.size a
  inb_S9x256x128_S1x256x128_7_0_0 : ∀ a, (![7, 0, 0] : Fin 3 → Nat) a + S1x256x128.size a ≤ S9x256x128.size a
  inb_S66x66x256_S64x64x256_2_2_0 : ∀ a, (![2, 2, 0] : Fin 3 → Nat) a + S64x64x256.size a ≤ S66x66x256.size a
  inb_S9x256x128_S1x256x128_8_0_0 : ∀ a, (![8, 0, 0] : Fin 3 → Nat) a + S1x256x128.size a ≤ S9x256x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S64x64x128 : S4096x128.ShapeCasts S64x64x128
  inb_S66x66x128_S64x64x128_1_1_0 : ∀ a, (![1, 1, 0] : Fin 3 → Nat) a + S64x64x128.size a ≤ S66x66x128.size a
  inb_S66x66x128_S64x66x128_1_0_0 : ∀ a, (![1, 0, 0] : Fin 3 → Nat) a + S64x66x128.size a ≤ S66x66x128.size a
  packedbf16_S66x66x128_S64x66x128_1_0_0 : (Rect.unit (s := S66x66x128) ![1, 0, 0] S64x66x128.size inb_S66x66x128_S64x66x128_1_0_0).PackedRows (EltTy.packing .bf16)
  inb_S66x66x128_S64x64x128_0_0_0 : ∀ a, (![0, 0, 0] : Fin 3 → Nat) a + S64x64x128.size a ≤ S66x66x128.size a
  shapeCasts_S64x64x128_S4096x128 : S64x64x128.ShapeCasts S4096x128
  inb_S9x128x128_S1x128x128_0_0_0 : ∀ a, (![0, 0, 0] : Fin 3 → Nat) a + S1x128x128.size a ≤ S9x128x128.size a
  h_S1x128x128 : 0 < S1x128x128.numel
  shapeCasts_S1x128x128_S128x128 : S1x128x128.ShapeCasts S128x128
  inb_S66x66x128_S64x64x128_0_1_0 : ∀ a, (![0, 1, 0] : Fin 3 → Nat) a + S64x64x128.size a ≤ S66x66x128.size a
  inb_S9x128x128_S1x128x128_1_0_0 : ∀ a, (![1, 0, 0] : Fin 3 → Nat) a + S1x128x128.size a ≤ S9x128x128.size a
  inb_S66x66x128_S64x64x128_0_2_0 : ∀ a, (![0, 2, 0] : Fin 3 → Nat) a + S64x64x128.size a ≤ S66x66x128.size a
  inb_S9x128x128_S1x128x128_2_0_0 : ∀ a, (![2, 0, 0] : Fin 3 → Nat) a + S1x128x128.size a ≤ S9x128x128.size a
  inb_S66x66x128_S64x64x128_1_0_0 : ∀ a, (![1, 0, 0] : Fin 3 → Nat) a + S64x64x128.size a ≤ S66x66x128.size a
  inb_S9x128x128_S1x128x128_3_0_0 : ∀ a, (![3, 0, 0] : Fin 3 → Nat) a + S1x128x128.size a ≤ S9x128x128.size a
  inb_S9x128x128_S1x128x128_4_0_0 : ∀ a, (![4, 0, 0] : Fin 3 → Nat) a + S1x128x128.size a ≤ S9x128x128.size a
  inb_S66x66x128_S64x64x128_1_2_0 : ∀ a, (![1, 2, 0] : Fin 3 → Nat) a + S64x64x128.size a ≤ S66x66x128.size a
  inb_S9x128x128_S1x128x128_5_0_0 : ∀ a, (![5, 0, 0] : Fin 3 → Nat) a + S1x128x128.size a ≤ S9x128x128.size a
  inb_S66x66x128_S64x64x128_2_0_0 : ∀ a, (![2, 0, 0] : Fin 3 → Nat) a + S64x64x128.size a ≤ S66x66x128.size a
  inb_S9x128x128_S1x128x128_6_0_0 : ∀ a, (![6, 0, 0] : Fin 3 → Nat) a + S1x128x128.size a ≤ S9x128x128.size a
  inb_S66x66x128_S64x64x128_2_1_0 : ∀ a, (![2, 1, 0] : Fin 3 → Nat) a + S64x64x128.size a ≤ S66x66x128.size a
  inb_S9x128x128_S1x128x128_7_0_0 : ∀ a, (![7, 0, 0] : Fin 3 → Nat) a + S1x128x128.size a ≤ S9x128x128.size a
  inb_S66x66x128_S64x64x128_2_2_0 : ∀ a, (![2, 2, 0] : Fin 3 → Nat) a + S64x64x128.size a ≤ S66x66x128.size a
  inb_S9x128x128_S1x128x128_8_0_0 : ∀ a, (![8, 0, 0] : Fin 3 → Nat) a + S1x128x128.size a ≤ S9x128x128.size a
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S64x64x128_S1x64x64x128 : S64x64x128.ShapeCasts S1x64x64x128
  transposes_S16x64x64x128_S16x128x64x64_0_3_1_2 : S16x64x64x128.Transposes [0, 3, 1, 2] S16x128x64x64
  dot_S256x1024_S256x512_S1024x512_0_0_1_1_n_n_wf : DotDims.WF S256x1024 S256x512 S1024x512 [0] [0] [1] [1] [] []
  dot_S4096x256_S256x128_S4096x128_1_0_0_1_n_n_wf : DotDims.WF S4096x256 S256x128 S4096x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32x32.size a ≤ S16x256x32x32.size a
  hwx0_0 : ∀ i : grid0.Coords, EltTy.bits .bf16 = 32 ∨ (Rect.block (s := S16x256x32x32) S1x256x32x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64x128.size a ≤ S16x64x64x128.size a
  hwx0_1 : ∀ i : grid0.Coords, EltTy.bits .bf16 = 32 ∨ (Rect.block (s := S16x64x64x128) S1x64x64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x256x128.size a ≤ S9x256x128.size a
  hwx0_4 : ∀ i : grid0.Coords, EltTy.bits .bf16 = 32 ∨ (Rect.block (s := S9x256x128) S9x256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S9x128x128.size a ≤ S9x128x128.size a
  hwx0_6 : ∀ i : grid0.Coords, EltTy.bits .bf16 = 32 ∨ (Rect.block (s := S9x128x128) S9x128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x64x128.size a ≤ S16x64x64x128.size a
  hwx0_10 : ∀ i : grid0.Coords, EltTy.bits .f32 = 32 ∨ (Rect.block (s := S16x64x64x128) S1x64x64x128.size (cc0_transform_10 i) (hinb0_10 i)).WholeWords (EltTy.packing .f32)

variable [Facts₀]

def dot_S256x1024_S256x512_S1024x512_0_0_1_1_n_n : DotDims S256x1024 S256x512 S1024x512 where
  lhsContracting := [0]
  rhsContracting := [0]
  lhsNonContracting := [1]
  rhsNonContracting := [1]
  lhsBatch := []
  rhsBatch := []
  wf := dot_S256x1024_S256x512_S1024x512_0_0_1_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v19) S1x256x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1x64x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S9x256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S9x128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S1x64x64x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16x256x32x32 : Shape := ⟨4, ![16, 256, 32, 32]⟩
abbrev S16x128x64x64 : Shape := ⟨4, ![16, 128, 64, 64]⟩
abbrev S256x128x2x2 : Shape := ⟨4, ![256, 128, 2, 2]⟩
abbrev S128 : Shape := ⟨1, ![128]⟩
abbrev S128x256x3x3 : Shape := ⟨4, ![128, 256, 3, 3]⟩
abbrev S128x128x3x3 : Shape := ⟨4, ![128, 128, 3, 3]⟩
abbrev S128x256x1x1 : Shape := ⟨4, ![128, 256, 1, 1]⟩
abbrev S16x32x32x256 : Shape := ⟨4, ![16, 32, 32, 256]⟩
abbrev S16x64x64x128 : Shape := ⟨4, ![16, 64, 64, 128]⟩
abbrev S256x2x2x128 : Shape := ⟨4, ![256, 2, 2, 128]⟩
abbrev S256x512 : Shape := ⟨2, ![256, 512]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S16x32x32x512 : Shape := ⟨4, ![16, 32, 32, 512]⟩
abbrev S1x32x32x256 : Shape := ⟨4, ![1, 32, 32, 256]⟩
abbrev S1x32x32x512 : Shape := ⟨4, ![1, 32, 32, 512]⟩
abbrev S32x32x256 : Shape := ⟨3, ![32, 32, 256]⟩
abbrev S1024x256 : Shape := ⟨2, ![1024, 256]⟩
abbrev S1024x512 : Shape := ⟨2, ![1024, 512]⟩
abbrev S32x32x512 : Shape := ⟨3, ![32, 32, 512]⟩
abbrev S16x32x32x2x2x128 : Shape := ⟨6, ![16, 32, 32, 2, 2, 128]⟩
abbrev S16x32x2x32x2x128 : Shape := ⟨6, ![16, 32, 2, 32, 2, 128]⟩
abbrev S3x3x256x128 : Shape := ⟨4, ![3, 3, 256, 128]⟩
abbrev S9x256x128 : Shape := ⟨3, ![9, 256, 128]⟩
abbrev S9x128x128 : Shape := ⟨3, ![9, 128, 128]⟩
abbrev S3x3x128x128 : Shape := ⟨4, ![3, 3, 128, 128]⟩
abbrev S128x256 : Shape := ⟨2, ![128, 256]⟩
abbrev S256x128 : Shape := ⟨2, ![256, 128]⟩
abbrev S128x128 : Shape := ⟨2, ![128, 128]⟩
abbrev S1x64x64x128 : Shape := ⟨4, ![1, 64, 64, 128]⟩
abbrev S66x66x128 : Shape := ⟨3, ![66, 66, 128]⟩
abbrev S1x66x128 : Shape := ⟨3, ![1, 66, 128]⟩
abbrev S66x1x128 : Shape := ⟨3, ![66, 1, 128]⟩
abbrev S64x64x128 : Shape := ⟨3, ![64, 64, 128]⟩
abbrev S4096x128 : Shape := ⟨2, ![4096, 128]⟩
abbrev S1x128x128 : Shape := ⟨3, ![1, 128, 128]⟩

abbrev nBuf : Space → Nat
  | .hbm => 37
  | .vmem => 23
  | .smem => 0
  | _ => 0

abbrev bufTy : (tb : Table) → Fin (tcTables nBuf tb) → BufTy
  | .hbm, ⟨0, _⟩ => ⟨S16x256x32x32, .f32⟩
  | .hbm, ⟨1, _⟩ => ⟨S16x128x64x64, .f32⟩
  | .hbm, ⟨2, _⟩ => ⟨S256x128x2x2, .f32⟩
  | .hbm, ⟨3, _⟩ => ⟨S128, .f32⟩
  | .hbm, ⟨4, _⟩ => ⟨S128x256x3x3, .f32⟩
  | .hbm, ⟨5, _⟩ => ⟨S128, .f32⟩
  | .hbm, ⟨6, _⟩ => ⟨S128x128x3x3, .f32⟩
  | .hbm, ⟨7, _⟩ => ⟨S128, .f32⟩
  | .hbm, ⟨8, _⟩ => ⟨S128x256x1x1, .f32⟩
  | .hbm, ⟨9, _⟩ => ⟨S128, .f32⟩
  | .hbm, ⟨10, _⟩ => ⟨S16x32x32x256, .f32⟩
  | .hbm, ⟨11, _⟩ => ⟨S16x64x64x128, .f32⟩
  | .hbm, ⟨12, _⟩ => ⟨S256x2x2x128, .f32⟩
  | .hbm, ⟨13, _⟩ => ⟨S256x512, .f32⟩
  | .hbm, ⟨14, _⟩ => ⟨S1x128, .f32⟩
  | .hbm, ⟨15, _⟩ => ⟨S4x128, .f32⟩
  | .hbm, ⟨16, _⟩ => ⟨S512, .f32⟩
  | .hbm, ⟨17, _⟩ => ⟨S1x512, .f32⟩
  | .hbm, ⟨18, _⟩ => ⟨S16x32x32x512, .f32⟩
  | .hbm, ⟨19, _⟩ => ⟨S16x32x32x2x2x128, .f32⟩
  | .hbm, ⟨20, _⟩ => ⟨S16x32x2x32x2x128, .f32⟩
  | .hbm, ⟨21, _⟩ => ⟨S16x64x64x128, .f32⟩
  | .hbm, ⟨22, _⟩ => ⟨S3x3x256x128, .f32⟩
  | .hbm, ⟨23, _⟩ => ⟨S9x256x128, .f32⟩
  | .hbm, ⟨24, _⟩ => ⟨S9x128x128, .f32⟩
  | .hbm, ⟨25, _⟩ => ⟨S9x128x128, .f32⟩
  | .hbm, ⟨26, _⟩ => ⟨S3x3x128x128, .f32⟩
  | .hbm, ⟨27, _⟩ => ⟨S9x128x128, .f32⟩
  | .hbm, ⟨28, _⟩ => ⟨S128x256, .f32⟩
  | .hbm, ⟨29, _⟩ => ⟨S256x128, .f32⟩
  | .hbm, ⟨30, _⟩ => ⟨S128x128, .f32⟩
  | .hbm, ⟨31, _⟩ => ⟨S128x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S16x64x64x128, .f32⟩
  | .hbm, ⟨36, _⟩ => ⟨S16x128x64x64, .f32⟩
  | .local _ .vmem, ⟨0, _⟩ => ⟨S1x32x32x256, .f32⟩
  | .local _ .vmem, ⟨1, _⟩ => ⟨S1x32x32x256, .f32⟩
  | .local _ .vmem, ⟨2, _⟩ => ⟨S256x512, .f32⟩
  | .local _ .vmem, ⟨3, _⟩ => ⟨S1x512, .f32⟩
  | .local _ .vmem, ⟨4, _⟩ => ⟨S1x32x32x512, .f32⟩
  | .local _ .vmem, ⟨5, _⟩ => ⟨S1x32x32x512, .f32⟩
  | .local _ .vmem, ⟨6, _⟩ => ⟨S1x64x64x128, .f32⟩
  | .local _ .vmem, ⟨7, _⟩ => ⟨S1x64x64x128, .f32⟩
  | .local _ .vmem, ⟨8, _⟩ => ⟨S1x64x64x128, .f32⟩
  | .local _ .vmem, ⟨9, _⟩ => ⟨S1x64x64x128, .f32⟩
  | .local _ .vmem, ⟨10, _⟩ => ⟨S9x128x128, .f32⟩
  | .local _ .vmem, ⟨11, _⟩ => ⟨S9x128x128, .f32⟩
  | .local _ .vmem, ⟨12, _⟩ => ⟨S1x128, .f32⟩
  | .local _ .vmem, ⟨13, _⟩ => ⟨S9x128x128, .f32⟩
  | .local _ .vmem, ⟨14, _⟩ => ⟨S1x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S1x64x64x128, .f32⟩
  | .local _ .vmem, ⟨19, _⟩ => ⟨S1x64x64x128, .f32⟩
  | .local _ .vmem, ⟨20, _⟩ => ⟨S66x66x128, .f32⟩
  | .local _ .vmem, ⟨21, _⟩ => ⟨S66x66x128, .f32⟩
  | .local _ .vmem, ⟨22, _⟩ => ⟨S66x66x128, .f32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg10_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S9x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S9x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S9x128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1x64x64x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  transposes_S16x256x32x32_S16x32x32x256_0_2_3_1 : S16x256x32x32.Transposes [0, 2, 3, 1] S16x32x32x256
  transposes_S16x128x64x64_S16x64x64x128_0_2_3_1 : S16x128x64x64.Transposes [0, 2, 3, 1] S16x64x64x128
  transposes_S256x128x2x2_S256x2x2x128_0_2_3_1 : S256x128x2x2.Transposes [0, 2, 3, 1] S256x2x2x128
  shapeCasts_S256x2x2x128_S256x512 : S256x2x2x128.ShapeCasts S256x512
  shapeCasts_S128_S1x128 : S128.ShapeCasts S1x128
  bcast_S1x128_S4x128_0_1 : S1x128.BroadcastsInDim S4x128 (![0, 1] : Fin 2 → Fin S4x128.rank)
  shapeCasts_S4x128_S512 : S4x128.ShapeCasts S512
  shapeCasts_S512_S1x512 : S512.ShapeCasts S1x512
  inb_S1x32x32x256_S1x32x32x256_0_0_0_0 : ∀ a, (![0, 0, 0, 0] : Fin 4 → Nat) a + S1x32x32x256.size a ≤ S1x32x32x256.size a
  h_S1x32x32x256 : 0 < S1x32x32x256.numel
  shapeCasts_S1x32x32x256_S32x32x256 : S1x32x32x256.ShapeCasts S32x32x256
  shapeCasts_S32x32x256_S1024x256 : S32x32x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S32x32x512 : S1024x512.ShapeCasts S32x32x512
  inb_S1x32x32x512_S1x32x32x512_0_0_0_0 : ∀ a, (![0, 0, 0, 0] : Fin 4 → Nat) a + S1x32x32x512.size a ≤ S1x32x32x512.size a
  h_S1x32x32x512 : 0 < S1x32x32x512.numel
  shapeCasts_S1x32x32x512_S32x32x512 : S1x32x32x512.ShapeCasts S32x32x512
  shapeCasts_S32x32x512_S1x32x32x512 : S32x32x512.ShapeCasts S1x32x32x512
  shapeCasts_S16x32x32x512_S16x32x32x2x2x128 : S16x32x32x512.ShapeCasts S16x32x32x2x2x128
  transposes_S16x32x32x2x2x128_S16x32x2x32x2x128_0_1_3_2_4_5 : S16x32x32x2x2x128.Transposes [0, 1, 3, 2, 4, 5] S16x32x2x32x2x128
  shapeCasts_S16x32x2x32x2x128_S16x64x64x128 : S16x32x2x32x2x128.ShapeCasts S16x64x64x128
  transposes_S128x256x3x3_S3x3x256x128_2_3_1_0 : S128x256x3x3.Transposes [2, 3, 1, 0] S3x3x256x128
  shapeCasts_S3x3x256x128_S9x256x128 : S3x3x256x128.ShapeCasts S9x256x128
  slices_S9x256x128_S9x128x128_0_0_0 : S9x256x128.Slices ![0, 0, 0] S9x128x128
  slices_S9x256x128_S9x128x128_0_128_0 : S9x256x128.Slices ![0, 128, 0] S9x128x128
  transposes_S128x128x3x3_S3x3x128x128_2_3_1_0 : S128x128x3x3.Transposes [2, 3, 1, 0] S3x3x128x128
  shapeCasts_S3x3x128x128_S9x128x128 : S3x3x128x128.ShapeCasts S9x128x128
  shapeCasts_S128x256x1x1_S128x256 : S128x256x1x1.ShapeCasts S128x256
  transposes_S128x256_S256x128_1_0 : S128x256.Transposes [1, 0] S256x128
  slices_S256x128_S128x128_0_0 : S256x128.Slices ![0, 0] S128x128
  slices_S256x128_S128x128_128_0 : S256x128.Slices ![128, 0] S128x128
  inb_S66x66x128_S1x66x128_0_0_0 : ∀ a, (![0, 0, 0] : Fin 3 → Nat) a + S1x66x128.size a ≤ S66x66x128.size a
  h_S1x66x128 : 0 < S1x66x128.numel
  shapeCasts_S1x66x128_S1x66x128 : S1x66x128.ShapeCasts S1x66x128
  inb_S66x66x128_S1x66x128_65_0_0 : ∀ a, (![65, 0, 0] : Fin 3 → Nat) a + S1x66x128.size a ≤ S66x66x128.size a
  inb_S66x66x128_S66x1x128_0_0_0 : ∀ a, (![0, 0, 0] : Fin 3 → Nat) a + S66x1x128.size a ≤ S66x66x128.size a
  h_S66x1x128 : 0 < S66x1x128.numel
  shapeCasts_S66x1x128_S66x1x128 : S66x1x128.ShapeCasts S66x1x128
  inb_S66x66x128_S66x1x128_0_65_0 : ∀ a, (![0, 65, 0] : Fin 3 → Nat) a + S66x1x128.size a ≤ S66x66x128.size a
  inb_S1x64x64x128_S1x64x64x128_0_0_0_0 : ∀ a, (![0, 0, 0, 0] : Fin 4 → Nat) a + S1x64x64x128.size a ≤ S1x64x64x128.size a
  h_S1x64x64x128 : 0 < S1x64x64x128.numel
  shapeCasts_S1x64x64x128_S64x64x128 : S1x64x64x128.ShapeCasts S64x64x128
  inb_S66x66x128_S64x64x128_1_1_0 : ∀ a, (![1, 1, 0] : Fin 3 → Nat) a + S64x64x128.size a ≤ S66x66x128.size a
  h_S64x64x128 : 0 < S64x64x128.numel
  shapeCasts_S64x64x128_S64x64x128 : S64x64x128.ShapeCasts S64x64x128
  inb_S66x66x128_S64x64x128_0_0_0 : ∀ a, (![0, 0, 0] : Fin 3 → Nat) a + S64x64x128.size a ≤ S66x66x128.size a
  shapeCasts_S64x64x128_S4096x128 : S64x64x128.ShapeCasts S4096x128
  inb_S9x128x128_S1x128x128_0_0_0 : ∀ a, (![0, 0, 0] : Fin 3 → Nat) a + S1x128x128.size a ≤ S9x128x128.size a
  h_S1x128x128 : 0 < S1x128x128.numel
  shapeCasts_S1x128x128_S128x128 : S1x128x128.ShapeCasts S128x128
  inb_S66x66x128_S64x64x128_0_1_0 : ∀ a, (![0, 1, 0] : Fin 3 → Nat) a + S64x64x128.size a ≤ S66x66x128.size a
  inb_S9x128x128_S1x128x128_1_0_0 : ∀ a, (![1, 0, 0] : Fin 3 → Nat) a + S1x128x128.size a ≤ S9x128x128.size a
  inb_S66x66x128_S64x64x128_0_2_0 : ∀ a, (![0, 2, 0] : Fin 3 → Nat) a + S64x64x128.size a ≤ S66x66x128.size a
  inb_S9x128x128_S1x128x128_2_0_0 : ∀ a, (![2, 0, 0] : Fin 3 → Nat) a + S1x128x128.size a ≤ S9x128x128.size a
  inb_S66x66x128_S64x64x128_1_0_0 : ∀ a, (![1, 0, 0] : Fin 3 → Nat) a + S64x64x128.size a ≤ S66x66x128.size a
  inb_S9x128x128_S1x128x128_3_0_0 : ∀ a, (![3, 0, 0] : Fin 3 → Nat) a + S1x128x128.size a ≤ S9x128x128.size a
  inb_S9x128x128_S1x128x128_4_0_0 : ∀ a, (![4, 0, 0] : Fin 3 → Nat) a + S1x128x128.size a ≤ S9x128x128.size a
  inb_S66x66x128_S64x64x128_1_2_0 : ∀ a, (![1, 2, 0] : Fin 3 → Nat) a + S64x64x128.size a ≤ S66x66x128.size a
  inb_S9x128x128_S1x128x128_5_0_0 : ∀ a, (![5, 0, 0] : Fin 3 → Nat) a + S1x128x128.size a ≤ S9x128x128.size a
  inb_S66x66x128_S64x64x128_2_0_0 : ∀ a, (![2, 0, 0] : Fin 3 → Nat) a + S64x64x128.size a ≤ S66x66x128.size a
  inb_S9x128x128_S1x128x128_6_0_0 : ∀ a, (![6, 0, 0] : Fin 3 → Nat) a + S1x128x128.size a ≤ S9x128x128.size a
  inb_S66x66x128_S64x64x128_2_1_0 : ∀ a, (![2, 1, 0] : Fin 3 → Nat) a + S64x64x128.size a ≤ S66x66x128.size a
  inb_S9x128x128_S1x128x128_7_0_0 : ∀ a, (![7, 0, 0] : Fin 3 → Nat) a + S1x128x128.size a ≤ S9x128x128.size a
  inb_S66x66x128_S64x64x128_2_2_0 : ∀ a, (![2, 2, 0] : Fin 3 → Nat) a + S64x64x128.size a ≤ S66x66x128.size a
  inb_S9x128x128_S1x128x128_8_0_0 : ∀ a, (![8, 0, 0] : Fin 3 → Nat) a + S1x128x128.size a ≤ S9x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S64x64x128 : S4096x128.ShapeCasts S64x64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S64x64x128_S1x64x64x128 : S64x64x128.ShapeCasts S1x64x64x128
  transposes_S16x64x64x128_S16x128x64x64_0_3_1_2 : S16x64x64x128.Transposes [0, 3, 1, 2] S16x128x64x64
  dot_S1024x256_S256x512_S1024x512_1_0_0_1_n_n_wf : DotDims.WF S1024x256 S256x512 S1024x512 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x256.size a ≤ S16x32x32x256.size a
  hwx0_0 : ∀ i : grid0.Coords, EltTy.bits .f32 = 32 ∨ (Rect.block (s := S16x32x32x256) S1x32x32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x32x512.size a ≤ S16x32x32x512.size a
  hwx0_3 : ∀ i : grid0.Coords, EltTy.bits .f32 = 32 ∨ (Rect.block (s := S16x32x32x512) S1x32x32x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x64x128.size a ≤ S16x64x64x128.size a
  hwx1_0 : ∀ i : grid1.Coords, EltTy.bits .f32 = 32 ∨ (Rect.block (s := S16x64x64x128) S1x64x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64x128.size a ≤ S16x64x64x128.size a
  hwx1_1 : ∀ i : grid1.Coords, EltTy.bits .f32 = 32 ∨ (Rect.block (s := S16x64x64x128) S1x64x64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S9x128x128.size a ≤ S9x128x128.size a
  hwx1_2 : ∀ i : grid1.Coords, EltTy.bits .f32 = 32 ∨ (Rect.block (s := S9x128x128) S9x128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x128x128.size a ≤ S9x128x128.size a
  hwx1_3 : ∀ i : grid1.Coords, EltTy.bits .f32 = 32 ∨ (Rect.block (s := S9x128x128) S9x128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S9x128x128.size a ≤ S9x128x128.size a
  hwx1_5 : ∀ i : grid1.Coords, EltTy.bits .f32 = 32 ∨ (Rect.block (s := S9x128x128) S9x128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x64x64x128.size a ≤ S16x64x64x128.size a
  hwx1_10 : ∀ i : grid1.Coords, EltTy.bits .f32 = 32 ∨ (Rect.block (s := S16x64x64x128) S1x64x64x128.size (cc1_transform_10 i) (hinb1_10 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S1x32x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x32x32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S1x64x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x64x64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S9x128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S9x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S9x128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v21) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v24) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v25) S1x64x64x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== Proof.BitsBodyRun.lean ====
/-
  The body of the fused up-block kernel, run once on whole staging buffers.

  One grid point handles one image of the batch.  The body first clears the one-pixel border of the two padded
  scratch images (66 x 66 pixels, 256 and 128 channels), then writes the interior of the first one: channels
  0..127 receive the 2 x 2 transposed convolution of the 32 x 32 input (a matrix product over the 256 input
  channels, re-laid from (i, j, di, dj) to (2 i + di, 2 j + dj)), channels 128..255 the bridge image.  The two
  3 x 3 convolutions are nine shifted 64 x 64 reads of a padded image, each multiplied by one tap of the
  weights and summed; the first result, after bias and leaky rectifier, fills the interior of the second
  padded image.  The output block is the second convolution (bias, leaky rectifier) plus the 1 x 1
  convolution of the unshifted interior of the first padded image plus its bias.

  The border columns and the interior are stored through rectangles wider than the data (whole packed words):
  such a store first loads the words it touches and writes them back with the new rows blended in, so the
  terms it leaves mention what the scratch held before.  The run is therefore stated for scratch images at
  GIVEN entry contents `s0`, `s1`; the pieces it finds for the output buffer are terms over the ten input
  blocks and `s0`, `s1`.
-/
import proofs.«142322_g2000305194121171_pallasbulk_194_3_alg».proof.Proof.Gen.Kernel.Frame
import proofs.«142322_g2000305194121171_pallasbulk_194_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The padded image of the concatenated channels (66 x 66 x 256). -/
abbrev padCat : Memref sig .tc .vmem S66x66x256 .bf16 := Memref.whole cc0_scratch0
/-- The padded image of the first convolution's result (66 x 66 x 128). -/
abbrev padMid : Memref sig .tc .vmem S66x66x128 .bf16 := Memref.whole cc0_scratch1

/-- What the launch lends the body besides its windows: the two padded images, each whole at some contents, and
    the generator register. -/
theorem lent_eq (c : Dev nD) :
    (Pipeline.ΦA spec0 c : sProp 𝕄)
      = iprop(iprop((∃ d, owns (c : Thread nD τ) padCat fullShare d) ∗ (∃ d, owns (c : Thread nD τ) padMid fullShare d)) ∗ (∃ r, prngReg c r)) := by
  unfold Pipeline.ΦA; rw [scopedRest0_eq]; simp only [padCat, padMid, owns_whole]; try rfl

set_option maxHeartbeats 4000000 in
/-- The pieces the body writes into the output buffer (last first), with the run that finds them: from the ten
    input blocks `x0 … x9` in their buffers, the padded images at `s0`, `s1` and the output buffer at anything, the
    body runs to the continuation with the inputs unchanged, the output buffer holding the pieces over its old
    contents, and the padded images at some contents. -/
noncomputable def fusedRun (c : Dev nD) (i : grid0.Coords) (arg1 : Memref sig .tc .vmem S1x256x32x32 .bf16) (harg1 : arg1.IsWhole) (arg2 : Memref sig .tc .vmem S1x64x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x128 .bf16) (harg5 : arg5.IsWhole) (arg6 : Memref sig .tc .vmem S1x128 .f32) (harg6 : arg6.IsWhole) (arg7 : Memref sig .tc .vmem S9x128x128 .bf16) (harg7 : arg7.IsWhole) (arg8 : Memref sig .tc .vmem S1x128 .f32) (harg8 : arg8.IsWhole) (arg9 : Memref sig .tc .vmem S256x128 .bf16) (harg9 : arg9.IsWhole) (arg10 : Memref sig .tc .vmem S1x128 .f32) (harg10 : arg10.IsWhole) (arg11 : Memref sig .tc .vmem S1x64x64x128 .f32) (harg11 : arg11.IsWhole) (arg12 : Memref sig .tc .vmem S66x66x256 .bf16) (harg12 : arg12.IsWhole) (arg13 : Memref sig .tc .vmem S66x66x128 .bf16) (harg13 : arg13.IsWhole)
    (x0 : Vec F S1x256x32x32 .bf16) (x1 : Vec F S1x64x64x128 .bf16) (x2 : Vec F S256x512 .bf16) (x3 : Vec F S1x512 .f32) (x4 : Vec F S9x256x128 .bf16) (x5 : Vec F S1x128 .f32) (x6 : Vec F S9x128x128 .bf16) (x7 : Vec F S1x128 .f32) (x8 : Vec F S256x128 .bf16) (x9 : Vec F S1x128 .f32) (s0 : Vec F S66x66x256 .bf16) (s1 : Vec F S66x66x128 .bf16) :
    { L : List (View.Piece (Elt F) S1x64x64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare s0 ∗ owns (c : Thread nD τ) arg13 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L) ∗ (∃ d, owns (c : Thread nD τ) arg12 fullShare d) ∗ (∃ d, owns (c : Thread nD τ) arg13 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    obtain rfl := harg12.eq_unread hfs0; obtain rfl := harg13.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [HS0]
    · iexists _, _; isplitr; swap; · iexact HS0
      ipureintro; rfl
    iexists _, _; isplitr; swap; · iexact HS1
    ipureintro; rfl

end Cert.Kernel.Body

end
-- ==== Proof.BitsBody.lean ====
/-
  The fused up-block kernel at every grid point, its launch, and the program's frame.

  At point `t` the ten input windows hold their blocks of the arrays as the region finds them (the weights and
  biases are fetched once and found in place afterwards; the image and the bridge are fetched at every point),
  and the body returns them unchanged.  The padded scratch images are lent by the launch at some contents and
  returned at some contents.  The frame says nothing of the result, so the output window is left unnamed: the
  body is handed its buffer at anything and returns it at anything.  The launch theorem then gives the run of
  the whole program: it terminates without a fault, and every buffer that is neither the output array nor
  written by the host line after the region ends at its contents at the region's entry; an argument array is
  written by no host line, so it ends as launched.
-/
import proofs.«142322_g2000305194121171_pallasbulk_194_3_alg».proof.Proof.BitsBodyRun

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose contents the frame does not speak of: the output. -/
def unnamedWin : Fin 11 → Bool := fun w => w.val == 10

/-- The proof data of the pipeline on core `c`: the arrays as the region finds them; after the body each input
    buffer still at its block, the output buffer unnamed; the launch's loan unchanged; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]

theorem before_0 (c : Dev nD) (t : Fin cfg0.N) (d) : (dats m 0 c).before 0 t d = iblk m c 0 t :=
  before0_0_of m (dats m 0 c) (arrays_eq m c 0) (after_0 m c) t d
theorem before_1 (c : Dev nD) (t : Fin cfg0.N) (d) : (dats m 0 c).before 1 t d = iblk m c 1 t :=
  before0_1_of m (dats m 0 c) (arrays_eq m c 1) (after_1 m c) t d
theorem before_2 (c : Dev nD) (t : Fin cfg0.N) (d) : (dats m 0 c).before 2 t d = iblk m c 2 t :=
  before0_2_of m (dats m 0 c) (arrays_eq m c 2) (after_2 m c) t d
theorem before_3 (c : Dev nD) (t : Fin cfg0.N) (d) : (dats m 0 c).before 3 t d = iblk m c 3 t :=
  before0_3_of m (dats m 0 c) (arrays_eq m c 3) (after_3 m c) t d
theorem before_4 (c : Dev nD) (t : Fin cfg0.N) (d) : (dats m 0 c).before 4 t d = iblk m c 4 t :=
  before0_4_of m (dats m 0 c) (arrays_eq m c 4) (after_4 m c) t d
theorem before_5 (c : Dev nD) (t : Fin cfg0.N) (d) : (dats m 0 c).before 5 t d = iblk m c 5 t :=
  before0_5_of m (dats m 0 c) (arrays_eq m c 5) (after_5 m c) t d
theorem before_6 (c : Dev nD) (t : Fin cfg0.N) (d) : (dats m 0 c).before 6 t d = iblk m c 6 t :=
  before0_6_of m (dats m 0 c) (arrays_eq m c 6) (after_6 m c) t d
theorem before_7 (c : Dev nD) (t : Fin cfg0.N) (d) : (dats m 0 c).before 7 t d = iblk m c 7 t :=
  before0_7_of m (dats m 0 c) (arrays_eq m c 7) (after_7 m c) t d
theorem before_8 (c : Dev nD) (t : Fin cfg0.N) (d) : (dats m 0 c).before 8 t d = iblk m c 8 t :=
  before0_8_of m (dats m 0 c) (arrays_eq m c 8) (after_8 m c) t d
theorem before_9 (c : Dev nD) (t : Fin cfg0.N) (d) : (dats m 0 c).before 9 t d = iblk m c 9 t :=
  before0_9_of m (dats m 0 c) (arrays_eq m c 9) (after_9 m c) t d

/-- What the body is handed at point `t`. -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare d))

/-- What it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ d, owns (c : Thread nD τ) (st0_10 t) fullShare d))

set_option maxHeartbeats 1200000 in
theorem body_at (c : Dev nD) (t : Fin cfg0.N) :
    handed m c t ⊢ wp frame (wpE (defs₀ (F := F)) Variants.none c none) Set.univ (bodyAt0 t) (fun _ => returned m c t) := by
  unfold handed returned bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, lent_eq]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((fusedRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) s0 s1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  iintro ⟨H0, H1, H2, H3, H4, H5, H6, H7, H8, H9, ⟨%e10, H10⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _, _; isplitr
  swap; · iexact H10
  ipureintro; rfl

theorem body_obligation (c : Dev nD) : BodyObligation (dats (F := F) m 0 c) (defs₀ (F := F)) Variants.none () Set.univ unnamedWin := fun t => by
  rw [bigSep_W0, bigSep_W0]
  exact body_at m c t

/-- The buffers the host line after the region writes: the program's result. -/
abbrev tailWritten : Finset (Ref sig .tc) := {main_v23}

theorem tail_writes : ∀ ops ∈ ([hostOps1] : List (List (HloOp τ sig (Elt F)))), ∀ op ∈ ops, ∀ b : Ref sig .tc,
    Proc.devRef .tc b ∈ op.writes → b ∈ tailWritten := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  rw [Finset.mem_singleton]
  by_contra h
  exact StableHlo.devRef_ne_of_ne h hb

set_option backward.isDefEq.respectTransparency.types false in
/-- The run of the whole program from any memory with zero counters: it terminates without a fault; every input
    array of the pipeline is unchanged, and every other unscoped buffer the last host line does not write is at its
    contents at the region's entry. -/
theorem run_main : θ_run defs (onTc (τ := τ) (main (F := F))) (s₀ m ρ)
    (Pipeline.RDat.FramePostR (cfgs 0) (fun c => (dats m 0 c).toRForget unnamedWin) tailWritten (fun c b => V0 m c (Proc.devRef .tc b))) :=
  Pipeline.RDat.θ_run_frame_around_T cfgs (0 : Fin 1) launch0 defs₀ Variants.none (fun c => (dats m 0 c).toRForget unnamedWin) tailWritten m ρ main
    (hbody := fun c => (body_obligation m c).toRForget) (hshare := fun c => ((dats m 0 c).toRForget unnamedWin).share_full fun _ => rfl)
    (howed := fun _ _ => rfl) (V₀ := V0 m) (opss := [hostOps1]) (hsub := sfx_sub) (hfresh := sfx_fresh) (hkeep := sfx_keeps)
    (hT := tail_writes) (hmain := hmain m Variants.none) (hA := arrays_eq m) (hΦ := fun _ _ => rfl)

/-- The frame: the program terminates from any memory and its ten argument arrays end as launched (none is an
    array of the pipeline, none is written by a host line). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Finset.mem_sdiff.mpr ⟨Pipeline.mem_restRefs_of main_arg0 (by decide) (by decide), by rw [Finset.mem_singleton]; decide⟩)).trans (V_main_arg0 m c),
      ((h c).2 main_arg1 (Finset.mem_sdiff.mpr ⟨Pipeline.mem_restRefs_of main_arg1 (by decide) (by decide), by rw [Finset.mem_singleton]; decide⟩)).trans (V_main_arg1 m c),
      ((h c).2 main_arg2 (Finset.mem_sdiff.mpr ⟨Pipeline.mem_restRefs_of main_arg2 (by decide) (by decide), by rw [Finset.mem_singleton]; decide⟩)).trans (V_main_arg2 m c),
      ((h c).2 main_arg3 (Finset.mem_sdiff.mpr ⟨Pipeline.mem_restRefs_of main_arg3 (by decide) (by decide), by rw [Finset.mem_singleton]; decide⟩)).trans (V_main_arg3 m c),
      ((h c).2 main_arg4 (Finset.mem_sdiff.mpr ⟨Pipeline.mem_restRefs_of main_arg4 (by decide) (by decide), by rw [Finset.mem_singleton]; decide⟩)).trans (V_main_arg4 m c),
      ((h c).2 main_arg5 (Finset.mem_sdiff.mpr ⟨Pipeline.mem_restRefs_of main_arg5 (by decide) (by decide), by rw [Finset.mem_singleton]; decide⟩)).trans (V_main_arg5 m c),
      ((h c).2 main_arg6 (Finset.mem_sdiff.mpr ⟨Pipeline.mem_restRefs_of main_arg6 (by decide) (by decide), by rw [Finset.mem_singleton]; decide⟩)).trans (V_main_arg6 m c),
      ((h c).2 main_arg7 (Finset.mem_sdiff.mpr ⟨Pipeline.mem_restRefs_of main_arg7 (by decide) (by decide), by rw [Finset.mem_singleton]; decide⟩)).trans (V_main_arg7 m c),
      ((h c).2 main_arg8 (Finset.mem_sdiff.mpr ⟨Pipeline.mem_restRefs_of main_arg8 (by decide) (by decide), by rw [Finset.mem_singleton]; decide⟩)).trans (V_main_arg8 m c),
      ((h c).2 main_arg9 (Finset.mem_sdiff.mpr ⟨Pipeline.mem_restRefs_of main_arg9 (by decide) (by decide), by rw [Finset.mem_singleton]; decide⟩)).trans (V_main_arg9 m c)⟩) (run_main m ρ)

end Cert.Kernel.Body

end
-- ==== Proof.IdealBodyRun.lean ====
/-
  The body of the fused up-block kernel, run once on whole staging buffers.

  One grid point handles one image of the batch.  The body first clears the one-pixel border of the two padded
  scratch images (66 x 66 pixels, 256 and 128 channels), then writes the interior of the first one: channels
  0..127 receive the 2 x 2 transposed convolution of the 32 x 32 input (a matrix product over the 256 input
  channels, re-laid from (i, j, di, dj) to (2 i + di, 2 j + dj)), channels 128..255 the bridge image.  The two
  3 x 3 convolutions are nine shifted 64 x 64 reads of a padded image, each multiplied by one tap of the
  weights and summed; the first result, after bias and leaky rectifier, fills the interior of the second
  padded image.  The output block is the second convolution (bias, leaky rectifier) plus the 1 x 1
  convolution of the unshifted interior of the first padded image plus its bias.

  The border columns and the interior are stored through rectangles wider than the data (whole packed words):
  such a store first loads the words it touches and writes them back with the new rows blended in, so the
  terms it leaves mention what the scratch held before.  The run is therefore stated for scratch images at
  GIVEN entry contents `s0`, `s1`; the pieces it finds for the output buffer are terms over the ten input
  blocks and `s0`, `s1`.
-/
import proofs.«142322_g2000305194121171_pallasbulk_194_3_alg».proof.Proof.Gen.KernelIdeal.Frame
import proofs.«142322_g2000305194121171_pallasbulk_194_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The padded image of the concatenated channels (66 x 66 x 256). -/
abbrev padCat : Memref sig .tc .vmem S66x66x256 .bf16 := Memref.whole cc0_scratch0
/-- The padded image of the first convolution's result (66 x 66 x 128). -/
abbrev padMid : Memref sig .tc .vmem S66x66x128 .bf16 := Memref.whole cc0_scratch1

/-- What the launch lends the body besides its windows: the two padded images, each whole at some contents, and
    the generator register. -/
theorem lent_eq (c : Dev nD) :
    (Pipeline.ΦA spec0 c : sProp 𝕄)
      = iprop(iprop((∃ d, owns (c : Thread nD τ) padCat fullShare d) ∗ (∃ d, owns (c : Thread nD τ) padMid fullShare d)) ∗ (∃ r, prngReg c r)) := by
  unfold Pipeline.ΦA; rw [scopedRest0_eq]; simp only [padCat, padMid, owns_whole]; try rfl

set_option maxHeartbeats 4000000 in
/-- The pieces the body writes into the output buffer (last first), with the run that finds them: from the ten
    input blocks `x0 … x9` in their buffers, the padded images at `s0`, `s1` and the output buffer at anything, the
    body runs to the continuation with the inputs unchanged, the output buffer holding the pieces over its old
    contents, and the padded images at some contents. -/
noncomputable def fusedRun (c : Dev nD) (i : grid0.Coords) (arg1 : Memref sig .tc .vmem S1x256x32x32 .bf16) (harg1 : arg1.IsWhole) (arg2 : Memref sig .tc .vmem S1x64x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x128 .bf16) (harg5 : arg5.IsWhole) (arg6 : Memref sig .tc .vmem S1x128 .f32) (harg6 : arg6.IsWhole) (arg7 : Memref sig .tc .vmem S9x128x128 .bf16) (harg7 : arg7.IsWhole) (arg8 : Memref sig .tc .vmem S1x128 .f32) (harg8 : arg8.IsWhole) (arg9 : Memref sig .tc .vmem S256x128 .bf16) (harg9 : arg9.IsWhole) (arg10 : Memref sig .tc .vmem S1x128 .f32) (harg10 : arg10.IsWhole) (arg11 : Memref sig .tc .vmem S1x64x64x128 .f32) (harg11 : arg11.IsWhole) (arg12 : Memref sig .tc .vmem S66x66x256 .bf16) (harg12 : arg12.IsWhole) (arg13 : Memref sig .tc .vmem S66x66x128 .bf16) (harg13 : arg13.IsWhole)
    (x0 : Vec F S1x256x32x32 .bf16) (x1 : Vec F S1x64x64x128 .bf16) (x2 : Vec F S256x512 .bf16) (x3 : Vec F S1x512 .f32) (x4 : Vec F S9x256x128 .bf16) (x5 : Vec F S1x128 .f32) (x6 : Vec F S9x128x128 .bf16) (x7 : Vec F S1x128 .f32) (x8 : Vec F S256x128 .bf16) (x9 : Vec F S1x128 .f32) (s0 : Vec F S66x66x256 .bf16) (s1 : Vec F S66x66x128 .bf16) :
    { L : List (View.Piece (Elt F) S1x64x64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare s0 ∗ owns (c : Thread nD τ) arg13 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L) ∗ (∃ d, owns (c : Thread nD τ) arg12 fullShare d) ∗ (∃ d, owns (c : Thread nD τ) arg13 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    obtain rfl := harg12.eq_unread hfs0; obtain rfl := harg13.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [HS0]
    · iexists _, _; isplitr; swap; · iexact HS0
      ipureintro; rfl
    iexists _, _; isplitr; swap; · iexact HS1
    ipureintro; rfl

end Cert.KernelIdeal.Body

end
-- ==== Proof.IdealBody.lean ====
/-
  The fused up-block kernel at every grid point, its launch, and the program's frame.

  At point `t` the ten input windows hold their blocks of the arrays as the region finds them (the weights and
  biases are fetched once and found in place afterwards; the image and the bridge are fetched at every point),
  and the body returns them unchanged.  The padded scratch images are lent by the launch at some contents and
  returned at some contents.  The frame says nothing of the result, so the output window is left unnamed: the
  body is handed its buffer at anything and returns it at anything.  The launch theorem then gives the run of
  the whole program: it terminates without a fault, and every buffer that is neither the output array nor
  written by the host line after the region ends at its contents at the region's entry; an argument array is
  written by no host line, so it ends as launched.
-/
import proofs.«142322_g2000305194121171_pallasbulk_194_3_alg».proof.Proof.IdealBodyRun

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose contents the frame does not speak of: the output. -/
def unnamedWin : Fin 11 → Bool := fun w => w.val == 10

/-- The proof data of the pipeline on core `c`: the arrays as the region finds them; after the body each input
    buffer still at its block, the output buffer unnamed; the launch's loan unchanged; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]

theorem before_0 (c : Dev nD) (t : Fin cfg0.N) (d) : (dats m 0 c).before 0 t d = iblk m c 0 t :=
  before0_0_of m (dats m 0 c) (arrays_eq m c 0) (after_0 m c) t d
theorem before_1 (c : Dev nD) (t : Fin cfg0.N) (d) : (dats m 0 c).before 1 t d = iblk m c 1 t :=
  before0_1_of m (dats m 0 c) (arrays_eq m c 1) (after_1 m c) t d
theorem before_2 (c : Dev nD) (t : Fin cfg0.N) (d) : (dats m 0 c).before 2 t d = iblk m c 2 t :=
  before0_2_of m (dats m 0 c) (arrays_eq m c 2) (after_2 m c) t d
theorem before_3 (c : Dev nD) (t : Fin cfg0.N) (d) : (dats m 0 c).before 3 t d = iblk m c 3 t :=
  before0_3_of m (dats m 0 c) (arrays_eq m c 3) (after_3 m c) t d
theorem before_4 (c : Dev nD) (t : Fin cfg0.N) (d) : (dats m 0 c).before 4 t d = iblk m c 4 t :=
  before0_4_of m (dats m 0 c) (arrays_eq m c 4) (after_4 m c) t d
theorem before_5 (c : Dev nD) (t : Fin cfg0.N) (d) : (dats m 0 c).before 5 t d = iblk m c 5 t :=
  before0_5_of m (dats m 0 c) (arrays_eq m c 5) (after_5 m c) t d
theorem before_6 (c : Dev nD) (t : Fin cfg0.N) (d) : (dats m 0 c).before 6 t d = iblk m c 6 t :=
  before0_6_of m (dats m 0 c) (arrays_eq m c 6) (after_6 m c) t d
theorem before_7 (c : Dev nD) (t : Fin cfg0.N) (d) : (dats m 0 c).before 7 t d = iblk m c 7 t :=
  before0_7_of m (dats m 0 c) (arrays_eq m c 7) (after_7 m c) t d
theorem before_8 (c : Dev nD) (t : Fin cfg0.N) (d) : (dats m 0 c).before 8 t d = iblk m c 8 t :=
  before0_8_of m (dats m 0 c) (arrays_eq m c 8) (after_8 m c) t d
theorem before_9 (c : Dev nD) (t : Fin cfg0.N) (d) : (dats m 0 c).before 9 t d = iblk m c 9 t :=
  before0_9_of m (dats m 0 c) (arrays_eq m c 9) (after_9 m c) t d

/-- What the body is handed at point `t`. -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare d))

/-- What it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ d, owns (c : Thread nD τ) (st0_10 t) fullShare d))

set_option maxHeartbeats 1200000 in
theorem body_at (c : Dev nD) (t : Fin cfg0.N) :
    handed m c t ⊢ wp frame (wpE (defs₀ (F := F)) Variants.none c none) Set.univ (bodyAt0 t) (fun _ => returned m c t) := by
  unfold handed returned bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, lent_eq]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((fusedRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) s0 s1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  iintro ⟨H0, H1, H2, H3, H4, H5, H6, H7, H8, H9, ⟨%e10, H10⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _, _; isplitr
  swap; · iexact H10
  ipureintro; rfl

theorem body_obligation (c : Dev nD) : BodyObligation (dats (F := F) m 0 c) (defs₀ (F := F)) Variants.none () Set.univ unnamedWin := fun t => by
  rw [bigSep_W0, bigSep_W0]
  exact body_at m c t

/-- The buffers the host line after the region writes: the program's result. -/
abbrev tailWritten : Finset (Ref sig .tc) := {main_v23}

theorem tail_writes : ∀ ops ∈ ([hostOps1] : List (List (HloOp τ sig (Elt F)))), ∀ op ∈ ops, ∀ b : Ref sig .tc,
    Proc.devRef .tc b ∈ op.writes → b ∈ tailWritten := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  rw [Finset.mem_singleton]
  by_contra h
  exact StableHlo.devRef_ne_of_ne h hb

set_option backward.isDefEq.respectTransparency.types false in
/-- The run of the whole program from any memory with zero counters: it terminates without a fault; every input
    array of the pipeline is unchanged, and every other unscoped buffer the last host line does not write is at its
    contents at the region's entry. -/
theorem run_main : θ_run defs (onTc (τ := τ) (main (F := F))) (s₀ m ρ)
    (Pipeline.RDat.FramePostR (cfgs 0) (fun c => (dats m 0 c).toRForget unnamedWin) tailWritten (fun c b => V0 m c (Proc.devRef .tc b))) :=
  Pipeline.RDat.θ_run_frame_around_T cfgs (0 : Fin 1) launch0 defs₀ Variants.none (fun c => (dats m 0 c).toRForget unnamedWin) tailWritten m ρ main
    (hbody := fun c => (body_obligation m c).toRForget) (hshare := fun c => ((dats m 0 c).toRForget unnamedWin).share_full fun _ => rfl)
    (howed := fun _ _ => rfl) (V₀ := V0 m) (opss := [hostOps1]) (hsub := sfx_sub) (hfresh := sfx_fresh) (hkeep := sfx_keeps)
    (hT := tail_writes) (hmain := hmain m Variants.none) (hA := arrays_eq m) (hΦ := fun _ _ => rfl)

/-- The frame: the program terminates from any memory and its ten argument arrays end as launched (none is an
    array of the pipeline, none is written by a host line). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Finset.mem_sdiff.mpr ⟨Pipeline.mem_restRefs_of main_arg0 (by decide) (by decide), by rw [Finset.mem_singleton]; decide⟩)).trans (V_main_arg0 m c),
      ((h c).2 main_arg1 (Finset.mem_sdiff.mpr ⟨Pipeline.mem_restRefs_of main_arg1 (by decide) (by decide), by rw [Finset.mem_singleton]; decide⟩)).trans (V_main_arg1 m c),
      ((h c).2 main_arg2 (Finset.mem_sdiff.mpr ⟨Pipeline.mem_restRefs_of main_arg2 (by decide) (by decide), by rw [Finset.mem_singleton]; decide⟩)).trans (V_main_arg2 m c),
      ((h c).2 main_arg3 (Finset.mem_sdiff.mpr ⟨Pipeline.mem_restRefs_of main_arg3 (by decide) (by decide), by rw [Finset.mem_singleton]; decide⟩)).trans (V_main_arg3 m c),
      ((h c).2 main_arg4 (Finset.mem_sdiff.mpr ⟨Pipeline.mem_restRefs_of main_arg4 (by decide) (by decide), by rw [Finset.mem_singleton]; decide⟩)).trans (V_main_arg4 m c),
      ((h c).2 main_arg5 (Finset.mem_sdiff.mpr ⟨Pipeline.mem_restRefs_of main_arg5 (by decide) (by decide), by rw [Finset.mem_singleton]; decide⟩)).trans (V_main_arg5 m c),
      ((h c).2 main_arg6 (Finset.mem_sdiff.mpr ⟨Pipeline.mem_restRefs_of main_arg6 (by decide) (by decide), by rw [Finset.mem_singleton]; decide⟩)).trans (V_main_arg6 m c),
      ((h c).2 main_arg7 (Finset.mem_sdiff.mpr ⟨Pipeline.mem_restRefs_of main_arg7 (by decide) (by decide), by rw [Finset.mem_singleton]; decide⟩)).trans (V_main_arg7 m c),
      ((h c).2 main_arg8 (Finset.mem_sdiff.mpr ⟨Pipeline.mem_restRefs_of main_arg8 (by decide) (by decide), by rw [Finset.mem_singleton]; decide⟩)).trans (V_main_arg8 m c),
      ((h c).2 main_arg9 (Finset.mem_sdiff.mpr ⟨Pipeline.mem_restRefs_of main_arg9 (by decide) (by decide), by rw [Finset.mem_singleton]; decide⟩)).trans (V_main_arg9 m c)⟩) (run_main m ρ)

end Cert.KernelIdeal.Body

end
-- ==== Proof.RefRun.lean ====
/-
  The reference program's run, with its result named.

  The reference is two launched kernels among host lines: re-layouts of the arguments; the transposed
  convolution as one matrix product per image; the 2 x 2 interleave and the weights' re-layouts and splits; the
  fused convolution block per image; the transpose back to channel-major.  Its buffers at each boundary are a
  fold from the launch memory: a stretch of host lines applies its operations, a launched kernel replaces its
  arrays by what its write-backs leave.  The last fold, read at the result buffer, is the program's result; read
  at an argument it is the argument as launched.
-/
import proofs.«142322_g2000305194121171_pallasbulk_194_3_alg».proof.Proof.Gen.ReferenceIdeal.Frame

set_option maxRecDepth 16384

noncomputable section

namespace Cert.ReferenceIdeal.RefValue

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates without a fault; the result buffer ends at the last
    boundary's contents and the ten arguments end as launched. -/
theorem run : θ_run defs (onTc (τ := τ) (main (F := F))) ⟨m, fun _ => 0, ρ⟩ (fun r => ∀ c : Dev nD,
      r.2.mem ((c.tc : Thread nD τ).loc main_v26) = W5 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v26 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.ReferenceIdeal.RefValue

end
-- ==== Proof.Spec.lean ====
/-
  The up-block of a U-Net as a function of its ten arguments, over the extended reals.

  For image `n`: `up` is the 2 x 2 transposed convolution with stride 2 of the 32 x 32 input — output pixel
  (Y, X) takes input pixel (Y / 2, X / 2) through the kernel tap (Y mod 2, X mod 2), summed over the 256 input
  channels, plus the bias.  The 3 x 3 convolutions read their input with one pixel of zero padding (`pad`): tap
  (dy, dx) of output pixel (Y, X) reads padded pixel (Y + dy, X + dx).  The first convolution runs over the 256
  channels of the concatenation (the 128 channels of `up`, then the 128 of the bridge), the second over the 128
  channels of the first's result after bias and rectifier; the result is the second convolution after bias and
  rectifier, plus the 1 x 1 convolution of the concatenation, plus its bias.

  Two groupings of the same sums are written out.  `outK` adds, tap by tap, one sum over all 256 channels, and
  adds the identity branch's bias last.  `outR` adds, tap by tap, the sum over the first 128 channels and then
  the sum over the last 128, and adds the identity branch's bias to the branch before adding the branch.
  `outK_eq_outR`: they are equal (a sum over 256 is the sum of the sums over the two halves; addition of extended
  reals is associative).
-/
import Idealize.ShloMosaic.PureOps.Ideal
import Idealize.ShloMosaic.Lib.ValueIdx

noncomputable section

namespace Cert.UpBlockSpec

open Idealize.ShloMosaic

/-- The leaky rectifier of slope 0.2 (the f32 nearest 0.2), as both programs spell it: `a` where `a ≥ 0`, else
    the slope times `a`. -/
def leaky (a : Ideal .f32) : Ideal .f32 :=
  Scalar.select (FloatOps.cmpf (F := Ideal) CmpFPredicate.oge a (Scalar.ofBits (F := Ideal) .f32 0x00000000#32)) a
    (Scalar.ofBits (F := Ideal) .f32 0x3E4CCCCD#32 * a)

/-- Half of an output coordinate: the input pixel it comes from. -/
def half (a : Fin 64) : Fin 32 := ⟨a.val / 2, by omega⟩
/-- Its parity: the tap of the 2 x 2 kernel. -/
def par (a : Fin 64) : Fin 2 := ⟨a.val % 2, by omega⟩
/-- An output coordinate shifted by a tap offset, in the padded image. -/
def sh (a : Fin 64) (d : Fin 3) : Fin 66 := ⟨a.val + d.val, by omega⟩
/-- The first and the second half of the 256 concatenated channels. -/
def lo (cc : Fin 128) : Fin 256 := ⟨cc.val, by omega⟩
def hi (cc : Fin 128) : Fin 256 := ⟨128 + cc.val, by omega⟩

/-- One pixel of zero padding around a 64 x 64 image. -/
def pad (f : Fin 64 → Fin 64 → EReal) (y x : Fin 66) : EReal :=
  if h : 1 ≤ y.val ∧ y.val ≤ 64 ∧ 1 ≤ x.val ∧ x.val ≤ 64 then f ⟨y.val - 1, by omega⟩ ⟨x.val - 1, by omega⟩ else 0

variable (X : Fin 16 → Fin 256 → Fin 32 → Fin 32 → EReal) (Br : Fin 16 → Fin 128 → Fin 64 → Fin 64 → EReal)
  (UW : Fin 256 → Fin 128 → Fin 2 → Fin 2 → EReal) (UB : Fin 128 → EReal)
  (W1 : Fin 128 → Fin 256 → Fin 3 → Fin 3 → EReal) (B1 : Fin 128 → EReal)
  (W2 : Fin 128 → Fin 128 → Fin 3 → Fin 3 → EReal) (B2 : Fin 128 → EReal)
  (WID : Fin 128 → Fin 256 → EReal) (BID : Fin 128 → EReal)

/-- The transposed convolution: image `n`, output pixel `(Y, Xc)`, output channel `cc`. -/
def up (n : Fin 16) (Y Xc : Fin 64) (cc : Fin 128) : EReal :=
  (∑ ci : Fin 256, X n ci (half Y) (half Xc) * UW ci cc (par Y) (par Xc)) + UB cc

/-- The concatenation along the channels. -/
def cat (n : Fin 16) (Y Xc : Fin 64) (ch : Fin 256) : EReal :=
  if h : ch.val < 128 then up X UW UB n Y Xc ⟨ch.val, h⟩ else Br n ⟨ch.val - 128, by omega⟩ Y Xc

/-! ## The grouping of the fused kernel -/

/-- One tap of the first convolution over all 256 channels. -/
def tapK (n : Fin 16) (Y Xc : Fin 64) (co : Fin 128) (dy dx : Fin 3) : EReal :=
  ∑ ch : Fin 256, pad (fun a b => cat X Br UW UB n a b ch) (sh Y dy) (sh Xc dx) * W1 co ch dy dx

def acc1K (n : Fin 16) (Y Xc : Fin 64) (co : Fin 128) : EReal :=
  (((((((((0 + tapK X Br UW UB W1 n Y Xc co 0 0) + tapK X Br UW UB W1 n Y Xc co 0 1) + tapK X Br UW UB W1 n Y Xc co 0 2) + tapK X Br UW UB W1 n Y Xc co 1 0) + tapK X Br UW UB W1 n Y Xc co 1 1) + tapK X Br UW UB W1 n Y Xc co 1 2) + tapK X Br UW UB W1 n Y Xc co 2 0) + tapK X Br UW UB W1 n Y Xc co 2 1) + tapK X Br UW UB W1 n Y Xc co 2 2)

def y1K (n : Fin 16) (Y Xc : Fin 64) (co : Fin 128) : EReal := leaky (acc1K X Br UW UB W1 n Y Xc co + B1 co)

def tap2K (n : Fin 16) (Y Xc : Fin 64) (co : Fin 128) (dy dx : Fin 3) : EReal :=
  ∑ cc : Fin 128, pad (fun a b => y1K X Br UW UB W1 B1 n a b cc) (sh Y dy) (sh Xc dx) * W2 co cc dy dx

def acc2K (n : Fin 16) (Y Xc : Fin 64) (co : Fin 128) : EReal :=
  (((((((((0 + tap2K X Br UW UB W1 B1 W2 n Y Xc co 0 0) + tap2K X Br UW UB W1 B1 W2 n Y Xc co 0 1) + tap2K X Br UW UB W1 B1 W2 n Y Xc co 0 2) + tap2K X Br UW UB W1 B1 W2 n Y Xc co 1 0) + tap2K X Br UW UB W1 B1 W2 n Y Xc co 1 1) + tap2K X Br UW UB W1 B1 W2 n Y Xc co 1 2) + tap2K X Br UW UB W1 B1 W2 n Y Xc co 2 0) + tap2K X Br UW UB W1 B1 W2 n Y Xc co 2 1) + tap2K X Br UW UB W1 B1 W2 n Y Xc co 2 2)

def y2K (n : Fin 16) (Y Xc : Fin 64) (co : Fin 128) : EReal := leaky (acc2K X Br UW UB W1 B1 W2 n Y Xc co + B2 co)

def identK (n : Fin 16) (Y Xc : Fin 64) (co : Fin 128) : EReal :=
  ∑ ch : Fin 256, cat X Br UW UB n Y Xc ch * WID co ch

/-- The fused kernel's result at `(n, co, Y, Xc)`. -/
def outK (n : Fin 16) (co : Fin 128) (Y Xc : Fin 64) : EReal :=
  (y2K X Br UW UB W1 B1 W2 B2 n Y Xc co + identK X Br UW UB WID n Y Xc co) + BID co

/-! ## The grouping of the two-kernel reference -/

def tapU (n : Fin 16) (Y Xc : Fin 64) (co : Fin 128) (dy dx : Fin 3) : EReal :=
  ∑ cc : Fin 128, pad (fun a b => up X UW UB n a b cc) (sh Y dy) (sh Xc dx) * W1 co (lo cc) dy dx
def tapB (n : Fin 16) (Y Xc : Fin 64) (co : Fin 128) (dy dx : Fin 3) : EReal :=
  ∑ cc : Fin 128, pad (fun a b => Br n cc a b) (sh Y dy) (sh Xc dx) * W1 co (hi cc) dy dx

def acc1R (n : Fin 16) (Y Xc : Fin 64) (co : Fin 128) : EReal :=
  ((((((((((((((((((0 + tapU X UW UB W1 n Y Xc co 0 0) + tapB Br W1 n Y Xc co 0 0) + tapU X UW UB W1 n Y Xc co 0 1) + tapB Br W1 n Y Xc co 0 1) + tapU X UW UB W1 n Y Xc co 0 2) + tapB Br W1 n Y Xc co 0 2) + tapU X UW UB W1 n Y Xc co 1 0) + tapB Br W1 n Y Xc co 1 0) + tapU X UW UB W1 n Y Xc co 1 1) + tapB Br W1 n Y Xc co 1 1) + tapU X UW UB W1 n Y Xc co 1 2) + tapB Br W1 n Y Xc co 1 2) + tapU X UW UB W1 n Y Xc co 2 0) + tapB Br W1 n Y Xc co 2 0) + tapU X UW UB W1 n Y Xc co 2 1) + tapB Br W1 n Y Xc co 2 1) + tapU X UW UB W1 n Y Xc co 2 2) + tapB Br W1 n Y Xc co 2 2)

def y1R (n : Fin 16) (Y Xc : Fin 64) (co : Fin 128) : EReal := leaky (acc1R X Br UW UB W1 n Y Xc co + B1 co)

def tap2R (n : Fin 16) (Y Xc : Fin 64) (co : Fin 128) (dy dx : Fin 3) : EReal :=
  ∑ cc : Fin 128, pad (fun a b => y1R X Br UW UB W1 B1 n a b cc) (sh Y dy) (sh Xc dx) * W2 co cc dy dx

def acc2R (n : Fin 16) (Y Xc : Fin 64) (co : Fin 128) : EReal :=
  (((((((((0 + tap2R X Br UW UB W1 B1 W2 n Y Xc co 0 0) + tap2R X Br UW UB W1 B1 W2 n Y Xc co 0 1) + tap2R X Br UW UB W1 B1 W2 n Y Xc co 0 2) + tap2R X Br UW UB W1 B1 W2 n Y Xc co 1 0) + tap2R X Br UW UB W1 B1 W2 n Y Xc co 1 1) + tap2R X Br UW UB W1 B1 W2 n Y Xc co 1 2) + tap2R X Br UW UB W1 B1 W2 n Y Xc co 2 0) + tap2R X Br UW UB W1 B1 W2 n Y Xc co 2 1) + tap2R X Br UW UB W1 B1 W2 n Y Xc co 2 2)

def y2R (n : Fin 16) (Y Xc : Fin 64) (co : Fin 128) : EReal := leaky (acc2R X Br UW UB W1 B1 W2 n Y Xc co + B2 co)

def identR (n : Fin 16) (Y Xc : Fin 64) (co : Fin 128) : EReal :=
  ((∑ cc : Fin 128, up X UW UB n Y Xc cc * WID co (lo cc)) + (∑ cc : Fin 128, Br n cc Y Xc * WID co (hi cc))) + BID co

/-- The reference's result at `(n, co, Y, Xc)`. -/
def outR (n : Fin 16) (co : Fin 128) (Y Xc : Fin 64) : EReal :=
  y2R X Br UW UB W1 B1 W2 B2 n Y Xc co + identR X Br UW UB WID BID n Y Xc co

/-! ## The two groupings agree -/

/-- A sum over the 256 channels is the sum over the first 128 plus the sum over the last 128. -/
theorem sum_halves (f : Fin 256 → EReal) : ∑ ch : Fin 256, f ch = (∑ cc : Fin 128, f (lo cc)) + ∑ cc : Fin 128, f (hi cc) := by
  have h := Fin.sum_univ_add (a := 128) (b := 128) (f := (f : Fin (128 + 128) → EReal))
  exact h

theorem cat_lo (n : Fin 16) (Y Xc : Fin 64) (cc : Fin 128) : cat X Br UW UB n Y Xc (lo cc) = up X UW UB n Y Xc cc := by
  unfold cat
  rw [dif_pos (show (lo cc).val < 128 from cc.isLt)]
  rfl

theorem cat_hi (n : Fin 16) (Y Xc : Fin 64) (cc : Fin 128) : cat X Br UW UB n Y Xc (hi cc) = Br n cc Y Xc := by
  unfold cat
  rw [dif_neg (show ¬ (hi cc).val < 128 by show ¬ 128 + cc.val < 128; omega)]
  congr 1
  apply Fin.ext
  show 128 + cc.val - 128 = cc.val
  omega

/-- Padding commutes with choosing a channel. -/
theorem pad_cat_lo (n : Fin 16) (cc : Fin 128) (y x : Fin 66) :
    pad (fun a b => cat X Br UW UB n a b (lo cc)) y x = pad (fun a b => up X UW UB n a b cc) y x := by
  simp only [cat_lo]
theorem pad_cat_hi (n : Fin 16) (cc : Fin 128) (y x : Fin 66) :
    pad (fun a b => cat X Br UW UB n a b (hi cc)) y x = pad (fun a b => Br n cc a b) y x := by
  simp only [cat_hi]

theorem tapK_eq (n : Fin 16) (Y Xc : Fin 64) (co : Fin 128) (dy dx : Fin 3) :
    tapK X Br UW UB W1 n Y Xc co dy dx = tapU X UW UB W1 n Y Xc co dy dx + tapB Br W1 n Y Xc co dy dx := by
  unfold tapK tapU tapB
  rw [sum_halves]
  simp only [pad_cat_lo, pad_cat_hi]

theorem acc1K_eq (n : Fin 16) (Y Xc : Fin 64) (co : Fin 128) : acc1K X Br UW UB W1 n Y Xc co = acc1R X Br UW UB W1 n Y Xc co := by
  unfold acc1K acc1R
  simp only [tapK_eq, add_assoc]

theorem y1K_eq : y1K X Br UW UB W1 B1 = y1R X Br UW UB W1 B1 := by
  funext n Y Xc co
  unfold y1K y1R
  rw [acc1K_eq]

theorem y2K_eq : y2K X Br UW UB W1 B1 W2 B2 = y2R X Br UW UB W1 B1 W2 B2 := by
  funext n Y Xc co
  unfold y2K y2R acc2K acc2R tap2K tap2R
  rw [y1K_eq]

theorem identK_eq (n : Fin 16) (Y Xc : Fin 64) (co : Fin 128) :
    identK X Br UW UB WID n Y Xc co + BID co = identR X Br UW UB WID BID n Y Xc co := by
  unfold identK identR
  rw [sum_halves]
  simp only [cat_lo, cat_hi]

/-- The fused kernel's grouping and the reference's are the same extended real. -/
theorem outK_eq_outR (n : Fin 16) (co : Fin 128) (Y Xc : Fin 64) :
    outK X Br UW UB W1 B1 W2 B2 WID BID n co Y Xc = outR X Br UW UB W1 B1 W2 B2 WID BID n co Y Xc := by
  unfold outK outR
  rw [y2K_eq, add_assoc, identK_eq]

end Cert.UpBlockSpec

end
-- ==== Proof.RefArgs.lean ====
/-
  The ten argument arrays of the program, as plain functions of their coordinates (the form the up-block's
  specification is stated over).
-/
import proofs.«142322_g2000305194121171_pallasbulk_194_3_alg».proof.Proof.RefRun
import proofs.«142322_g2000305194121171_pallasbulk_194_3_alg».proof.Proof.Spec

noncomputable section

namespace Cert.ReferenceIdeal.RefValue

open Cert.ReferenceIdeal
open Idealize.ShloMosaic Idealize.ShloMosaic.TcCoe Idealize.ShloMosaic.ValueIdx Idealize.SL.Sem

variable (m : (ℓ : Loc nD τ sig) → Buf (Elt Ideal) ℓ) (c : Dev nD)

def aX : Fin 16 → Fin 256 → Fin 32 → Fin 32 → EReal := fun n ci a b => m ((c.tc : Thread nD τ).loc main_arg0) (ix4 n ci a b)
def aBr : Fin 16 → Fin 128 → Fin 64 → Fin 64 → EReal := fun n cc a b => m ((c.tc : Thread nD τ).loc main_arg1) (ix4 n cc a b)
def aUW : Fin 256 → Fin 128 → Fin 2 → Fin 2 → EReal := fun ci cc a b => m ((c.tc : Thread nD τ).loc main_arg2) (ix4 ci cc a b)
def aUB : Fin 128 → EReal := fun cc => m ((c.tc : Thread nD τ).loc main_arg3) (ix1 cc)
def aW1 : Fin 128 → Fin 256 → Fin 3 → Fin 3 → EReal := fun co ch a b => m ((c.tc : Thread nD τ).loc main_arg4) (ix4 co ch a b)
def aB1 : Fin 128 → EReal := fun co => m ((c.tc : Thread nD τ).loc main_arg5) (ix1 co)
def aW2 : Fin 128 → Fin 128 → Fin 3 → Fin 3 → EReal := fun co cc a b => m ((c.tc : Thread nD τ).loc main_arg6) (ix4 co cc a b)
def aB2 : Fin 128 → EReal := fun co => m ((c.tc : Thread nD τ).loc main_arg7) (ix1 co)
def aWID : Fin 128 → Fin 256 → EReal := fun co ch => m ((c.tc : Thread nD τ).loc main_arg8) (ix4 co ch 0 0)
def aBID : Fin 128 → EReal := fun co => m ((c.tc : Thread nD τ).loc main_arg9) (ix1 co)

/-- The up-block's result in the reference's grouping, of this memory's arguments. -/
def specOut (n : Fin 16) (co : Fin 128) (Y Xc : Fin 64) : EReal :=
  Cert.UpBlockSpec.outR (aX m c) (aBr m c) (aUW m c) (aUB m c) (aW1 m c) (aB1 m c) (aW2 m c) (aB2 m c) (aWID m c) (aBID m c) n co Y Xc

end Cert.ReferenceIdeal.RefValue

end
-- ==== Proof.LibPieces.lean ====
/-
  Reading back a buffer after unmasked writes through unit-stride rectangles, one index at a time.

  The contents left by a list of writes (newest first) are, at an index, the payload of the first write whose
  rectangle holds the index, read at the index's position inside that rectangle.  For a unit-stride rectangle
  that position is the index minus the rectangle's offset, coordinate by coordinate (`rel`).  The same holds of
  the canonical contents of a list of pieces, which forget what the buffer held before.  A blend of old contents
  with an update placed at a start offset reads the update inside its window and the old contents outside.
-/
import Idealize.ShloMosaic.Lib.Pipeline.FrameBody
import Idealize.ShloMosaic.Lib.Pipeline.Value

noncomputable section

namespace Cert.LibPieces

open Idealize.ShloMosaic

variable {s : Shape} {e : EltTy} {Val : EltTy → Type}

/-- The position of the index `y` inside a unit-stride rectangle of offsets `off` and sizes `size` that holds it. -/
def rel (off size : Fin s.rank → Nat) (y : s.Idx) (h : ∀ a, off a ≤ (y a : Nat) ∧ (y a : Nat) < off a + size a) :
    (⟨s.rank, size⟩ : Shape).Idx := fun a => ⟨(y a : Nat) - off a, by have := h a; show (y a : Nat) - off a < size a; omega⟩

@[simp] theorem rel_val (off size : Fin s.rank → Nat) (y : s.Idx) (h) (a : Fin s.rank) :
    ((rel off size y h a : Fin (size a)) : Nat) = (y a : Nat) - off a := rfl

/-- Placing that position back in the whole shape gives the index. -/
theorem emb_rel (off size : Fin s.rank → Nat) (inb : ∀ a, off a + size a ≤ s.size a) (y : s.Idx) (h) :
    (Rect.unit off size inb).emb (rel off size y h) = y := by
  funext a
  apply Fin.ext
  have e := Rect.emb_apply (Rect.unit off size inb) (rel off size y h) a
  rw [e]
  simp only [Rect.off_unit, Rect.stride_unit, Nat.one_mul]
  have := h a
  show off a + ((y a : Nat) - off a) = (y a : Nat)
  omega

section Canon
variable [∀ e, Nonempty (Val e)]

/-- The canonical contents at an index the newest piece holds: that piece's payload at the index's position. -/
theorem canon_cons_unit_of_mem (off size : Fin s.rank → Nat) (inb : ∀ a, off a + size a ≤ s.size a)
    (w : (Rect.unit off size inb).shape.Idx → Val e) (L : List (View.Piece Val s e)) (y : s.Idx)
    (h : ∀ a, off a ≤ (y a : Nat) ∧ (y a : Nat) < off a + size a) :
    View.canon (⟨Rect.unit off size inb, w⟩ :: L) y = w (rel off size y h) := by
  conv_lhs => rw [← emb_rel off size inb y h]
  exact View.canon_cons_emb _ w L _

/-- At an index the newest piece does not hold: the canonical contents of the earlier pieces. -/
theorem canon_cons_unit_of_not_mem (off size : Fin s.rank → Nat) (inb : ∀ a, off a + size a ≤ s.size a)
    (w : (Rect.unit off size inb).shape.Idx → Val e) (L : List (View.Piece Val s e)) (y : s.Idx)
    (h : ¬ ∀ a, off a ≤ (y a : Nat) ∧ (y a : Nat) < off a + size a) :
    View.canon (⟨Rect.unit off size inb, w⟩ :: L) y = View.canon L y :=
  View.canon_cons_of_not_mem _ L (fun hm => h ((Rect.mem_set_unit (inb := inb)).mp hm))

end Canon

section Writes
variable {sig : RefSig} {κ : Kind} {sp : Space} (v : View sig κ sp s e) (f : v.ty.Contents Val)

/-- A buffer read back at an index the newest write holds: that write's payload at the index's position. -/
theorem read_writes_cons_unit_of_mem (off size : Fin s.rank → Nat) (inb : ∀ a, off a + size a ≤ s.size a)
    (w : (Rect.unit off size inb).shape.Idx → Val e) (L : List (View.Piece Val s e)) (y : s.Idx)
    (h : ∀ a, off a ≤ (y a : Nat) ∧ (y a : Nat) < off a + size a) :
    v.read Val (v.writes Val f (⟨Rect.unit off size inb, w⟩ :: L)) y = w (rel off size y h) := by
  conv_lhs => rw [← emb_rel off size inb y h]
  exact View.read_writes_cons_emb v f _ w L _

/-- At an index the newest write does not hold: what the earlier writes left. -/
theorem read_writes_cons_unit_of_not_mem (off size : Fin s.rank → Nat) (inb : ∀ a, off a + size a ≤ s.size a)
    (w : (Rect.unit off size inb).shape.Idx → Val e) (L : List (View.Piece Val s e)) (y : s.Idx)
    (h : ¬ ∀ a, off a ≤ (y a : Nat) ∧ (y a : Nat) < off a + size a) :
    v.read Val (v.writes Val f (⟨Rect.unit off size inb, w⟩ :: L)) y = v.read Val (v.writes Val f L) y := by
  rw [View.writes_cons]
  exact View.read_slice_write_of_not_mem _ _ _ _ (by
    rw [Rect.map_emb_univ]; exact fun hm => h ((Rect.mem_set_unit (inb := inb)).mp hm))

end Writes

section Blend
variable {α : Type} {u : Shape}

/-- Inside the update's window a blend reads the update, at the index minus the start. -/
theorem updateSlice_of_mem (x : s.Idx → α) (upd : u.Idx → α) (start : Fin s.rank → Nat) (hs : s.Slices start u) (i : s.Idx)
    (hin : ∀ a : Fin s.rank, start a ≤ (i a).val ∧ (i a).val < start a + u.size (a.cast hs.1.symm)) :
    ∃ k : u.Idx, (∀ b : Fin u.rank, ((k b : Fin _) : Nat) = (i (b.cast hs.1)).val - start (b.cast hs.1)) ∧
      updateSlice x upd start hs i = upd k := by
  refine ⟨fun b => ⟨(i (b.cast hs.1)).val - start (b.cast hs.1), by
      have hb := hin (b.cast hs.1)
      have e : (b.cast hs.1).cast hs.1.symm = b := rfl
      rw [e] at hb
      omega⟩, fun b => rfl, ?_⟩
  unfold updateSlice
  rw [dif_pos hin]

/-- Outside it, the old contents. -/
theorem updateSlice_of_not_mem (x : s.Idx → α) (upd : u.Idx → α) (start : Fin s.rank → Nat) (hs : s.Slices start u) (i : s.Idx)
    (hout : ¬ ∀ a : Fin s.rank, start a ≤ (i a).val ∧ (i a).val < start a + u.size (a.cast hs.1.symm)) :
    updateSlice x upd start hs i = x i := by
  unfold updateSlice
  rw [dif_neg hout]

end Blend

end Cert.LibPieces

end
-- ==== Proof.RefPrefix.lean ====
/-
  The buffers at the entry of the reference's second kernel, as functions of the ten arguments.

  Before its second kernel the reference re-lays its arguments: the bridge image with its channels moved last;
  each 3 x 3 convolution's weights with the nine taps in one axis (tap `k` is row `k / 3`, column `k % 3`), input
  channel then output channel, the first convolution's cut into the halves that meet the upsampled image and the
  bridge; the 1 x 1 convolution's weights as a matrix cut the same way; each bias as a row.  A transpose read at
  an index is the operand at the permuted index, a reshape the operand at the index with the same row-major
  position, a slice the operand at the shifted index.  No host line and no kernel before that point writes an
  argument, so each argument is still what the program was launched with.

  The upsampled image is the first kernel's work.  For image `n` that kernel multiplies the 1024 x 256 matrix of
  the image's pixels (row `a * 32 + b` is pixel `(a, b)`, its 256 channels) by the 256 x 512 weight matrix whose
  column `(ki * 2 + kj) * 128 + cc` holds tap `(ki, kj)` of output channel `cc`, and adds the bias row (the bias
  vector repeated once per tap).  Each grid point stores one image's block, and the sixteen blocks tile the
  result, so the result array is one function of the three arrays the kernel reads.  The host then splits the
  512 columns into (tap row, tap column, channel) and interleaves the taps with the pixel coordinates: output
  pixel `(Y, Xc)` of the 64 x 64 image reads pixel `(Y / 2, Xc / 2)` at tap `(Y % 2, Xc % 2)` — the 2 x 2
  transposed convolution with stride 2 of the specification.
-/
import proofs.«142322_g2000305194121171_pallasbulk_194_3_alg».proof.Proof.RefArgs
import proofs.«142322_g2000305194121171_pallasbulk_194_3_alg».proof.Proof.LibPieces
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The arguments at the first kernel's exit: neither the host lines before it nor the kernel writes one -/

theorem W2_arg1 : W2 m ρ c (Proc.devRef .tc main_arg1) = m ((c.tc : Thread nD τ).loc main_arg1) := by
  rw [W2_of_ne m ρ c main_arg1 (by decide)]
  show StableHlo.after hostOps0 (W0 m ρ c) (Proc.devRef .tc main_arg1) = _
  after_results

theorem W2_arg4 : W2 m ρ c (Proc.devRef .tc main_arg4) = m ((c.tc : Thread nD τ).loc main_arg4) := by
  rw [W2_of_ne m ρ c main_arg4 (by decide)]
  show StableHlo.after hostOps0 (W0 m ρ c) (Proc.devRef .tc main_arg4) = _
  after_results

theorem W2_arg5 : W2 m ρ c (Proc.devRef .tc main_arg5) = m ((c.tc : Thread nD τ).loc main_arg5) := by
  rw [W2_of_ne m ρ c main_arg5 (by decide)]
  show StableHlo.after hostOps0 (W0 m ρ c) (Proc.devRef .tc main_arg5) = _
  after_results

theorem W2_arg6 : W2 m ρ c (Proc.devRef .tc main_arg6) = m ((c.tc : Thread nD τ).loc main_arg6) := by
  rw [W2_of_ne m ρ c main_arg6 (by decide)]
  show StableHlo.after hostOps0 (W0 m ρ c) (Proc.devRef .tc main_arg6) = _
  after_results

theorem W2_arg7 : W2 m ρ c (Proc.devRef .tc main_arg7) = m ((c.tc : Thread nD τ).loc main_arg7) := by
  rw [W2_of_ne m ρ c main_arg7 (by decide)]
  show StableHlo.after hostOps0 (W0 m ρ c) (Proc.devRef .tc main_arg7) = _
  after_results

theorem W2_arg8 : W2 m ρ c (Proc.devRef .tc main_arg8) = m ((c.tc : Thread nD τ).loc main_arg8) := by
  rw [W2_of_ne m ρ c main_arg8 (by decide)]
  show StableHlo.after hostOps0 (W0 m ρ c) (Proc.devRef .tc main_arg8) = _
  after_results

theorem W2_arg9 : W2 m ρ c (Proc.devRef .tc main_arg9) = m ((c.tc : Thread nD τ).loc main_arg9) := by
  rw [W2_of_ne m ρ c main_arg9 (by decide)]
  show StableHlo.after hostOps0 (W0 m ρ c) (Proc.devRef .tc main_arg9) = _
  after_results

/-! ## The bridge image, the weights and the biases at the second kernel's entry: re-layouts of the arguments -/

/-- The bridge, channels moved last. -/
theorem v1_apply (n : Fin 16) (Y Xc : Fin 64) (cc : Fin 128) :
    (Gen.V3 m ρ c main_v1 : S16x64x64x128.Idx → EReal) (ix4 n Y Xc cc) = aBr m c n cc Y Xc := by
  have e : (Gen.V3 m ρ c main_v1 : S16x64x64x128.Idx → EReal)
      = transpose S16x64x64x128 [0, 2, 3, 1] (m ((c.tc : Thread nD τ).loc main_arg1) : S16x128x64x64.Idx → EReal) transposes_S16x128x64x64_S16x64x64x128_0_2_3_1 := by
    show StableHlo.after hostOps1 (W2 m ρ c) (Proc.devRef .tc main_v1) = _
    after_results
    rw [W2_of_ne m ρ c main_v1 (by decide)]
    show StableHlo.after hostOps0 (W0 m ρ c) (Proc.devRef .tc main_v1) = _
    after_results
  rw [e]
  exact transpose_apply _ _ _ _ (ix4 n cc Y Xc) (fun b => match b with | ⟨0, _⟩ => rfl | ⟨1, _⟩ => rfl | ⟨2, _⟩ => rfl | ⟨3, _⟩ => rfl)

/-- The first convolution's weights with the taps in one axis of nine, input channel then output channel. -/
theorem v13_apply (k : Fin 9) (ch : Fin 256) (co : Fin 128) :
    (shapeCast S9x256x128 (transpose S3x3x256x128 [2, 3, 1, 0] (m ((c.tc : Thread nD τ).loc main_arg4) : S128x256x3x3.Idx → EReal) transposes_S128x256x3x3_S3x3x256x128_2_3_1_0) shapeCasts_S3x3x256x128_S9x256x128) (ix3 k ch co)
      = aW1 m c co ch ⟨k.val / 3, by omega⟩ ⟨k.val % 3, by omega⟩ := by
  refine (shapeCast_apply _ _ _ (ix4 (⟨k.val / 3, by omega⟩ : Fin 3) (⟨k.val % 3, by omega⟩ : Fin 3) ch co) (by
    rw [Shape.rowMajor_val_four, Shape.rowMajor_val_three]
    show (((k.val / 3) * 3 + k.val % 3) * 256 + ch.val) * 128 + co.val = (k.val * 256 + ch.val) * 128 + co.val
    have h : (k.val / 3) * 3 + k.val % 3 = k.val := by omega
    rw [h])).trans ?_
  exact transpose_apply _ _ _ _ (ix4 co ch (⟨k.val / 3, by omega⟩ : Fin 3) (⟨k.val % 3, by omega⟩ : Fin 3)) (fun b => match b with | ⟨0, _⟩ => rfl | ⟨1, _⟩ => rfl | ⟨2, _⟩ => rfl | ⟨3, _⟩ => rfl)

theorem v14_apply (k : Fin 9) (cc co : Fin 128) :
    (Gen.V3 m ρ c main_v14 : S9x128x128.Idx → EReal) (ix3 k cc co) = aW1 m c co (Cert.UpBlockSpec.lo cc) ⟨k.val / 3, by omega⟩ ⟨k.val % 3, by omega⟩ := by
  have e : (Gen.V3 m ρ c main_v14 : S9x128x128.Idx → EReal)
      = extractStridedSlice S9x128x128 ![0, 0, 0] (shapeCast S9x256x128 (transpose S3x3x256x128 [2, 3, 1, 0] (m ((c.tc : Thread nD τ).loc main_arg4) : S128x256x3x3.Idx → EReal) transposes_S128x256x3x3_S3x3x256x128_2_3_1_0) shapeCasts_S3x3x256x128_S9x256x128) slices_S9x256x128_S9x128x128_0_0_0 := by
    show StableHlo.after hostOps1 (W2 m ρ c) (Proc.devRef .tc main_v14) = _
    after_results
    rw [W2_arg4]
    rfl
  rw [e]
  refine (slice3_axis1_apply 0 _ _ k cc co (Cert.UpBlockSpec.lo cc) (by show cc.val = 0 + cc.val; omega)).trans ?_
  exact v13_apply m c k (Cert.UpBlockSpec.lo cc) co

theorem v15_apply (k : Fin 9) (cc co : Fin 128) :
    (Gen.V3 m ρ c main_v15 : S9x128x128.Idx → EReal) (ix3 k cc co) = aW1 m c co (Cert.UpBlockSpec.hi cc) ⟨k.val / 3, by omega⟩ ⟨k.val % 3, by omega⟩ := by
  have e : (Gen.V3 m ρ c main_v15 : S9x128x128.Idx → EReal)
      = extractStridedSlice S9x128x128 ![0, 128, 0] (shapeCast S9x256x128 (transpose S3x3x256x128 [2, 3, 1, 0] (m ((c.tc : Thread nD τ).loc main_arg4) : S128x256x3x3.Idx → EReal) transposes_S128x256x3x3_S3x3x256x128_2_3_1_0) shapeCasts_S3x3x256x128_S9x256x128) slices_S9x256x128_S9x128x128_0_128_0 := by
    show StableHlo.after hostOps1 (W2 m ρ c) (Proc.devRef .tc main_v15) = _
    after_results
    rw [W2_arg4]
    rfl
  rw [e]
  refine (slice3_axis1_apply 128 _ _ k cc co (Cert.UpBlockSpec.hi cc) (by show 128 + cc.val = 128 + cc.val; rfl)).trans ?_
  exact v13_apply m c k (Cert.UpBlockSpec.hi cc) co

/-- The bias row is the bias vector with a unit axis in front. -/
theorem v22_apply (co : Fin 128) : (Gen.V3 m ρ c main_v22 : S1x128.Idx → EReal) (ix2 0 co) = aB1 m c co := by
  have e : (Gen.V3 m ρ c main_v22 : S1x128.Idx → EReal)
      = shapeCast S1x128 (m ((c.tc : Thread nD τ).loc main_arg5) : S128.Idx → EReal) shapeCasts_S128_S1x128 := by
    show StableHlo.after hostOps1 (W2 m ρ c) (Proc.devRef .tc main_v22) = _
    after_results
    rw [W2_arg5]
    rfl
  rw [e]
  exact shapeCast_a_1a_apply _ _ 0 co

/-- The second convolution's weights, the taps in one axis of nine. -/
theorem v17_apply (k : Fin 9) (cc co : Fin 128) :
    (Gen.V3 m ρ c main_v17 : S9x128x128.Idx → EReal) (ix3 k cc co) = aW2 m c co cc ⟨k.val / 3, by omega⟩ ⟨k.val % 3, by omega⟩ := by
  have e : (Gen.V3 m ρ c main_v17 : S9x128x128.Idx → EReal)
      = shapeCast S9x128x128 (transpose S3x3x128x128 [2, 3, 1, 0] (m ((c.tc : Thread nD τ).loc main_arg6) : S128x128x3x3.Idx → EReal) transposes_S128x128x3x3_S3x3x128x128_2_3_1_0) shapeCasts_S3x3x128x128_S9x128x128 := by
    show StableHlo.after hostOps1 (W2 m ρ c) (Proc.devRef .tc main_v17) = _
    after_results
    rw [W2_arg6]
    rfl
  rw [e]
  refine (shapeCast_apply _ _ _ (ix4 (⟨k.val / 3, by omega⟩ : Fin 3) (⟨k.val % 3, by omega⟩ : Fin 3) cc co) (by
    rw [Shape.rowMajor_val_four, Shape.rowMajor_val_three]
    show (((k.val / 3) * 3 + k.val % 3) * 128 + cc.val) * 128 + co.val = (k.val * 128 + cc.val) * 128 + co.val
    have h : (k.val / 3) * 3 + k.val % 3 = k.val := by omega
    rw [h])).trans ?_
  exact transpose_apply _ _ _ _ (ix4 co cc (⟨k.val / 3, by omega⟩ : Fin 3) (⟨k.val % 3, by omega⟩ : Fin 3)) (fun b => match b with | ⟨0, _⟩ => rfl | ⟨1, _⟩ => rfl | ⟨2, _⟩ => rfl | ⟨3, _⟩ => rfl)

/-- The bias row is the bias vector with a unit axis in front. -/
theorem v23_apply (co : Fin 128) : (Gen.V3 m ρ c main_v23 : S1x128.Idx → EReal) (ix2 0 co) = aB2 m c co := by
  have e : (Gen.V3 m ρ c main_v23 : S1x128.Idx → EReal)
      = shapeCast S1x128 (m ((c.tc : Thread nD τ).loc main_arg7) : S128.Idx → EReal) shapeCasts_S128_S1x128 := by
    show StableHlo.after hostOps1 (W2 m ρ c) (Proc.devRef .tc main_v23) = _
    after_results
    rw [W2_arg7]
    rfl
  rw [e]
  exact shapeCast_a_1a_apply _ _ 0 co

/-- The 1 x 1 convolution's weights as a matrix, input channel then output channel. -/
theorem v19_apply (ch : Fin 256) (co : Fin 128) :
    (transpose S256x128 [1, 0] (shapeCast S128x256 (m ((c.tc : Thread nD τ).loc main_arg8) : S128x256x1x1.Idx → EReal) shapeCasts_S128x256x1x1_S128x256) transposes_S128x256_S256x128_1_0) (ix2 ch co)
      = aWID m c co ch := by
  refine (transpose_ix2_apply _ _ ch co).trans ?_
  exact shapeCast_apply _ _ _ (ix4 co ch (0 : Fin 1) (0 : Fin 1)) (by
    rw [Shape.rowMajor_val_four, Shape.rowMajor_val_two]
    show ((co.val * 256 + ch.val) * 1 + 0) * 1 + 0 = co.val * 256 + ch.val
    omega)

theorem v20_apply (cc co : Fin 128) :
    (Gen.V3 m ρ c main_v20 : S128x128.Idx → EReal) (ix2 cc co) = aWID m c co (Cert.UpBlockSpec.lo cc) := by
  have e : (Gen.V3 m ρ c main_v20 : S128x128.Idx → EReal)
      = extractStridedSlice S128x128 ![0, 0] (transpose S256x128 [1, 0] (shapeCast S128x256 (m ((c.tc : Thread nD τ).loc main_arg8) : S128x256x1x1.Idx → EReal) shapeCasts_S128x256x1x1_S128x256) transposes_S128x256_S256x128_1_0) slices_S256x128_S128x128_0_0 := by
    show StableHlo.after hostOps1 (W2 m ρ c) (Proc.devRef .tc main_v20) = _
    after_results
    rw [W2_arg8]
    rfl
  rw [e]
  refine (slice2_axis0_apply 0 _ _ cc co (Cert.UpBlockSpec.lo cc) (by show cc.val = 0 + cc.val; omega)).trans ?_
  exact v19_apply m c (Cert.UpBlockSpec.lo cc) co

theorem v21_apply (cc co : Fin 128) :
    (Gen.V3 m ρ c main_v21 : S128x128.Idx → EReal) (ix2 cc co) = aWID m c co (Cert.UpBlockSpec.hi cc) := by
  have e : (Gen.V3 m ρ c main_v21 : S128x128.Idx → EReal)
      = extractStridedSlice S128x128 ![128, 0] (transpose S256x128 [1, 0] (shapeCast S128x256 (m ((c.tc : Thread nD τ).loc main_arg8) : S128x256x1x1.Idx → EReal) shapeCasts_S128x256x1x1_S128x256) transposes_S128x256_S256x128_1_0) slices_S256x128_S128x128_128_0 := by
    show StableHlo.after hostOps1 (W2 m ρ c) (Proc.devRef .tc main_v21) = _
    after_results
    rw [W2_arg8]
    rfl
  rw [e]
  refine (slice2_axis0_apply 128 _ _ cc co (Cert.UpBlockSpec.hi cc) (by show 128 + cc.val = 128 + cc.val; rfl)).trans ?_
  exact v19_apply m c (Cert.UpBlockSpec.hi cc) co

/-- The bias row is the bias vector with a unit axis in front. -/
theorem v24_apply (co : Fin 128) : (Gen.V3 m ρ c main_v24 : S1x128.Idx → EReal) (ix2 0 co) = aBID m c co := by
  have e : (Gen.V3 m ρ c main_v24 : S1x128.Idx → EReal)
      = shapeCast S1x128 (m ((c.tc : Thread nD τ).loc main_arg9) : S128.Idx → EReal) shapeCasts_S128_S1x128 := by
    show StableHlo.after hostOps1 (W2 m ρ c) (Proc.devRef .tc main_v24) = _
    after_results
    rw [W2_arg9]
    rfl
  rw [e]
  exact shapeCast_a_1a_apply _ _ 0 co

/-! ## The first kernel's block: one matrix product per image, plus the bias row -/

/-- The kernel's product of a 1024 x 256 by a 256 x 512 matrix into the zero accumulator, at an entry: the sum
    over the contracted coordinate of the products of the entries. -/
theorem matmul_rows_cols (A : FVec Ideal S1024x256 .f32) (B : FVec Ideal S256x512 .f32) (r : Fin 1024) (q : Fin 512) :
    matmul dot_S1024x256_S256x512_S1024x512_1_0_0_1_n_n none A B (constant (F := Ideal) S1024x512 .f32 0x00000000#32) (ix2 r q)
      = ∑ k : Fin 256, A (ix2 r k) * B (ix2 k q) := by
  show FloatOps.matmul dot_S1024x256_S256x512_S1024x512_1_0_0_1_n_n none A B _ (ix2 r q) = _
  rw [Ideal.matmul_constant_zero_apply,
    ← Equiv.sum_comp (contrEquiv1 dot_S1024x256_S256x512_S1024x512_1_0_0_1_n_n 256 rfl rfl).symm]
  refine Finset.sum_congr rfl fun k _ => ?_
  have c2 := contrEquiv1_symm_val dot_S1024x256_S256x512_S1024x512_1_0_0_1_n_n 256 rfl rfl k
  have l2 : dot_S1024x256_S256x512_S1024x512_1_0_0_1_n_n.lhsIdx (ix2 r q) ((contrEquiv1 _ 256 rfl rfl).symm k) = ix2 r k := by
    funext ax; apply Fin.ext
    match ax with
    | ⟨0, _⟩ => simp [DotDims.lhsIdx, dot_S1024x256_S256x512_S1024x512_1_0_0_1_n_n]; rfl
    | ⟨1, _⟩ => simp [DotDims.lhsIdx, dot_S1024x256_S256x512_S1024x512_1_0_0_1_n_n]; exact c2
  have r2 : dot_S1024x256_S256x512_S1024x512_1_0_0_1_n_n.rhsIdx (ix2 r q) ((contrEquiv1 _ 256 rfl rfl).symm k) = ix2 k q := by
    funext ax; apply Fin.ext
    match ax with
    | ⟨0, _⟩ => simp [DotDims.rhsIdx, dot_S1024x256_S256x512_S1024x512_1_0_0_1_n_n]; exact c2
    | ⟨1, _⟩ => simp [DotDims.rhsIdx, dot_S1024x256_S256x512_S1024x512_1_0_0_1_n_n]; rfl
  rw [l2, r2]

/-- What the kernel stores for one image, at pixel `(a, b)` and column `q`: the pixel's 256 channels against
    column `q` of the weight matrix, plus entry `q` of the bias row. -/
theorem pay_apply (x0 : Vec Ideal S1x32x32x256 .f32) (x1 : Vec Ideal S256x512 .f32) (x2 : Vec Ideal S1x512 .f32)
    (u : Fin 1) (a b : Fin 32) (q : Fin 512) :
    k0_pay1 x0 x1 x2 (ix4 u a b q)
      = (∑ ci : Fin 256, x0 (ix4 (0 : Fin 1) a b ci) * x1 (ix2 ci q)) + x2 (ix2 (0 : Fin 1) q) := by
  unfold k0_pay1
  refine (shapeCast_abc_1abc_apply _ _ u a b q).trans ?_
  refine (shapeCast_apply _ _ _ (ix2 (⟨a.val * 32 + b.val, by omega⟩ : Fin 1024) q) (by
    rw [Shape.rowMajor_val_two, Shape.rowMajor_val_three]
    rfl)).trans ?_
  refine (addf_apply _ _ _).trans ?_
  refine congrArg₂ (· + ·) ?_ ?_
  · refine (matmul_rows_cols _ _ _ q).trans ?_
    refine Finset.sum_congr rfl fun ci _ => ?_
    refine congrArg₂ (· * ·) ?_ ?_
    · refine (shapeCast_apply _ _ _ (ix3 a b ci) (by
        rw [Shape.rowMajor_val_three, Shape.rowMajor_val_two]
        rfl)).trans ?_
      exact shapeCast_1abc_abc_apply _ _ a b ci
    · exact congrFun (shapeCast_self _ _) _
  · refine (broadcastTo_1b_ab_apply _ _ _ q).trans ?_
    exact congrFun (shapeCast_self _ _) _

/-! ## From the blocks to the array -/

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The first kernel's result as one function of the three arrays it reads: at image `n`, pixel `(a, b)`, column
    `q`, the pixel's 256 channels against column `q` of the weight matrix, plus entry `q` of the bias row. -/
def upMat (X0 : S16x32x32x256.Idx → EReal) (X1 : S256x512.Idx → EReal) (X2 : S1x512.Idx → EReal) : S16x32x32x512.Idx → EReal :=
  fun i => (∑ ci : Fin 256, X0 (ix4 (i 0) (i 1) (i 2) ci) * X1 (ix2 ci (i 3))) + X2 (ix2 (0 : Fin 1) (i 3))

/-- The windows' block indices, decided over the grid: point `t` takes image `t` of the input and of the result,
    and the whole weight matrix and bias row. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- The block the kernel stores at point `t` is block `t` of that function of the arrays as the kernel finds them:
    each input block read where the result's block says. -/
theorem blk_apply (t : Fin cfg0.N) (j : S1x32x32x512.Idx) :
    k0_pay1 (iblk0 (V1 m ρ) c 0 t) (iblk0 (V1 m ρ) c 1 t) (iblk0 (V1 m ρ) c 2 t) j
      = upMat (V1 m ρ c main_v0) (V1 m ρ c main_v3) (V1 m ρ c main_v7) (((cfg0.win 3).blk t).view.emb j) := by
  obtain ⟨f0, f1, f2, f3, f4, f5, f6, f7, f8, f9, f10, f11⟩ := idx_facts t
  obtain ⟨u, a, b, q, rfl⟩ : ∃ (u : Fin 1) (a b : Fin 32) (q : Fin 512), j = ix4 u a b q := ⟨j 0, j 1, j 2, j 3, eq_ix4 j⟩
  have hu : u.val < 1 := u.isLt
  have ha : a.val < 32 := a.isLt
  have hb : b.val < 32 := b.isLt
  have hq : q.val < 512 := q.isLt
  refine (pay_apply _ _ _ u a b q).trans ?_
  unfold upMat
  refine congrArg₂ (· + ·) (Finset.sum_congr rfl fun ci _ => congrArg₂ (· * ·) ?_ ?_) ?_
  · show V1 m ρ c main_v0 (((cfg0.win 0).blk t).view.emb (ix4 (0 : Fin 1) a b ci)) = V1 m ρ c main_v0 (ix4 _ _ _ ci)
    refine congrArg _ (funext fun ax => Fin.ext ?_)
    match ax with
    | ⟨0, _⟩ => show win0_0.index t (0 : Fin 4) * 1 + 1 * 0 = win0_3.index t (0 : Fin 4) * 1 + 1 * u.val; omega
    | ⟨1, _⟩ => show win0_0.index t (1 : Fin 4) * 32 + 1 * a.val = win0_3.index t (1 : Fin 4) * 32 + 1 * a.val; omega
    | ⟨2, _⟩ => show win0_0.index t (2 : Fin 4) * 32 + 1 * b.val = win0_3.index t (2 : Fin 4) * 32 + 1 * b.val; omega
    | ⟨3, _⟩ => show win0_0.index t (3 : Fin 4) * 256 + 1 * ci.val = ci.val; omega
  · show V1 m ρ c main_v3 (((cfg0.win 1).blk t).view.emb (ix2 ci q)) = V1 m ρ c main_v3 (ix2 ci _)
    refine congrArg _ (funext fun ax => Fin.ext ?_)
    match ax with
    | ⟨0, _⟩ => show win0_1.index t (0 : Fin 2) * 256 + 1 * ci.val = ci.val; omega
    | ⟨1, _⟩ => show win0_1.index t (1 : Fin 2) * 512 + 1 * q.val = win0_3.index t (3 : Fin 4) * 512 + 1 * q.val; omega
  · show V1 m ρ c main_v7 (((cfg0.win 2).blk t).view.emb (ix2 (0 : Fin 1) q)) = V1 m ρ c main_v7 (ix2 (0 : Fin 1) _)
    refine congrArg _ (funext fun ax => Fin.ext ?_)
    match ax with
    | ⟨0, _⟩ => show win0_2.index t (0 : Fin 2) * 1 + 1 * 0 = 0; omega
    | ⟨1, _⟩ => show win0_2.index t (1 : Fin 2) * 512 + 1 * q.val = win0_3.index t (3 : Fin 4) * 512 + 1 * q.val; omega

theorem flushed8_eq (t : Fin cfg0.N) :
    (dat0 (V1 m ρ) c).flushed 3 t = ((cfg0.win 3).blk t).view.read (Elt Ideal) (upMat (V1 m ρ c main_v0) (V1 m ρ c main_v3) (V1 m ρ c main_v7)) := by
  show (cfg0.win 3).cut (grid0.coords t) ((dat0 (V1 m ρ) c).after 3 t) = _
  rw [after0_3]
  unfold out0_3
  rw [View.canon_unit_zero hz4]
  simp only [View.ld_unit_zero (S := S1x32x32x256) hz4, View.ld_unit_zero (S := S256x512) hz2, View.ld_unit_zero (S := S1x512) hz2]
  funext j
  exact blk_apply m ρ c t j

/-- An index of the result is in point `t`'s block iff each coordinate is in the block's range on its axis. -/
theorem mem_blk8 (t : Fin cfg0.N) (i : S16x32x32x512.Idx) :
    i ∈ ((cfg0.win 3).blk t).view.set ↔ ∀ a : Fin 4, win0_3.index t a * S1x32x32x512.size a ≤ (i a).val ∧ (i a).val < win0_3.index t a * S1x32x32x512.size a + S1x32x32x512.size a := by
  show i ∈ ((View.whole main_v8).slice (win0_3.rect t)).set ↔ _
  rw [View.set_slice_whole, Rect.mem_set_unit]
  exact Iff.rfl

/-- Every index of the result is in the block of the point of its image. -/
theorem cover8 (i : S16x32x32x512.Idx) : ∃ t : Fin cfg0.N, (cfg0.win 3).flush t = true ∧ i ∈ ((cfg0.win 3).blk t).view.set := by
  have h0 : (i 0).val < 16 := (i 0).isLt
  have h1 : (i 1).val < 32 := (i 1).isLt
  have h2 : (i 2).val < 32 := (i 2).isLt
  have h3 : (i 3).val < 512 := (i 3).isLt
  obtain ⟨t, ht⟩ : ∃ t : Fin cfg0.N, t.val = (i 0).val := ⟨⟨(i 0).val, by rw [show cfg0.N = 16 from N_0]; exact h0⟩, rfl⟩
  obtain ⟨f0, f1, f2, f3, f4, f5, f6, f7, f8, f9, f10, f11⟩ := idx_facts t
  refine ⟨t, flush0_3 t, ?_⟩
  rw [mem_blk8]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 32 ≤ (i 1).val ∧ (i 1).val < win0_3.index t (1 : Fin 4) * 32 + 32; omega
  | ⟨2, _⟩ => show win0_3.index t (2 : Fin 4) * 32 ≤ (i 2).val ∧ (i 2).val < win0_3.index t (2 : Fin 4) * 32 + 32; omega
  | ⟨3, _⟩ => show win0_3.index t (3 : Fin 4) * 512 ≤ (i 3).val ∧ (i 3).val < win0_3.index t (3 : Fin 4) * 512 + 512; omega

/-- The first kernel's result array at its exit. -/
theorem v8_eq : (W2 m ρ c (Proc.devRef .tc main_v8) : S16x32x32x512.Idx → EReal)
    = upMat (V1 m ρ c main_v0) (V1 m ρ c main_v3) (V1 m ρ c main_v7) := by
  refine (W2_arr m ρ c 3).trans ?_
  exact (dat0 (V1 m ρ) c).arrAt_eq_of_cover 3 _ (fun t _ => flushed8_eq m ρ c t) cover8

/-! ## The three arrays the first kernel reads: re-layouts of the input image, the transposed convolution's
    weights and its bias -/

/-- The input image, channels moved last. -/
theorem v0_apply (n : Fin 16) (a b : Fin 32) (ci : Fin 256) :
    (V1 m ρ c main_v0 : S16x32x32x256.Idx → EReal) (ix4 n a b ci) = aX m c n ci a b := by
  have e : (V1 m ρ c main_v0 : S16x32x32x256.Idx → EReal)
      = transpose S16x32x32x256 [0, 2, 3, 1] (m ((c.tc : Thread nD τ).loc main_arg0) : S16x256x32x32.Idx → EReal) transposes_S16x256x32x32_S16x32x32x256_0_2_3_1 := by
    show StableHlo.after hostOps0 (W0 m ρ c) (Proc.devRef .tc main_v0) = _
    after_results
  rw [e]
  exact transpose_apply _ _ _ _ (ix4 n ci a b) (fun b => match b with | ⟨0, _⟩ => rfl | ⟨1, _⟩ => rfl | ⟨2, _⟩ => rfl | ⟨3, _⟩ => rfl)

/-- The weight matrix: row `ci`, column `(ki * 2 + kj) * 128 + cc` holds the weight of input channel `ci`, output
    channel `cc`, tap `(ki, kj)`. -/
theorem v3_apply (ci : Fin 256) (ki kj : Fin 2) (cc : Fin 128) (q : Fin 512) (hq : q.val = (ki.val * 2 + kj.val) * 128 + cc.val) :
    (V1 m ρ c main_v3 : S256x512.Idx → EReal) (ix2 ci q) = aUW m c ci cc ki kj := by
  have e : (V1 m ρ c main_v3 : S256x512.Idx → EReal)
      = shapeCast S256x512 (transpose S256x2x2x128 [0, 2, 3, 1] (m ((c.tc : Thread nD τ).loc main_arg2) : S256x128x2x2.Idx → EReal) transposes_S256x128x2x2_S256x2x2x128_0_2_3_1) shapeCasts_S256x2x2x128_S256x512 := by
    show StableHlo.after hostOps0 (W0 m ρ c) (Proc.devRef .tc main_v3) = _
    after_results
    rfl
  rw [e]
  refine (shapeCast_apply _ _ _ (ix4 ci ki kj cc) (by
    rw [Shape.rowMajor_val_four, Shape.rowMajor_val_two]
    show ((ci.val * 2 + ki.val) * 2 + kj.val) * 128 + cc.val = ci.val * 512 + q.val
    omega)).trans ?_
  exact transpose_apply _ _ _ _ (ix4 ci cc ki kj) (fun b => match b with | ⟨0, _⟩ => rfl | ⟨1, _⟩ => rfl | ⟨2, _⟩ => rfl | ⟨3, _⟩ => rfl)

/-- The bias row: the bias vector four times over, once per tap. -/
theorem v7_apply (q : Fin 512) :
    (V1 m ρ c main_v7 : S1x512.Idx → EReal) (ix2 (0 : Fin 1) q) = aUB m c ⟨q.val % 128, Nat.mod_lt _ (by decide)⟩ := by
  have hq : q.val < 512 := q.isLt
  have e : (V1 m ρ c main_v7 : S1x512.Idx → EReal)
      = shapeCast S1x512 (shapeCast S512 (broadcastInDim S4x128 ![0, 1] bcast_S1x128_S4x128_0_1 (shapeCast S1x128 (m ((c.tc : Thread nD τ).loc main_arg3) : S128.Idx → EReal) shapeCasts_S128_S1x128)) shapeCasts_S4x128_S512) shapeCasts_S512_S1x512 := by
    show StableHlo.after hostOps0 (W0 m ρ c) (Proc.devRef .tc main_v7) = _
    after_results
    rfl
  rw [e]
  refine (shapeCast_a_1a_apply _ _ 0 q).trans ?_
  refine (shapeCast_apply _ _ _ (ix2 (⟨q.val / 128, by omega⟩ : Fin 4) (⟨q.val % 128, Nat.mod_lt _ (by decide)⟩ : Fin 128)) (by
    rw [Shape.rowMajor_val_two, Shape.rowMajor_val_one]
    show q.val / 128 * 128 + q.val % 128 = q.val
    omega)).trans ?_
  refine (broadcastInDim_apply _ _ _ _ (ix2 (0 : Fin 1) (⟨q.val % 128, Nat.mod_lt _ (by decide)⟩ : Fin 128)) (fun a => match a with | ⟨0, _⟩ => rfl | ⟨1, _⟩ => rfl)).trans ?_
  exact shapeCast_a_1a_apply _ _ 0 _

/-! ## The upsampled image at the second kernel's entry -/

/-- The 2 x 2 interleave of the first kernel's result is the transposed convolution: output pixel `(Y, Xc)` reads
    input pixel `(Y / 2, Xc / 2)` at the column of tap `(Y % 2, Xc % 2)` and channel `cc`. -/
theorem v11_apply (n : Fin 16) (Y Xc : Fin 64) (cc : Fin 128) :
    (Gen.V3 m ρ c main_v11 : S16x64x64x128.Idx → EReal) (ix4 n Y Xc cc)
      = Cert.UpBlockSpec.up (aX m c) (aUW m c) (aUB m c) n Y Xc cc := by
  have hn : n.val < 16 := n.isLt
  have hY : Y.val < 64 := Y.isLt
  have hX : Xc.val < 64 := Xc.isLt
  have hc : cc.val < 128 := cc.isLt
  have e : (Gen.V3 m ρ c main_v11 : S16x64x64x128.Idx → EReal)
      = shapeCast S16x64x64x128 (transpose S16x32x2x32x2x128 [0, 1, 3, 2, 4, 5] (shapeCast S16x32x32x2x2x128 (W2 m ρ c (Proc.devRef .tc main_v8) : S16x32x32x512.Idx → EReal) shapeCasts_S16x32x32x512_S16x32x32x2x2x128) transposes_S16x32x32x2x2x128_S16x32x2x32x2x128_0_1_3_2_4_5) shapeCasts_S16x32x2x32x2x128_S16x64x64x128 := by
    show StableHlo.after hostOps1 (W2 m ρ c) (Proc.devRef .tc main_v11) = _
    after_results
    rfl
  rw [e, v8_eq]
  refine (shapeCast_apply _ _ _ (ix6 n (Cert.UpBlockSpec.half Y) (Cert.UpBlockSpec.par Y) (Cert.UpBlockSpec.half Xc) (Cert.UpBlockSpec.par Xc) cc) (by
    rw [Shape.rowMajor_val_six, Shape.rowMajor_val_four]
    show ((((n.val * 32 + Y.val / 2) * 2 + Y.val % 2) * 32 + Xc.val / 2) * 2 + Xc.val % 2) * 128 + cc.val = ((n.val * 64 + Y.val) * 64 + Xc.val) * 128 + cc.val
    omega)).trans ?_
  refine (transpose_apply _ _ _ _ (ix6 n (Cert.UpBlockSpec.half Y) (Cert.UpBlockSpec.half Xc) (Cert.UpBlockSpec.par Y) (Cert.UpBlockSpec.par Xc) cc)
    (fun b => match b with | ⟨0, _⟩ => rfl | ⟨1, _⟩ => rfl | ⟨2, _⟩ => rfl | ⟨3, _⟩ => rfl | ⟨4, _⟩ => rfl | ⟨5, _⟩ => rfl)).trans ?_
  refine (shapeCast_apply _ _ _ (ix4 n (Cert.UpBlockSpec.half Y) (Cert.UpBlockSpec.half Xc) (⟨(Y.val % 2 * 2 + Xc.val % 2) * 128 + cc.val, by omega⟩ : Fin 512)) (by
    rw [Shape.rowMajor_val_four, Shape.rowMajor_val_six]
    show ((n.val * 32 + Y.val / 2) * 32 + Xc.val / 2) * 512 + ((Y.val % 2 * 2 + Xc.val % 2) * 128 + cc.val) = ((((n.val * 32 + Y.val / 2) * 32 + Xc.val / 2) * 2 + Y.val % 2) * 2 + Xc.val % 2) * 128 + cc.val
    omega)).trans ?_
  unfold upMat Cert.UpBlockSpec.up
  refine congrArg₂ (· + ·) (Finset.sum_congr rfl fun ci _ => congrArg₂ (· * ·) ?_ ?_) ?_
  · exact v0_apply m ρ c n (Cert.UpBlockSpec.half Y) (Cert.UpBlockSpec.half Xc) ci
  · exact v3_apply m ρ c ci (Cert.UpBlockSpec.par Y) (Cert.UpBlockSpec.par Xc) cc _ rfl
  · refine (v7_apply m ρ c _).trans ?_
    exact congrArg (aUB m c) (Fin.ext (by
      show ((Y.val % 2 * 2 + Xc.val % 2) * 128 + cc.val) % 128 = cc.val
      omega))

end Cert.ReferenceIdeal.RefValue
end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.RefConvBlock.lean ====
/-
  The reference's second kernel — the fused convolution block — at one grid point.

  For image `t` the body fills three 66 x 66 x 128 scratch images: the transposed convolution's block, the bridge's
  block and, later, the first convolution's result, each with one pixel of zero padding (two border rows and two
  border columns of zeros, then the 64 x 64 interior).  A 3 x 3 convolution is nine taps; tap `(dy, dx)` multiplies
  the 64 x 64 window of a padded image at offset `(dy, dx)`, flattened to 4096 rows, by that tap's 128 x 128 weights.
  The first convolution adds, tap by tap, the product over the first image and then the product over the second;
  bias and the leaky rectifier give the third image's interior; the second convolution adds its nine taps over the
  third image, then bias and rectifier; the identity branch is two more products of the unpadded blocks plus its
  bias; the stored block is the sum of the two branches.

  Read at pixel `(Y, Xc)` and channel `co` this is the specification's reference grouping `outR` of the ten
  arguments, once the ten input blocks of the grid point are read off the arrays the region finds: image `t` of the
  transposed convolution and of the bridge, and the whole weight and bias arrays.
-/
import proofs.«142322_g2000305194121171_pallasbulk_194_3_alg».proof.Proof.RefArgs
import proofs.«142322_g2000305194121171_pallasbulk_194_3_alg».proof.Proof.LibPieces
import proofs.«142322_g2000305194121171_pallasbulk_194_3_alg».proof.Proof.LibPlainDot
import Idealize.ShloMosaic.Lib.ValueIdx
import Idealize.ShloMosaic.Lib.Pipeline.Value
import Idealize.ShloMosaic.Lib.Pipeline.FrameBody
import Idealize.ShloMosaic.Lib.StableHlo.Run
import Idealize.ShloMosaic.PureOps.Ideal.Laws

set_option maxRecDepth 16384

noncomputable section

namespace Cert.ReferenceIdeal.RefValue

open Cert.ReferenceIdeal Cert.ReferenceIdeal.Gen Cert.LibPieces
open Idealize.ShloMosaic Idealize.ShloMosaic.TcCoe Idealize.ShloMosaic.ValueIdx
open Idealize.ShloMosaic.Pipeline (Dat Cfg Window)

/-! ## Indices, layouts and single reads -/

theorem forall_fin3 {P : Fin 3 → Prop} (h0 : P 0) (h1 : P 1) (h2 : P 2) : ∀ a, P a := by
  intro a; fin_cases a
  · exact h0
  · exact h1
  · exact h2

/-- Row `Y`, column `Xc` of a 64 x 64 image in the flattened 4096 rows. -/
def fl (Y Xc : Fin 64) : Fin 4096 := ⟨Y.val * 64 + Xc.val, by omega⟩

/-- A 64 x 64 x 128 block viewed as 4096 x 128, read at row `fl Y Xc`. -/
theorem cast_flat {α : Type} (A : S64x64x128.Idx → α) (Y Xc : Fin 64) (cc : Fin 128) :
    shapeCast S4096x128 A shapeCasts_S64x64x128_S4096x128 (ix2 (fl Y Xc) cc) = A (ix3 Y Xc cc) := by
  refine shapeCast_apply A _ _ (ix3 Y Xc cc) ?_
  rw [Shape.rowMajor_val_three, Shape.rowMajor_val_two]
  show (Y.val * 64 + Xc.val) * 128 + cc.val = (Y.val * 64 + Xc.val) * 128 + cc.val
  rfl

/-- A 4096 x 128 array viewed as 64 x 64 x 128. -/
theorem cast_unflat {α : Type} (A : S4096x128.Idx → α) (Y Xc : Fin 64) (cc : Fin 128) :
    shapeCast S64x64x128 A shapeCasts_S4096x128_S64x64x128 (ix3 Y Xc cc) = A (ix2 (fl Y Xc) cc) := by
  refine shapeCast_apply A _ _ (ix2 (fl Y Xc) cc) ?_
  rw [Shape.rowMajor_val_three, Shape.rowMajor_val_two]
  show (Y.val * 64 + Xc.val) * 128 + cc.val = (Y.val * 64 + Xc.val) * 128 + cc.val
  rfl

/-- A one-image block without its unit axis. -/
theorem cast_drop1 {α : Type} (x : S1x64x64x128.Idx → α) (Y Xc : Fin 64) (cc : Fin 128) :
    shapeCast S64x64x128 x shapeCasts_S1x64x64x128_S64x64x128 (ix3 Y Xc cc) = x (ix4 0 Y Xc cc) := by
  refine shapeCast_apply x _ _ (ix4 0 Y Xc cc) ?_
  rw [Shape.rowMajor_val_three, Shape.rowMajor_val_four]
  show ((0 * 64 + Y.val) * 64 + Xc.val) * 128 + cc.val = (Y.val * 64 + Xc.val) * 128 + cc.val
  omega

/-- And with it put back. -/
theorem cast_add1 {α : Type} (x : S64x64x128.Idx → α) (Y Xc : Fin 64) (cc : Fin 128) :
    shapeCast S1x64x64x128 x shapeCasts_S64x64x128_S1x64x64x128 (ix4 0 Y Xc cc) = x (ix3 Y Xc cc) := by
  refine shapeCast_apply x _ _ (ix3 Y Xc cc) ?_
  rw [Shape.rowMajor_val_three, Shape.rowMajor_val_four]
  show (Y.val * 64 + Xc.val) * 128 + cc.val = ((0 * 64 + Y.val) * 64 + Xc.val) * 128 + cc.val
  omega

/-- One tap's 128 x 128 weights without the unit axis. -/
theorem cast_w {α : Type} (w : S1x128x128.Idx → α) (cc co : Fin 128) :
    shapeCast S128x128 w shapeCasts_S1x128x128_S128x128 (ix2 cc co) = w (ix3 0 cc co) := by
  refine shapeCast_apply w _ _ (ix3 0 cc co) ?_
  rw [Shape.rowMajor_val_three, Shape.rowMajor_val_two]
  show (0 * 128 + cc.val) * 128 + co.val = cc.val * 128 + co.val
  omega

/-- A bias row spread over the 4096 rows. -/
theorem bias_row {α : Type} (b : S1x128.Idx → α) (p : Fin 4096) (co : Fin 128) :
    broadcastTo S4096x128 (shapeCast S1x128 b shapeCasts_S1x128_S1x128) broadcasts_S1x128_S4096x128 (ix2 p co) = b (ix2 0 co) := by
  rw [shapeCast_self]
  refine broadcastTo_apply b _ _ (ix2 0 co) ?_
  intro a
  match a with
  | ⟨0, _⟩ => rfl
  | ⟨1, _⟩ => rfl

/-! ## Reads of the input blocks -/

variable {sg : RefSig} {κ : Kind} {sp : Space}

theorem zero4 : (![0, 0, 0, 0] : Fin 4 → Nat) = fun _ => 0 := by
  funext a; fin_cases a <;> rfl
theorem zero2 : (![0, 0] : Fin 2 → Nat) = fun _ => 0 := by
  funext a; fin_cases a <;> rfl

/-- A whole staging buffer read through its whole rectangle is its contents. -/
theorem read_whole {S : Shape} {e : EltTy} (arg : Memref sig .tc .vmem S e) (harg : arg.IsWhole) (x : Vec Ideal S e)
    (off : Fin S.rank → Nat) (hz : off = fun _ => 0) (inb : ∀ a, off a + S.size a ≤ S.size a) :
    View.readAt (Elt Ideal) arg.view (Rect.unit (s := S) off S.size inb).toLoadRect (harg.unread x) = x := by
  rw [View.readAt_eq_ld, harg.read_unread, View.ld_unit_zero hz]

/-- Tap `k`'s slice of a 9 x 128 x 128 weight buffer. -/
theorem read_tap (arg : Memref sig .tc .vmem S9x128x128 .f32) (harg : arg.IsWhole) (x : Vec Ideal S9x128x128 .f32)
    (off : Fin 3 → Nat) (inb : ∀ a, off a + S1x128x128.size a ≤ S9x128x128.size a) (k : Fin 9)
    (h0 : off 0 = k.val) (h1 : off 1 = 0) (h2 : off 2 = 0) (cc co : Fin 128) :
    View.readAt (Elt Ideal) arg.view (Rect.unit (s := S9x128x128) off S1x128x128.size inb).toLoadRect (harg.unread x) (ix3 0 cc co)
      = x (ix3 k cc co) := by
  rw [View.readAt_eq_ld, harg.read_unread]
  show x ((Rect.unit (s := S9x128x128) off S1x128x128.size inb).toLoadRect.idx (ix3 0 cc co)) = _
  refine congrArg x (funext fun a => Fin.ext ?_)
  match a with
  | ⟨0, _⟩ => show off 0 + 1 * 0 = k.val; omega
  | ⟨1, _⟩ => show off 1 + 1 * cc.val = cc.val; omega
  | ⟨2, _⟩ => show off 2 + 1 * co.val = co.val; omega

/-! ## The padded scratch images -/

/-- A 64 x 64 x 128 window of a 66 x 66 x 128 image written as pieces, at offset `(dy, dx, 0)`. -/
theorem window_read (v : View sg κ sp S66x66x128 .f32) (L : List (View.Piece (Elt Ideal) S66x66x128 .f32))
    (off : Fin 3 → Nat) (inb : ∀ a, off a + S64x64x128.size a ≤ S66x66x128.size a) (dy dx : Fin 3)
    (h0 : off 0 = dy.val) (h1 : off 1 = dx.val) (h2 : off 2 = 0) (a b : Fin 64) (cc : Fin 128) :
    v.readCov L (Rect.unit (s := S66x66x128) off S64x64x128.size inb).toLoadRect (ix3 a b cc)
      = View.canon L (ix3 (UpBlockSpec.sh a dy) (UpBlockSpec.sh b dx) cc) := by
  refine (congrFun (View.readCov_eq_canon' v L _) _).trans ?_
  refine congrArg (View.canon L) (funext fun d => Fin.ext ?_)
  match d with
  | ⟨0, _⟩ => show off 0 + 1 * a.val = a.val + dy.val; omega
  | ⟨1, _⟩ => show off 1 + 1 * b.val = b.val + dx.val; omega
  | ⟨2, _⟩ => show off 2 + 1 * cc.val = cc.val; omega

/-- Five pieces — the interior block, then column 65, column 0, row 65 and row 0 filled with zeros — are the block
    with one pixel of zero padding. -/
theorem pad_canon (M : S64x64x128.Idx → EReal) (w1 w2 : S66x1x128.Idx → EReal) (w3 w4 : S1x66x128.Idx → EReal)
    (z1 : ∀ j, w1 j = 0) (z2 : ∀ j, w2 j = 0) (z3 : ∀ j, w3 j = 0) (z4 : ∀ j, w4 j = 0)
    (i0 : ∀ a, (![1, 1, 0] : Fin 3 → Nat) a + S64x64x128.size a ≤ S66x66x128.size a)
    (i1 : ∀ a, (![0, 65, 0] : Fin 3 → Nat) a + S66x1x128.size a ≤ S66x66x128.size a)
    (i2 : ∀ a, (![0, 0, 0] : Fin 3 → Nat) a + S66x1x128.size a ≤ S66x66x128.size a)
    (i3 : ∀ a, (![65, 0, 0] : Fin 3 → Nat) a + S1x66x128.size a ≤ S66x66x128.size a)
    (i4 : ∀ a, (![0, 0, 0] : Fin 3 → Nat) a + S1x66x128.size a ≤ S66x66x128.size a)
    (y x : Fin 66) (cc : Fin 128) :
    View.canon (Val := Elt Ideal) (s := S66x66x128) (e := .f32)
        [⟨Rect.unit (s := S66x66x128) ![1, 1, 0] S64x64x128.size i0, M⟩,
         ⟨Rect.unit (s := S66x66x128) ![0, 65, 0] S66x1x128.size i1, w1⟩,
         ⟨Rect.unit (s := S66x66x128) ![0, 0, 0] S66x1x128.size i2, w2⟩,
         ⟨Rect.unit (s := S66x66x128) ![65, 0, 0] S1x66x128.size i3, w3⟩,
         ⟨Rect.unit (s := S66x66x128) ![0, 0, 0] S1x66x128.size i4, w4⟩] (ix3 y x cc)
      = UpBlockSpec.pad (fun a b => M (ix3 a b cc)) y x := by
  have by_ : y.val < 66 := y.isLt
  have bx : x.val < 66 := x.isLt
  have bc : cc.val < 128 := cc.isLt
  unfold UpBlockSpec.pad
  by_cases hin : 1 ≤ y.val ∧ y.val ≤ 64 ∧ 1 ≤ x.val ∧ x.val ≤ 64
  · rw [dif_pos hin, canon_cons_unit_of_mem _ _ _ _ _ (ix3 y x cc) (forall_fin3 (show 1 ≤ y.val ∧ y.val < 1 + 64 by omega) (show 1 ≤ x.val ∧ x.val < 1 + 64 by omega) (show 0 ≤ cc.val ∧ cc.val < 0 + 128 by omega))]
    refine congrArg M (funext fun d => Fin.ext ?_)
    match d with
    | ⟨0, _⟩ => rfl
    | ⟨1, _⟩ => rfl
    | ⟨2, _⟩ => rfl
  · rw [dif_neg hin, canon_cons_unit_of_not_mem _ _ _ _ _ (ix3 y x cc) (fun h => by
      have hy : 1 ≤ y.val ∧ y.val < 1 + 64 := h 0
      have hx : 1 ≤ x.val ∧ x.val < 1 + 64 := h 1
      omega)]
    by_cases hx65 : x.val = 65
    · rw [canon_cons_unit_of_mem _ _ _ _ _ (ix3 y x cc) (forall_fin3 (show 0 ≤ y.val ∧ y.val < 0 + 66 by omega) (show 65 ≤ x.val ∧ x.val < 65 + 1 by omega) (show 0 ≤ cc.val ∧ cc.val < 0 + 128 by omega))]
      exact z1 _
    rw [canon_cons_unit_of_not_mem _ _ _ _ _ (ix3 y x cc) (fun h => by
      have hx : 65 ≤ x.val ∧ x.val < 65 + 1 := h 1
      omega)]
    by_cases hx0 : x.val = 0
    · rw [canon_cons_unit_of_mem _ _ _ _ _ (ix3 y x cc) (forall_fin3 (show 0 ≤ y.val ∧ y.val < 0 + 66 by omega) (show 0 ≤ x.val ∧ x.val < 0 + 1 by omega) (show 0 ≤ cc.val ∧ cc.val < 0 + 128 by omega))]
      exact z2 _
    rw [canon_cons_unit_of_not_mem _ _ _ _ _ (ix3 y x cc) (fun h => by
      have hx : 0 ≤ x.val ∧ x.val < 0 + 1 := h 1
      omega)]
    by_cases hy65 : y.val = 65
    · rw [canon_cons_unit_of_mem _ _ _ _ _ (ix3 y x cc) (forall_fin3 (show 65 ≤ y.val ∧ y.val < 65 + 1 by omega) (show 0 ≤ x.val ∧ x.val < 0 + 66 by omega) (show 0 ≤ cc.val ∧ cc.val < 0 + 128 by omega))]
      exact z3 _
    rw [canon_cons_unit_of_not_mem _ _ _ _ _ (ix3 y x cc) (fun h => by
      have hy : 65 ≤ y.val ∧ y.val < 65 + 1 := h 0
      omega)]
    rw [canon_cons_unit_of_mem _ _ _ _ _ (ix3 y x cc) (forall_fin3 (show 0 ≤ y.val ∧ y.val < 0 + 1 by omega) (show 0 ≤ x.val ∧ x.val < 0 + 66 by omega) (show 0 ≤ cc.val ∧ cc.val < 0 + 128 by omega))]
    exact z4 _

/-- The zero fills of the borders. -/
theorem zero_row (j : S1x66x128.Idx) :
    shapeCast S1x66x128 (broadcast S1x66x128 (Scalar.ofBits (F := Ideal) .f32 0x00000000#32)) shapeCasts_S1x66x128_S1x66x128 j = (0 : EReal) := by
  rw [shapeCast_self]
  exact Ideal.ofBits_zero_f32
theorem zero_col (j : S66x1x128.Idx) :
    shapeCast S66x1x128 (broadcast S66x1x128 (Scalar.ofBits (F := Ideal) .f32 0x00000000#32)) shapeCasts_S66x1x128_S66x1x128 j = (0 : EReal) := by
  rw [shapeCast_self]
  exact Ideal.ofBits_zero_f32

/-! ## Matrix products and the tap sums -/

theorem zero_bits : (Scalar.ofBits (F := Ideal) .f32 0x00000000#32 : EReal) = 0 := Ideal.ofBits_zero_f32

/-- One tap: a window's 128 channels against the tap's 128 x 128 weights. -/
def tap (A : S64x64x128.Idx → EReal) (W : S1x128x128.Idx → EReal) (Y Xc : Fin 64) (co : Fin 128) : EReal :=
  ∑ cc : Fin 128, A (ix3 Y Xc cc) * W (ix3 0 cc co)

/-- The same with the window already flattened. -/
def tapF (A : S4096x128.Idx → EReal) (W : S1x128x128.Idx → EReal) (Y Xc : Fin 64) (co : Fin 128) : EReal :=
  ∑ cc : Fin 128, A (ix2 (fl Y Xc) cc) * W (ix3 0 cc co)

theorem mm_flat (A : FVec Ideal S4096x128 .f32) (W : FVec Ideal S128x128 .f32) (p : Fin 4096) (co : Fin 128) :
    matmul dot_S4096x128_S128x128_S4096x128_1_0_0_1_n_n none A W (constant S4096x128 .f32 0x00000000#32) (ix2 p co)
      = ∑ cc : Fin 128, A (ix2 p cc) * W (ix2 cc co) :=
  congrFun (Cert.Lib.PlainDot.matmul_zero_eq dot_S4096x128_S128x128_S4096x128_1_0_0_1_n_n rfl none A W) (ix2 p co)

theorem mm_tapF (A : FVec Ideal S4096x128 .f32) (W : Vec Ideal S1x128x128 .f32) (Y Xc : Fin 64) (co : Fin 128) :
    matmul dot_S4096x128_S128x128_S4096x128_1_0_0_1_n_n none A (shapeCast S128x128 W shapeCasts_S1x128x128_S128x128 : FVec Ideal S128x128 .f32)
        (constant S4096x128 .f32 0x00000000#32) (ix2 (fl Y Xc) co) = tapF A W Y Xc co := by
  refine (mm_flat _ _ _ _).trans ?_
  unfold tapF
  exact Finset.sum_congr rfl fun cc _ => congrArg (A (ix2 (fl Y Xc) cc) * ·) (cast_w W cc co)

theorem mm_tap (A : Vec Ideal S64x64x128 .f32) (W : Vec Ideal S1x128x128 .f32) (Y Xc : Fin 64) (co : Fin 128) :
    matmul dot_S4096x128_S128x128_S4096x128_1_0_0_1_n_n none (shapeCast S4096x128 A shapeCasts_S64x64x128_S4096x128 : FVec Ideal S4096x128 .f32)
        (shapeCast S128x128 W shapeCasts_S1x128x128_S128x128 : FVec Ideal S128x128 .f32)
        (constant S4096x128 .f32 0x00000000#32) (ix2 (fl Y Xc) co) = tap A W Y Xc co := by
  refine (mm_flat _ _ _ _).trans ?_
  unfold tap
  exact Finset.sum_congr rfl fun cc _ => congrArg₂ (· * ·) (cast_flat A Y Xc cc) (cast_w W cc co)

/-- The identity branch's two products: 128 x 128 weights with no unit axis. -/
theorem mm_id (x : Vec Ideal S1x64x64x128 .f32) (W : Vec Ideal S128x128 .f32) (Y Xc : Fin 64) (co : Fin 128) :
    matmul dot_S4096x128_S128x128_S4096x128_1_0_0_1_n_n none
        (shapeCast S4096x128 (shapeCast S64x64x128 x shapeCasts_S1x64x64x128_S64x64x128 : FVec Ideal S64x64x128 .f32) shapeCasts_S64x64x128_S4096x128 : FVec Ideal S4096x128 .f32)
        (shapeCast S128x128 W shapeCasts_S128x128_S128x128 : FVec Ideal S128x128 .f32)
        (constant S4096x128 .f32 0x00000000#32) (ix2 (fl Y Xc) co) = ∑ cc : Fin 128, x (ix4 0 Y Xc cc) * W (ix2 cc co) := by
  refine (mm_flat _ _ _ _).trans ?_
  exact Finset.sum_congr rfl fun cc _ => congrArg₂ (· * ·) ((cast_flat _ Y Xc cc).trans (cast_drop1 x Y Xc cc)) (congrFun (shapeCast_self W shapeCasts_S128x128_S128x128) (ix2 cc co))

/-! ## The payloads at an index -/

section Payloads
variable (Y Xc : Fin 64) (co : Fin 128)

theorem pay23_at (v53 v55 : Vec Ideal S64x64x128 .f32) (v57 v61 : Vec Ideal S1x128x128 .f32) (v65 v67 : Vec Ideal S64x64x128 .f32) (v69 v73 : Vec Ideal S1x128x128 .f32) :
    k1_pay23 v53 v55 v57 v61 v65 v67 v69 v73 (ix2 (fl Y Xc) co)
      = ((((0 + tap v53 v57 Y Xc co) + tap v55 v61 Y Xc co) + tap v65 v69 Y Xc co) + tap v67 v73 Y Xc co) := by
  unfold k1_pay23
  simp only [addf_apply, broadcast_apply, mm_tap, zero_bits]

theorem pay24_at (v76 : FVec Ideal S4096x128 .f32) (v77 v79 : Vec Ideal S64x64x128 .f32) (v81 v85 : Vec Ideal S1x128x128 .f32) (v89 v91 : Vec Ideal S64x64x128 .f32) (v93 v97 : Vec Ideal S1x128x128 .f32) :
    k1_pay24 v76 v77 v79 v81 v85 v89 v91 v93 v97 (ix2 (fl Y Xc) co)
      = ((((v76 (ix2 (fl Y Xc) co) + tap v77 v81 Y Xc co) + tap v79 v85 Y Xc co) + tap v89 v93 Y Xc co) + tap v91 v97 Y Xc co) := by
  unfold k1_pay24
  simp only [addf_apply, mm_tap]

theorem pay28_at (v100 v102 v104 : FVec Ideal S4096x128 .f32) (v105 v109 : Vec Ideal S1x128x128 .f32) (v113 v115 : Vec Ideal S64x64x128 .f32) (v117 v121 : Vec Ideal S1x128x128 .f32) (v125 : Vec Ideal S64x64x128 .f32) (v129 : Vec Ideal S1x128x128 .f32) :
    k1_pay28 v100 v102 v104 v105 v109 v113 v115 v117 v121 v125 v129 (ix2 (fl Y Xc) co)
      = (((((v100 (ix2 (fl Y Xc) co) + tapF v102 v105 Y Xc co) + tapF v104 v109 Y Xc co) + tap v113 v117 Y Xc co) + tap v115 v121 Y Xc co) + tap v125 v129 Y Xc co) := by
  unfold k1_pay28
  simp only [addf_apply, mm_tap]
  simp only [mm_tapF]

theorem pay29_at (v128 v132 : FVec Ideal S4096x128 .f32) (v133 : Vec Ideal S1x128x128 .f32) (v137 v139 : Vec Ideal S64x64x128 .f32) (v141 v145 : Vec Ideal S1x128x128 .f32) (v149 v151 : Vec Ideal S64x64x128 .f32) (v153 v157 : Vec Ideal S1x128x128 .f32) :
    k1_pay29 v128 v132 v133 v137 v139 v141 v145 v149 v151 v153 v157 (ix2 (fl Y Xc) co)
      = (((((v132 (ix2 (fl Y Xc) co) + tapF v128 v133 Y Xc co) + tap v137 v141 Y Xc co) + tap v139 v145 Y Xc co) + tap v149 v153 Y Xc co) + tap v151 v157 Y Xc co) := by
  unfold k1_pay29
  simp only [addf_apply, mm_tap]
  simp only [mm_tapF]

theorem flat_at (v : Vec Ideal S64x64x128 .f32) (cc : Fin 128) :
    shapeCast S4096x128 v shapeCasts_S64x64x128_S4096x128 (ix2 (fl Y Xc) cc) = v (ix3 Y Xc cc) := cast_flat v Y Xc cc

theorem pay30_at (v160 : FVec Ideal S4096x128 .f32) (v161 : Vec Ideal S1x128 .f32) :
    k1_pay30 v160 v161 (ix3 Y Xc co) = UpBlockSpec.leaky (v160 (ix2 (fl Y Xc) co) + v161 (ix2 0 co)) := by
  unfold k1_pay30
  rw [shapeCast_self, cast_unflat]
  simp only [select_apply, cmpf_apply, mulf_apply, addf_apply, broadcast_apply, bias_row]
  rfl

theorem pay31_at (v175 : Vec Ideal S64x64x128 .f32) (v177 : Vec Ideal S1x128x128 .f32) (v181 : Vec Ideal S64x64x128 .f32) (v183 : Vec Ideal S1x128x128 .f32) :
    k1_pay31 v175 v177 v181 v183 (ix2 (fl Y Xc) co) = ((0 + tap v175 v177 Y Xc co) + tap v181 v183 Y Xc co) := by
  unfold k1_pay31
  simp only [addf_apply, broadcast_apply, mm_tap, zero_bits]

theorem pay32_at (v187 : Vec Ideal S64x64x128 .f32) (v189 : Vec Ideal S1x128x128 .f32) :
    k1_pay32 v187 v189 (ix2 (fl Y Xc) co) = tap v187 v189 Y Xc co := by
  unfold k1_pay32
  exact mm_tap _ _ _ _ _

theorem pay33_at (v186 v191 : FVec Ideal S4096x128 .f32) (v193 : Vec Ideal S64x64x128 .f32) (v195 : Vec Ideal S1x128x128 .f32) (v199 : Vec Ideal S64x64x128 .f32) (v201 : Vec Ideal S1x128x128 .f32) (v205 : Vec Ideal S64x64x128 .f32) (v207 : Vec Ideal S1x128x128 .f32) (v211 : Vec Ideal S64x64x128 .f32) (v213 : Vec Ideal S1x128x128 .f32) :
    k1_pay33 v186 v191 v193 v195 v199 v201 v205 v207 v211 v213 (ix2 (fl Y Xc) co)
      = (((((v186 (ix2 (fl Y Xc) co) + v191 (ix2 (fl Y Xc) co)) + tap v193 v195 Y Xc co) + tap v199 v201 Y Xc co) + tap v205 v207 Y Xc co) + tap v211 v213 Y Xc co) := by
  unfold k1_pay33
  simp only [addf_apply, mm_tap]

theorem pay35_at (v216 v218 : FVec Ideal S4096x128 .f32) (v219 : Vec Ideal S1x128x128 .f32) (v223 : Vec Ideal S64x64x128 .f32) (v225 : Vec Ideal S1x128x128 .f32) (v229 : Vec Ideal S1x128 .f32) :
    k1_pay35 v216 v218 v219 v223 v225 v229 (ix2 (fl Y Xc) co)
      = UpBlockSpec.leaky (((v216 (ix2 (fl Y Xc) co) + tapF v218 v219 Y Xc co) + tap v223 v225 Y Xc co) + v229 (ix2 0 co)) := by
  unfold k1_pay35
  simp only [select_apply, cmpf_apply, mulf_apply, addf_apply, broadcast_apply, bias_row, mm_tap]
  simp only [mm_tapF]
  rfl

theorem pay36_at (v238 v241 : Vec Ideal S1x64x64x128 .f32) (v244 v247 : Vec Ideal S128x128 .f32) :
    k1_pay36 v238 v241 v244 v247 (ix2 (fl Y Xc) co)
      = (∑ cc : Fin 128, v238 (ix4 0 Y Xc cc) * v244 (ix2 cc co)) + (∑ cc : Fin 128, v241 (ix4 0 Y Xc cc) * v247 (ix2 cc co)) := by
  unfold k1_pay36
  simp only [addf_apply, mm_id]

theorem pay1_at (v237 v250 : FVec Ideal S4096x128 .f32) (v251 : Vec Ideal S1x128 .f32) :
    k1_pay1 v237 v250 v251 (ix4 0 Y Xc co) = v237 (ix2 (fl Y Xc) co) + (v250 (ix2 (fl Y Xc) co) + v251 (ix2 0 co)) := by
  unfold k1_pay1
  rw [cast_add1, cast_unflat]
  simp only [addf_apply, bias_row]

end Payloads

/-! ## The three padded images of one grid point -/

theorem z4 (j : S1x66x128.Idx) : (k1_pay4 (F := Ideal)) j = 0 := by
  unfold k1_pay4 k1_pay2; exact zero_row j
theorem z5 (j : S1x66x128.Idx) : (k1_pay5 (F := Ideal)) j = 0 := by
  unfold k1_pay5 k1_pay2; exact zero_row j
theorem z6 (j : S66x1x128.Idx) : (k1_pay6 (F := Ideal)) j = 0 := by
  unfold k1_pay6 k1_pay3; exact zero_col j
theorem z7 (j : S66x1x128.Idx) : (k1_pay7 (F := Ideal)) j = 0 := by
  unfold k1_pay7 k1_pay3; exact zero_col j
theorem z10 (j : S1x66x128.Idx) : (k1_pay10 (F := Ideal)) j = 0 := by
  unfold k1_pay10 k1_pay8; exact zero_row j
theorem z11 (j : S1x66x128.Idx) : (k1_pay11 (F := Ideal)) j = 0 := by
  unfold k1_pay11 k1_pay8; exact zero_row j
theorem z12 (j : S66x1x128.Idx) : (k1_pay12 (F := Ideal)) j = 0 := by
  unfold k1_pay12 k1_pay9; exact zero_col j
theorem z13 (j : S66x1x128.Idx) : (k1_pay13 (k1_pay9 (F := Ideal))) j = 0 := by
  unfold k1_pay13 k1_pay9; exact zero_col j
theorem z16 (j : S1x66x128.Idx) : (k1_pay16 (F := Ideal)) j = 0 := by
  unfold k1_pay16 k1_pay14; exact zero_row j
theorem z17 (j : S1x66x128.Idx) : (k1_pay17 (F := Ideal)) j = 0 := by
  unfold k1_pay17 k1_pay14; exact zero_row j
theorem z18 (j : S66x1x128.Idx) : (k1_pay18 (F := Ideal)) j = 0 := by
  unfold k1_pay18 k1_pay15; exact zero_col j
theorem z19 (j : S66x1x128.Idx) : (k1_pay19 (F := Ideal)) j = 0 := by
  unfold k1_pay19 k1_pay15; exact zero_col j

/-- The first image's interior is the transposed convolution's block. -/
theorem up_interior (arg1 : Memref sig .tc .vmem S1x64x64x128 .f32) (harg1 : arg1.IsWhole) (x0 : Vec Ideal S1x64x64x128 .f32) (a b : Fin 64) (cc : Fin 128) :
    k1_pay20 (View.readAt (Elt Ideal) arg1.view (Rect.unit (s := S1x64x64x128) ![0, 0, 0, 0] S1x64x64x128.size inb_S1x64x64x128_S1x64x64x128_0_0_0_0).toLoadRect (harg1.unread x0)) (ix3 a b cc) = x0 (ix4 0 a b cc) := by
  unfold k1_pay20
  simp only [shapeCast_self, cast_drop1, read_whole arg1 harg1 x0 _ zero4]

/-- The second image's interior is the bridge's block. -/
theorem br_interior (c : Dev nD) (arg2 : Memref sig .tc .vmem S1x64x64x128 .f32) (harg2 : arg2.IsWhole) (x1 : Vec Ideal S1x64x64x128 .f32) (a b : Fin 64) (cc : Fin 128) :
    k1_pay22 (kernelRun1_A.sl.r c arg2 harg2 x1) (ix3 a b cc) = x1 (ix4 0 a b cc) := by
  unfold k1_pay22 kernelRun1_A.sl.r k1_pay21
  simp only [shapeCast_self, cast_drop1, read_whole arg2 harg2 x1 _ zero4]

theorem up_win (c : Dev nD) (arg1 : Memref sig .tc .vmem S1x64x64x128 .f32) (harg1 : arg1.IsWhole) (arg12 : Memref sig .tc .vmem S66x66x128 .f32) (x0 : Vec Ideal S1x64x64x128 .f32) (off : Fin 3 → Nat) (inb : ∀ a, off a + S64x64x128.size a ≤ S66x66x128.size a) (dy dx : Fin 3) (h0 : off 0 = dy.val) (h1 : off 1 = dx.val) (h2 : off 2 = 0) (a b : Fin 64) (cc : Fin 128) :
    (arg12.view.readCov (kernelRun1_A.sl.HS0_5 c arg1 harg1 x0) (Rect.unit (s := S66x66x128) off S64x64x128.size inb).toLoadRect) (ix3 a b cc)
      = UpBlockSpec.pad (fun p q => x0 (ix4 0 p q cc)) (UpBlockSpec.sh a dy) (UpBlockSpec.sh b dx) := by
  rw [window_read arg12.view _ off inb dy dx h0 h1 h2 a b cc]
  unfold kernelRun1_A.sl.HS0_5
  rw [pad_canon _ _ _ _ _ z7 z6 z5 z4]
  refine congrArg (fun f => UpBlockSpec.pad f (UpBlockSpec.sh a dy) (UpBlockSpec.sh b dx)) ?_
  funext p q
  exact up_interior arg1 harg1 x0 p q cc

theorem br_win (c : Dev nD) (arg2 : Memref sig .tc .vmem S1x64x64x128 .f32) (harg2 : arg2.IsWhole) (arg13 : Memref sig .tc .vmem S66x66x128 .f32) (x1 : Vec Ideal S1x64x64x128 .f32) (off : Fin 3 → Nat) (inb : ∀ a, off a + S64x64x128.size a ≤ S66x66x128.size a) (dy dx : Fin 3) (h0 : off 0 = dy.val) (h1 : off 1 = dx.val) (h2 : off 2 = 0) (a b : Fin 64) (cc : Fin 128) :
    (arg13.view.readCov (kernelRun1_A.sl.HS1_5 c arg2 harg2 x1) (Rect.unit (s := S66x66x128) off S64x64x128.size inb).toLoadRect) (ix3 a b cc)
      = UpBlockSpec.pad (fun p q => x1 (ix4 0 p q cc)) (UpBlockSpec.sh a dy) (UpBlockSpec.sh b dx) := by
  rw [window_read arg13.view _ off inb dy dx h0 h1 h2 a b cc]
  unfold kernelRun1_A.sl.HS1_5
  rw [pad_canon _ _ _ _ _ z13 z12 z11 z10]
  refine congrArg (fun f => UpBlockSpec.pad f (UpBlockSpec.sh a dy) (UpBlockSpec.sh b dx)) ?_
  funext p q
  exact br_interior c arg2 harg2 x1 p q cc

/-! ## The first convolution -/

theorem tapF_flat (v : Vec Ideal S64x64x128 .f32) (W : Vec Ideal S1x128x128 .f32) (Y Xc : Fin 64) (co : Fin 128) :
    tapF (shapeCast S4096x128 v shapeCasts_S64x64x128_S4096x128) W Y Xc co = tap v W Y Xc co := by
  unfold tapF tap
  exact Finset.sum_congr rfl fun cc _ => congrArg (· * W (ix3 0 cc co)) (cast_flat v Y Xc cc)

theorem tapU_at (c : Dev nD) (arg1 : Memref sig .tc .vmem S1x64x64x128 .f32) (harg1 : arg1.IsWhole) (arg3 : Memref sig .tc .vmem S9x128x128 .f32) (harg3 : arg3.IsWhole) (arg12 : Memref sig .tc .vmem S66x66x128 .f32) (x0 : Vec Ideal S1x64x64x128 .f32) (x2 : Vec Ideal S9x128x128 .f32) (X : Fin 16 → Fin 256 → Fin 32 → Fin 32 → EReal) (Br : Fin 16 → Fin 128 → Fin 64 → Fin 64 → EReal) (UW : Fin 256 → Fin 128 → Fin 2 → Fin 2 → EReal) (UB : Fin 128 → EReal) (W1 : Fin 128 → Fin 256 → Fin 3 → Fin 3 → EReal) (B1 : Fin 128 → EReal) (W2 : Fin 128 → Fin 128 → Fin 3 → Fin 3 → EReal) (B2 : Fin 128 → EReal) (WID : Fin 128 → Fin 256 → EReal) (BID : Fin 128 → EReal) (n : Fin 16) (hx0 : ∀ a b cc, x0 (ix4 0 a b cc) = UpBlockSpec.up X UW UB n a b cc) (hx2 : ∀ (k : Fin 9) cc co, x2 (ix3 k cc co) = W1 co (UpBlockSpec.lo cc) ⟨k.val / 3, by omega⟩ ⟨k.val % 3, by omega⟩)
    (off : Fin 3 → Nat) (inb : ∀ a, off a + S64x64x128.size a ≤ S66x66x128.size a) (dy dx : Fin 3) (h0 : off 0 = dy.val) (h1 : off 1 = dx.val) (h2 : off 2 = 0) (offw : Fin 3 → Nat) (inbw : ∀ a, offw a + S1x128x128.size a ≤ S9x128x128.size a) (k : Fin 9) (hdy : dy.val = k.val / 3) (hdx : dx.val = k.val % 3) (g0 : offw 0 = k.val) (g1 : offw 1 = 0) (g2 : offw 2 = 0) (Y Xc : Fin 64) (co : Fin 128) :
    tap (arg12.view.readCov (kernelRun1_A.sl.HS0_5 c arg1 harg1 x0) (Rect.unit (s := S66x66x128) off S64x64x128.size inb).toLoadRect) (View.readAt (Elt Ideal) arg3.view (Rect.unit (s := S9x128x128) offw S1x128x128.size inbw).toLoadRect (harg3.unread x2)) Y Xc co
      = UpBlockSpec.tapU X UW UB W1 n Y Xc co dy dx := by
  unfold tap UpBlockSpec.tapU
  refine Finset.sum_congr rfl fun cc _ => ?_
  have e1 : (⟨k.val / 3, by omega⟩ : Fin 3) = dy := Fin.ext hdy.symm
  have e2 : (⟨k.val % 3, by omega⟩ : Fin 3) = dx := Fin.ext hdx.symm
  rw [up_win c arg1 harg1 arg12 x0 off inb dy dx h0 h1 h2, read_tap arg3 harg3 x2 offw inbw k g0 g1 g2, hx2, e1, e2]
  simp only [hx0]

theorem tapB_at (c : Dev nD) (arg2 : Memref sig .tc .vmem S1x64x64x128 .f32) (harg2 : arg2.IsWhole) (arg4 : Memref sig .tc .vmem S9x128x128 .f32) (harg4 : arg4.IsWhole) (arg13 : Memref sig .tc .vmem S66x66x128 .f32) (x1 : Vec Ideal S1x64x64x128 .f32) (x3 : Vec Ideal S9x128x128 .f32) (X : Fin 16 → Fin 256 → Fin 32 → Fin 32 → EReal) (Br : Fin 16 → Fin 128 → Fin 64 → Fin 64 → EReal) (UW : Fin 256 → Fin 128 → Fin 2 → Fin 2 → EReal) (UB : Fin 128 → EReal) (W1 : Fin 128 → Fin 256 → Fin 3 → Fin 3 → EReal) (B1 : Fin 128 → EReal) (W2 : Fin 128 → Fin 128 → Fin 3 → Fin 3 → EReal) (B2 : Fin 128 → EReal) (WID : Fin 128 → Fin 256 → EReal) (BID : Fin 128 → EReal) (n : Fin 16) (hx1 : ∀ a b cc, x1 (ix4 0 a b cc) = Br n cc a b) (hx3 : ∀ (k : Fin 9) cc co, x3 (ix3 k cc co) = W1 co (UpBlockSpec.hi cc) ⟨k.val / 3, by omega⟩ ⟨k.val % 3, by omega⟩)
    (off : Fin 3 → Nat) (inb : ∀ a, off a + S64x64x128.size a ≤ S66x66x128.size a) (dy dx : Fin 3) (h0 : off 0 = dy.val) (h1 : off 1 = dx.val) (h2 : off 2 = 0) (offw : Fin 3 → Nat) (inbw : ∀ a, offw a + S1x128x128.size a ≤ S9x128x128.size a) (k : Fin 9) (hdy : dy.val = k.val / 3) (hdx : dx.val = k.val % 3) (g0 : offw 0 = k.val) (g1 : offw 1 = 0) (g2 : offw 2 = 0) (Y Xc : Fin 64) (co : Fin 128) :
    tap (arg13.view.readCov (kernelRun1_A.sl.HS1_5 c arg2 harg2 x1) (Rect.unit (s := S66x66x128) off S64x64x128.size inb).toLoadRect) (View.readAt (Elt Ideal) arg4.view (Rect.unit (s := S9x128x128) offw S1x128x128.size inbw).toLoadRect (harg4.unread x3)) Y Xc co
      = UpBlockSpec.tapB Br W1 n Y Xc co dy dx := by
  unfold tap UpBlockSpec.tapB
  refine Finset.sum_congr rfl fun cc _ => ?_
  have e1 : (⟨k.val / 3, by omega⟩ : Fin 3) = dy := Fin.ext hdy.symm
  have e2 : (⟨k.val % 3, by omega⟩ : Fin 3) = dx := Fin.ext hdx.symm
  rw [br_win c arg2 harg2 arg13 x1 off inb dy dx h0 h1 h2, read_tap arg4 harg4 x3 offw inbw k g0 g1 g2, hx3, e1, e2]
  simp only [hx1]

/-- The first convolution's accumulator, tap by tap. -/
theorem acc1_at (c : Dev nD) (arg1 : Memref sig .tc .vmem S1x64x64x128 .f32) (harg1 : arg1.IsWhole) (arg2 : Memref sig .tc .vmem S1x64x64x128 .f32) (harg2 : arg2.IsWhole) (arg3 : Memref sig .tc .vmem S9x128x128 .f32) (harg3 : arg3.IsWhole) (arg4 : Memref sig .tc .vmem S9x128x128 .f32) (harg4 : arg4.IsWhole) (arg12 : Memref sig .tc .vmem S66x66x128 .f32) (arg13 : Memref sig .tc .vmem S66x66x128 .f32) (x0 : Vec Ideal S1x64x64x128 .f32) (x1 : Vec Ideal S1x64x64x128 .f32) (x2 : Vec Ideal S9x128x128 .f32) (x3 : Vec Ideal S9x128x128 .f32) (X : Fin 16 → Fin 256 → Fin 32 → Fin 32 → EReal) (Br : Fin 16 → Fin 128 → Fin 64 → Fin 64 → EReal) (UW : Fin 256 → Fin 128 → Fin 2 → Fin 2 → EReal) (UB : Fin 128 → EReal) (W1 : Fin 128 → Fin 256 → Fin 3 → Fin 3 → EReal) (B1 : Fin 128 → EReal) (W2 : Fin 128 → Fin 128 → Fin 3 → Fin 3 → EReal) (B2 : Fin 128 → EReal) (WID : Fin 128 → Fin 256 → EReal) (BID : Fin 128 → EReal) (n : Fin 16) (hx0 : ∀ a b cc, x0 (ix4 0 a b cc) = UpBlockSpec.up X UW UB n a b cc) (hx1 : ∀ a b cc, x1 (ix4 0 a b cc) = Br n cc a b) (hx2 : ∀ (k : Fin 9) cc co, x2 (ix3 k cc co) = W1 co (UpBlockSpec.lo cc) ⟨k.val / 3, by omega⟩ ⟨k.val % 3, by omega⟩) (hx3 : ∀ (k : Fin 9) cc co, x3 (ix3 k cc co) = W1 co (UpBlockSpec.hi cc) ⟨k.val / 3, by omega⟩ ⟨k.val % 3, by omega⟩) (Y Xc : Fin 64) (co : Fin 128) :
    kernelRun1_A.sl.r_7 c arg1 harg1 arg2 harg2 arg3 harg3 arg4 harg4 arg12 arg13 x0 x1 x2 x3 (ix2 (fl Y Xc) co) = UpBlockSpec.acc1R X Br UW UB W1 n Y Xc co := by
  unfold kernelRun1_A.sl.r_7
  rw [pay29_at]
  unfold kernelRun1_A.sl.r_6
  rw [pay28_at]
  unfold kernelRun1_A.sl.r_2
  rw [pay24_at]
  unfold kernelRun1_A.sl.r_1
  rw [pay23_at]
  unfold kernelRun1_A.sl.r_3 kernelRun1_A.sl.r_4 kernelRun1_A.sl.r_5 k1_pay25 k1_pay26 k1_pay27
  simp only [tapF_flat]
  unfold kernelRun1_A.sl.v53 kernelRun1_A.sl.v65 kernelRun1_A.sl.v77 kernelRun1_A.sl.v89 kernelRun1_A.sl.v101 kernelRun1_A.sl.v113 kernelRun1_A.sl.v125 kernelRun1_A.sl.v137 kernelRun1_A.sl.v149 kernelRun1_A.sl.v55 kernelRun1_A.sl.v67 kernelRun1_A.sl.v79 kernelRun1_A.sl.v91 kernelRun1_A.sl.v103 kernelRun1_A.sl.v115 kernelRun1_A.sl.v127 kernelRun1_A.sl.v139 kernelRun1_A.sl.v151
  rw [tapU_at c arg1 harg1 arg3 harg3 arg12 x0 x2 X Br UW UB W1 B1 W2 B2 WID BID n hx0 hx2 ![0, 0, 0] inb_S66x66x128_S64x64x128_0_0_0 0 0 rfl rfl rfl ![0, 0, 0] inb_S9x128x128_S1x128x128_0_0_0 0 rfl rfl rfl rfl rfl Y Xc co,
    tapB_at c arg2 harg2 arg4 harg4 arg13 x1 x3 X Br UW UB W1 B1 W2 B2 WID BID n hx1 hx3 ![0, 0, 0] inb_S66x66x128_S64x64x128_0_0_0 0 0 rfl rfl rfl ![0, 0, 0] inb_S9x128x128_S1x128x128_0_0_0 0 rfl rfl rfl rfl rfl Y Xc co,
    tapU_at c arg1 harg1 arg3 harg3 arg12 x0 x2 X Br UW UB W1 B1 W2 B2 WID BID n hx0 hx2 ![0, 1, 0] inb_S66x66x128_S64x64x128_0_1_0 0 1 rfl rfl rfl ![1, 0, 0] inb_S9x128x128_S1x128x128_1_0_0 1 rfl rfl rfl rfl rfl Y Xc co,
    tapB_at c arg2 harg2 arg4 harg4 arg13 x1 x3 X Br UW UB W1 B1 W2 B2 WID BID n hx1 hx3 ![0, 1, 0] inb_S66x66x128_S64x64x128_0_1_0 0 1 rfl rfl rfl ![1, 0, 0] inb_S9x128x128_S1x128x128_1_0_0 1 rfl rfl rfl rfl rfl Y Xc co,
    tapU_at c arg1 harg1 arg3 harg3 arg12 x0 x2 X Br UW UB W1 B1 W2 B2 WID BID n hx0 hx2 ![0, 2, 0] inb_S66x66x128_S64x64x128_0_2_0 0 2 rfl rfl rfl ![2, 0, 0] inb_S9x128x128_S1x128x128_2_0_0 2 rfl rfl rfl rfl rfl Y Xc co,
    tapB_at c arg2 harg2 arg4 harg4 arg13 x1 x3 X Br UW UB W1 B1 W2 B2 WID BID n hx1 hx3 ![0, 2, 0] inb_S66x66x128_S64x64x128_0_2_0 0 2 rfl rfl rfl ![2, 0, 0] inb_S9x128x128_S1x128x128_2_0_0 2 rfl rfl rfl rfl rfl Y Xc co,
    tapU_at c arg1 harg1 arg3 harg3 arg12 x0 x2 X Br UW UB W1 B1 W2 B2 WID BID n hx0 hx2 ![1, 0, 0] inb_S66x66x128_S64x64x128_1_0_0 1 0 rfl rfl rfl ![3, 0, 0] inb_S9x128x128_S1x128x128_3_0_0 3 rfl rfl rfl rfl rfl Y Xc co,
    tapB_at c arg2 harg2 arg4 harg4 arg13 x1 x3 X Br UW UB W1 B1 W2 B2 WID BID n hx1 hx3 ![1, 0, 0] inb_S66x66x128_S64x64x128_1_0_0 1 0 rfl rfl rfl ![3, 0, 0] inb_S9x128x128_S1x128x128_3_0_0 3 rfl rfl rfl rfl rfl Y Xc co,
    tapU_at c arg1 harg1 arg3 harg3 arg12 x0 x2 X Br UW UB W1 B1 W2 B2 WID BID n hx0 hx2 ![1, 1, 0] inb_S66x66x128_S64x64x128_1_1_0 1 1 rfl rfl rfl ![4, 0, 0] inb_S9x128x128_S1x128x128_4_0_0 4 rfl rfl rfl rfl rfl Y Xc co,
    tapB_at c arg2 harg2 arg4 harg4 arg13 x1 x3 X Br UW UB W1 B1 W2 B2 WID BID n hx1 hx3 ![1, 1, 0] inb_S66x66x128_S64x64x128_1_1_0 1 1 rfl rfl rfl ![4, 0, 0] inb_S9x128x128_S1x128x128_4_0_0 4 rfl rfl rfl rfl rfl Y Xc co,
    tapU_at c arg1 harg1 arg3 harg3 arg12 x0 x2 X Br UW UB W1 B1 W2 B2 WID BID n hx0 hx2 ![1, 2, 0] inb_S66x66x128_S64x64x128_1_2_0 1 2 rfl rfl rfl ![5, 0, 0] inb_S9x128x128_S1x128x128_5_0_0 5 rfl rfl rfl rfl rfl Y Xc co,
    tapB_at c arg2 harg2 arg4 harg4 arg13 x1 x3 X Br UW UB W1 B1 W2 B2 WID BID n hx1 hx3 ![1, 2, 0] inb_S66x66x128_S64x64x128_1_2_0 1 2 rfl rfl rfl ![5, 0, 0] inb_S9x128x128_S1x128x128_5_0_0 5 rfl rfl rfl rfl rfl Y Xc co,
    tapU_at c arg1 harg1 arg3 harg3 arg12 x0 x2 X Br UW UB W1 B1 W2 B2 WID BID n hx0 hx2 ![2, 0, 0] inb_S66x66x128_S64x64x128_2_0_0 2 0 rfl rfl rfl ![6, 0, 0] inb_S9x128x128_S1x128x128_6_0_0 6 rfl rfl rfl rfl rfl Y Xc co,
    tapB_at c arg2 harg2 arg4 harg4 arg13 x1 x3 X Br UW UB W1 B1 W2 B2 WID BID n hx1 hx3 ![2, 0, 0] inb_S66x66x128_S64x64x128_2_0_0 2 0 rfl rfl rfl ![6, 0, 0] inb_S9x128x128_S1x128x128_6_0_0 6 rfl rfl rfl rfl rfl Y Xc co,
    tapU_at c arg1 harg1 arg3 harg3 arg12 x0 x2 X Br UW UB W1 B1 W2 B2 WID BID n hx0 hx2 ![2, 1, 0] inb_S66x66x128_S64x64x128_2_1_0 2 1 rfl rfl rfl ![7, 0, 0] inb_S9x128x128_S1x128x128_7_0_0 7 rfl rfl rfl rfl rfl Y Xc co,
    tapB_at c arg2 harg2 arg4 harg4 arg13 x1 x3 X Br UW UB W1 B1 W2 B2 WID BID n hx1 hx3 ![2, 1, 0] inb_S66x66x128_S64x64x128_2_1_0 2 1 rfl rfl rfl ![7, 0, 0] inb_S9x128x128_S1x128x128_7_0_0 7 rfl rfl rfl rfl rfl Y Xc co,
    tapU_at c arg1 harg1 arg3 harg3 arg12 x0 x2 X Br UW UB W1 B1 W2 B2 WID BID n hx0 hx2 ![2, 2, 0] inb_S66x66x128_S64x64x128_2_2_0 2 2 rfl rfl rfl ![8, 0, 0] inb_S9x128x128_S1x128x128_8_0_0 8 rfl rfl rfl rfl rfl Y Xc co,
    tapB_at c arg2 harg2 arg4 harg4 arg13 x1 x3 X Br UW UB W1 B1 W2 B2 WID BID n hx1 hx3 ![2, 2, 0] inb_S66x66x128_S64x64x128_2_2_0 2 2 rfl rfl rfl ![8, 0, 0] inb_S9x128x128_S1x128x128_8_0_0 8 rfl rfl rfl rfl rfl Y Xc co]
  rfl

/-- The third image's interior is the first convolution after bias and rectifier. -/
theorem y1_interior (c : Dev nD) (arg1 : Memref sig .tc .vmem S1x64x64x128 .f32) (harg1 : arg1.IsWhole) (arg2 : Memref sig .tc .vmem S1x64x64x128 .f32) (harg2 : arg2.IsWhole) (arg3 : Memref sig .tc .vmem S9x128x128 .f32) (harg3 : arg3.IsWhole) (arg4 : Memref sig .tc .vmem S9x128x128 .f32) (harg4 : arg4.IsWhole) (arg5 : Memref sig .tc .vmem S1x128 .f32) (harg5 : arg5.IsWhole) (arg12 : Memref sig .tc .vmem S66x66x128 .f32) (arg13 : Memref sig .tc .vmem S66x66x128 .f32) (x0 : Vec Ideal S1x64x64x128 .f32) (x1 : Vec Ideal S1x64x64x128 .f32) (x2 : Vec Ideal S9x128x128 .f32) (x3 : Vec Ideal S9x128x128 .f32) (x4 : Vec Ideal S1x128 .f32) (X : Fin 16 → Fin 256 → Fin 32 → Fin 32 → EReal) (Br : Fin 16 → Fin 128 → Fin 64 → Fin 64 → EReal) (UW : Fin 256 → Fin 128 → Fin 2 → Fin 2 → EReal) (UB : Fin 128 → EReal) (W1 : Fin 128 → Fin 256 → Fin 3 → Fin 3 → EReal) (B1 : Fin 128 → EReal) (W2 : Fin 128 → Fin 128 → Fin 3 → Fin 3 → EReal) (B2 : Fin 128 → EReal) (WID : Fin 128 → Fin 256 → EReal) (BID : Fin 128 → EReal) (n : Fin 16) (hx0 : ∀ a b cc, x0 (ix4 0 a b cc) = UpBlockSpec.up X UW UB n a b cc) (hx1 : ∀ a b cc, x1 (ix4 0 a b cc) = Br n cc a b) (hx2 : ∀ (k : Fin 9) cc co, x2 (ix3 k cc co) = W1 co (UpBlockSpec.lo cc) ⟨k.val / 3, by omega⟩ ⟨k.val % 3, by omega⟩) (hx3 : ∀ (k : Fin 9) cc co, x3 (ix3 k cc co) = W1 co (UpBlockSpec.hi cc) ⟨k.val / 3, by omega⟩ ⟨k.val % 3, by omega⟩) (hx4 : ∀ co, x4 (ix2 0 co) = B1 co) (a b : Fin 64) (cc : Fin 128) :
    k1_pay30 (kernelRun1_A.sl.r_7 c arg1 harg1 arg2 harg2 arg3 harg3 arg4 harg4 arg12 arg13 x0 x1 x2 x3) (View.readAt (Elt Ideal) arg5.view (Rect.unit (s := S1x128) ![0, 0] S1x128.size inb_S1x128_S1x128_0_0).toLoadRect (harg5.unread x4)) (ix3 a b cc)
      = UpBlockSpec.y1R X Br UW UB W1 B1 n a b cc := by
  rw [pay30_at, acc1_at c arg1 harg1 arg2 harg2 arg3 harg3 arg4 harg4 arg12 arg13 x0 x1 x2 x3 X Br UW UB W1 B1 W2 B2 WID BID n hx0 hx1 hx2 hx3, read_whole arg5 harg5 x4 _ zero2, hx4]
  rfl

theorem y1_win (c : Dev nD) (arg1 : Memref sig .tc .vmem S1x64x64x128 .f32) (harg1 : arg1.IsWhole) (arg2 : Memref sig .tc .vmem S1x64x64x128 .f32) (harg2 : arg2.IsWhole) (arg3 : Memref sig .tc .vmem S9x128x128 .f32) (harg3 : arg3.IsWhole) (arg4 : Memref sig .tc .vmem S9x128x128 .f32) (harg4 : arg4.IsWhole) (arg5 : Memref sig .tc .vmem S1x128 .f32) (harg5 : arg5.IsWhole) (arg12 : Memref sig .tc .vmem S66x66x128 .f32) (arg13 : Memref sig .tc .vmem S66x66x128 .f32) (x0 : Vec Ideal S1x64x64x128 .f32) (x1 : Vec Ideal S1x64x64x128 .f32) (x2 : Vec Ideal S9x128x128 .f32) (x3 : Vec Ideal S9x128x128 .f32) (x4 : Vec Ideal S1x128 .f32) (X : Fin 16 → Fin 256 → Fin 32 → Fin 32 → EReal) (Br : Fin 16 → Fin 128 → Fin 64 → Fin 64 → EReal) (UW : Fin 256 → Fin 128 → Fin 2 → Fin 2 → EReal) (UB : Fin 128 → EReal) (W1 : Fin 128 → Fin 256 → Fin 3 → Fin 3 → EReal) (B1 : Fin 128 → EReal) (W2 : Fin 128 → Fin 128 → Fin 3 → Fin 3 → EReal) (B2 : Fin 128 → EReal) (WID : Fin 128 → Fin 256 → EReal) (BID : Fin 128 → EReal) (n : Fin 16) (hx0 : ∀ a b cc, x0 (ix4 0 a b cc) = UpBlockSpec.up X UW UB n a b cc) (hx1 : ∀ a b cc, x1 (ix4 0 a b cc) = Br n cc a b) (hx2 : ∀ (k : Fin 9) cc co, x2 (ix3 k cc co) = W1 co (UpBlockSpec.lo cc) ⟨k.val / 3, by omega⟩ ⟨k.val % 3, by omega⟩) (hx3 : ∀ (k : Fin 9) cc co, x3 (ix3 k cc co) = W1 co (UpBlockSpec.hi cc) ⟨k.val / 3, by omega⟩ ⟨k.val % 3, by omega⟩) (hx4 : ∀ co, x4 (ix2 0 co) = B1 co) (arg14 : Memref sig .tc .vmem S66x66x128 .f32) (off : Fin 3 → Nat) (inb : ∀ a, off a + S64x64x128.size a ≤ S66x66x128.size a) (dy dx : Fin 3) (h0 : off 0 = dy.val) (h1 : off 1 = dx.val) (h2 : off 2 = 0) (a b : Fin 64) (cc : Fin 128) :
    (arg14.view.readCov (kernelRun1_A.sl.HS2_5 c arg1 harg1 arg2 harg2 arg3 harg3 arg4 harg4 arg5 harg5 arg12 arg13 x0 x1 x2 x3 x4) (Rect.unit (s := S66x66x128) off S64x64x128.size inb).toLoadRect) (ix3 a b cc)
      = UpBlockSpec.pad (fun p q => UpBlockSpec.y1R X Br UW UB W1 B1 n p q cc) (UpBlockSpec.sh a dy) (UpBlockSpec.sh b dx) := by
  rw [window_read arg14.view _ off inb dy dx h0 h1 h2 a b cc]
  unfold kernelRun1_A.sl.HS2_5
  rw [pad_canon _ _ _ _ _ z19 z18 z17 z16]
  refine congrArg (fun f => UpBlockSpec.pad f (UpBlockSpec.sh a dy) (UpBlockSpec.sh b dx)) ?_
  funext p q
  exact y1_interior c arg1 harg1 arg2 harg2 arg3 harg3 arg4 harg4 arg5 harg5 arg12 arg13 x0 x1 x2 x3 x4 X Br UW UB W1 B1 W2 B2 WID BID n hx0 hx1 hx2 hx3 hx4 p q cc

/-! ## The second convolution -/

theorem tap2_at (c : Dev nD) (arg1 : Memref sig .tc .vmem S1x64x64x128 .f32) (harg1 : arg1.IsWhole) (arg2 : Memref sig .tc .vmem S1x64x64x128 .f32) (harg2 : arg2.IsWhole) (arg3 : Memref sig .tc .vmem S9x128x128 .f32) (harg3 : arg3.IsWhole) (arg4 : Memref sig .tc .vmem S9x128x128 .f32) (harg4 : arg4.IsWhole) (arg5 : Memref sig .tc .vmem S1x128 .f32) (harg5 : arg5.IsWhole) (arg6 : Memref sig .tc .vmem S9x128x128 .f32) (harg6 : arg6.IsWhole) (arg12 : Memref sig .tc .vmem S66x66x128 .f32) (arg13 : Memref sig .tc .vmem S66x66x128 .f32) (arg14 : Memref sig .tc .vmem S66x66x128 .f32) (x0 : Vec Ideal S1x64x64x128 .f32) (x1 : Vec Ideal S1x64x64x128 .f32) (x2 : Vec Ideal S9x128x128 .f32) (x3 : Vec Ideal S9x128x128 .f32) (x4 : Vec Ideal S1x128 .f32) (x5 : Vec Ideal S9x128x128 .f32) (X : Fin 16 → Fin 256 → Fin 32 → Fin 32 → EReal) (Br : Fin 16 → Fin 128 → Fin 64 → Fin 64 → EReal) (UW : Fin 256 → Fin 128 → Fin 2 → Fin 2 → EReal) (UB : Fin 128 → EReal) (W1 : Fin 128 → Fin 256 → Fin 3 → Fin 3 → EReal) (B1 : Fin 128 → EReal) (W2 : Fin 128 → Fin 128 → Fin 3 → Fin 3 → EReal) (B2 : Fin 128 → EReal) (WID : Fin 128 → Fin 256 → EReal) (BID : Fin 128 → EReal) (n : Fin 16) (hx0 : ∀ a b cc, x0 (ix4 0 a b cc) = UpBlockSpec.up X UW UB n a b cc) (hx1 : ∀ a b cc, x1 (ix4 0 a b cc) = Br n cc a b) (hx2 : ∀ (k : Fin 9) cc co, x2 (ix3 k cc co) = W1 co (UpBlockSpec.lo cc) ⟨k.val / 3, by omega⟩ ⟨k.val % 3, by omega⟩) (hx3 : ∀ (k : Fin 9) cc co, x3 (ix3 k cc co) = W1 co (UpBlockSpec.hi cc) ⟨k.val / 3, by omega⟩ ⟨k.val % 3, by omega⟩) (hx4 : ∀ co, x4 (ix2 0 co) = B1 co) (hx5 : ∀ (k : Fin 9) cc co, x5 (ix3 k cc co) = W2 co cc ⟨k.val / 3, by omega⟩ ⟨k.val % 3, by omega⟩) (off : Fin 3 → Nat) (inb : ∀ a, off a + S64x64x128.size a ≤ S66x66x128.size a) (dy dx : Fin 3) (h0 : off 0 = dy.val) (h1 : off 1 = dx.val) (h2 : off 2 = 0) (offw : Fin 3 → Nat) (inbw : ∀ a, offw a + S1x128x128.size a ≤ S9x128x128.size a) (k : Fin 9) (hdy : dy.val = k.val / 3) (hdx : dx.val = k.val % 3) (g0 : offw 0 = k.val) (g1 : offw 1 = 0) (g2 : offw 2 = 0) (Y Xc : Fin 64) (co : Fin 128) :
    tap (arg14.view.readCov (kernelRun1_A.sl.HS2_5 c arg1 harg1 arg2 harg2 arg3 harg3 arg4 harg4 arg5 harg5 arg12 arg13 x0 x1 x2 x3 x4) (Rect.unit (s := S66x66x128) off S64x64x128.size inb).toLoadRect) (View.readAt (Elt Ideal) arg6.view (Rect.unit (s := S9x128x128) offw S1x128x128.size inbw).toLoadRect (harg6.unread x5)) Y Xc co
      = UpBlockSpec.tap2R X Br UW UB W1 B1 W2 n Y Xc co dy dx := by
  unfold tap UpBlockSpec.tap2R
  refine Finset.sum_congr rfl fun cc _ => ?_
  have e1 : (⟨k.val / 3, by omega⟩ : Fin 3) = dy := Fin.ext hdy.symm
  have e2 : (⟨k.val % 3, by omega⟩ : Fin 3) = dx := Fin.ext hdx.symm
  rw [y1_win c arg1 harg1 arg2 harg2 arg3 harg3 arg4 harg4 arg5 harg5 arg12 arg13 x0 x1 x2 x3 x4 X Br UW UB W1 B1 W2 B2 WID BID n hx0 hx1 hx2 hx3 hx4 arg14 off inb dy dx h0 h1 h2, read_tap arg6 harg6 x5 offw inbw k g0 g1 g2, hx5, e1, e2]

theorem y2_at (c : Dev nD) (arg1 : Memref sig .tc .vmem S1x64x64x128 .f32) (harg1 : arg1.IsWhole) (arg2 : Memref sig .tc .vmem S1x64x64x128 .f32) (harg2 : arg2.IsWhole) (arg3 : Memref sig .tc .vmem S9x128x128 .f32) (harg3 : arg3.IsWhole) (arg4 : Memref sig .tc .vmem S9x128x128 .f32) (harg4 : arg4.IsWhole) (arg5 : Memref sig .tc .vmem S1x128 .f32) (harg5 : arg5.IsWhole) (arg6 : Memref sig .tc .vmem S9x128x128 .f32) (harg6 : arg6.IsWhole) (arg7 : Memref sig .tc .vmem S1x128 .f32) (harg7 : arg7.IsWhole) (arg12 : Memref sig .tc .vmem S66x66x128 .f32) (arg13 : Memref sig .tc .vmem S66x66x128 .f32) (arg14 : Memref sig .tc .vmem S66x66x128 .f32) (x0 : Vec Ideal S1x64x64x128 .f32) (x1 : Vec Ideal S1x64x64x128 .f32) (x2 : Vec Ideal S9x128x128 .f32) (x3 : Vec Ideal S9x128x128 .f32) (x4 : Vec Ideal S1x128 .f32) (x5 : Vec Ideal S9x128x128 .f32) (x6 : Vec Ideal S1x128 .f32) (X : Fin 16 → Fin 256 → Fin 32 → Fin 32 → EReal) (Br : Fin 16 → Fin 128 → Fin 64 → Fin 64 → EReal) (UW : Fin 256 → Fin 128 → Fin 2 → Fin 2 → EReal) (UB : Fin 128 → EReal) (W1 : Fin 128 → Fin 256 → Fin 3 → Fin 3 → EReal) (B1 : Fin 128 → EReal) (W2 : Fin 128 → Fin 128 → Fin 3 → Fin 3 → EReal) (B2 : Fin 128 → EReal) (WID : Fin 128 → Fin 256 → EReal) (BID : Fin 128 → EReal) (n : Fin 16) (hx0 : ∀ a b cc, x0 (ix4 0 a b cc) = UpBlockSpec.up X UW UB n a b cc) (hx1 : ∀ a b cc, x1 (ix4 0 a b cc) = Br n cc a b) (hx2 : ∀ (k : Fin 9) cc co, x2 (ix3 k cc co) = W1 co (UpBlockSpec.lo cc) ⟨k.val / 3, by omega⟩ ⟨k.val % 3, by omega⟩) (hx3 : ∀ (k : Fin 9) cc co, x3 (ix3 k cc co) = W1 co (UpBlockSpec.hi cc) ⟨k.val / 3, by omega⟩ ⟨k.val % 3, by omega⟩) (hx4 : ∀ co, x4 (ix2 0 co) = B1 co) (hx5 : ∀ (k : Fin 9) cc co, x5 (ix3 k cc co) = W2 co cc ⟨k.val / 3, by omega⟩ ⟨k.val % 3, by omega⟩) (hx6 : ∀ co, x6 (ix2 0 co) = B2 co) (Y Xc : Fin 64) (co : Fin 128) :
    kernelRun1_A.sl.r_12 c arg1 harg1 arg2 harg2 arg3 harg3 arg4 harg4 arg5 harg5 arg6 harg6 arg7 harg7 arg12 arg13 arg14 x0 x1 x2 x3 x4 x5 x6 (ix2 (fl Y Xc) co) = UpBlockSpec.y2R X Br UW UB W1 B1 W2 B2 n Y Xc co := by
  unfold kernelRun1_A.sl.r_12
  rw [pay35_at]
  unfold kernelRun1_A.sl.r_10
  rw [pay33_at]
  unfold kernelRun1_A.sl.r_8 kernelRun1_A.sl.r_9
  rw [pay31_at, pay32_at]
  unfold kernelRun1_A.sl.r_11 k1_pay34
  simp only [tapF_flat]
  unfold kernelRun1_A.sl.v175 kernelRun1_A.sl.v181 kernelRun1_A.sl.v187 kernelRun1_A.sl.v193 kernelRun1_A.sl.v199 kernelRun1_A.sl.v205 kernelRun1_A.sl.v211 kernelRun1_A.sl.v217 kernelRun1_A.sl.v223
  rw [tap2_at c arg1 harg1 arg2 harg2 arg3 harg3 arg4 harg4 arg5 harg5 arg6 harg6 arg12 arg13 arg14 x0 x1 x2 x3 x4 x5 X Br UW UB W1 B1 W2 B2 WID BID n hx0 hx1 hx2 hx3 hx4 hx5 ![0, 0, 0] inb_S66x66x128_S64x64x128_0_0_0 0 0 rfl rfl rfl ![0, 0, 0] inb_S9x128x128_S1x128x128_0_0_0 0 rfl rfl rfl rfl rfl Y Xc co,
    tap2_at c arg1 harg1 arg2 harg2 arg3 harg3 arg4 harg4 arg5 harg5 arg6 harg6 arg12 arg13 arg14 x0 x1 x2 x3 x4 x5 X Br UW UB W1 B1 W2 B2 WID BID n hx0 hx1 hx2 hx3 hx4 hx5 ![0, 1, 0] inb_S66x66x128_S64x64x128_0_1_0 0 1 rfl rfl rfl ![1, 0, 0] inb_S9x128x128_S1x128x128_1_0_0 1 rfl rfl rfl rfl rfl Y Xc co,
    tap2_at c arg1 harg1 arg2 harg2 arg3 harg3 arg4 harg4 arg5 harg5 arg6 harg6 arg12 arg13 arg14 x0 x1 x2 x3 x4 x5 X Br UW UB W1 B1 W2 B2 WID BID n hx0 hx1 hx2 hx3 hx4 hx5 ![0, 2, 0] inb_S66x66x128_S64x64x128_0_2_0 0 2 rfl rfl rfl ![2, 0, 0] inb_S9x128x128_S1x128x128_2_0_0 2 rfl rfl rfl rfl rfl Y Xc co,
    tap2_at c arg1 harg1 arg2 harg2 arg3 harg3 arg4 harg4 arg5 harg5 arg6 harg6 arg12 arg13 arg14 x0 x1 x2 x3 x4 x5 X Br UW UB W1 B1 W2 B2 WID BID n hx0 hx1 hx2 hx3 hx4 hx5 ![1, 0, 0] inb_S66x66x128_S64x64x128_1_0_0 1 0 rfl rfl rfl ![3, 0, 0] inb_S9x128x128_S1x128x128_3_0_0 3 rfl rfl rfl rfl rfl Y Xc co,
    tap2_at c arg1 harg1 arg2 harg2 arg3 harg3 arg4 harg4 arg5 harg5 arg6 harg6 arg12 arg13 arg14 x0 x1 x2 x3 x4 x5 X Br UW UB W1 B1 W2 B2 WID BID n hx0 hx1 hx2 hx3 hx4 hx5 ![1, 1, 0] inb_S66x66x128_S64x64x128_1_1_0 1 1 rfl rfl rfl ![4, 0, 0] inb_S9x128x128_S1x128x128_4_0_0 4 rfl rfl rfl rfl rfl Y Xc co,
    tap2_at c arg1 harg1 arg2 harg2 arg3 harg3 arg4 harg4 arg5 harg5 arg6 harg6 arg12 arg13 arg14 x0 x1 x2 x3 x4 x5 X Br UW UB W1 B1 W2 B2 WID BID n hx0 hx1 hx2 hx3 hx4 hx5 ![1, 2, 0] inb_S66x66x128_S64x64x128_1_2_0 1 2 rfl rfl rfl ![5, 0, 0] inb_S9x128x128_S1x128x128_5_0_0 5 rfl rfl rfl rfl rfl Y Xc co,
    tap2_at c arg1 harg1 arg2 harg2 arg3 harg3 arg4 harg4 arg5 harg5 arg6 harg6 arg12 arg13 arg14 x0 x1 x2 x3 x4 x5 X Br UW UB W1 B1 W2 B2 WID BID n hx0 hx1 hx2 hx3 hx4 hx5 ![2, 0, 0] inb_S66x66x128_S64x64x128_2_0_0 2 0 rfl rfl rfl ![6, 0, 0] inb_S9x128x128_S1x128x128_6_0_0 6 rfl rfl rfl rfl rfl Y Xc co,
    tap2_at c arg1 harg1 arg2 harg2 arg3 harg3 arg4 harg4 arg5 harg5 arg6 harg6 arg12 arg13 arg14 x0 x1 x2 x3 x4 x5 X Br UW UB W1 B1 W2 B2 WID BID n hx0 hx1 hx2 hx3 hx4 hx5 ![2, 1, 0] inb_S66x66x128_S64x64x128_2_1_0 2 1 rfl rfl rfl ![7, 0, 0] inb_S9x128x128_S1x128x128_7_0_0 7 rfl rfl rfl rfl rfl Y Xc co,
    tap2_at c arg1 harg1 arg2 harg2 arg3 harg3 arg4 harg4 arg5 harg5 arg6 harg6 arg12 arg13 arg14 x0 x1 x2 x3 x4 x5 X Br UW UB W1 B1 W2 B2 WID BID n hx0 hx1 hx2 hx3 hx4 hx5 ![2, 2, 0] inb_S66x66x128_S64x64x128_2_2_0 2 2 rfl rfl rfl ![8, 0, 0] inb_S9x128x128_S1x128x128_8_0_0 8 rfl rfl rfl rfl rfl Y Xc co,
    read_whole arg7 harg7 x6 _ zero2, hx6]
  rfl

/-! ## The identity branch and the block -/

theorem ident_at (c : Dev nD) (arg1 : Memref sig .tc .vmem S1x64x64x128 .f32) (harg1 : arg1.IsWhole) (arg2 : Memref sig .tc .vmem S1x64x64x128 .f32) (harg2 : arg2.IsWhole) (arg8 : Memref sig .tc .vmem S128x128 .f32) (harg8 : arg8.IsWhole) (arg9 : Memref sig .tc .vmem S128x128 .f32) (harg9 : arg9.IsWhole) (x0 : Vec Ideal S1x64x64x128 .f32) (x1 : Vec Ideal S1x64x64x128 .f32) (x7 : Vec Ideal S128x128 .f32) (x8 : Vec Ideal S128x128 .f32) (X : Fin 16 → Fin 256 → Fin 32 → Fin 32 → EReal) (Br : Fin 16 → Fin 128 → Fin 64 → Fin 64 → EReal) (UW : Fin 256 → Fin 128 → Fin 2 → Fin 2 → EReal) (UB : Fin 128 → EReal) (W1 : Fin 128 → Fin 256 → Fin 3 → Fin 3 → EReal) (B1 : Fin 128 → EReal) (W2 : Fin 128 → Fin 128 → Fin 3 → Fin 3 → EReal) (B2 : Fin 128 → EReal) (WID : Fin 128 → Fin 256 → EReal) (BID : Fin 128 → EReal) (n : Fin 16) (hx0 : ∀ a b cc, x0 (ix4 0 a b cc) = UpBlockSpec.up X UW UB n a b cc) (hx1 : ∀ a b cc, x1 (ix4 0 a b cc) = Br n cc a b) (hx7 : ∀ cc co, x7 (ix2 cc co) = WID co (UpBlockSpec.lo cc)) (hx8 : ∀ cc co, x8 (ix2 cc co) = WID co (UpBlockSpec.hi cc)) (Y Xc : Fin 64) (co : Fin 128) :
    kernelRun1_A.sl.r_13 c arg1 harg1 arg2 harg2 arg8 harg8 arg9 harg9 x0 x1 x7 x8 (ix2 (fl Y Xc) co)
      = (∑ cc : Fin 128, UpBlockSpec.up X UW UB n Y Xc cc * WID co (UpBlockSpec.lo cc)) + (∑ cc : Fin 128, Br n cc Y Xc * WID co (UpBlockSpec.hi cc)) := by
  unfold kernelRun1_A.sl.r_13
  rw [pay36_at, read_whole arg1 harg1 x0 _ zero4, read_whole arg2 harg2 x1 _ zero4, read_whole arg8 harg8 x7 _ zero2, read_whole arg9 harg9 x8 _ zero2]
  simp only [hx0, hx1, hx7, hx8]

/-- The stored block at a pixel is the up-block's result there. -/
theorem block_val (c : Dev nD) (arg1 : Memref sig .tc .vmem S1x64x64x128 .f32) (harg1 : arg1.IsWhole) (arg2 : Memref sig .tc .vmem S1x64x64x128 .f32) (harg2 : arg2.IsWhole) (arg3 : Memref sig .tc .vmem S9x128x128 .f32) (harg3 : arg3.IsWhole) (arg4 : Memref sig .tc .vmem S9x128x128 .f32) (harg4 : arg4.IsWhole) (arg5 : Memref sig .tc .vmem S1x128 .f32) (harg5 : arg5.IsWhole) (arg6 : Memref sig .tc .vmem S9x128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg12 : Memref sig .tc .vmem S66x66x128 .f32) (arg13 : Memref sig .tc .vmem S66x66x128 .f32) (arg14 : Memref sig .tc .vmem S66x66x128 .f32) (x0 : Vec Ideal S1x64x64x128 .f32) (x1 : Vec Ideal S1x64x64x128 .f32) (x2 : Vec Ideal S9x128x128 .f32) (x3 : Vec Ideal S9x128x128 .f32) (x4 : Vec Ideal S1x128 .f32) (x5 : Vec Ideal S9x128x128 .f32) (x6 : Vec Ideal S1x128 .f32) (x7 : Vec Ideal S128x128 .f32) (x8 : Vec Ideal S128x128 .f32) (x9 : Vec Ideal S1x128 .f32) (X : Fin 16 → Fin 256 → Fin 32 → Fin 32 → EReal) (Br : Fin 16 → Fin 128 → Fin 64 → Fin 64 → EReal) (UW : Fin 256 → Fin 128 → Fin 2 → Fin 2 → EReal) (UB : Fin 128 → EReal) (W1 : Fin 128 → Fin 256 → Fin 3 → Fin 3 → EReal) (B1 : Fin 128 → EReal) (W2 : Fin 128 → Fin 128 → Fin 3 → Fin 3 → EReal) (B2 : Fin 128 → EReal) (WID : Fin 128 → Fin 256 → EReal) (BID : Fin 128 → EReal) (n : Fin 16) (hx0 : ∀ a b cc, x0 (ix4 0 a b cc) = UpBlockSpec.up X UW UB n a b cc) (hx1 : ∀ a b cc, x1 (ix4 0 a b cc) = Br n cc a b) (hx2 : ∀ (k : Fin 9) cc co, x2 (ix3 k cc co) = W1 co (UpBlockSpec.lo cc) ⟨k.val / 3, by omega⟩ ⟨k.val % 3, by omega⟩) (hx3 : ∀ (k : Fin 9) cc co, x3 (ix3 k cc co) = W1 co (UpBlockSpec.hi cc) ⟨k.val / 3, by omega⟩ ⟨k.val % 3, by omega⟩) (hx4 : ∀ co, x4 (ix2 0 co) = B1 co) (hx5 : ∀ (k : Fin 9) cc co, x5 (ix3 k cc co) = W2 co cc ⟨k.val / 3, by omega⟩ ⟨k.val % 3, by omega⟩) (hx6 : ∀ co, x6 (ix2 0 co) = B2 co) (hx7 : ∀ cc co, x7 (ix2 cc co) = WID co (UpBlockSpec.lo cc)) (hx8 : ∀ cc co, x8 (ix2 cc co) = WID co (UpBlockSpec.hi cc)) (hx9 : ∀ co, x9 (ix2 0 co) = BID co) (Y Xc : Fin 64) (co : Fin 128) :
    k1_pay1 (kernelRun1_A.sl.r_12 c arg1 harg1 arg2 harg2 arg3 harg3 arg4 harg4 arg5 harg5 arg6 harg6 arg7 harg7 arg12 arg13 arg14 x0 x1 x2 x3 x4 x5 x6) (kernelRun1_A.sl.r_13 c arg1 harg1 arg2 harg2 arg8 harg8 arg9 harg9 x0 x1 x7 x8) (View.readAt (Elt Ideal) arg10.view (Rect.unit (s := S1x128) ![0, 0] S1x128.size inb_S1x128_S1x128_0_0).toLoadRect (harg10.unread x9)) (ix4 0 Y Xc co)
      = UpBlockSpec.outR X Br UW UB W1 B1 W2 B2 WID BID n co Y Xc := by
  rw [pay1_at, y2_at c arg1 harg1 arg2 harg2 arg3 harg3 arg4 harg4 arg5 harg5 arg6 harg6 arg7 harg7 arg12 arg13 arg14 x0 x1 x2 x3 x4 x5 x6 X Br UW UB W1 B1 W2 B2 WID BID n hx0 hx1 hx2 hx3 hx4 hx5 hx6, ident_at c arg1 harg1 arg2 harg2 arg8 harg8 arg9 harg9 x0 x1 x7 x8 X Br UW UB W1 B1 W2 B2 WID BID n hx0 hx1 hx7 hx8, read_whole arg10 harg10 x9 _ zero2, hx9]
  rfl

theorem out_block (c : Dev nD) (i : grid1.Coords) (arg1 : Memref sig .tc .vmem S1x64x64x128 .f32) (harg1 : arg1.IsWhole) (arg2 : Memref sig .tc .vmem S1x64x64x128 .f32) (harg2 : arg2.IsWhole) (arg3 : Memref sig .tc .vmem S9x128x128 .f32) (harg3 : arg3.IsWhole) (arg4 : Memref sig .tc .vmem S9x128x128 .f32) (harg4 : arg4.IsWhole) (arg5 : Memref sig .tc .vmem S1x128 .f32) (harg5 : arg5.IsWhole) (arg6 : Memref sig .tc .vmem S9x128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1x64x64x128 .f32) (harg11 : arg11.IsWhole) (arg12 : Memref sig .tc .vmem S66x66x128 .f32) (harg12 : arg12.IsWhole) (arg13 : Memref sig .tc .vmem S66x66x128 .f32) (harg13 : arg13.IsWhole) (arg14 : Memref sig .tc .vmem S66x66x128 .f32) (harg14 : arg14.IsWhole) (x0 : Vec Ideal S1x64x64x128 .f32) (x1 : Vec Ideal S1x64x64x128 .f32) (x2 : Vec Ideal S9x128x128 .f32) (x3 : Vec Ideal S9x128x128 .f32) (x4 : Vec Ideal S1x128 .f32) (x5 : Vec Ideal S9x128x128 .f32) (x6 : Vec Ideal S1x128 .f32) (x7 : Vec Ideal S128x128 .f32) (x8 : Vec Ideal S128x128 .f32) (x9 : Vec Ideal S1x128 .f32) (X : Fin 16 → Fin 256 → Fin 32 → Fin 32 → EReal) (Br : Fin 16 → Fin 128 → Fin 64 → Fin 64 → EReal) (UW : Fin 256 → Fin 128 → Fin 2 → Fin 2 → EReal) (UB : Fin 128 → EReal) (W1 : Fin 128 → Fin 256 → Fin 3 → Fin 3 → EReal) (B1 : Fin 128 → EReal) (W2 : Fin 128 → Fin 128 → Fin 3 → Fin 3 → EReal) (B2 : Fin 128 → EReal) (WID : Fin 128 → Fin 256 → EReal) (BID : Fin 128 → EReal) (n : Fin 16) (hx0 : ∀ a b cc, x0 (ix4 0 a b cc) = UpBlockSpec.up X UW UB n a b cc) (hx1 : ∀ a b cc, x1 (ix4 0 a b cc) = Br n cc a b) (hx2 : ∀ (k : Fin 9) cc co, x2 (ix3 k cc co) = W1 co (UpBlockSpec.lo cc) ⟨k.val / 3, by omega⟩ ⟨k.val % 3, by omega⟩) (hx3 : ∀ (k : Fin 9) cc co, x3 (ix3 k cc co) = W1 co (UpBlockSpec.hi cc) ⟨k.val / 3, by omega⟩ ⟨k.val % 3, by omega⟩) (hx4 : ∀ co, x4 (ix2 0 co) = B1 co) (hx5 : ∀ (k : Fin 9) cc co, x5 (ix3 k cc co) = W2 co cc ⟨k.val / 3, by omega⟩ ⟨k.val % 3, by omega⟩) (hx6 : ∀ co, x6 (ix2 0 co) = B2 co) (hx7 : ∀ cc co, x7 (ix2 cc co) = WID co (UpBlockSpec.lo cc)) (hx8 : ∀ cc co, x8 (ix2 cc co) = WID co (UpBlockSpec.hi cc)) (hx9 : ∀ co, x9 (ix2 0 co) = BID co) (Y Xc : Fin 64) (co : Fin 128) :
    out1_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 (ix4 0 Y Xc co)
      = UpBlockSpec.outR X Br UW UB W1 B1 W2 B2 WID BID n co Y Xc := by
  unfold out1_A_10
  rw [View.read_writes_junk_eq_canon]
  unfold kernelRun1_A
  dsimp only
  rw [View.canon_unit_zero zero4]
  exact block_val c arg1 harg1 arg2 harg2 arg3 harg3 arg4 harg4 arg5 harg5 arg6 harg6 arg7 harg7 arg8 harg8 arg9 harg9 arg10 harg10 arg12 arg13 arg14 x0 x1 x2 x3 x4 x5 x6 x7 x8 x9 X Br UW UB W1 B1 W2 B2 WID BID n hx0 hx1 hx2 hx3 hx4 hx5 hx6 hx7 hx8 hx9 Y Xc co

/-! ## The input blocks of a grid point, read off the arrays -/

/-- Grid point `t` is image `t`. -/
abbrev img (t : Fin cfg1.N) : Fin 16 := ⟨t.val, lt_of_lt_of_eq t.isLt N_1⟩

theorem idx1_0 : ∀ t : Fin cfg1.N, win1_0.index t (0 : Fin 4) = t.val ∧ win1_0.index t (1 : Fin 4) = 0 ∧ win1_0.index t (2 : Fin 4) = 0 ∧ win1_0.index t (3 : Fin 4) = 0 :=
  (by decide +kernel : ∀ t : Fin grid1.N, _)
theorem idx1_1 : ∀ t : Fin cfg1.N, win1_1.index t (0 : Fin 4) = t.val ∧ win1_1.index t (1 : Fin 4) = 0 ∧ win1_1.index t (2 : Fin 4) = 0 ∧ win1_1.index t (3 : Fin 4) = 0 :=
  (by decide +kernel : ∀ t : Fin grid1.N, _)
theorem idx1_2 : ∀ t : Fin cfg1.N, win1_2.index t (0 : Fin 3) = 0 ∧ win1_2.index t (1 : Fin 3) = 0 ∧ win1_2.index t (2 : Fin 3) = 0 :=
  (by decide +kernel : ∀ t : Fin grid1.N, _)
theorem idx1_3 : ∀ t : Fin cfg1.N, win1_3.index t (0 : Fin 3) = 0 ∧ win1_3.index t (1 : Fin 3) = 0 ∧ win1_3.index t (2 : Fin 3) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 3) = 0 ∧ win1_5.index t (1 : Fin 3) = 0 ∧ win1_5.index t (2 : Fin 3) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)

theorem blk1_0 (V : (c : Dev nD) → (b : Ref sig .tc) → Buf (Elt Ideal) ((c : Thread nD τ).loc b)) (c : Dev nD) (t : Fin cfg1.N) (q0 : Fin 1) (q1 : Fin 64) (q2 : Fin 64) (q3 : Fin 128) :
    (iblk1 V c 0 t : S1x64x64x128.Idx → EReal) (ix4 q0 q1 q2 q3) = (V c main_v11 : S16x64x64x128.Idx → EReal) (ix4 (img t) q1 q2 q3) := by
  obtain ⟨e0, e1, e2, e3⟩ := idx1_0 t
  have hq0 : q0.val = 0 := by have := q0.isLt; omega
  show (V c main_v11 : S16x64x64x128.Idx → EReal) (((cfg1.win 0).blk t).view.emb (ix4 q0 q1 q2 q3)) = _
  refine congrArg (V c main_v11 : S16x64x64x128.Idx → EReal) (funext fun d => Fin.ext ?_)
  match d with
  | ⟨0, _⟩ => show win1_0.index t (0 : Fin 4) * 1 + 1 * q0.val = t.val; omega
  | ⟨1, _⟩ => show win1_0.index t (1 : Fin 4) * 64 + 1 * q1.val = q1.val; omega
  | ⟨2, _⟩ => show win1_0.index t (2 : Fin 4) * 64 + 1 * q2.val = q2.val; omega
  | ⟨3, _⟩ => show win1_0.index t (3 : Fin 4) * 128 + 1 * q3.val = q3.val; omega

theorem blk1_1 (V : (c : Dev nD) → (b : Ref sig .tc) → Buf (Elt Ideal) ((c : Thread nD τ).loc b)) (c : Dev nD) (t : Fin cfg1.N) (q0 : Fin 1) (q1 : Fin 64) (q2 : Fin 64) (q3 : Fin 128) :
    (iblk1 V c 1 t : S1x64x64x128.Idx → EReal) (ix4 q0 q1 q2 q3) = (V c main_v1 : S16x64x64x128.Idx → EReal) (ix4 (img t) q1 q2 q3) := by
  obtain ⟨e0, e1, e2, e3⟩ := idx1_1 t
  have hq0 : q0.val = 0 := by have := q0.isLt; omega
  show (V c main_v1 : S16x64x64x128.Idx → EReal) (((cfg1.win 1).blk t).view.emb (ix4 q0 q1 q2 q3)) = _
  refine congrArg (V c main_v1 : S16x64x64x128.Idx → EReal) (funext fun d => Fin.ext ?_)
  match d with
  | ⟨0, _⟩ => show win1_1.index t (0 : Fin 4) * 1 + 1 * q0.val = t.val; omega
  | ⟨1, _⟩ => show win1_1.index t (1 : Fin 4) * 64 + 1 * q1.val = q1.val; omega
  | ⟨2, _⟩ => show win1_1.index t (2 : Fin 4) * 64 + 1 * q2.val = q2.val; omega
  | ⟨3, _⟩ => show win1_1.index t (3 : Fin 4) * 128 + 1 * q3.val = q3.val; omega

theorem blk1_2 (V : (c : Dev nD) → (b : Ref sig .tc) → Buf (Elt Ideal) ((c : Thread nD τ).loc b)) (c : Dev nD) (t : Fin cfg1.N) (q0 : Fin 9) (q1 : Fin 128) (q2 : Fin 128) :
    (iblk1 V c 2 t : S9x128x128.Idx → EReal) (ix3 q0 q1 q2) = (V c main_v14 : S9x128x128.Idx → EReal) (ix3 q0 q1 q2) := by
  obtain ⟨e0, e1, e2⟩ := idx1_2 t
  show (V c main_v14 : S9x128x128.Idx → EReal) (((cfg1.win 2).blk t).view.emb (ix3 q0 q1 q2)) = _
  refine congrArg (V c main_v14 : S9x128x128.Idx → EReal) (funext fun d => Fin.ext ?_)
  match d with
  | ⟨0, _⟩ => show win1_2.index t (0 : Fin 3) * 9 + 1 * q0.val = q0.val; omega
  | ⟨1, _⟩ => show win1_2.index t (1 : Fin 3) * 128 + 1 * q1.val = q1.val; omega
  | ⟨2, _⟩ => show win1_2.index t (2 : Fin 3) * 128 + 1 * q2.val = q2.val; omega

theorem blk1_3 (V : (c : Dev nD) → (b : Ref sig .tc) → Buf (Elt Ideal) ((c : Thread nD τ).loc b)) (c : Dev nD) (t : Fin cfg1.N) (q0 : Fin 9) (q1 : Fin 128) (q2 : Fin 128) :
    (iblk1 V c 3 t : S9x128x128.Idx → EReal) (ix3 q0 q1 q2) = (V c main_v15 : S9x128x128.Idx → EReal) (ix3 q0 q1 q2) := by
  obtain ⟨e0, e1, e2⟩ := idx1_3 t
  show (V c main_v15 : S9x128x128.Idx → EReal) (((cfg1.win 3).blk t).view.emb (ix3 q0 q1 q2)) = _
  refine congrArg (V c main_v15 : S9x128x128.Idx → EReal) (funext fun d => Fin.ext ?_)
  match d with
  | ⟨0, _⟩ => show win1_3.index t (0 : Fin 3) * 9 + 1 * q0.val = q0.val; omega
  | ⟨1, _⟩ => show win1_3.index t (1 : Fin 3) * 128 + 1 * q1.val = q1.val; omega
  | ⟨2, _⟩ => show win1_3.index t (2 : Fin 3) * 128 + 1 * q2.val = q2.val; omega

theorem blk1_4 (V : (c : Dev nD) → (b : Ref sig .tc) → Buf (Elt Ideal) ((c : Thread nD τ).loc b)) (c : Dev nD) (t : Fin cfg1.N) (q0 : Fin 1) (q1 : Fin 128) :
    (iblk1 V c 4 t : S1x128.Idx → EReal) (ix2 q0 q1) = (V c main_v22 : S1x128.Idx → EReal) (ix2 q0 q1) := by
  obtain ⟨e0, e1⟩ := idx1_4 t
  show (V c main_v22 : S1x128.Idx → EReal) (((cfg1.win 4).blk t).view.emb (ix2 q0 q1)) = _
  refine congrArg (V c main_v22 : S1x128.Idx → EReal) (funext fun d => Fin.ext ?_)
  match d with
  | ⟨0, _⟩ => show win1_4.index t (0 : Fin 2) * 1 + 1 * q0.val = q0.val; omega
  | ⟨1, _⟩ => show win1_4.index t (1 : Fin 2) * 128 + 1 * q1.val = q1.val; omega

theorem blk1_5 (V : (c : Dev nD) → (b : Ref sig .tc) → Buf (Elt Ideal) ((c : Thread nD τ).loc b)) (c : Dev nD) (t : Fin cfg1.N) (q0 : Fin 9) (q1 : Fin 128) (q2 : Fin 128) :
    (iblk1 V c 5 t : S9x128x128.Idx → EReal) (ix3 q0 q1 q2) = (V c main_v17 : S9x128x128.Idx → EReal) (ix3 q0 q1 q2) := by
  obtain ⟨e0, e1, e2⟩ := idx1_5 t
  show (V c main_v17 : S9x128x128.Idx → EReal) (((cfg1.win 5).blk t).view.emb (ix3 q0 q1 q2)) = _
  refine congrArg (V c main_v17 : S9x128x128.Idx → EReal) (funext fun d => Fin.ext ?_)
  match d with
  | ⟨0, _⟩ => show win1_5.index t (0 : Fin 3) * 9 + 1 * q0.val = q0.val; omega
  | ⟨1, _⟩ => show win1_5.index t (1 : Fin 3) * 128 + 1 * q1.val = q1.val; omega
  | ⟨2, _⟩ => show win1_5.index t (2 : Fin 3) * 128 + 1 * q2.val = q2.val; omega

theorem blk1_6 (V : (c : Dev nD) → (b : Ref sig .tc) → Buf (Elt Ideal) ((c : Thread nD τ).loc b)) (c : Dev nD) (t : Fin cfg1.N) (q0 : Fin 1) (q1 : Fin 128) :
    (iblk1 V c 6 t : S1x128.Idx → EReal) (ix2 q0 q1) = (V c main_v23 : S1x128.Idx → EReal) (ix2 q0 q1) := by
  obtain ⟨e0, e1⟩ := idx1_6 t
  show (V c main_v23 : S1x128.Idx → EReal) (((cfg1.win 6).blk t).view.emb (ix2 q0 q1)) = _
  refine congrArg (V c main_v23 : S1x128.Idx → EReal) (funext fun d => Fin.ext ?_)
  match d with
  | ⟨0, _⟩ => show win1_6.index t (0 : Fin 2) * 1 + 1 * q0.val = q0.val; omega
  | ⟨1, _⟩ => show win1_6.index t (1 : Fin 2) * 128 + 1 * q1.val = q1.val; omega

theorem blk1_7 (V : (c : Dev nD) → (b : Ref sig .tc) → Buf (Elt Ideal) ((c : Thread nD τ).loc b)) (c : Dev nD) (t : Fin cfg1.N) (q0 : Fin 128) (q1 : Fin 128) :
    (iblk1 V c 7 t : S128x128.Idx → EReal) (ix2 q0 q1) = (V c main_v20 : S128x128.Idx → EReal) (ix2 q0 q1) := by
  obtain ⟨e0, e1⟩ := idx1_7 t
  show (V c main_v20 : S128x128.Idx → EReal) (((cfg1.win 7).blk t).view.emb (ix2 q0 q1)) = _
  refine congrArg (V c main_v20 : S128x128.Idx → EReal) (funext fun d => Fin.ext ?_)
  match d with
  | ⟨0, _⟩ => show win1_7.index t (0 : Fin 2) * 128 + 1 * q0.val = q0.val; omega
  | ⟨1, _⟩ => show win1_7.index t (1 : Fin 2) * 128 + 1 * q1.val = q1.val; omega

theorem blk1_8 (V : (c : Dev nD) → (b : Ref sig .tc) → Buf (Elt Ideal) ((c : Thread nD τ).loc b)) (c : Dev nD) (t : Fin cfg1.N) (q0 : Fin 128) (q1 : Fin 128) :
    (iblk1 V c 8 t : S128x128.Idx → EReal) (ix2 q0 q1) = (V c main_v21 : S128x128.Idx → EReal) (ix2 q0 q1) := by
  obtain ⟨e0, e1⟩ := idx1_8 t
  show (V c main_v21 : S128x128.Idx → EReal) (((cfg1.win 8).blk t).view.emb (ix2 q0 q1)) = _
  refine congrArg (V c main_v21 : S128x128.Idx → EReal) (funext fun d => Fin.ext ?_)
  match d with
  | ⟨0, _⟩ => show win1_8.index t (0 : Fin 2) * 128 + 1 * q0.val = q0.val; omega
  | ⟨1, _⟩ => show win1_8.index t (1 : Fin 2) * 128 + 1 * q1.val = q1.val; omega

theorem blk1_9 (V : (c : Dev nD) → (b : Ref sig .tc) → Buf (Elt Ideal) ((c : Thread nD τ).loc b)) (c : Dev nD) (t : Fin cfg1.N) (q0 : Fin 1) (q1 : Fin 128) :
    (iblk1 V c 9 t : S1x128.Idx → EReal) (ix2 q0 q1) = (V c main_v24 : S1x128.Idx → EReal) (ix2 q0 q1) := by
  obtain ⟨e0, e1⟩ := idx1_9 t
  show (V c main_v24 : S1x128.Idx → EReal) (((cfg1.win 9).blk t).view.emb (ix2 q0 q1)) = _
  refine congrArg (V c main_v24 : S1x128.Idx → EReal) (funext fun d => Fin.ext ?_)
  match d with
  | ⟨0, _⟩ => show win1_9.index t (0 : Fin 2) * 1 + 1 * q0.val = q0.val; omega
  | ⟨1, _⟩ => show win1_9.index t (1 : Fin 2) * 128 + 1 * q1.val = q1.val; omega

/-! ## The block the second kernel leaves at a grid point -/

/-- At grid point `t` the fused convolution block leaves, at pixel `(Y, Xc)` and channel `co`, the up-block's
    result for image `t`: its ten input blocks are the arrays' blocks — image `t` of the transposed convolution and
    of the bridge, the whole weight and bias arrays — and the body computes the reference's grouping from them. -/
theorem ref_block_at (m : (ℓ : Loc nD τ sig) → Buf (Elt Ideal) ℓ) (ρ : Dev nD → PrngReg) (c : Dev nD)
    (h11 : ∀ n Y Xc cc, (V3 m ρ c main_v11 : S16x64x64x128.Idx → EReal) (ix4 n Y Xc cc) = UpBlockSpec.up (aX m c) (aUW m c) (aUB m c) n Y Xc cc)
    (h1 : ∀ n Y Xc cc, (V3 m ρ c main_v1 : S16x64x64x128.Idx → EReal) (ix4 n Y Xc cc) = aBr m c n cc Y Xc)
    (h14 : ∀ (k : Fin 9) cc co, (V3 m ρ c main_v14 : S9x128x128.Idx → EReal) (ix3 k cc co) = aW1 m c co (UpBlockSpec.lo cc) ⟨k.val / 3, by omega⟩ ⟨k.val % 3, by omega⟩)
    (h15 : ∀ (k : Fin 9) cc co, (V3 m ρ c main_v15 : S9x128x128.Idx → EReal) (ix3 k cc co) = aW1 m c co (UpBlockSpec.hi cc) ⟨k.val / 3, by omega⟩ ⟨k.val % 3, by omega⟩)
    (h22 : ∀ co, (V3 m ρ c main_v22 : S1x128.Idx → EReal) (ix2 0 co) = aB1 m c co)
    (h17 : ∀ (k : Fin 9) cc co, (V3 m ρ c main_v17 : S9x128x128.Idx → EReal) (ix3 k cc co) = aW2 m c co cc ⟨k.val / 3, by omega⟩ ⟨k.val % 3, by omega⟩)
    (h23 : ∀ co, (V3 m ρ c main_v23 : S1x128.Idx → EReal) (ix2 0 co) = aB2 m c co)
    (h20 : ∀ cc co, (V3 m ρ c main_v20 : S128x128.Idx → EReal) (ix2 cc co) = aWID m c co (UpBlockSpec.lo cc))
    (h21 : ∀ cc co, (V3 m ρ c main_v21 : S128x128.Idx → EReal) (ix2 cc co) = aWID m c co (UpBlockSpec.hi cc))
    (h24 : ∀ co, (V3 m ρ c main_v24 : S1x128.Idx → EReal) (ix2 0 co) = aBID m c co)
    (t : Fin cfg1.N) (Y Xc : Fin 64) (co : Fin 128) :
    (outsAt1 (V3 m ρ) c t : S1x64x64x128.Idx → EReal) (ix4 0 Y Xc co) = specOut m c ⟨t.val, lt_of_lt_of_eq t.isLt N_1⟩ co Y Xc := by
  unfold outsAt1 specOut
  exact out_block c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) scM1_2 (Memref.isWhole_whole _)
    (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t)
    (aX m c) (aBr m c) (aUW m c) (aUB m c) (aW1 m c) (aB1 m c) (aW2 m c) (aB2 m c) (aWID m c) (aBID m c) (img t)
    (fun a b cc => (blk1_0 (V3 m ρ) c t 0 a b cc).trans (h11 (img t) a b cc))
    (fun a b cc => (blk1_1 (V3 m ρ) c t 0 a b cc).trans (h1 (img t) a b cc))
    (fun k cc co => (blk1_2 (V3 m ρ) c t k cc co).trans (h14 k cc co))
    (fun k cc co => (blk1_3 (V3 m ρ) c t k cc co).trans (h15 k cc co))
    (fun co => (blk1_4 (V3 m ρ) c t 0 co).trans (h22 co))
    (fun k cc co => (blk1_5 (V3 m ρ) c t k cc co).trans (h17 k cc co))
    (fun co => (blk1_6 (V3 m ρ) c t 0 co).trans (h23 co))
    (fun cc co => (blk1_7 (V3 m ρ) c t cc co).trans (h20 cc co))
    (fun cc co => (blk1_8 (V3 m ρ) c t cc co).trans (h21 cc co))
    (fun co => (blk1_9 (V3 m ρ) c t 0 co).trans (h24 co))
    Y Xc co

end Cert.ReferenceIdeal.RefValue
end
-- ==== Proof.RefGlobal.lean ====
/-
  From the second kernel's blocks to the reference's result.

  The second kernel's grid has one point per image.  Point `t` stores the whole 64 x 64 x 128 block of image `t`
  of its result array, every point writes its block back, and the sixteen blocks tile the array: so if each
  block, read at pixel `(Y, X)` and channel `co`, is the up-block's value for that image, the array after the
  kernel is the one function (image, row, column, channel) -> that value.  The last host line moves the channels
  in front of the pixel coordinates: the result at (image, channel, row, column) reads the array at (image, row,
  column, channel).
-/
import proofs.«142322_g2000305194121171_pallasbulk_194_3_alg».proof.Proof.RefArgs
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A function of (image, channel, row, column) laid out channels last. -/
def chanLast (S : Fin 16 → Fin 128 → Fin 64 → Fin 64 → EReal) : S16x64x64x128.Idx → EReal :=
  fun i => S (i 0) (i 3) (i 1) (i 2)

/-- The result window's block indices, decided over the grid: point `t` takes image `t`, whole. -/
theorem idx_facts1 : ∀ t : Fin cfg1.N,
    win1_10.index t (0 : Fin 4) = t.val ∧ win1_10.index t (1 : Fin 4) = 0 ∧ win1_10.index t (2 : Fin 4) = 0 ∧ win1_10.index t (3 : Fin 4) = 0 :=
  (by decide +kernel : ∀ t : Fin grid1.N, _)

section Blocks

variable (hblk : ∀ (t : Fin cfg1.N) (Y X : Fin 64) (co : Fin 128),
  (Gen.outsAt1 (Gen.V3 m ρ) c t : S1x64x64x128.Idx → EReal) (ix4 0 Y X co)
    = specOut m c ⟨t.val, lt_of_lt_of_eq t.isLt Gen.N_1⟩ co Y X)

include hblk

/-- The block the kernel leaves at point `t` is block `t` of the channels-last up-block. -/
theorem blk1_apply (t : Fin cfg1.N) (j : S1x64x64x128.Idx) :
    (Gen.outsAt1 (Gen.V3 m ρ) c t : S1x64x64x128.Idx → EReal) j = chanLast (specOut m c) (((cfg1.win 10).blk t).view.emb j) := by
  obtain ⟨f0, f1, f2, f3⟩ := idx_facts1 t
  obtain ⟨u, Y, X, co, rfl⟩ : ∃ (u : Fin 1) (Y X : Fin 64) (co : Fin 128), j = ix4 u Y X co := ⟨j 0, j 1, j 2, j 3, eq_ix4 j⟩
  have hu : u = 0 := Fin.ext (by have := u.isLt; show u.val = 0; omega)
  subst hu
  have hY : Y.val < 64 := Y.isLt
  have hX : X.val < 64 := X.isLt
  have hco : co.val < 128 := co.isLt
  refine (hblk t Y X co).trans ?_
  have key : ∀ (n n' : Fin 16) (a a' : Fin 128) (y y' x x' : Fin 64), n = n' → a = a' → y = y' → x = x' →
      specOut m c n a y x = specOut m c n' a' y' x' := by
    intro n n' a a' y y' x x' h1 h2 h3 h4; rw [h1, h2, h3, h4]
  unfold chanLast
  exact key _ _ _ _ _ _ _ _
    (Fin.ext (by show t.val = win1_10.index t (0 : Fin 4) * 1 + 1 * 0; omega))
    (Fin.ext (by show co.val = win1_10.index t (3 : Fin 4) * 128 + 1 * co.val; omega))
    (Fin.ext (by show Y.val = win1_10.index t (1 : Fin 4) * 64 + 1 * Y.val; omega))
    (Fin.ext (by show X.val = win1_10.index t (2 : Fin 4) * 64 + 1 * X.val; omega))

/-- What point `t` writes back is block `t` of that function. -/
theorem flushed25_eq (t : Fin cfg1.N) :
    (dat1 (V3 m ρ) c).flushed 10 t = ((cfg1.win 10).blk t).view.read (Elt Ideal) (chanLast (specOut m c)) := by
  show (cfg1.win 10).cut (grid1.coords t) ((dat1 (V3 m ρ) c).after 10 t) = _
  rw [after1_10]
  funext j
  exact blk1_apply m ρ c hblk t j

end Blocks

/-- An index of the result array is in point `t`'s block iff each coordinate is in the block's range on its axis. -/
theorem mem_blk25 (t : Fin cfg1.N) (i : S16x64x64x128.Idx) :
    i ∈ ((cfg1.win 10).blk t).view.set ↔ ∀ a : Fin 4, win1_10.index t a * S1x64x64x128.size a ≤ (i a).val ∧ (i a).val < win1_10.index t a * S1x64x64x128.size a + S1x64x64x128.size a := by
  show i ∈ ((View.whole main_v25).slice (win1_10.rect t)).set ↔ _
  rw [View.set_slice_whole, Rect.mem_set_unit]
  exact Iff.rfl

/-- Every index of the result array is in the block of the point of its image. -/
theorem cover25 (i : S16x64x64x128.Idx) : ∃ t : Fin cfg1.N, (cfg1.win 10).flush t = true ∧ i ∈ ((cfg1.win 10).blk t).view.set := by
  have h0 : (i 0).val < 16 := (i 0).isLt
  have h1 : (i 1).val < 64 := (i 1).isLt
  have h2 : (i 2).val < 64 := (i 2).isLt
  have h3 : (i 3).val < 128 := (i 3).isLt
  obtain ⟨t, ht⟩ : ∃ t : Fin cfg1.N, t.val = (i 0).val := ⟨⟨(i 0).val, by rw [show cfg1.N = 16 from N_1]; exact h0⟩, rfl⟩
  obtain ⟨f0, f1, f2, f3⟩ := idx_facts1 t
  refine ⟨t, flush1_10 t, ?_⟩
  rw [mem_blk25]
  intro a
  match a with
  | ⟨0, _⟩ => show win1_10.index t (0 : Fin 4) * 1 ≤ (i 0).val ∧ (i 0).val < win1_10.index t (0 : Fin 4) * 1 + 1; omega
  | ⟨1, _⟩ => show win1_10.index t (1 : Fin 4) * 64 ≤ (i 1).val ∧ (i 1).val < win1_10.index t (1 : Fin 4) * 64 + 64; omega
  | ⟨2, _⟩ => show win1_10.index t (2 : Fin 4) * 64 ≤ (i 2).val ∧ (i 2).val < win1_10.index t (2 : Fin 4) * 64 + 64; omega
  | ⟨3, _⟩ => show win1_10.index t (3 : Fin 4) * 128 ≤ (i 3).val ∧ (i 3).val < win1_10.index t (3 : Fin 4) * 128 + 128; omega

/-- The second kernel's result array at its exit: the channels-last up-block, if every block is. -/
theorem v25_eq (hblk : ∀ (t : Fin cfg1.N) (Y X : Fin 64) (co : Fin 128),
      (Gen.outsAt1 (Gen.V3 m ρ) c t : S1x64x64x128.Idx → EReal) (ix4 0 Y X co)
        = specOut m c ⟨t.val, lt_of_lt_of_eq t.isLt Gen.N_1⟩ co Y X) :
    (W4 m ρ c (Proc.devRef .tc main_v25) : S16x64x64x128.Idx → EReal) = chanLast (specOut m c) := by
  refine (W4_arr m ρ c 10).trans ?_
  exact (dat1 (V3 m ρ) c).arrAt_eq_of_cover 10 _ (fun t _ => flushed25_eq m ρ c hblk t) cover25

/-- The reference's result is the up-block, if every block the second kernel leaves is. -/
theorem result_of_blocks (hblk : ∀ (t : Fin cfg1.N) (Y X : Fin 64) (co : Fin 128),
      (Gen.outsAt1 (Gen.V3 m ρ) c t : S1x64x64x128.Idx → EReal) (ix4 0 Y X co)
        = specOut m c ⟨t.val, lt_of_lt_of_eq t.isLt Gen.N_1⟩ co Y X) :
    ∀ i : S16x128x64x64.Idx, (Gen.W5 m ρ c (Proc.devRef .tc main_v26) : S16x128x64x64.Idx → EReal) i = specOut m c (i 0) (i 1) (i 2) (i 3) := by
  intro i
  have e : (Gen.W5 m ρ c (Proc.devRef .tc main_v26) : S16x128x64x64.Idx → EReal)
      = transpose S16x128x64x64 [0, 3, 1, 2] (W4 m ρ c (Proc.devRef .tc main_v25) : S16x64x64x128.Idx → EReal) transposes_S16x64x64x128_S16x128x64x64_0_3_1_2 := by
    show StableHlo.after hostOps2 (W4 m ρ c) (Proc.devRef .tc main_v26) = _
    after_results
  rw [e, v25_eq m ρ c hblk]
  refine (transpose_apply _ _ _ _ (ix4 (i 0) (i 2) (i 3) (i 1)) (fun b => match b with | ⟨0, _⟩ => rfl | ⟨1, _⟩ => rfl | ⟨2, _⟩ => rfl | ⟨3, _⟩ => rfl)).trans ?_
  rfl

end Cert.ReferenceIdeal.RefValue
end
-- ==== Proof.IdealPadCat.lean ====
/-
  The padded image of the concatenated channels, as the fused kernel's body leaves it.

  The body writes the 66 x 66 x 256 scratch image in six stores: the two border rows (zeros), the two border
  columns (zeros, each stored through a rectangle two columns wide whose other column is written back as
  loaded), and the two halves of the interior (channels 0..127 and 128..255, each stored through a rectangle 66
  columns wide whose first and last column are written back as loaded).  Read back at any index the image is:
  zero on the border, the up-sampled block on channels below 128 of an interior pixel, the bridge block on the
  others — whatever the scratch held before.  A column written back as loaded is only ever read where an
  earlier store of this run had already put a zero.
-/
import proofs.«142322_g2000305194121171_pallasbulk_194_3_alg».proof.Proof.IdealBodyRun
import proofs.«142322_g2000305194121171_pallasbulk_194_3_alg».proof.Proof.LibPieces
import Idealize.ShloMosaic.Lib.ValueIdx

set_option maxRecDepth 16384

noncomputable section

namespace Cert.KernelIdeal.Body

open Cert.KernelIdeal Cert.KernelIdeal.Gen Cert.LibPieces
open Idealize.ShloMosaic Idealize.ShloMosaic.TcCoe Idealize.ShloMosaic.ValueIdx

variable {F : FTy → Type} [FloatOps F]

theorem forall_fin3 {P : Fin 3 → Prop} (h0 : P 0) (h1 : P 1) (h2 : P 2) : ∀ a, P a := by
  intro a; fin_cases a
  · exact h0
  · exact h1
  · exact h2

/-- The bf16 zero the borders are filled with. -/
abbrev zb : F .bf16 := Scalar.ofBits .bf16 0x0000#16

/-- The padded image: zero on the one-pixel border; inside, `U` on channels 0..127 and `Bv` on channels 128..255,
    each read one pixel up and left. -/
def padCatSpec {α : Type} (U Bv : S64x64x128.Idx → α) (z : α) (y : S66x66x256.Idx) : α :=
  if h : 1 ≤ (y 0).val ∧ (y 0).val ≤ 64 ∧ 1 ≤ (y 1).val ∧ (y 1).val ≤ 64 then
    if h2 : (y 2).val < 128 then U (ix3 ⟨(y 0).val - 1, by omega⟩ ⟨(y 1).val - 1, by omega⟩ ⟨(y 2).val, h2⟩)
    else Bv (ix3 ⟨(y 0).val - 1, by omega⟩ ⟨(y 1).val - 1, by omega⟩ ⟨(y 2).val - 128, by have := (y 2).isLt; have e : S66x66x256.size 2 = 256 := rfl; omega⟩)
  else z

section Levels

variable (c : Dev nD)
  (arg1 : Memref sig .tc .vmem S1x256x32x32 .bf16) (harg1 : arg1.IsWhole) (arg2 : Memref sig .tc .vmem S1x64x64x128 .bf16) (harg2 : arg2.IsWhole)
  (arg3 : Memref sig .tc .vmem S256x512 .bf16) (harg3 : arg3.IsWhole) (arg4 : Memref sig .tc .vmem S1x512 .f32) (harg4 : arg4.IsWhole)
  (arg12 : Memref sig .tc .vmem S66x66x256 .bf16) (harg12 : arg12.IsWhole)
  (x0 : Vec F S1x256x32x32 .bf16) (x1 : Vec F S1x64x64x128 .bf16) (x2 : Vec F S256x512 .bf16) (x3 : Vec F S1x512 .f32)
  (s0 : Vec F S66x66x256 .bf16)
  {sg : RefSig} {κ : Kind} {sp : Space} (v : View sg κ sp S66x66x256 .bf16) (f : v.ty.Contents (Elt F))

/-- The up-sampled block as the body computes it from its input buffers. -/
abbrev upBlk : FVec F S64x64x128 .bf16 :=
  k0_pay14 (View.readAt (Elt F) arg1.view (Rect.unit (s := S1x256x32x32) ![0, 0, 0, 0] S1x256x32x32.size inb_S1x256x32x32_S1x256x32x32_0_0_0_0).toLoadRect (harg1.unread x0))
    (View.readAt (Elt F) arg3.view (Rect.unit (s := S256x512) ![0, 0] S256x512.size inb_S256x512_S256x512_0_0).toLoadRect (harg3.unread x2))
    (View.readAt (Elt F) arg4.view (Rect.unit (s := S1x512) ![0, 0] S1x512.size inb_S1x512_S1x512_0_0).toLoadRect (harg4.unread x3))
/-- The bridge block as the body reads it. -/
abbrev brBlk : FVec F S64x64x128 .bf16 :=
  k0_pay15 (View.readAt (Elt F) arg2.view (Rect.unit (s := S1x64x64x128) ![0, 0, 0, 0] S1x64x64x128.size inb_S1x64x64x128_S1x64x64x128_0_0_0_0).toLoadRect (harg2.unread x1))

/-- After the two row stores: rows 0 and 65 are zero. -/
theorem rows_read (y : S66x66x256.Idx) (hy : (y 0).val = 0 ∨ (y 0).val = 65) :
    v.read (Elt F) (v.writes (Elt F) f (fusedRun.sl.HS0_2 (F := F))) y = zb := by
  have b0 : (y 0).val < 66 := (y 0).isLt
  have b1 : (y 1).val < 66 := (y 1).isLt
  have b2 : (y 2).val < 256 := (y 2).isLt
  unfold fusedRun.sl.HS0_2
  rcases hy with hy | hy
  · rw [read_writes_cons_unit_of_not_mem v f _ _ _ _ _ y (fun h => by have hh : 65 ≤ (y 0).val ∧ (y 0).val < 65 + 1 := h 0; omega),
      read_writes_cons_unit_of_mem v f _ _ _ _ _ y (forall_fin3 (show 0 ≤ (y 0).val ∧ (y 0).val < 0 + 1 by omega) (show 0 ≤ (y 1).val ∧ (y 1).val < 0 + 66 by omega) (show 0 ≤ (y 2).val ∧ (y 2).val < 0 + 256 by omega))]
    rfl
  · rw [read_writes_cons_unit_of_mem v f _ _ _ _ _ y (forall_fin3 (show 65 ≤ (y 0).val ∧ (y 0).val < 65 + 1 by omega) (show 0 ≤ (y 1).val ∧ (y 1).val < 0 + 66 by omega) (show 0 ≤ (y 2).val ∧ (y 2).val < 0 + 256 by omega))]
    rfl

/-- After the first column store: column 0 is zero everywhere, and rows 0 and 65 are still zero. -/
theorem col0_read (y : S66x66x256.Idx) (hy : (y 1).val = 0 ∨ (y 0).val = 0 ∨ (y 0).val = 65) :
    v.read (Elt F) (v.writes (Elt F) f (fusedRun.sl.HS0_3 c arg12 harg12 s0)) y = zb := by
  have b0 : (y 0).val < 66 := (y 0).isLt
  have b1 : (y 1).val < 66 := (y 1).isLt
  have b2 : (y 2).val < 256 := (y 2).isLt
  unfold fusedRun.sl.HS0_3
  by_cases h1 : (y 1).val ≤ 1
  · rw [read_writes_cons_unit_of_mem v f _ _ _ _ _ y (forall_fin3 (show 0 ≤ (y 0).val ∧ (y 0).val < 0 + 66 by omega) (show 0 ≤ (y 1).val ∧ (y 1).val < 0 + 2 by omega) (show 0 ≤ (y 2).val ∧ (y 2).val < 0 + 256 by omega))]
    by_cases h10 : (y 1).val = 0
    · obtain ⟨k, -, e⟩ := updateSlice_of_mem (fusedRun.sl.old c arg12 harg12 s0) (k0_pay6 (F := F)) ![0, 0, 0] slices_S66x2x256_S66x1x256_0_0_0
        (rel (s := S66x66x256) ![0, 0, 0] S66x2x256.size y (forall_fin3 (show 0 ≤ (y 0).val ∧ (y 0).val < 0 + 66 by omega) (show 0 ≤ (y 1).val ∧ (y 1).val < 0 + 2 by omega) (show 0 ≤ (y 2).val ∧ (y 2).val < 0 + 256 by omega))) (forall_fin3 (show 0 ≤ (y 0).val - 0 ∧ (y 0).val - 0 < 0 + 66 by omega) (show 0 ≤ (y 1).val - 0 ∧ (y 1).val - 0 < 0 + 1 by omega) (show 0 ≤ (y 2).val - 0 ∧ (y 2).val - 0 < 0 + 256 by omega))
      exact e.trans rfl
    · rw [show (fun old => updateSlice old (k0_pay6 (F := F)) ![0, 0, 0] slices_S66x2x256_S66x1x256_0_0_0) (fusedRun.sl.old c arg12 harg12 s0) (rel (s := S66x66x256) ![0, 0, 0] S66x2x256.size y (forall_fin3 (show 0 ≤ (y 0).val ∧ (y 0).val < 0 + 66 by omega) (show 0 ≤ (y 1).val ∧ (y 1).val < 0 + 2 by omega) (show 0 ≤ (y 2).val ∧ (y 2).val < 0 + 256 by omega)))
          = (fusedRun.sl.old c arg12 harg12 s0) (rel (s := S66x66x256) ![0, 0, 0] S66x2x256.size y (forall_fin3 (show 0 ≤ (y 0).val ∧ (y 0).val < 0 + 66 by omega) (show 0 ≤ (y 1).val ∧ (y 1).val < 0 + 2 by omega) (show 0 ≤ (y 2).val ∧ (y 2).val < 0 + 256 by omega))) from
        updateSlice_of_not_mem _ _ _ _ _ (fun h => by have hh : 0 ≤ (y 1).val - 0 ∧ (y 1).val - 0 < 0 + 1 := h 1; omega)]
      unfold fusedRun.sl.old
      show arg12.view.read (Elt F) _ ((Rect.unit (s := S66x66x256) ![0, 0, 0] S66x2x256.size inb_S66x66x256_S66x2x256_0_0_0).emb (rel (s := S66x66x256) ![0, 0, 0] S66x2x256.size y _)) = _
      rw [emb_rel]
      exact rows_read arg12.view _ y (by omega)
  · rw [read_writes_cons_unit_of_not_mem v f _ _ _ _ _ y (fun h => by have hh : 0 ≤ (y 1).val ∧ (y 1).val < 0 + 2 := h 1; omega)]
    exact rows_read v f y (by omega)

/-- After the second column store: columns 0 and 65 and rows 0 and 65 are zero. -/
theorem border_read (y : S66x66x256.Idx) (hy : (y 1).val = 0 ∨ (y 1).val = 65 ∨ (y 0).val = 0 ∨ (y 0).val = 65) :
    v.read (Elt F) (v.writes (Elt F) f (fusedRun.sl.HS0_4 c arg12 harg12 s0)) y = zb := by
  have b0 : (y 0).val < 66 := (y 0).isLt
  have b1 : (y 1).val < 66 := (y 1).isLt
  have b2 : (y 2).val < 256 := (y 2).isLt
  unfold fusedRun.sl.HS0_4
  by_cases h1 : 64 ≤ (y 1).val
  · rw [read_writes_cons_unit_of_mem v f _ _ _ _ _ y (forall_fin3 (show 0 ≤ (y 0).val ∧ (y 0).val < 0 + 66 by omega) (show 64 ≤ (y 1).val ∧ (y 1).val < 64 + 2 by omega) (show 0 ≤ (y 2).val ∧ (y 2).val < 0 + 256 by omega))]
    by_cases h10 : (y 1).val = 65
    · obtain ⟨k, -, e⟩ := updateSlice_of_mem (fusedRun.sl.old_1 c arg12 harg12 s0) (k0_pay7 (F := F)) ![0, 1, 0] slices_S66x2x256_S66x1x256_0_1_0
        (rel (s := S66x66x256) ![0, 64, 0] S66x2x256.size y (forall_fin3 (show 0 ≤ (y 0).val ∧ (y 0).val < 0 + 66 by omega) (show 64 ≤ (y 1).val ∧ (y 1).val < 64 + 2 by omega) (show 0 ≤ (y 2).val ∧ (y 2).val < 0 + 256 by omega))) (forall_fin3 (show 0 ≤ (y 0).val - 0 ∧ (y 0).val - 0 < 0 + 66 by omega) (show 1 ≤ (y 1).val - 64 ∧ (y 1).val - 64 < 1 + 1 by omega) (show 0 ≤ (y 2).val - 0 ∧ (y 2).val - 0 < 0 + 256 by omega))
      exact e.trans rfl
    · rw [show (fun old => updateSlice old (k0_pay7 (F := F)) ![0, 1, 0] slices_S66x2x256_S66x1x256_0_1_0) (fusedRun.sl.old_1 c arg12 harg12 s0) (rel (s := S66x66x256) ![0, 64, 0] S66x2x256.size y (forall_fin3 (show 0 ≤ (y 0).val ∧ (y 0).val < 0 + 66 by omega) (show 64 ≤ (y 1).val ∧ (y 1).val < 64 + 2 by omega) (show 0 ≤ (y 2).val ∧ (y 2).val < 0 + 256 by omega)))
          = (fusedRun.sl.old_1 c arg12 harg12 s0) (rel (s := S66x66x256) ![0, 64, 0] S66x2x256.size y (forall_fin3 (show 0 ≤ (y 0).val ∧ (y 0).val < 0 + 66 by omega) (show 64 ≤ (y 1).val ∧ (y 1).val < 64 + 2 by omega) (show 0 ≤ (y 2).val ∧ (y 2).val < 0 + 256 by omega))) from
        updateSlice_of_not_mem _ _ _ _ _ (fun h => by have hh : 1 ≤ (y 1).val - 64 ∧ (y 1).val - 64 < 1 + 1 := h 1; omega)]
      unfold fusedRun.sl.old_1
      show arg12.view.read (Elt F) _ ((Rect.unit (s := S66x66x256) ![0, 64, 0] S66x2x256.size inb_S66x66x256_S66x2x256_0_64_0).emb (rel (s := S66x66x256) ![0, 64, 0] S66x2x256.size y _)) = _
      rw [emb_rel]
      exact col0_read c arg12 harg12 s0 arg12.view _ y (by omega)
  · rw [read_writes_cons_unit_of_not_mem v f _ _ _ _ _ y (fun h => by have hh : 64 ≤ (y 1).val ∧ (y 1).val < 64 + 2 := h 1; omega)]
    exact col0_read c arg12 harg12 s0 v f y (by omega)

/-- An interior row on the channels below 128, after the first interior store: the up-sampled block inside, zero in
    columns 0 and 65. -/
theorem upHalf_read (y : S66x66x256.Idx) (h0 : 1 ≤ (y 0).val ∧ (y 0).val ≤ 64) (h2 : (y 2).val < 128) :
    v.read (Elt F) (v.writes (Elt F) f (fusedRun.sl.HS0_5 c arg1 harg1 arg3 harg3 arg4 harg4 arg12 harg12 x0 x2 x3 s0)) y = padCatSpec (upBlk arg1 harg1 arg3 harg3 arg4 harg4 x0 x2 x3) (brBlk arg2 harg2 x1) (zb (F := F)) y := by
  have b0 : (y 0).val < 66 := (y 0).isLt
  have b1 : (y 1).val < 66 := (y 1).isLt
  have b2 : (y 2).val < 256 := (y 2).isLt
  unfold fusedRun.sl.HS0_5
  rw [read_writes_cons_unit_of_mem v f _ _ _ _ _ y (forall_fin3 (show 1 ≤ (y 0).val ∧ (y 0).val < 1 + 64 by omega) (show 0 ≤ (y 1).val ∧ (y 1).val < 0 + 66 by omega) (show 0 ≤ (y 2).val ∧ (y 2).val < 0 + 128 by omega))]
  by_cases h1 : 1 ≤ (y 1).val ∧ (y 1).val ≤ 64
  · obtain ⟨k, hk, e⟩ := updateSlice_of_mem (fusedRun.sl.old_4 c arg12 harg12 s0) (upBlk arg1 harg1 arg3 harg3 arg4 harg4 x0 x2 x3) ![0, 1, 0] slices_S64x66x128_S64x64x128_0_1_0
        (rel (s := S66x66x256) ![1, 0, 0] S64x66x128.size y (forall_fin3 (show 1 ≤ (y 0).val ∧ (y 0).val < 1 + 64 by omega) (show 0 ≤ (y 1).val ∧ (y 1).val < 0 + 66 by omega) (show 0 ≤ (y 2).val ∧ (y 2).val < 0 + 128 by omega))) (forall_fin3 (show 0 ≤ (y 0).val - 1 ∧ (y 0).val - 1 < 0 + 64 by omega) (show 1 ≤ (y 1).val - 0 ∧ (y 1).val - 0 < 1 + 64 by omega) (show 0 ≤ (y 2).val - 0 ∧ (y 2).val - 0 < 0 + 128 by omega))
    refine e.trans ?_
    unfold padCatSpec
    rw [dif_pos ⟨h0.1, h0.2, h1.1, h1.2⟩, dif_pos h2]
    refine congrArg _ (funext fun b => ?_)
    have e0 : (k 0).val = (y 0).val - 1 - 0 := hk 0
    have e1 : (k 1).val = (y 1).val - 0 - 1 := hk 1
    have e2 : (k 2).val = (y 2).val - 0 - 0 := hk 2
    fin_cases b
    · exact Fin.ext (by show (k 0).val = (y 0).val - 1; omega)
    · exact Fin.ext (by show (k 1).val = (y 1).val - 1; omega)
    · exact Fin.ext (by show (k 2).val = (y 2).val - 0; omega)
  · rw [show (fun old => updateSlice old (upBlk arg1 harg1 arg3 harg3 arg4 harg4 x0 x2 x3) ![0, 1, 0] slices_S64x66x128_S64x64x128_0_1_0) (fusedRun.sl.old_4 c arg12 harg12 s0) (rel (s := S66x66x256) ![1, 0, 0] S64x66x128.size y (forall_fin3 (show 1 ≤ (y 0).val ∧ (y 0).val < 1 + 64 by omega) (show 0 ≤ (y 1).val ∧ (y 1).val < 0 + 66 by omega) (show 0 ≤ (y 2).val ∧ (y 2).val < 0 + 128 by omega)))
          = (fusedRun.sl.old_4 c arg12 harg12 s0) (rel (s := S66x66x256) ![1, 0, 0] S64x66x128.size y (forall_fin3 (show 1 ≤ (y 0).val ∧ (y 0).val < 1 + 64 by omega) (show 0 ≤ (y 1).val ∧ (y 1).val < 0 + 66 by omega) (show 0 ≤ (y 2).val ∧ (y 2).val < 0 + 128 by omega))) from
        updateSlice_of_not_mem _ _ _ _ _ (fun h => by have hh : 1 ≤ (y 1).val - 0 ∧ (y 1).val - 0 < 1 + 64 := h 1; omega)]
    unfold fusedRun.sl.old_4
    show arg12.view.read (Elt F) _ ((Rect.unit (s := S66x66x256) ![1, 0, 0] S64x66x128.size inb_S66x66x256_S64x66x128_1_0_0).emb (rel (s := S66x66x256) ![1, 0, 0] S64x66x128.size y _)) = _
    rw [emb_rel, border_read c arg12 harg12 s0 arg12.view _ y (by omega)]
    unfold padCatSpec
    rw [dif_neg (by omega)]

/-- Off the interior rows or on the channels from 128 up, the first interior store changed nothing. -/
theorem upHalf_read_off (y : S66x66x256.Idx) (h : ¬ ((1 ≤ (y 0).val ∧ (y 0).val ≤ 64) ∧ (y 2).val < 128)) :
    v.read (Elt F) (v.writes (Elt F) f (fusedRun.sl.HS0_5 c arg1 harg1 arg3 harg3 arg4 harg4 arg12 harg12 x0 x2 x3 s0)) y = v.read (Elt F) (v.writes (Elt F) f (fusedRun.sl.HS0_4 c arg12 harg12 s0)) y := by
  have b0 : (y 0).val < 66 := (y 0).isLt
  have b1 : (y 1).val < 66 := (y 1).isLt
  have b2 : (y 2).val < 256 := (y 2).isLt
  unfold fusedRun.sl.HS0_5
  exact read_writes_cons_unit_of_not_mem v f _ _ _ _ _ y (fun h' => by
    have hh0 : 1 ≤ (y 0).val ∧ (y 0).val < 1 + 64 := h' 0
    have hh2 : 0 ≤ (y 2).val ∧ (y 2).val < 0 + 128 := h' 2
    omega)

/-- After all six stores the image is the padded concatenation, whatever it held before. -/
theorem padCat_read (y : S66x66x256.Idx) :
    v.read (Elt F) (v.writes (Elt F) f (fusedRun.sl.HS0_6 c arg1 harg1 arg2 harg2 arg3 harg3 arg4 harg4 arg12 harg12 x0 x1 x2 x3 s0)) y = padCatSpec (upBlk arg1 harg1 arg3 harg3 arg4 harg4 x0 x2 x3) (brBlk arg2 harg2 x1) (zb (F := F)) y := by
  have b0 : (y 0).val < 66 := (y 0).isLt
  have b1 : (y 1).val < 66 := (y 1).isLt
  have b2 : (y 2).val < 256 := (y 2).isLt
  unfold fusedRun.sl.HS0_6
  by_cases hm : (1 ≤ (y 0).val ∧ (y 0).val ≤ 64) ∧ 128 ≤ (y 2).val
  · rw [read_writes_cons_unit_of_mem v f _ _ _ _ _ y (forall_fin3 (show 1 ≤ (y 0).val ∧ (y 0).val < 1 + 64 by omega) (show 0 ≤ (y 1).val ∧ (y 1).val < 0 + 66 by omega) (show 128 ≤ (y 2).val ∧ (y 2).val < 128 + 128 by omega))]
    by_cases h1 : 1 ≤ (y 1).val ∧ (y 1).val ≤ 64
    · obtain ⟨k, hk, e⟩ := updateSlice_of_mem (fusedRun.sl.old_5 c arg1 harg1 arg3 harg3 arg4 harg4 arg12 harg12 x0 x2 x3 s0) (brBlk arg2 harg2 x1) ![0, 1, 0] slices_S64x66x128_S64x64x128_0_1_0
          (rel (s := S66x66x256) ![1, 0, 128] S64x66x128.size y (forall_fin3 (show 1 ≤ (y 0).val ∧ (y 0).val < 1 + 64 by omega) (show 0 ≤ (y 1).val ∧ (y 1).val < 0 + 66 by omega) (show 128 ≤ (y 2).val ∧ (y 2).val < 128 + 128 by omega))) (forall_fin3 (show 0 ≤ (y 0).val - 1 ∧ (y 0).val - 1 < 0 + 64 by omega) (show 1 ≤ (y 1).val - 0 ∧ (y 1).val - 0 < 1 + 64 by omega) (show 0 ≤ (y 2).val - 128 ∧ (y 2).val - 128 < 0 + 128 by omega))
      refine e.trans ?_
      unfold padCatSpec
      rw [dif_pos ⟨hm.1.1, hm.1.2, h1.1, h1.2⟩, dif_neg (by omega)]
      refine congrArg _ (funext fun b => ?_)
      have e0 : (k 0).val = (y 0).val - 1 - 0 := hk 0
      have e1 : (k 1).val = (y 1).val - 0 - 1 := hk 1
      have e2 : (k 2).val = (y 2).val - 128 - 0 := hk 2
      fin_cases b
      · exact Fin.ext (by show (k 0).val = (y 0).val - 1; omega)
      · exact Fin.ext (by show (k 1).val = (y 1).val - 1; omega)
      · exact Fin.ext (by show (k 2).val = (y 2).val - 128; omega)
    · rw [show (fun old => updateSlice old (brBlk arg2 harg2 x1) ![0, 1, 0] slices_S64x66x128_S64x64x128_0_1_0) (fusedRun.sl.old_5 c arg1 harg1 arg3 harg3 arg4 harg4 arg12 harg12 x0 x2 x3 s0) (rel (s := S66x66x256) ![1, 0, 128] S64x66x128.size y (forall_fin3 (show 1 ≤ (y 0).val ∧ (y 0).val < 1 + 64 by omega) (show 0 ≤ (y 1).val ∧ (y 1).val < 0 + 66 by omega) (show 128 ≤ (y 2).val ∧ (y 2).val < 128 + 128 by omega)))
            = (fusedRun.sl.old_5 c arg1 harg1 arg3 harg3 arg4 harg4 arg12 harg12 x0 x2 x3 s0) (rel (s := S66x66x256) ![1, 0, 128] S64x66x128.size y (forall_fin3 (show 1 ≤ (y 0).val ∧ (y 0).val < 1 + 64 by omega) (show 0 ≤ (y 1).val ∧ (y 1).val < 0 + 66 by omega) (show 128 ≤ (y 2).val ∧ (y 2).val < 128 + 128 by omega))) from
          updateSlice_of_not_mem _ _ _ _ _ (fun h => by have hh : 1 ≤ (y 1).val - 0 ∧ (y 1).val - 0 < 1 + 64 := h 1; omega)]
      unfold fusedRun.sl.old_5
      show arg12.view.read (Elt F) _ ((Rect.unit (s := S66x66x256) ![1, 0, 128] S64x66x128.size inb_S66x66x256_S64x66x128_1_0_128).emb (rel (s := S66x66x256) ![1, 0, 128] S64x66x128.size y _)) = _
      rw [emb_rel, upHalf_read_off c arg1 harg1 arg3 harg3 arg4 harg4 arg12 harg12 x0 x2 x3 s0 arg12.view _ y (by omega),
        border_read c arg12 harg12 s0 arg12.view _ y (by omega)]
      unfold padCatSpec
      rw [dif_neg (by omega)]
  · rw [read_writes_cons_unit_of_not_mem v f _ _ _ _ _ y (fun h' => by
      have hh0 : 1 ≤ (y 0).val ∧ (y 0).val < 1 + 64 := h' 0
      have hh2 : 128 ≤ (y 2).val ∧ (y 2).val < 128 + 128 := h' 2
      omega)]
    by_cases hm2 : 1 ≤ (y 0).val ∧ (y 0).val ≤ 64
    · exact upHalf_read c arg1 harg1 arg2 harg2 arg3 harg3 arg4 harg4 arg12 harg12 x0 x1 x2 x3 s0 v f y hm2 (by omega)
    · rw [upHalf_read_off c arg1 harg1 arg3 harg3 arg4 harg4 arg12 harg12 x0 x2 x3 s0 v f y (by omega),
        border_read c arg12 harg12 s0 v f y (by omega)]
      unfold padCatSpec
      rw [dif_neg (by omega)]

/-- So the canonical contents of the six pieces are the padded concatenation: nothing of the scratch's entry contents
    is left in it. -/
theorem padCat_canon (y : S66x66x256.Idx) :
    View.canon (fusedRun.sl.HS0_6 c arg1 harg1 arg2 harg2 arg3 harg3 arg4 harg4 arg12 harg12 x0 x1 x2 x3 s0) y = padCatSpec (upBlk arg1 harg1 arg3 harg3 arg4 harg4 x0 x2 x3) (brBlk arg2 harg2 x1) (zb (F := F)) y := by
  rw [← View.read_writes_junk_apply_eq_canon arg12.view y]
  exact padCat_read c arg1 harg1 arg2 harg2 arg3 harg3 arg4 harg4 arg12 harg12 x0 x1 x2 x3 s0 arg12.view _ y

end Levels

end Cert.KernelIdeal.Body

end
-- ==== Proof.IdealPadMid.lean ====
/-
  The padded image of the first convolution's result, as the fused kernel's body leaves it.

  The body writes the 66 x 66 x 128 scratch image in five stores: the two border rows (zeros), the two border
  columns (zeros, each stored through a rectangle two columns wide whose other column is written back as
  loaded), and the interior (stored through a rectangle 66 columns wide whose first and last column are written
  back as loaded).  Read back at any index the image is zero on the border and the stored block inside, whatever
  the scratch held before.
-/
import proofs.«142322_g2000305194121171_pallasbulk_194_3_alg».proof.Proof.IdealPadCat

set_option maxRecDepth 16384

noncomputable section

namespace Cert.KernelIdeal.Body

open Cert.KernelIdeal Cert.KernelIdeal.Gen Cert.LibPieces
open Idealize.ShloMosaic Idealize.ShloMosaic.TcCoe Idealize.ShloMosaic.ValueIdx

variable {F : FTy → Type} [FloatOps F]

/-- The padded image: zero on the one-pixel border, `M` inside read one pixel up and left. -/
def padMidSpec {α : Type} (M : S64x64x128.Idx → α) (z : α) (y : S66x66x128.Idx) : α :=
  if h : 1 ≤ (y 0).val ∧ (y 0).val ≤ 64 ∧ 1 ≤ (y 1).val ∧ (y 1).val ≤ 64 then
    M (ix3 ⟨(y 0).val - 1, by omega⟩ ⟨(y 1).val - 1, by omega⟩ (y 2))
  else z

section Levels

variable (c : Dev nD)
  (arg1 : Memref sig .tc .vmem S1x256x32x32 .bf16) (harg1 : arg1.IsWhole) (arg2 : Memref sig .tc .vmem S1x64x64x128 .bf16) (harg2 : arg2.IsWhole)
  (arg3 : Memref sig .tc .vmem S256x512 .bf16) (harg3 : arg3.IsWhole) (arg4 : Memref sig .tc .vmem S1x512 .f32) (harg4 : arg4.IsWhole)
  (arg5 : Memref sig .tc .vmem S9x256x128 .bf16) (harg5 : arg5.IsWhole) (arg6 : Memref sig .tc .vmem S1x128 .f32) (harg6 : arg6.IsWhole)
  (arg12 : Memref sig .tc .vmem S66x66x256 .bf16) (harg12 : arg12.IsWhole) (arg13 : Memref sig .tc .vmem S66x66x128 .bf16) (harg13 : arg13.IsWhole)
  (x0 : Vec F S1x256x32x32 .bf16) (x1 : Vec F S1x64x64x128 .bf16) (x2 : Vec F S256x512 .bf16) (x3 : Vec F S1x512 .f32)
  (x4 : Vec F S9x256x128 .bf16) (x5 : Vec F S1x128 .f32)
  (s0 : Vec F S66x66x256 .bf16) (s1 : Vec F S66x66x128 .bf16)
  {sg : RefSig} {κ : Kind} {sp : Space} (v : View sg κ sp S66x66x128 .bf16) (f : v.ty.Contents (Elt F))

/-- After the two row stores: rows 0 and 65 are zero. -/
theorem mid_rows_read (y : S66x66x128.Idx) (hy : (y 0).val = 0 ∨ (y 0).val = 65) :
    v.read (Elt F) (v.writes (Elt F) f (fusedRun.sl.HS1_2 (F := F))) y = zb := by
  have b0 : (y 0).val < 66 := (y 0).isLt
  have b1 : (y 1).val < 66 := (y 1).isLt
  have b2 : (y 2).val < 128 := (y 2).isLt
  unfold fusedRun.sl.HS1_2
  rcases hy with hy | hy
  · rw [read_writes_cons_unit_of_not_mem v f _ _ _ _ _ y (fun h => by have hh : 65 ≤ (y 0).val ∧ (y 0).val < 65 + 1 := h 0; omega),
      read_writes_cons_unit_of_mem v f _ _ _ _ _ y (forall_fin3 (show 0 ≤ (y 0).val ∧ (y 0).val < 0 + 1 by omega) (show 0 ≤ (y 1).val ∧ (y 1).val < 0 + 66 by omega) (show 0 ≤ (y 2).val ∧ (y 2).val < 0 + 128 by omega))]
    rfl
  · rw [read_writes_cons_unit_of_mem v f _ _ _ _ _ y (forall_fin3 (show 65 ≤ (y 0).val ∧ (y 0).val < 65 + 1 by omega) (show 0 ≤ (y 1).val ∧ (y 1).val < 0 + 66 by omega) (show 0 ≤ (y 2).val ∧ (y 2).val < 0 + 128 by omega))]
    rfl

/-- After the first column store: column 0 is zero everywhere, and rows 0 and 65 are still zero. -/
theorem mid_col0_read (y : S66x66x128.Idx) (hy : (y 1).val = 0 ∨ (y 0).val = 0 ∨ (y 0).val = 65) :
    v.read (Elt F) (v.writes (Elt F) f (fusedRun.sl.HS1_3 c arg13 harg13 s1)) y = zb := by
  have b0 : (y 0).val < 66 := (y 0).isLt
  have b1 : (y 1).val < 66 := (y 1).isLt
  have b2 : (y 2).val < 128 := (y 2).isLt
  unfold fusedRun.sl.HS1_3
  by_cases h1 : (y 1).val ≤ 1
  · rw [read_writes_cons_unit_of_mem v f _ _ _ _ _ y (forall_fin3 (show 0 ≤ (y 0).val ∧ (y 0).val < 0 + 66 by omega) (show 0 ≤ (y 1).val ∧ (y 1).val < 0 + 2 by omega) (show 0 ≤ (y 2).val ∧ (y 2).val < 0 + 128 by omega))]
    by_cases h10 : (y 1).val = 0
    · obtain ⟨k, -, e⟩ := updateSlice_of_mem (fusedRun.sl.old_2 c arg13 harg13 s1) (k0_pay12 (F := F)) ![0, 0, 0] slices_S66x2x128_S66x1x128_0_0_0
        (rel (s := S66x66x128) ![0, 0, 0] S66x2x128.size y (forall_fin3 (show 0 ≤ (y 0).val ∧ (y 0).val < 0 + 66 by omega) (show 0 ≤ (y 1).val ∧ (y 1).val < 0 + 2 by omega) (show 0 ≤ (y 2).val ∧ (y 2).val < 0 + 128 by omega))) (forall_fin3 (show 0 ≤ (y 0).val - 0 ∧ (y 0).val - 0 < 0 + 66 by omega) (show 0 ≤ (y 1).val - 0 ∧ (y 1).val - 0 < 0 + 1 by omega) (show 0 ≤ (y 2).val - 0 ∧ (y 2).val - 0 < 0 + 128 by omega))
      exact e.trans rfl
    · rw [show (fun old => updateSlice old (k0_pay12 (F := F)) ![0, 0, 0] slices_S66x2x128_S66x1x128_0_0_0) (fusedRun.sl.old_2 c arg13 harg13 s1) (rel (s := S66x66x128) ![0, 0, 0] S66x2x128.size y (forall_fin3 (show 0 ≤ (y 0).val ∧ (y 0).val < 0 + 66 by omega) (show 0 ≤ (y 1).val ∧ (y 1).val < 0 + 2 by omega) (show 0 ≤ (y 2).val ∧ (y 2).val < 0 + 128 by omega)))
          = (fusedRun.sl.old_2 c arg13 harg13 s1) (rel (s := S66x66x128) ![0, 0, 0] S66x2x128.size y (forall_fin3 (show 0 ≤ (y 0).val ∧ (y 0).val < 0 + 66 by omega) (show 0 ≤ (y 1).val ∧ (y 1).val < 0 + 2 by omega) (show 0 ≤ (y 2).val ∧ (y 2).val < 0 + 128 by omega))) from
        updateSlice_of_not_mem _ _ _ _ _ (fun h => by have hh : 0 ≤ (y 1).val - 0 ∧ (y 1).val - 0 < 0 + 1 := h 1; omega)]
      unfold fusedRun.sl.old_2
      show arg13.view.read (Elt F) _ ((Rect.unit (s := S66x66x128) ![0, 0, 0] S66x2x128.size inb_S66x66x128_S66x2x128_0_0_0).emb (rel (s := S66x66x128) ![0, 0, 0] S66x2x128.size y _)) = _
      rw [emb_rel]
      exact mid_rows_read arg13.view _ y (by omega)
  · rw [read_writes_cons_unit_of_not_mem v f _ _ _ _ _ y (fun h => by have hh : 0 ≤ (y 1).val ∧ (y 1).val < 0 + 2 := h 1; omega)]
    exact mid_rows_read v f y (by omega)

/-- After the second column store: columns 0 and 65 and rows 0 and 65 are zero. -/
theorem mid_border_read (y : S66x66x128.Idx) (hy : (y 1).val = 0 ∨ (y 1).val = 65 ∨ (y 0).val = 0 ∨ (y 0).val = 65) :
    v.read (Elt F) (v.writes (Elt F) f (fusedRun.sl.HS1_4 c arg13 harg13 s1)) y = zb := by
  have b0 : (y 0).val < 66 := (y 0).isLt
  have b1 : (y 1).val < 66 := (y 1).isLt
  have b2 : (y 2).val < 128 := (y 2).isLt
  unfold fusedRun.sl.HS1_4
  by_cases h1 : 64 ≤ (y 1).val
  · rw [read_writes_cons_unit_of_mem v f _ _ _ _ _ y (forall_fin3 (show 0 ≤ (y 0).val ∧ (y 0).val < 0 + 66 by omega) (show 64 ≤ (y 1).val ∧ (y 1).val < 64 + 2 by omega) (show 0 ≤ (y 2).val ∧ (y 2).val < 0 + 128 by omega))]
    by_cases h10 : (y 1).val = 65
    · obtain ⟨k, -, e⟩ := updateSlice_of_mem (fusedRun.sl.old_3 c arg13 harg13 s1) (k0_pay13 (k0_pay9 (F := F))) ![0, 1, 0] slices_S66x2x128_S66x1x128_0_1_0
        (rel (s := S66x66x128) ![0, 64, 0] S66x2x128.size y (forall_fin3 (show 0 ≤ (y 0).val ∧ (y 0).val < 0 + 66 by omega) (show 64 ≤ (y 1).val ∧ (y 1).val < 64 + 2 by omega) (show 0 ≤ (y 2).val ∧ (y 2).val < 0 + 128 by omega))) (forall_fin3 (show 0 ≤ (y 0).val - 0 ∧ (y 0).val - 0 < 0 + 66 by omega) (show 1 ≤ (y 1).val - 64 ∧ (y 1).val - 64 < 1 + 1 by omega) (show 0 ≤ (y 2).val - 0 ∧ (y 2).val - 0 < 0 + 128 by omega))
      exact e.trans rfl
    · rw [show (fun old => updateSlice old (k0_pay13 (k0_pay9 (F := F))) ![0, 1, 0] slices_S66x2x128_S66x1x128_0_1_0) (fusedRun.sl.old_3 c arg13 harg13 s1) (rel (s := S66x66x128) ![0, 64, 0] S66x2x128.size y (forall_fin3 (show 0 ≤ (y 0).val ∧ (y 0).val < 0 + 66 by omega) (show 64 ≤ (y 1).val ∧ (y 1).val < 64 + 2 by omega) (show 0 ≤ (y 2).val ∧ (y 2).val < 0 + 128 by omega)))
          = (fusedRun.sl.old_3 c arg13 harg13 s1) (rel (s := S66x66x128) ![0, 64, 0] S66x2x128.size y (forall_fin3 (show 0 ≤ (y 0).val ∧ (y 0).val < 0 + 66 by omega) (show 64 ≤ (y 1).val ∧ (y 1).val < 64 + 2 by omega) (show 0 ≤ (y 2).val ∧ (y 2).val < 0 + 128 by omega))) from
        updateSlice_of_not_mem _ _ _ _ _ (fun h => by have hh : 1 ≤ (y 1).val - 64 ∧ (y 1).val - 64 < 1 + 1 := h 1; omega)]
      unfold fusedRun.sl.old_3
      show arg13.view.read (Elt F) _ ((Rect.unit (s := S66x66x128) ![0, 64, 0] S66x2x128.size inb_S66x66x128_S66x2x128_0_64_0).emb (rel (s := S66x66x128) ![0, 64, 0] S66x2x128.size y _)) = _
      rw [emb_rel]
      exact mid_col0_read c arg13 harg13 s1 arg13.view _ y (by omega)
  · rw [read_writes_cons_unit_of_not_mem v f _ _ _ _ _ y (fun h => by have hh : 64 ≤ (y 1).val ∧ (y 1).val < 64 + 2 := h 1; omega)]
    exact mid_col0_read c arg13 harg13 s1 v f y (by omega)

/-- After all five stores the image is the padded block, whatever it held before. -/
theorem padMid_read (y : S66x66x128.Idx) :
    v.read (Elt F) (v.writes (Elt F) f (fusedRun.sl.HS1_5 c arg1 harg1 arg2 harg2 arg3 harg3 arg4 harg4 arg5 harg5 arg6 harg6 arg12 harg12 arg13 harg13 x0 x1 x2 x3 x4 x5 s0 s1)) y = padMidSpec (k0_pay22 (fusedRun.sl.r_4 c arg1 harg1 arg2 harg2 arg3 harg3 arg4 harg4 arg5 harg5 arg6 harg6 arg12 harg12 x0 x1 x2 x3 x4 x5 s0)) (zb (F := F)) y := by
  have b0 : (y 0).val < 66 := (y 0).isLt
  have b1 : (y 1).val < 66 := (y 1).isLt
  have b2 : (y 2).val < 128 := (y 2).isLt
  unfold fusedRun.sl.HS1_5
  by_cases hm : 1 ≤ (y 0).val ∧ (y 0).val ≤ 64
  · rw [read_writes_cons_unit_of_mem v f _ _ _ _ _ y (forall_fin3 (show 1 ≤ (y 0).val ∧ (y 0).val < 1 + 64 by omega) (show 0 ≤ (y 1).val ∧ (y 1).val < 0 + 66 by omega) (show 0 ≤ (y 2).val ∧ (y 2).val < 0 + 128 by omega))]
    by_cases h1 : 1 ≤ (y 1).val ∧ (y 1).val ≤ 64
    · obtain ⟨k, hk, e⟩ := updateSlice_of_mem (fusedRun.sl.old_6 c arg13 harg13 s1) (k0_pay22 (fusedRun.sl.r_4 c arg1 harg1 arg2 harg2 arg3 harg3 arg4 harg4 arg5 harg5 arg6 harg6 arg12 harg12 x0 x1 x2 x3 x4 x5 s0)) ![0, 1, 0] slices_S64x66x128_S64x64x128_0_1_0
          (rel (s := S66x66x128) ![1, 0, 0] S64x66x128.size y (forall_fin3 (show 1 ≤ (y 0).val ∧ (y 0).val < 1 + 64 by omega) (show 0 ≤ (y 1).val ∧ (y 1).val < 0 + 66 by omega) (show 0 ≤ (y 2).val ∧ (y 2).val < 0 + 128 by omega))) (forall_fin3 (show 0 ≤ (y 0).val - 1 ∧ (y 0).val - 1 < 0 + 64 by omega) (show 1 ≤ (y 1).val - 0 ∧ (y 1).val - 0 < 1 + 64 by omega) (show 0 ≤ (y 2).val - 0 ∧ (y 2).val - 0 < 0 + 128 by omega))
      refine e.trans ?_
      unfold padMidSpec
      rw [dif_pos ⟨hm.1, hm.2, h1.1, h1.2⟩]
      refine congrArg _ (funext fun b => ?_)
      have e0 : (k 0).val = (y 0).val - 1 - 0 := hk 0
      have e1 : (k 1).val = (y 1).val - 0 - 1 := hk 1
      have e2 : (k 2).val = (y 2).val - 0 - 0 := hk 2
      fin_cases b
      · exact Fin.ext (by show (k 0).val = (y 0).val - 1; omega)
      · exact Fin.ext (by show (k 1).val = (y 1).val - 1; omega)
      · exact Fin.ext (by show (k 2).val = (y 2).val; omega)
    · rw [show (fun old => updateSlice old (k0_pay22 (fusedRun.sl.r_4 c arg1 harg1 arg2 harg2 arg3 harg3 arg4 harg4 arg5 harg5 arg6 harg6 arg12 harg12 x0 x1 x2 x3 x4 x5 s0)) ![0, 1, 0] slices_S64x66x128_S64x64x128_0_1_0) (fusedRun.sl.old_6 c arg13 harg13 s1) (rel (s := S66x66x128) ![1, 0, 0] S64x66x128.size y (forall_fin3 (show 1 ≤ (y 0).val ∧ (y 0).val < 1 + 64 by omega) (show 0 ≤ (y 1).val ∧ (y 1).val < 0 + 66 by omega) (show 0 ≤ (y 2).val ∧ (y 2).val < 0 + 128 by omega)))
            = (fusedRun.sl.old_6 c arg13 harg13 s1) (rel (s := S66x66x128) ![1, 0, 0] S64x66x128.size y (forall_fin3 (show 1 ≤ (y 0).val ∧ (y 0).val < 1 + 64 by omega) (show 0 ≤ (y 1).val ∧ (y 1).val < 0 + 66 by omega) (show 0 ≤ (y 2).val ∧ (y 2).val < 0 + 128 by omega))) from
          updateSlice_of_not_mem _ _ _ _ _ (fun h => by have hh : 1 ≤ (y 1).val - 0 ∧ (y 1).val - 0 < 1 + 64 := h 1; omega)]
      unfold fusedRun.sl.old_6
      show arg13.view.read (Elt F) _ ((Rect.unit (s := S66x66x128) ![1, 0, 0] S64x66x128.size inb_S66x66x128_S64x66x128_1_0_0).emb (rel (s := S66x66x128) ![1, 0, 0] S64x66x128.size y _)) = _
      rw [emb_rel, mid_border_read c arg13 harg13 s1 arg13.view _ y (by omega)]
      unfold padMidSpec
      rw [dif_neg (by omega)]
  · rw [read_writes_cons_unit_of_not_mem v f _ _ _ _ _ y (fun h => by have hh : 1 ≤ (y 0).val ∧ (y 0).val < 1 + 64 := h 0; omega),
      mid_border_read c arg13 harg13 s1 v f y (by omega)]
    unfold padMidSpec
    rw [dif_neg (by omega)]

/-- So the canonical contents of the five pieces are the padded block. -/
theorem padMid_canon (y : S66x66x128.Idx) :
    View.canon (fusedRun.sl.HS1_5 c arg1 harg1 arg2 harg2 arg3 harg3 arg4 harg4 arg5 harg5 arg6 harg6 arg12 harg12 arg13 harg13 x0 x1 x2 x3 x4 x5 s0 s1) y = padMidSpec (k0_pay22 (fusedRun.sl.r_4 c arg1 harg1 arg2 harg2 arg3 harg3 arg4 harg4 arg5 harg5 arg6 harg6 arg12 harg12 x0 x1 x2 x3 x4 x5 s0)) (zb (F := F)) y := by
  rw [← View.read_writes_junk_apply_eq_canon arg13.view y]
  exact padMid_read c arg1 harg1 arg2 harg2 arg3 harg3 arg4 harg4 arg5 harg5 arg6 harg6 arg12 harg12 arg13 harg13 x0 x1 x2 x3 x4 x5 s0 s1 arg13.view _ y

end Levels

end Cert.KernelIdeal.Body

end
-- ==== Proof.IdealIndep.lean ====
/-
  What the fused kernel's body leaves in its output buffer does not depend on what the scratch images held.

  Every load from a scratch image is a 64 x 64 window of it, shifted by at most two pixels, and reads the padded
  image the stores of the same run built (zero border, stored block inside): a term over the input blocks alone.
  The two convolutions, the rectifiers and the final sum are functions of those loads and of the weights, so the
  written pieces are the same for any two entry contents of the scratch images.
-/
import proofs.«142322_g2000305194121171_pallasbulk_194_3_alg».proof.Proof.IdealPadMid

set_option maxRecDepth 16384

noncomputable section

namespace Cert.KernelIdeal.Body

open Cert.KernelIdeal Cert.KernelIdeal.Gen Cert.LibPieces
open Idealize.ShloMosaic Idealize.ShloMosaic.TcCoe Idealize.ShloMosaic.ValueIdx

variable {F : FTy → Type} [FloatOps F]

variable (c : Dev nD) (i : grid0.Coords) (arg1 : Memref sig .tc .vmem S1x256x32x32 .bf16) (harg1 : arg1.IsWhole) (arg2 : Memref sig .tc .vmem S1x64x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x128 .bf16) (harg5 : arg5.IsWhole) (arg6 : Memref sig .tc .vmem S1x128 .f32) (harg6 : arg6.IsWhole) (arg7 : Memref sig .tc .vmem S9x128x128 .bf16) (harg7 : arg7.IsWhole) (arg8 : Memref sig .tc .vmem S1x128 .f32) (harg8 : arg8.IsWhole) (arg9 : Memref sig .tc .vmem S256x128 .bf16) (harg9 : arg9.IsWhole) (arg10 : Memref sig .tc .vmem S1x128 .f32) (harg10 : arg10.IsWhole) (arg11 : Memref sig .tc .vmem S1x64x64x128 .f32) (harg11 : arg11.IsWhole) (arg12 : Memref sig .tc .vmem S66x66x256 .bf16) (harg12 : arg12.IsWhole) (arg13 : Memref sig .tc .vmem S66x66x128 .bf16) (harg13 : arg13.IsWhole)
  (x0 : Vec F S1x256x32x32 .bf16) (x1 : Vec F S1x64x64x128 .bf16) (x2 : Vec F S256x512 .bf16) (x3 : Vec F S1x512 .f32) (x4 : Vec F S9x256x128 .bf16) (x5 : Vec F S1x128 .f32) (x6 : Vec F S9x128x128 .bf16) (x7 : Vec F S1x128 .f32) (x8 : Vec F S256x128 .bf16) (x9 : Vec F S1x128 .f32)

/-- A 64 x 64 x 256 window of the padded concatenation, loaded after its six stores. -/
theorem cat_load (s0 : Vec F S66x66x256 .bf16) (off : Fin 3 → Nat) (inb : ∀ a, off a + S64x64x256.size a ≤ S66x66x256.size a) :
    arg12.view.readCov (fusedRun.sl.HS0_6 c arg1 harg1 arg2 harg2 arg3 harg3 arg4 harg4 arg12 harg12 x0 x1 x2 x3 s0) (Rect.unit (s := S66x66x256) off S64x64x256.size inb).toLoadRect
      = fun j => padCatSpec (upBlk arg1 harg1 arg3 harg3 arg4 harg4 x0 x2 x3) (brBlk arg2 harg2 x1) (zb (F := F)) ((Rect.unit (s := S66x66x256) off S64x64x256.size inb).toLoadRect.idx j) := by
  rw [View.readCov_eq_canon']
  funext j
  exact padCat_canon c arg1 harg1 arg2 harg2 arg3 harg3 arg4 harg4 arg12 harg12 x0 x1 x2 x3 s0 _

/-- A 64 x 64 x 128 window of the padded first result, loaded after its five stores. -/
theorem mid_load (s0 : Vec F S66x66x256 .bf16) (s1 : Vec F S66x66x128 .bf16) (off : Fin 3 → Nat) (inb : ∀ a, off a + S64x64x128.size a ≤ S66x66x128.size a) :
    arg13.view.readCov (fusedRun.sl.HS1_5 c arg1 harg1 arg2 harg2 arg3 harg3 arg4 harg4 arg5 harg5 arg6 harg6 arg12 harg12 arg13 harg13 x0 x1 x2 x3 x4 x5 s0 s1) (Rect.unit (s := S66x66x128) off S64x64x128.size inb).toLoadRect
      = fun j => padMidSpec (k0_pay22 (fusedRun.sl.r_4 c arg1 harg1 arg2 harg2 arg3 harg3 arg4 harg4 arg5 harg5 arg6 harg6 arg12 harg12 x0 x1 x2 x3 x4 x5 s0)) (zb (F := F)) ((Rect.unit (s := S66x66x128) off S64x64x128.size inb).toLoadRect.idx j) := by
  rw [View.readCov_eq_canon']
  funext j
  exact padMid_canon c arg1 harg1 arg2 harg2 arg3 harg3 arg4 harg4 arg5 harg5 arg6 harg6 arg12 harg12 arg13 harg13 x0 x1 x2 x3 x4 x5 s0 s1 _

/-- The same with the window's extents written out. -/
theorem cat_load' (s0 : Vec F S66x66x256 .bf16) (off : Fin 3 → Nat) (inb : ∀ a, off a + (![64, 64, 256] : Fin 3 → Nat) a ≤ S66x66x256.size a) :
    arg12.view.readCov (fusedRun.sl.HS0_6 c arg1 harg1 arg2 harg2 arg3 harg3 arg4 harg4 arg12 harg12 x0 x1 x2 x3 s0) (Rect.unit (s := S66x66x256) off ![64, 64, 256] inb).toLoadRect
      = fun j => padCatSpec (upBlk arg1 harg1 arg3 harg3 arg4 harg4 x0 x2 x3) (brBlk arg2 harg2 x1) (zb (F := F)) ((Rect.unit (s := S66x66x256) off ![64, 64, 256] inb).toLoadRect.idx j) :=
  cat_load c arg1 harg1 arg2 harg2 arg3 harg3 arg4 harg4 arg12 harg12 x0 x1 x2 x3 s0 off inb

theorem mid_load' (s0 : Vec F S66x66x256 .bf16) (s1 : Vec F S66x66x128 .bf16) (off : Fin 3 → Nat) (inb : ∀ a, off a + (![64, 64, 128] : Fin 3 → Nat) a ≤ S66x66x128.size a) :
    arg13.view.readCov (fusedRun.sl.HS1_5 c arg1 harg1 arg2 harg2 arg3 harg3 arg4 harg4 arg5 harg5 arg6 harg6 arg12 harg12 arg13 harg13 x0 x1 x2 x3 x4 x5 s0 s1) (Rect.unit (s := S66x66x128) off ![64, 64, 128] inb).toLoadRect
      = fun j => padMidSpec (k0_pay22 (fusedRun.sl.r_4 c arg1 harg1 arg2 harg2 arg3 harg3 arg4 harg4 arg5 harg5 arg6 harg6 arg12 harg12 x0 x1 x2 x3 x4 x5 s0)) (zb (F := F)) ((Rect.unit (s := S66x66x128) off ![64, 64, 128] inb).toLoadRect.idx j) :=
  mid_load c arg1 harg1 arg2 harg2 arg3 harg3 arg4 harg4 arg5 harg5 arg6 harg6 arg12 harg12 arg13 harg13 x0 x1 x2 x3 x4 x5 s0 s1 off inb

set_option maxHeartbeats 2000000 in
/-- The written pieces are the same whatever the scratch images held at entry. -/
theorem pieces_indep (s0 s0' : Vec F S66x66x256 .bf16) (s1 s1' : Vec F S66x66x128 .bf16) :
    (fusedRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 s0 s1).1 = (fusedRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 s0' s1').1 := by
  unfold fusedRun
  dsimp only
  simp only [fusedRun.sl.r, fusedRun.sl.r_1, fusedRun.sl.r_2, fusedRun.sl.r_3, fusedRun.sl.r_4, fusedRun.sl.r_5, fusedRun.sl.r_6, fusedRun.sl.r_7, fusedRun.sl.r_8, fusedRun.sl.r_9, fusedRun.sl.v51, fusedRun.sl.v57, fusedRun.sl.v63, fusedRun.sl.v69, fusedRun.sl.v75, fusedRun.sl.v81, fusedRun.sl.v87, fusedRun.sl.v93, fusedRun.sl.v99, fusedRun.sl.v183, fusedRun.sl.v120, fusedRun.sl.v126, fusedRun.sl.v132, fusedRun.sl.v138, fusedRun.sl.v144, fusedRun.sl.v150, fusedRun.sl.v156, fusedRun.sl.v162, fusedRun.sl.v168, cat_load, mid_load, cat_load', mid_load']

end Cert.KernelIdeal.Body

end
-- ==== Proof.IdealValued.lean ====
/-
  The fused up-block kernel's run with its result named.

  Since the pieces the body writes do not depend on what the scratch images held, the output block at a grid point
  is a function of that point's ten input blocks: the pieces of a run from zero-filled scratch images, read back.
  The pieces are one store of the whole block, so they cover it.  With the output window named this way the
  launch theorem gives the program's run with every array of the pipeline at what the write-backs leave, and the
  buffers the host line after the region writes at what it computes from them.
-/
import proofs.«142322_g2000305194121171_pallasbulk_194_3_alg».proof.Proof.IdealIndep

set_option maxRecDepth 16384

noncomputable section

namespace Cert.KernelIdeal.Body.Valued

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Zero-filled scratch images: the entry contents the output block is named at. -/
abbrev z0 : Vec F S66x66x256 .bf16 := fun _ => zb
abbrev z1 : Vec F S66x66x128 .bf16 := fun _ => zb

/-- The view of an output staging buffer (both buffers of the window have the same one). -/
abbrev outView : View sig .tc .vmem S1x64x64x128 .f32 := (Memref.whole cc0_stg10_0 : Memref sig .tc .vmem S1x64x64x128 .f32).view

/-- The body's pieces cover the output block: they are one store of the whole block. -/
theorem pieces_cover (c : Dev nD) (i : grid0.Coords) (arg1 : Memref sig .tc .vmem S1x256x32x32 .bf16) (harg1 : arg1.IsWhole) (arg2 : Memref sig .tc .vmem S1x64x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x128 .bf16) (harg5 : arg5.IsWhole) (arg6 : Memref sig .tc .vmem S1x128 .f32) (harg6 : arg6.IsWhole) (arg7 : Memref sig .tc .vmem S9x128x128 .bf16) (harg7 : arg7.IsWhole) (arg8 : Memref sig .tc .vmem S1x128 .f32) (harg8 : arg8.IsWhole) (arg9 : Memref sig .tc .vmem S256x128 .bf16) (harg9 : arg9.IsWhole) (arg10 : Memref sig .tc .vmem S1x128 .f32) (harg10 : arg10.IsWhole) (arg11 : Memref sig .tc .vmem S1x64x64x128 .f32) (harg11 : arg11.IsWhole) (arg12 : Memref sig .tc .vmem S66x66x256 .bf16) (harg12 : arg12.IsWhole) (arg13 : Memref sig .tc .vmem S66x66x128 .bf16) (harg13 : arg13.IsWhole)
    (x0 : Vec F S1x256x32x32 .bf16) (x1 : Vec F S1x64x64x128 .bf16) (x2 : Vec F S256x512 .bf16) (x3 : Vec F S1x512 .f32) (x4 : Vec F S9x256x128 .bf16) (x5 : Vec F S1x128 .f32) (x6 : Vec F S9x128x128 .bf16) (x7 : Vec F S1x128 .f32) (x8 : Vec F S256x128 .bf16) (x9 : Vec F S1x128 .f32) (y : S1x64x64x128.Idx) :
    ∃ pc ∈ (fusedRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (z0 (F := F)) (z1 (F := F))).1, y ∈ pc.1.set :=
  View.cover_of_tiledL (fusedRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (z0 (F := F)) (z1 (F := F))).1 S1x64x64x128.size (by sl_kernel_rfl) y

/-- The output block the body leaves: its pieces read back over arbitrary contents. -/
def outBlock (c : Dev nD) (i : grid0.Coords) (arg1 : Memref sig .tc .vmem S1x256x32x32 .bf16) (harg1 : arg1.IsWhole) (arg2 : Memref sig .tc .vmem S1x64x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x128 .bf16) (harg5 : arg5.IsWhole) (arg6 : Memref sig .tc .vmem S1x128 .f32) (harg6 : arg6.IsWhole) (arg7 : Memref sig .tc .vmem S9x128x128 .bf16) (harg7 : arg7.IsWhole) (arg8 : Memref sig .tc .vmem S1x128 .f32) (harg8 : arg8.IsWhole) (arg9 : Memref sig .tc .vmem S256x128 .bf16) (harg9 : arg9.IsWhole) (arg10 : Memref sig .tc .vmem S1x128 .f32) (harg10 : arg10.IsWhole) (arg11 : Memref sig .tc .vmem S1x64x64x128 .f32) (harg11 : arg11.IsWhole) (arg12 : Memref sig .tc .vmem S66x66x256 .bf16) (harg12 : arg12.IsWhole) (arg13 : Memref sig .tc .vmem S66x66x128 .bf16) (harg13 : arg13.IsWhole)
    (x0 : Vec F S1x256x32x32 .bf16) (x1 : Vec F S1x64x64x128 .bf16) (x2 : Vec F S256x512 .bf16) (x3 : Vec F S1x512 .f32) (x4 : Vec F S9x256x128 .bf16) (x5 : Vec F S1x128 .f32) (x6 : Vec F S9x128x128 .bf16) (x7 : Vec F S1x128 .f32) (x8 : Vec F S256x128 .bf16) (x9 : Vec F S1x128 .f32) : Vec F S1x64x64x128 .f32 :=
  outView.read (Elt F) (outView.writes (Elt F) outView.junk (fusedRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (z0 (F := F)) (z1 (F := F))).1)

/-- The output block at grid point `t`: the body's on that point's buffers and input blocks. -/
def outAt (c : Dev nD) (t : Fin cfg0.N) : Vec F S1x64x64x128 .f32 :=
  outBlock c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) padCat (Memref.isWhole_whole _) padMid (Memref.isWhole_whole _) (iblk m c 0 t) (iblk m c 1 t) (iblk m c 2 t) (iblk m c 3 t) (iblk m c 4 t) (iblk m c 5 t) (iblk m c 6 t) (iblk m c 7 t) (iblk m c 8 t) (iblk m c 9 t)

/-- The proof data with the output named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outAt m c t := by dsimp only [dats]

theorem before_0 (c : Dev nD) (t : Fin cfg0.N) (d) : (dats m 0 c).before 0 t d = iblk m c 0 t :=
  before0_0_of m (dats m 0 c) (arrays_eq m c 0) (after_0 m c) t d
theorem before_1 (c : Dev nD) (t : Fin cfg0.N) (d) : (dats m 0 c).before 1 t d = iblk m c 1 t :=
  before0_1_of m (dats m 0 c) (arrays_eq m c 1) (after_1 m c) t d
theorem before_2 (c : Dev nD) (t : Fin cfg0.N) (d) : (dats m 0 c).before 2 t d = iblk m c 2 t :=
  before0_2_of m (dats m 0 c) (arrays_eq m c 2) (after_2 m c) t d
theorem before_3 (c : Dev nD) (t : Fin cfg0.N) (d) : (dats m 0 c).before 3 t d = iblk m c 3 t :=
  before0_3_of m (dats m 0 c) (arrays_eq m c 3) (after_3 m c) t d
theorem before_4 (c : Dev nD) (t : Fin cfg0.N) (d) : (dats m 0 c).before 4 t d = iblk m c 4 t :=
  before0_4_of m (dats m 0 c) (arrays_eq m c 4) (after_4 m c) t d
theorem before_5 (c : Dev nD) (t : Fin cfg0.N) (d) : (dats m 0 c).before 5 t d = iblk m c 5 t :=
  before0_5_of m (dats m 0 c) (arrays_eq m c 5) (after_5 m c) t d
theorem before_6 (c : Dev nD) (t : Fin cfg0.N) (d) : (dats m 0 c).before 6 t d = iblk m c 6 t :=
  before0_6_of m (dats m 0 c) (arrays_eq m c 6) (after_6 m c) t d
theorem before_7 (c : Dev nD) (t : Fin cfg0.N) (d) : (dats m 0 c).before 7 t d = iblk m c 7 t :=
  before0_7_of m (dats m 0 c) (arrays_eq m c 7) (after_7 m c) t d
theorem before_8 (c : Dev nD) (t : Fin cfg0.N) (d) : (dats m 0 c).before 8 t d = iblk m c 8 t :=
  before0_8_of m (dats m 0 c) (arrays_eq m c 8) (after_8 m c) t d
theorem before_9 (c : Dev nD) (t : Fin cfg0.N) (d) : (dats m 0 c).before 9 t d = iblk m c 9 t :=
  before0_9_of m (dats m 0 c) (arrays_eq m c 9) (after_9 m c) t d

def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1600000 in
theorem body_at (c : Dev nD) (t : Fin cfg0.N) :
    handed m c t ⊢ wp frame (wpE (defs₀ (F := F)) Variants.none c none) Set.univ (bodyAt0 t) (fun _ => returned m c t) := by
  unfold handed returned bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  rw [show (dats m 0 c).Φ t.castSucc = Pipeline.ΦA spec0 c from rfl, lent_eq]
  unfold outAt
  unfold outBlock
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((fusedRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) s0 s1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  iintro ⟨H0, H1, H2, H3, H4, H5, H6, H7, H8, H9, ⟨%e10, H10⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro
  rw [pieces_indep c _ _ _ _ _ _ _ _ _ _ _ _ _ _ _ _ _ _ _ _ _ _ _ _ _ _ _ _ _ _ _ _ _ _ _ _ _ s0 (z0 (F := F)) s1 (z1 (F := F))]
  exact View.read_writes_of_cover _ _ _ _ _ (pieces_cover c _ _ _ _ _ _ _ _ _ _ _ _ _ _ _ _ _ _ _ _ _ _ _ _ _ _ _ _ _ _ _ _ _ _ _ _ _ )

theorem body_obligation (c : Dev nD) : BodyObligation (dats (F := F) m 0 c) (defs₀ (F := F)) Variants.none () Set.univ := fun t => by
  rw [bigSep_W0, bigSep_W0]
  exact body_at m c t

set_option backward.isDefEq.respectTransparency.types false in
/-- The run of the whole program from any memory with zero counters: it terminates without a fault, every array of
    the pipeline ends at what the proof data's write-backs leave, and every other unscoped buffer at what the host
    line after the region computes. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arrays_eq m) (hΦ := fun _ _ => rfl)

end Cert.KernelIdeal.Body.Valued

end
-- ==== Proof.KerArgs.lean ====
/-
  The ten argument arrays of the program, as plain functions of their coordinates (the form the up-block's
  specification is stated over).
-/
import proofs.«142322_g2000305194121171_pallasbulk_194_3_alg».proof.Proof.IdealValued
import proofs.«142322_g2000305194121171_pallasbulk_194_3_alg».proof.Proof.Spec

noncomputable section

namespace Cert.KernelIdeal.KerValue

open Cert.KernelIdeal
open Idealize.ShloMosaic Idealize.ShloMosaic.TcCoe Idealize.ShloMosaic.ValueIdx Idealize.SL.Sem

variable (m : (ℓ : Loc nD τ sig) → Buf (Elt Ideal) ℓ) (c : Dev nD)

def aX : Fin 16 → Fin 256 → Fin 32 → Fin 32 → EReal := fun n ci a b => m ((c.tc : Thread nD τ).loc main_arg0) (ix4 n ci a b)
def aBr : Fin 16 → Fin 128 → Fin 64 → Fin 64 → EReal := fun n cc a b => m ((c.tc : Thread nD τ).loc main_arg1) (ix4 n cc a b)
def aUW : Fin 256 → Fin 128 → Fin 2 → Fin 2 → EReal := fun ci cc a b => m ((c.tc : Thread nD τ).loc main_arg2) (ix4 ci cc a b)
def aUB : Fin 128 → EReal := fun cc => m ((c.tc : Thread nD τ).loc main_arg3) (ix1 cc)
def aW1 : Fin 128 → Fin 256 → Fin 3 → Fin 3 → EReal := fun co ch a b => m ((c.tc : Thread nD τ).loc main_arg4) (ix4 co ch a b)
def aB1 : Fin 128 → EReal := fun co => m ((c.tc : Thread nD τ).loc main_arg5) (ix1 co)
def aW2 : Fin 128 → Fin 128 → Fin 3 → Fin 3 → EReal := fun co cc a b => m ((c.tc : Thread nD τ).loc main_arg6) (ix4 co cc a b)
def aB2 : Fin 128 → EReal := fun co => m ((c.tc : Thread nD τ).loc main_arg7) (ix1 co)
def aWID : Fin 128 → Fin 256 → EReal := fun co ch => m ((c.tc : Thread nD τ).loc main_arg8) (ix4 co ch 0 0)
def aBID : Fin 128 → EReal := fun co => m ((c.tc : Thread nD τ).loc main_arg9) (ix1 co)

/-- The up-block's result in the fused kernel's grouping, of this memory's arguments. -/
def specOut (n : Fin 16) (co : Fin 128) (Y Xc : Fin 64) : EReal :=
  Cert.UpBlockSpec.outK (aX m c) (aBr m c) (aUW m c) (aUB m c) (aW1 m c) (aB1 m c) (aW2 m c) (aB2 m c) (aWID m c) (aBID m c) n co Y Xc

end Cert.KernelIdeal.KerValue

end
-- ==== Proof.KerGlobal.lean ====
/-
  From the output blocks to the program's result.

  The fused kernel runs once per image: grid point t writes back one block of shape (1, 64, 64, 128), placed at
  image t of the output array of shape (16, 64, 64, 128) — the block index of point t is (t, 0, 0, 0), so an index
  (n, Y, X, co) of the array lies in the block of point n and of no other.  If every point's block holds the
  up-block's result for its image, the array after all write-backs is the one function
  (n, Y, X, co) ↦ result n co Y X.  The one host line after the region moves the channels back to the second
  place (the transpose by the permutation (0, 3, 1, 2)), so the program's result at (n, co, Y, X) is
  result n co Y X.  With the frame run of the program this gives its run with the result stated by the
  specification and the ten arguments unchanged.
-/
import proofs.«142322_g2000305194121171_pallasbulk_194_3_alg».proof.Proof.KerArgs
import Idealize.ShloMosaic.Lib.ValueIdx
import Idealize.ShloMosaic.Lib.ValueLayout
import Idealize.ShloMosaic.Lib.Pipeline.Value
import Idealize.ShloMosaic.Lib.Pipeline.FrameSuffix
import Idealize.ShloMosaic.Lib.StableHlo.Run

set_option maxRecDepth 16384

noncomputable section

namespace Cert.KernelIdeal.KerValue

open Cert.KernelIdeal Cert.KernelIdeal.Gen Cert.KernelIdeal.Body.Valued
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (c : Dev nD)

/-- A grid point is an image number below 16. -/
theorem point_lt (t : Fin cfg0.N) : t.val < 16 := by
  have h : cfg0.N = 16 := N_0
  have := t.isLt
  omega

/-- The up-block's result with the channels last, as the output array holds it. -/
def resultNHWC : S16x64x64x128.Idx → EReal := fun i => specOut m c (i 0) (i 3) (i 1) (i 2)

/-- The output window's block index at grid point t is (t, 0, 0, 0). -/
theorem out_index : ∀ t : Fin cfg0.N, win0_10.index t (0 : Fin 4) = t.val ∧ win0_10.index t (1 : Fin 4) = 0
    ∧ win0_10.index t (2 : Fin 4) = 0 ∧ win0_10.index t (3 : Fin 4) = 0 :=
  (by decide +kernel : ∀ t : Fin grid0.N, _)

/-- What grid point t writes back is block t of the result, channels last: inside the block the image coordinate
    is 0 and the array index is (t, Y, X, co). -/
theorem flushed_eq
    (hblk : ∀ (t : Fin cfg0.N) (Y X : Fin 64) (co : Fin 128),
      (outAt m c t : S1x64x64x128.Idx → EReal) (ix4 0 Y X co) = specOut m c ⟨t.val, point_lt t⟩ co Y X)
    (t : Fin cfg0.N) :
    (dats m 0 c).flushed 10 t = ((cfg0.win 10).blk t).view.read (Elt Ideal) (resultNHWC m c) := by
  show (cfg0.win 10).cut (grid0.coords t) ((dats m 0 c).after 10 t) = _
  rw [after_10]
  funext j
  show (outAt m c t : S1x64x64x128.Idx → EReal) j = resultNHWC m c (((cfg0.win 10).blk t).view.emb j)
  have b0 : ((j : S1x64x64x128.Idx) 0).val < 1 := ((j : S1x64x64x128.Idx) 0).isLt
  have hj : (j : S1x64x64x128.Idx) = ix4 (0 : Fin 1) ((j : S1x64x64x128.Idx) 1) ((j : S1x64x64x128.Idx) 2) ((j : S1x64x64x128.Idx) 3) := by
    funext a
    match a with
    | ⟨0, _⟩ => exact Fin.ext (by show ((j : S1x64x64x128.Idx) 0).val = 0; omega)
    | ⟨1, _⟩ => rfl
    | ⟨2, _⟩ => rfl
    | ⟨3, _⟩ => rfl
  obtain ⟨e0, e1, e2, e3⟩ := out_index t
  have h0 : (((cfg0.win 10).blk t).view.emb j : S16x64x64x128.Idx) 0 = (⟨t.val, point_lt t⟩ : Fin 16) :=
    Fin.ext (by show win0_10.index t (0 : Fin 4) * 1 + 1 * ((j : S1x64x64x128.Idx) 0).val = t.val; omega)
  have h1 : (((cfg0.win 10).blk t).view.emb j : S16x64x64x128.Idx) 1 = (j : S1x64x64x128.Idx) 1 :=
    Fin.ext (by show win0_10.index t (1 : Fin 4) * 64 + 1 * ((j : S1x64x64x128.Idx) 1).val = ((j : S1x64x64x128.Idx) 1).val; omega)
  have h2 : (((cfg0.win 10).blk t).view.emb j : S16x64x64x128.Idx) 2 = (j : S1x64x64x128.Idx) 2 :=
    Fin.ext (by show win0_10.index t (2 : Fin 4) * 64 + 1 * ((j : S1x64x64x128.Idx) 2).val = ((j : S1x64x64x128.Idx) 2).val; omega)
  have h3 : (((cfg0.win 10).blk t).view.emb j : S16x64x64x128.Idx) 3 = (j : S1x64x64x128.Idx) 3 :=
    Fin.ext (by show win0_10.index t (3 : Fin 4) * 128 + 1 * ((j : S1x64x64x128.Idx) 3).val = ((j : S1x64x64x128.Idx) 3).val; omega)
  calc (outAt m c t : S1x64x64x128.Idx → EReal) j
      = (outAt m c t : S1x64x64x128.Idx → EReal) (ix4 (0 : Fin 1) ((j : S1x64x64x128.Idx) 1) ((j : S1x64x64x128.Idx) 2) ((j : S1x64x64x128.Idx) 3)) :=
        congrArg (outAt m c t : S1x64x64x128.Idx → EReal) hj
    _ = specOut m c ⟨t.val, point_lt t⟩ ((j : S1x64x64x128.Idx) 3) ((j : S1x64x64x128.Idx) 1) ((j : S1x64x64x128.Idx) 2) := hblk t _ _ _
    _ = resultNHWC m c (((cfg0.win 10).blk t).view.emb j) := by
        show _ = specOut m c ((((cfg0.win 10).blk t).view.emb j : S16x64x64x128.Idx) 0) ((((cfg0.win 10).blk t).view.emb j : S16x64x64x128.Idx) 3)
          ((((cfg0.win 10).blk t).view.emb j : S16x64x64x128.Idx) 1) ((((cfg0.win 10).blk t).view.emb j : S16x64x64x128.Idx) 2)
        rw [h0, h1, h2, h3]

/-- An index is in a grid point's block iff each coordinate is in the block's range on its axis. -/
theorem mem_out_blk (t : Fin cfg0.N) (i : S16x64x64x128.Idx) :
    i ∈ ((cfg0.win 10).blk t).view.set ↔ ∀ a : Fin 4, win0_10.index t a * S1x64x64x128.size a ≤ (i a).val
      ∧ (i a).val < win0_10.index t a * S1x64x64x128.size a + S1x64x64x128.size a := by
  show i ∈ ((View.whole main_v22).slice (win0_10.rect t)).set ↔ _
  rw [View.set_slice_whole, Rect.mem_set_unit]
  exact Iff.rfl

/-- Every index of the output array lies in the block of the grid point numbered by its image. -/
theorem out_cover (i : S16x64x64x128.Idx) :
    ∃ t : Fin cfg0.N, (cfg0.win 10).flush t = true ∧ i ∈ ((cfg0.win 10).blk t).view.set := by
  have hN : cfg0.N = 16 := N_0
  have b0 : (i 0).val < 16 := (i 0).isLt
  have b1 : (i 1).val < 64 := (i 1).isLt
  have b2 : (i 2).val < 64 := (i 2).isLt
  have b3 : (i 3).val < 128 := (i 3).isLt
  have ht : (i 0).val < cfg0.N := by omega
  obtain ⟨e0, e1, e2, e3⟩ := out_index ⟨(i 0).val, ht⟩
  have e0' : win0_10.index ⟨(i 0).val, ht⟩ (0 : Fin 4) = (i 0).val := e0
  refine ⟨⟨(i 0).val, ht⟩, flush0_10 _, ?_⟩
  rw [mem_out_blk]
  intro a
  match a with
  | ⟨0, _⟩ => show win0_10.index ⟨(i 0).val, ht⟩ (0 : Fin 4) * 1 ≤ (i 0).val ∧ (i 0).val < win0_10.index ⟨(i 0).val, ht⟩ (0 : Fin 4) * 1 + 1; omega
  | ⟨1, _⟩ => show win0_10.index ⟨(i 0).val, ht⟩ (1 : Fin 4) * 64 ≤ (i 1).val ∧ (i 1).val < win0_10.index ⟨(i 0).val, ht⟩ (1 : Fin 4) * 64 + 64; omega
  | ⟨2, _⟩ => show win0_10.index ⟨(i 0).val, ht⟩ (2 : Fin 4) * 64 ≤ (i 2).val ∧ (i 2).val < win0_10.index ⟨(i 0).val, ht⟩ (2 : Fin 4) * 64 + 64; omega
  | ⟨3, _⟩ => show win0_10.index ⟨(i 0).val, ht⟩ (3 : Fin 4) * 128 ≤ (i 3).val ∧ (i 3).val < win0_10.index ⟨(i 0).val, ht⟩ (3 : Fin 4) * 128 + 128; omega

/-- The output array after all write-backs is the up-block's result, channels last. -/
theorem out_final
    (hblk : ∀ (t : Fin cfg0.N) (Y X : Fin 64) (co : Fin 128),
      (outAt m c t : S1x64x64x128.Idx → EReal) (ix4 0 Y X co) = specOut m c ⟨t.val, point_lt t⟩ co Y X) :
    (dats m 0 c).arrAt 10 cfg0.N = resultNHWC m c :=
  (dats m 0 c).arrAt_eq_of_cover 10 (resultNHWC m c) (fun t _ => flushed_eq m c hblk t) (out_cover)

/-- The program's result: the host line after the region transposes the output array back to channels second. -/
theorem kernel_result
    (hblk : ∀ (t : Fin cfg0.N) (Y X : Fin 64) (co : Fin 128),
      (outAt m c t : S1x64x64x128.Idx → EReal) (ix4 0 Y X co) = specOut m c ⟨t.val, point_lt t⟩ co Y X)
    (i : S16x128x64x64.Idx) :
    (Pipeline.afterTail₀ cfgs (dats m) 0 (Gen.V0 m) [hostOps1] c main_v23 : S16x128x64x64.Idx → EReal) i
      = specOut m c (i 0) (i 1) (i 2) (i 3) := by
  have e : (Pipeline.afterTail₀ cfgs (dats m) 0 (Gen.V0 m) [hostOps1] c main_v23 : S16x128x64x64.Idx → EReal)
      = transpose S16x128x64x64 [0, 3, 1, 2] (resultNHWC m c) transposes_S16x64x64x128_S16x128x64x64_0_3_1_2 := by
    unfold Pipeline.afterTail₀
    show StableHlo.after hostOps1 _ (Proc.devRef .tc main_v23) = _
    after_results
    exact congrArg (fun x => transpose S16x128x64x64 [0, 3, 1, 2] x transposes_S16x64x64x128_S16x128x64x64_0_3_1_2)
      ((Pipeline.withArrays_arr spec0 launch0.win.arr_inj c _ _ 10).trans (out_final m c hblk))
  rw [e]
  refine (transpose_apply _ _ _ i (ix4 (i 0) (i 2) (i 3) (i 1)) fun b => match b with
    | ⟨0, _⟩ => rfl | ⟨1, _⟩ => rfl | ⟨2, _⟩ => rfl | ⟨3, _⟩ => rfl).trans ?_
  rfl

/-- The fused kernel's program runs, its result at (n, co, Y, X) is the up-block's result, and its arguments end
    unchanged — given that every grid point's block holds the result for its image. -/
theorem run_of_blocks (m : (ℓ : Loc nD τ sig) → Buf (Elt Ideal) ℓ) (ρ : Dev nD → PrngReg)
    (hblk : ∀ (c : Dev nD) (t : Fin cfg0.N) (Y X : Fin 64) (co : Fin 128),
      (outAt m c t : S1x64x64x128.Idx → EReal) (ix4 0 Y X co) = specOut m c ⟨t.val, point_lt t⟩ co Y X) :
    θ_run (defs (F := Ideal)) (onTc (τ := τ) (main (F := Ideal))) ⟨m, fun _ => 0, ρ⟩ (fun r => ∀ c : Dev nD,
      r.2.mem ((c.tc : Thread nD τ).loc main_v23) = (fun i : S16x128x64x64.Idx => (specOut m c (i 0) (i 1) (i 2) (i 3) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).2 main_v23 (Pipeline.mem_restRefs_of main_v23 (by decide) (by decide))).trans
        (funext fun i => kernel_result m c (hblk c) i),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.KerValue

end
-- ==== Proof.IdealTaps.lean ====
/-
  The fused kernel's arithmetic read at an index, over the extended reals.

  A pixel (Y, X) of a 64 x 64 image is row Y * 64 + X of the image flattened to 4096 rows.  One tap of a 3 x 3
  convolution is the matrix product of a flattened shifted window by one 256 x 128 (or 128 x 128) slice of the
  weights, into a zero accumulator: at row (Y, X) and column co it is the sum over the channels of the window's
  entry at (Y, X, channel) times the weight at (channel, co).  A one-row bias spread over the rows reads its entry
  of the column; the rectifier acts entry by entry.
-/
import proofs.«142322_g2000305194121171_pallasbulk_194_3_alg».proof.Proof.IdealValued
import proofs.«142322_g2000305194121171_pallasbulk_194_3_alg».proof.Proof.LibPlainDot
import proofs.«142322_g2000305194121171_pallasbulk_194_3_alg».proof.Proof.Spec
import Idealize.ShloMosaic.Lib.ValueLayout
import Idealize.ShloMosaic.Lib.IdealHost
import Idealize.ShloMosaic.Lib.Pipeline.Value

set_option maxRecDepth 16384

noncomputable section

namespace Cert.KernelIdeal.Body

open Cert.KernelIdeal Cert.KernelIdeal.Gen Cert.LibPieces Cert.Lib.PlainDot Cert.UpBlockSpec
open Idealize.ShloMosaic Idealize.ShloMosaic.TcCoe Idealize.ShloMosaic.ValueIdx

/-- The row of pixel (Y, X) in the flattened image. -/
def pix (Y X : Fin 64) : Fin 4096 := ⟨Y.val * 64 + X.val, by have := Y.isLt; have := X.isLt; omega⟩

theorem flat256 (v : S64x64x256.Idx → EReal) (Y X : Fin 64) (ch : Fin 256) :
    shapeCast S4096x256 v shapeCasts_S64x64x256_S4096x256 (ix2 (pix Y X) ch) = v (ix3 Y X ch) :=
  shapeCast_apply v _ _ (ix3 Y X ch) (by
    rw [Shape.rowMajor_val_three, Shape.rowMajor_val_two]
    show (Y.val * 64 + X.val) * 256 + ch.val = (Y.val * 64 + X.val) * 256 + ch.val
    rfl)

theorem flat128 (v : S64x64x128.Idx → EReal) (Y X : Fin 64) (ch : Fin 128) :
    shapeCast S4096x128 v shapeCasts_S64x64x128_S4096x128 (ix2 (pix Y X) ch) = v (ix3 Y X ch) :=
  shapeCast_apply v _ _ (ix3 Y X ch) (by
    rw [Shape.rowMajor_val_three, Shape.rowMajor_val_two]
    show (Y.val * 64 + X.val) * 128 + ch.val = (Y.val * 64 + X.val) * 128 + ch.val
    rfl)

theorem unflat128 (v : S4096x128.Idx → EReal) (Y X : Fin 64) (co : Fin 128) :
    shapeCast S64x64x128 v shapeCasts_S4096x128_S64x64x128 (ix3 Y X co) = v (ix2 (pix Y X) co) :=
  shapeCast_apply v _ _ (ix2 (pix Y X) co) (by
    rw [Shape.rowMajor_val_three, Shape.rowMajor_val_two]
    show (Y.val * 64 + X.val) * 128 + co.val = (Y.val * 64 + X.val) * 128 + co.val
    rfl)

theorem lift128 (v : S64x64x128.Idx → EReal) (Y X : Fin 64) (co : Fin 128) :
    shapeCast S1x64x64x128 v shapeCasts_S64x64x128_S1x64x64x128 (ix4 0 Y X co) = v (ix3 Y X co) :=
  shapeCast_apply v _ _ (ix3 Y X co) (by
    rw [Shape.rowMajor_val_three, Shape.rowMajor_val_four]
    show (Y.val * 64 + X.val) * 128 + co.val = (((0 : Fin 1).val * 64 + Y.val) * 64 + X.val) * 128 + co.val
    simp)

theorem slice256 (w : S1x256x128.Idx → EReal) (ch : Fin 256) (co : Fin 128) :
    shapeCast S256x128 w shapeCasts_S1x256x128_S256x128 (ix2 ch co) = w (ix3 0 ch co) :=
  shapeCast_apply w _ _ (ix3 0 ch co) (by
    rw [Shape.rowMajor_val_three, Shape.rowMajor_val_two]
    show ((0 : Fin 1).val * 256 + ch.val) * 128 + co.val = ch.val * 128 + co.val
    simp)

theorem slice128 (w : S1x128x128.Idx → EReal) (ch : Fin 128) (co : Fin 128) :
    shapeCast S128x128 w shapeCasts_S1x128x128_S128x128 (ix2 ch co) = w (ix3 0 ch co) :=
  shapeCast_apply w _ _ (ix3 0 ch co) (by
    rw [Shape.rowMajor_val_three, Shape.rowMajor_val_two]
    show ((0 : Fin 1).val * 128 + ch.val) * 128 + co.val = ch.val * 128 + co.val
    simp)

/-- A product of already flattened operands, at a pixel's row. -/
theorem prod256 (l : FVec Ideal S4096x256 .bf16) (r : FVec Ideal S256x128 .bf16) (p : Fin 4096) (co : Fin 128) :
    (matmul (F := Ideal) dot_S4096x256_S256x128_S4096x128_1_0_0_1_n_n none l r (constant (F := Ideal) S4096x128 .f32 0x00000000#32) (ix2 p co) : EReal)
      = ∑ ch : Fin 256, (l (ix2 p ch) : EReal) * (r (ix2 ch co) : EReal) := by
  have h := matmul_zero_eq dot_S4096x256_S256x128_S4096x128_1_0_0_1_n_n rfl none l r
  exact (congrFun h (ix2 p co)).trans (rowsByCols_apply _ _ _)

theorem prod128 (l : FVec Ideal S4096x128 .bf16) (r : FVec Ideal S128x128 .bf16) (p : Fin 4096) (co : Fin 128) :
    (matmul (F := Ideal) dot_S4096x128_S128x128_S4096x128_1_0_0_1_n_n none l r (constant (F := Ideal) S4096x128 .f32 0x00000000#32) (ix2 p co) : EReal)
      = ∑ ch : Fin 128, (l (ix2 p ch) : EReal) * (r (ix2 ch co) : EReal) := by
  have h := matmul_zero_eq dot_S4096x128_S128x128_S4096x128_1_0_0_1_n_n rfl none l r
  exact (congrFun h (ix2 p co)).trans (rowsByCols_apply _ _ _)

/-- One tap over 256 channels: the window's pixel against the weight slice. -/
theorem tap256 (win : Vec Ideal S64x64x256 .bf16) (w : Vec Ideal S1x256x128 .bf16) (Y X : Fin 64) (co : Fin 128) :
    (matmul (F := Ideal) (φ₁ := .bf16) (φ₂ := .bf16) dot_S4096x256_S256x128_S4096x128_1_0_0_1_n_n none (shapeCast S4096x256 win shapeCasts_S64x64x256_S4096x256)
        (shapeCast S256x128 w shapeCasts_S1x256x128_S256x128) (constant (F := Ideal) S4096x128 .f32 0x00000000#32) (ix2 (pix Y X) co) : EReal)
      = ∑ ch : Fin 256, (win (ix3 Y X ch) : EReal) * (w (ix3 0 ch co) : EReal) := by
  rw [prod256]
  exact Finset.sum_congr rfl fun ch _ => congrArg₂ (· * ·) (flat256 win Y X ch) (slice256 w ch co)

theorem tap128 (win : Vec Ideal S64x64x128 .bf16) (w : Vec Ideal S1x128x128 .bf16) (Y X : Fin 64) (co : Fin 128) :
    (matmul (F := Ideal) (φ₁ := .bf16) (φ₂ := .bf16) dot_S4096x128_S128x128_S4096x128_1_0_0_1_n_n none (shapeCast S4096x128 win shapeCasts_S64x64x128_S4096x128)
        (shapeCast S128x128 w shapeCasts_S1x128x128_S128x128) (constant (F := Ideal) S4096x128 .f32 0x00000000#32) (ix2 (pix Y X) co) : EReal)
      = ∑ ch : Fin 128, (win (ix3 Y X ch) : EReal) * (w (ix3 0 ch co) : EReal) := by
  rw [prod128]
  exact Finset.sum_congr rfl fun ch _ => congrArg₂ (· * ·) (flat128 win Y X ch) (slice128 w ch co)

/-- A one-row bias spread over the 4096 rows. -/
theorem bias_row (b : Vec Ideal S1x128 .f32) (p : Fin 4096) (co : Fin 128) :
    broadcastTo S4096x128 (shapeCast S1x128 b shapeCasts_S1x128_S1x128) broadcasts_S1x128_S4096x128 (ix2 p co) = b (ix2 0 co) := by
  rw [shapeCast_self]
  exact broadcastTo_1b_ab_apply b _ p co

/-- The rectifier as the body spells it, at an entry. -/
theorem leaky_at (a : FVec Ideal S4096x128 .f32) (i : S4096x128.Idx) :
    select (cmpf .oge a (broadcast S4096x128 (Scalar.ofBits (F := Ideal) .f32 0x00000000#32))) a
        (mulf (broadcast S4096x128 (Scalar.ofBits (F := Ideal) .f32 0x3E4CCCCD#32)) a) i = leaky (a i) := rfl

end Cert.KernelIdeal.Body

end
-- ==== Proof.IdealUp.lean ====
/-
  The fused kernel's transposed convolution, read at an index.

  The body multiplies the image block, kept channel-major as a 256 x 1024 array (channel, pixel), by the 256 x 512
  weights contracting the channel axis of BOTH operands: entry (pixel, q) of the product is the sum over the
  input channels of image[channel, pixel] · weights[channel, q].  It adds the bias row, then re-lays the
  1024 x 512 result — (i, j) by (di, dj, c) — as (i, di, j, dj, c), that is as the 64 x 64 x 128 image whose
  pixel (2 i + di, 2 j + dj) and channel c is the entry ((i, j), (di, dj, c)).  So the up-sampled block at
  (Y, X, c) is the sum over the input channels of the image at (channel, Y / 2, X / 2) times the weight at
  (channel, q), plus the bias at q, with q = ((Y mod 2) · 2 + X mod 2) · 128 + c.
-/
import proofs.«142322_g2000305194121171_pallasbulk_194_3_alg».proof.Proof.IdealTaps

set_option maxRecDepth 16384

noncomputable section

namespace Cert.KernelIdeal.Body

open Cert.KernelIdeal Cert.KernelIdeal.Gen Cert.LibPieces Cert.UpBlockSpec
open Idealize.ShloMosaic Idealize.ShloMosaic.TcCoe Idealize.ShloMosaic.ValueIdx

local notation "dT" => dot_S256x1024_S256x512_S1024x512_0_0_1_1_n_n

theorem dT_lhs_row (j : S1024x512.Idx) (q : (dT).contr.Idx) : ((dT).lhsIdx j q 0).val = (q ⟨0, Nat.one_pos⟩).val :=
  (dT).lhsIdx_val_of_single rfl j q
theorem dT_lhs_col (j : S1024x512.Idx) (q : (dT).contr.Idx) : ((dT).lhsIdx j q 1).val = (j 0).val := by
  unfold DotDims.lhsIdx
  rw [dif_neg (show ¬(1 : Fin S256x1024.rank) ∈ (dT).lhsBatch from List.not_mem_nil),
    dif_pos (show (1 : Fin S256x1024.rank) ∈ (dT).lhsNonContracting from List.mem_singleton.mpr rfl)]
  rfl
theorem dT_rhs_row (j : S1024x512.Idx) (q : (dT).contr.Idx) : ((dT).rhsIdx j q 0).val = (q ⟨0, Nat.one_pos⟩).val :=
  (dT).rhsIdx_val_of_single rfl j q
theorem dT_rhs_col (j : S1024x512.Idx) (q : (dT).contr.Idx) : ((dT).rhsIdx j q 1).val = (j 1).val := by
  unfold DotDims.rhsIdx
  rw [dif_neg (show ¬(1 : Fin S256x512.rank) ∈ (dT).rhsBatch from List.not_mem_nil),
    dif_pos (show (1 : Fin S256x512.rank) ∈ (dT).rhsNonContracting from List.mem_singleton.mpr rfl)]
  rfl

/-- The product contracting the first axis of both operands, into a zero accumulator, at an index. -/
theorem prodT (l : FVec Ideal S256x1024 .bf16) (r : FVec Ideal S256x512 .bf16) (p : Fin 1024) (q : Fin 512) :
    (matmul (F := Ideal) dT none l r (constant (F := Ideal) S1024x512 .f32 0x00000000#32) (ix2 p q) : EReal)
      = ∑ ci : Fin 256, (l (ix2 ci p) : EReal) * (r (ix2 ci q) : EReal) := by
  refine (Ideal.matmul_constant_zero_apply dT none l r (ix2 p q)).trans ?_
  rw [← Equiv.sum_comp (contrEquiv1 dT 256 rfl rfl).symm]
  refine Finset.sum_congr rfl fun k _ => ?_
  have hk := contrEquiv1_symm_val dT 256 rfl rfl k
  have el : (dT).lhsIdx (ix2 p q) ((contrEquiv1 dT 256 rfl rfl).symm k) = ix2 k p :=
    funext fun a => Fin.ext (by
      match a with
      | ⟨0, _⟩ => exact (dT_lhs_row _ _).trans hk
      | ⟨1, _⟩ => exact dT_lhs_col _ _)
  have er : (dT).rhsIdx (ix2 p q) ((contrEquiv1 dT 256 rfl rfl).symm k) = ix2 k q :=
    funext fun a => Fin.ext (by
      match a with
      | ⟨0, _⟩ => exact (dT_rhs_row _ _).trans hk
      | ⟨1, _⟩ => exact dT_rhs_col _ _)
  exact congrArg₂ (· * ·) (congrArg l el) (congrArg r er)

/-- The column of the 1024 x 512 product that feeds channel `cc` of output pixel (Y, X). -/
def qcol (Y X : Fin 64) (cc : Fin 128) : Fin 512 :=
  ⟨(Y.val % 2 * 2 + X.val % 2) * 128 + cc.val, by have := cc.isLt; omega⟩
/-- The row: the input pixel (Y / 2, X / 2). -/
def prow (Y X : Fin 64) : Fin 1024 := ⟨Y.val / 2 * 32 + X.val / 2, by have := Y.isLt; have := X.isLt; omega⟩

/-- The up-sampled block at (Y, X, cc) in terms of the three loaded blocks. -/
theorem up_at (v28 : Vec Ideal S1x256x32x32 .bf16) (v31 : Vec Ideal S256x512 .bf16) (v34 : Vec Ideal S1x512 .f32) (Y X : Fin 64) (cc : Fin 128) :
    (k0_pay14 (F := Ideal) v28 v31 v34 (ix3 Y X cc) : EReal)
      = (∑ ci : Fin 256, (v28 (ix4 0 ci (half Y) (half X)) : EReal) * (v31 (ix2 ci (qcol Y X cc)) : EReal)) + (v34 (ix2 0 (qcol Y X cc)) : EReal) := by
  unfold k0_pay14
  dsimp only
  rw [shapeCast_self, truncf_apply]
  have hY := Y.isLt
  have hX := X.isLt
  have hc := cc.isLt
  refine (shapeCast_apply _ _ (ix3 Y X cc)
    (ix5 (⟨Y.val / 2, by omega⟩ : Fin 32) (⟨Y.val % 2, by omega⟩ : Fin 2) (⟨X.val / 2, by omega⟩ : Fin 32) (⟨X.val % 2, by omega⟩ : Fin 2) cc) (by
      rw [Shape.rowMajor_val_five, Shape.rowMajor_val_three]
      show (((Y.val / 2 * 2 + Y.val % 2) * 32 + X.val / 2) * 2 + X.val % 2) * 128 + cc.val = (Y.val * 64 + X.val) * 128 + cc.val
      omega)).trans ?_
  refine (transpose_apply _ _ _ _
    (ix5 (⟨Y.val / 2, by omega⟩ : Fin 32) (⟨X.val / 2, by omega⟩ : Fin 32) (⟨Y.val % 2, by omega⟩ : Fin 2) (⟨X.val % 2, by omega⟩ : Fin 2) cc) (fun b => by
      match b with
      | ⟨0, _⟩ => rfl
      | ⟨1, _⟩ => rfl
      | ⟨2, _⟩ => rfl
      | ⟨3, _⟩ => rfl
      | ⟨4, _⟩ => rfl)).trans ?_
  refine (shapeCast_apply _ _ _ (ix2 (prow Y X) (qcol Y X cc)) (by
      rw [Shape.rowMajor_val_two, Shape.rowMajor_val_five]
      show (Y.val / 2 * 32 + X.val / 2) * 512 + ((Y.val % 2 * 2 + X.val % 2) * 128 + cc.val)
        = (((Y.val / 2 * 32 + X.val / 2) * 2 + Y.val % 2) * 2 + X.val % 2) * 128 + cc.val
      omega)).trans ?_
  rw [addf_apply]
  congr 1
  · rw [shapeCast_self]
    refine (prodT _ _ (prow Y X) (qcol Y X cc)).trans ?_
    refine Finset.sum_congr rfl fun ci _ => ?_
    congr 1
    refine (shapeCast_apply _ _ (ix2 ci (prow Y X)) (ix3 ci (half Y) (half X)) (by
      rw [Shape.rowMajor_val_three, Shape.rowMajor_val_two]
      show (ci.val * 32 + Y.val / 2) * 32 + X.val / 2 = ci.val * 1024 + (Y.val / 2 * 32 + X.val / 2)
      omega)).trans ?_
    exact shapeCast_apply _ _ (ix3 ci (half Y) (half X)) (ix4 0 ci (half Y) (half X)) (by
      rw [Shape.rowMajor_val_four, Shape.rowMajor_val_three]
      show (((0 : Fin 1).val * 256 + ci.val) * 32 + Y.val / 2) * 32 + X.val / 2 = (ci.val * 32 + Y.val / 2) * 32 + X.val / 2
      simp)
  · rw [shapeCast_self]
    exact broadcastTo_1b_ab_apply v34 _ (prow Y X) (qcol Y X cc)

end Cert.KernelIdeal.Body

end
-- ==== Proof.IdealConv.lean ====
/-
  The fused kernel's two convolutions and its result, read at an index.

  A window of a padded image shifted by the tap (dy, dx) reads, at pixel (Y, X), the padded pixel
  (Y + dy, X + dx): zero outside, the image one pixel up and left inside.  On the concatenated image the channels
  below 128 are the up-sampled block and the others the bridge.  The first convolution adds its nine taps (each a
  sum over the 256 channels) to a zero accumulator in order, adds the bias and applies the rectifier; the second
  does the same over the 128 channels of the first's result; the output adds the 1 x 1 convolution of the
  concatenation at the pixel itself and its bias.
-/
import proofs.«142322_g2000305194121171_pallasbulk_194_3_alg».proof.Proof.IdealUp

set_option maxRecDepth 16384

noncomputable section

namespace Cert.KernelIdeal.Body

open Cert.KernelIdeal Cert.KernelIdeal.Gen Cert.LibPieces Cert.UpBlockSpec
open Idealize.ShloMosaic Idealize.ShloMosaic.TcCoe Idealize.ShloMosaic.ValueIdx

variable (Xn : Fin 256 → Fin 32 → Fin 32 → EReal) (Brn : Fin 128 → Fin 64 → Fin 64 → EReal)
  (UW : Fin 256 → Fin 128 → Fin 2 → Fin 2 → EReal) (UB : Fin 128 → EReal)
  (W1 : Fin 128 → Fin 256 → Fin 3 → Fin 3 → EReal) (B1 : Fin 128 → EReal)
  (W2 : Fin 128 → Fin 128 → Fin 3 → Fin 3 → EReal) (B2 : Fin 128 → EReal)
  (WID : Fin 128 → Fin 256 → EReal) (BID : Fin 128 → EReal) (n : Fin 16)

theorem zero_f32 : (Scalar.ofBits (F := Ideal) .f32 0x00000000#32 : EReal) = 0 := Ideal.ofBits_zero_f32
theorem zero_bf16 : (zb (F := Ideal) : EReal) = 0 := Ideal.ofBits_zero_bf16

/-- The element a shifted window reads. -/
theorem idx_window256 (off : Fin 3 → ℕ) (inb : ∀ a, off a + (![64, 64, 256] : Fin 3 → ℕ) a ≤ S66x66x256.size a) (dy dx : Fin 3)
    (h0 : off 0 = dy.val) (h1 : off 1 = dx.val) (h2 : off 2 = 0) (Y X : Fin 64) (ch : Fin 256) :
    (Rect.unit (s := S66x66x256) off ![64, 64, 256] inb).toLoadRect.idx (ix3 Y X ch) = ix3 (sh Y dy) (sh X dx) ch := by
  funext a; apply Fin.ext; fin_cases a
  · show off 0 + 1 * Y.val = Y.val + dy.val; rw [h0]; omega
  · show off 1 + 1 * X.val = X.val + dx.val; rw [h1]; omega
  · show off 2 + 1 * ch.val = ch.val; rw [h2]; omega

theorem idx_window128 (off : Fin 3 → ℕ) (inb : ∀ a, off a + (![64, 64, 128] : Fin 3 → ℕ) a ≤ S66x66x128.size a) (dy dx : Fin 3)
    (h0 : off 0 = dy.val) (h1 : off 1 = dx.val) (h2 : off 2 = 0) (Y X : Fin 64) (cc : Fin 128) :
    (Rect.unit (s := S66x66x128) off ![64, 64, 128] inb).toLoadRect.idx (ix3 Y X cc) = ix3 (sh Y dy) (sh X dx) cc := by
  funext a; apply Fin.ext; fin_cases a
  · show off 0 + 1 * Y.val = Y.val + dy.val; rw [h0]; omega
  · show off 1 + 1 * X.val = X.val + dx.val; rw [h1]; omega
  · show off 2 + 1 * cc.val = cc.val; rw [h2]; omega

/-- The padded concatenation of the body is the specification's padding of its concatenation. -/
theorem padCat_pad (U Bv : S64x64x128.Idx → EReal)
    (hU : ∀ a b cc, U (ix3 a b cc) = up (fun _ => Xn) UW UB n a b cc) (hB : ∀ a b cc, Bv (ix3 a b cc) = Brn cc a b)
    (y x : Fin 66) (ch : Fin 256) :
    padCatSpec U Bv (zb (F := Ideal)) (ix3 y x ch) = pad (fun a b => cat (fun _ => Xn) (fun _ => Brn) UW UB n a b ch) y x := by
  unfold padCatSpec UpBlockSpec.pad
  by_cases hi : 1 ≤ y.val ∧ y.val ≤ 64 ∧ 1 ≤ x.val ∧ x.val ≤ 64
  · rw [dif_pos hi, dif_pos hi]
    unfold cat
    dsimp only
    by_cases hc : ch.val < 128
    · rw [dif_pos hc, dif_pos hc]; exact hU _ _ _
    · rw [dif_neg hc, dif_neg hc]; exact hB _ _ _
  · rw [dif_neg hi, dif_neg hi]; exact zero_bf16

theorem padMid_pad (M : S64x64x128.Idx → EReal) (g : Fin 64 → Fin 64 → Fin 128 → EReal) (hM : ∀ a b cc, M (ix3 a b cc) = g a b cc)
    (y x : Fin 66) (cc : Fin 128) :
    padMidSpec M (zb (F := Ideal)) (ix3 y x cc) = pad (fun a b => g a b cc) y x := by
  unfold padMidSpec UpBlockSpec.pad
  by_cases hi : 1 ≤ y.val ∧ y.val ≤ 64 ∧ 1 ≤ x.val ∧ x.val ≤ 64
  · rw [dif_pos hi, dif_pos hi]; exact hM _ _ _
  · rw [dif_neg hi, dif_neg hi]; exact zero_bf16

set_option maxHeartbeats 1000000 in
/-- The first convolution with its bias and rectifier, at a pixel's row. -/
theorem conv1_at (w0 : Vec Ideal S64x64x256 .bf16) (t0 : Vec Ideal S1x256x128 .bf16) (w1 : Vec Ideal S64x64x256 .bf16) (t1 : Vec Ideal S1x256x128 .bf16) (w2 : Vec Ideal S64x64x256 .bf16) (t2 : Vec Ideal S1x256x128 .bf16) (w3 : Vec Ideal S64x64x256 .bf16) (t3 : Vec Ideal S1x256x128 .bf16) (w4 : Vec Ideal S64x64x256 .bf16) (t4 : Vec Ideal S1x256x128 .bf16) (w5 : Vec Ideal S64x64x256 .bf16) (t5 : Vec Ideal S1x256x128 .bf16) (w6 : Vec Ideal S64x64x256 .bf16) (t6 : Vec Ideal S1x256x128 .bf16) (w7 : Vec Ideal S64x64x256 .bf16) (t7 : Vec Ideal S1x256x128 .bf16) (w8 : Vec Ideal S64x64x256 .bf16) (t8 : Vec Ideal S1x256x128 .bf16) (b1 : Vec Ideal S1x128 .f32)
    (hw0 : ∀ (Y X : Fin 64) (ch : Fin 256), (w0 (ix3 Y X ch) : EReal) = pad (fun a b => cat (fun _ => Xn) (fun _ => Brn) UW UB n a b ch) (sh Y 0) (sh X 0))
    (hw1 : ∀ (Y X : Fin 64) (ch : Fin 256), (w1 (ix3 Y X ch) : EReal) = pad (fun a b => cat (fun _ => Xn) (fun _ => Brn) UW UB n a b ch) (sh Y 0) (sh X 1))
    (hw2 : ∀ (Y X : Fin 64) (ch : Fin 256), (w2 (ix3 Y X ch) : EReal) = pad (fun a b => cat (fun _ => Xn) (fun _ => Brn) UW UB n a b ch) (sh Y 0) (sh X 2))
    (hw3 : ∀ (Y X : Fin 64) (ch : Fin 256), (w3 (ix3 Y X ch) : EReal) = pad (fun a b => cat (fun _ => Xn) (fun _ => Brn) UW UB n a b ch) (sh Y 1) (sh X 0))
    (hw4 : ∀ (Y X : Fin 64) (ch : Fin 256), (w4 (ix3 Y X ch) : EReal) = pad (fun a b => cat (fun _ => Xn) (fun _ => Brn) UW UB n a b ch) (sh Y 1) (sh X 1))
    (hw5 : ∀ (Y X : Fin 64) (ch : Fin 256), (w5 (ix3 Y X ch) : EReal) = pad (fun a b => cat (fun _ => Xn) (fun _ => Brn) UW UB n a b ch) (sh Y 1) (sh X 2))
    (hw6 : ∀ (Y X : Fin 64) (ch : Fin 256), (w6 (ix3 Y X ch) : EReal) = pad (fun a b => cat (fun _ => Xn) (fun _ => Brn) UW UB n a b ch) (sh Y 2) (sh X 0))
    (hw7 : ∀ (Y X : Fin 64) (ch : Fin 256), (w7 (ix3 Y X ch) : EReal) = pad (fun a b => cat (fun _ => Xn) (fun _ => Brn) UW UB n a b ch) (sh Y 2) (sh X 1))
    (hw8 : ∀ (Y X : Fin 64) (ch : Fin 256), (w8 (ix3 Y X ch) : EReal) = pad (fun a b => cat (fun _ => Xn) (fun _ => Brn) UW UB n a b ch) (sh Y 2) (sh X 2))
    (ht0 : ∀ (ch : Fin 256) (co : Fin 128), (t0 (ix3 0 ch co) : EReal) = W1 co ch 0 0)
    (ht1 : ∀ (ch : Fin 256) (co : Fin 128), (t1 (ix3 0 ch co) : EReal) = W1 co ch 0 1)
    (ht2 : ∀ (ch : Fin 256) (co : Fin 128), (t2 (ix3 0 ch co) : EReal) = W1 co ch 0 2)
    (ht3 : ∀ (ch : Fin 256) (co : Fin 128), (t3 (ix3 0 ch co) : EReal) = W1 co ch 1 0)
    (ht4 : ∀ (ch : Fin 256) (co : Fin 128), (t4 (ix3 0 ch co) : EReal) = W1 co ch 1 1)
    (ht5 : ∀ (ch : Fin 256) (co : Fin 128), (t5 (ix3 0 ch co) : EReal) = W1 co ch 1 2)
    (ht6 : ∀ (ch : Fin 256) (co : Fin 128), (t6 (ix3 0 ch co) : EReal) = W1 co ch 2 0)
    (ht7 : ∀ (ch : Fin 256) (co : Fin 128), (t7 (ix3 0 ch co) : EReal) = W1 co ch 2 1)
    (ht8 : ∀ (ch : Fin 256) (co : Fin 128), (t8 (ix3 0 ch co) : EReal) = W1 co ch 2 2)
    (hb : ∀ co : Fin 128, (b1 (ix2 0 co) : EReal) = B1 co) (Y X : Fin 64) (co : Fin 128) :
    (k0_pay21 (F := Ideal) (k0_pay19 (k0_pay16 (F := Ideal)) (k0_pay17 w0) (k0_pay18 t0) w1 t1 w2 t2 w3 t3 w4 t4) (k0_pay20 w5) t5 w6 t6 w7 t7 w8 t8 b1 (ix2 (pix Y X) co) : EReal)
      = y1K (fun _ => Xn) (fun _ => Brn) UW UB W1 B1 n Y X co := by
  unfold k0_pay21 k0_pay19 k0_pay16 k0_pay17 k0_pay18 k0_pay20
  try dsimp only
  refine (leaky_at _ _).trans ?_
  unfold y1K
  congr 1
  rw [addf_apply]
  congr 1
  · unfold acc1K tapK
    simp only [addf_apply, tap256, broadcast_apply, zero_f32, hw0, hw1, hw2, hw3, hw4, hw5, hw6, hw7, hw8, ht0, ht1, ht2, ht3, ht4, ht5, ht6, ht7, ht8]
  · exact (bias_row _ _ _).trans (hb co)

set_option maxHeartbeats 1000000 in
/-- The second convolution with its bias and rectifier, the identity branch and its bias: the output block. -/
theorem out_at (w0 : Vec Ideal S64x64x128 .bf16) (t0 : Vec Ideal S1x128x128 .bf16) (w1 : Vec Ideal S64x64x128 .bf16) (t1 : Vec Ideal S1x128x128 .bf16) (w2 : Vec Ideal S64x64x128 .bf16) (t2 : Vec Ideal S1x128x128 .bf16) (w3 : Vec Ideal S64x64x128 .bf16) (t3 : Vec Ideal S1x128x128 .bf16) (w4 : Vec Ideal S64x64x128 .bf16) (t4 : Vec Ideal S1x128x128 .bf16) (w5 : Vec Ideal S64x64x128 .bf16) (t5 : Vec Ideal S1x128x128 .bf16) (w6 : Vec Ideal S64x64x128 .bf16) (t6 : Vec Ideal S1x128x128 .bf16) (w7 : Vec Ideal S64x64x128 .bf16) (t7 : Vec Ideal S1x128x128 .bf16) (w8 : Vec Ideal S64x64x128 .bf16) (t8 : Vec Ideal S1x128x128 .bf16) (b2 : Vec Ideal S1x128 .f32)
    (xc : Vec Ideal S64x64x256 .bf16) (wi : Vec Ideal S256x128 .bf16) (bi : Vec Ideal S1x128 .f32)
    (hw0 : ∀ (Y X : Fin 64) (cc : Fin 128), (w0 (ix3 Y X cc) : EReal) = pad (fun a b => y1K (fun _ => Xn) (fun _ => Brn) UW UB W1 B1 n a b cc) (sh Y 0) (sh X 0))
    (hw1 : ∀ (Y X : Fin 64) (cc : Fin 128), (w1 (ix3 Y X cc) : EReal) = pad (fun a b => y1K (fun _ => Xn) (fun _ => Brn) UW UB W1 B1 n a b cc) (sh Y 0) (sh X 1))
    (hw2 : ∀ (Y X : Fin 64) (cc : Fin 128), (w2 (ix3 Y X cc) : EReal) = pad (fun a b => y1K (fun _ => Xn) (fun _ => Brn) UW UB W1 B1 n a b cc) (sh Y 0) (sh X 2))
    (hw3 : ∀ (Y X : Fin 64) (cc : Fin 128), (w3 (ix3 Y X cc) : EReal) = pad (fun a b => y1K (fun _ => Xn) (fun _ => Brn) UW UB W1 B1 n a b cc) (sh Y 1) (sh X 0))
    (hw4 : ∀ (Y X : Fin 64) (cc : Fin 128), (w4 (ix3 Y X cc) : EReal) = pad (fun a b => y1K (fun _ => Xn) (fun _ => Brn) UW UB W1 B1 n a b cc) (sh Y 1) (sh X 1))
    (hw5 : ∀ (Y X : Fin 64) (cc : Fin 128), (w5 (ix3 Y X cc) : EReal) = pad (fun a b => y1K (fun _ => Xn) (fun _ => Brn) UW UB W1 B1 n a b cc) (sh Y 1) (sh X 2))
    (hw6 : ∀ (Y X : Fin 64) (cc : Fin 128), (w6 (ix3 Y X cc) : EReal) = pad (fun a b => y1K (fun _ => Xn) (fun _ => Brn) UW UB W1 B1 n a b cc) (sh Y 2) (sh X 0))
    (hw7 : ∀ (Y X : Fin 64) (cc : Fin 128), (w7 (ix3 Y X cc) : EReal) = pad (fun a b => y1K (fun _ => Xn) (fun _ => Brn) UW UB W1 B1 n a b cc) (sh Y 2) (sh X 1))
    (hw8 : ∀ (Y X : Fin 64) (cc : Fin 128), (w8 (ix3 Y X cc) : EReal) = pad (fun a b => y1K (fun _ => Xn) (fun _ => Brn) UW UB W1 B1 n a b cc) (sh Y 2) (sh X 2))
    (ht0 : ∀ (cc : Fin 128) (co : Fin 128), (t0 (ix3 0 cc co) : EReal) = W2 co cc 0 0)
    (ht1 : ∀ (cc : Fin 128) (co : Fin 128), (t1 (ix3 0 cc co) : EReal) = W2 co cc 0 1)
    (ht2 : ∀ (cc : Fin 128) (co : Fin 128), (t2 (ix3 0 cc co) : EReal) = W2 co cc 0 2)
    (ht3 : ∀ (cc : Fin 128) (co : Fin 128), (t3 (ix3 0 cc co) : EReal) = W2 co cc 1 0)
    (ht4 : ∀ (cc : Fin 128) (co : Fin 128), (t4 (ix3 0 cc co) : EReal) = W2 co cc 1 1)
    (ht5 : ∀ (cc : Fin 128) (co : Fin 128), (t5 (ix3 0 cc co) : EReal) = W2 co cc 1 2)
    (ht6 : ∀ (cc : Fin 128) (co : Fin 128), (t6 (ix3 0 cc co) : EReal) = W2 co cc 2 0)
    (ht7 : ∀ (cc : Fin 128) (co : Fin 128), (t7 (ix3 0 cc co) : EReal) = W2 co cc 2 1)
    (ht8 : ∀ (cc : Fin 128) (co : Fin 128), (t8 (ix3 0 cc co) : EReal) = W2 co cc 2 2)
    (hb : ∀ co : Fin 128, (b2 (ix2 0 co) : EReal) = B2 co)
    (hxc : ∀ (Y X : Fin 64) (ch : Fin 256), (xc (ix3 Y X ch) : EReal) = cat (fun _ => Xn) (fun _ => Brn) UW UB n Y X ch)
    (hwi : ∀ (ch : Fin 256) (co : Fin 128), (wi (ix2 ch co) : EReal) = WID co ch)
    (hbi : ∀ co : Fin 128, (bi (ix2 0 co) : EReal) = BID co) (Y X : Fin 64) (co : Fin 128) :
    (k0_pay1 (F := Ideal) (k0_pay26 (k0_pay23 w0 t0 w1 t1 w2 t2) (k0_pay24 w3) (k0_pay25 t3) w4 t4 w5 t5 w6 t6 w7 t7) (k0_pay27 w8) t8 b2 xc wi bi (ix4 0 Y X co) : EReal)
      = outK (fun _ => Xn) (fun _ => Brn) UW UB W1 B1 W2 B2 WID BID n co Y X := by
  unfold k0_pay1
  try dsimp only
  refine (lift128 _ Y X co).trans ?_
  refine (unflat128 _ Y X co).trans ?_
  unfold outK
  rw [addf_apply, addf_apply]
  congr 1
  · congr 1
    · refine (leaky_at _ _).trans ?_
      unfold y2K
      congr 1
      rw [addf_apply]
      congr 1
      · unfold acc2K tap2K k0_pay26 k0_pay23 k0_pay24 k0_pay25 k0_pay27
        try dsimp only
        simp only [addf_apply, tap128, broadcast_apply, zero_f32, hw0, hw1, hw2, hw3, hw4, hw5, hw6, hw7, hw8, ht0, ht1, ht2, ht3, ht4, ht5, ht6, ht7, ht8]
      · exact (bias_row _ _ _).trans (hb co)
    · unfold identK
      rw [shapeCast_self]
      refine (prod256 _ _ (pix Y X) co).trans ?_
      refine Finset.sum_congr rfl fun ch _ => ?_
      rw [flat256, hxc, hwi]
  · exact (bias_row _ _ _).trans (hbi co)

end Cert.KernelIdeal.Body

end
-- ==== Proof.KerPrefix.lean ====
/-
  The arrays the fused kernel's one region finds, read at an index, in terms of the program's ten arguments.

  Before its region the program rearranges its arguments by transposes, reshapes, one broadcast and converts to
  the narrower float type (at the extended reals a convert is the identity):
    * the input image is passed through (a convert only);
    * the bridge's channels are moved last;
    * the transposed convolution's weights (256, 128, 2, 2) become a 256 x 512 matrix whose column
      q = (2 a + b) 128 + cc holds tap (a, b) of output channel cc, and its bias is repeated once per tap in a
      row of 512;
    * the two 3 x 3 convolutions' weights (out, in, 3, 3) become nine in x out matrices, tap k = 3 dy + dx first;
    * the 1 x 1 convolution's weights (out, in, 1, 1) become an in x out matrix;
    * the three remaining biases become rows of 128.
  A reshape keeps the row-major position of every element; a transpose by a permutation reads the operand with
  the coordinates permuted back.
-/
import proofs.«142322_g2000305194121171_pallasbulk_194_3_alg».proof.Proof.KerArgs
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KerValue

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ) (c : Dev nD)

/-- The input image as the region finds it: the convert of the first argument (the identity on extended reals). -/
theorem v19_apply (n : Fin 16) (ci : Fin 256) (a b : Fin 32) :
    (Gen.V m c main_v19 : S16x256x32x32.Idx → EReal) (ix4 n ci a b) = aX m c n ci a b := by
  have e : (Gen.V m c main_v19 : S16x256x32x32.Idx → EReal)
      = truncf (F := Ideal) .bf16 (m ((c.tc : Thread nD τ).loc main_arg0)) bitsLt_bf16_f32 := by
    show StableHlo.after hostOps0 (fun b => m (c, b)) (Proc.devRef .tc main_v19) = _
    after_results
  rw [e, truncf_apply]
  rfl

/-- The first convolution's bias as one row. -/
theorem v16_apply (co : Fin 128) :
    (Gen.V m c main_v16 : S1x128.Idx → EReal) (ix2 0 co) = aB1 m c co := by
  have e : (Gen.V m c main_v16 : S1x128.Idx → EReal)
      = shapeCast S1x128 (m ((c.tc : Thread nD τ).loc main_arg5)) shapeCasts_S128_S1x128 := by
    show StableHlo.after hostOps0 (fun b => m (c, b)) (Proc.devRef .tc main_v16) = _
    after_results
    rfl
  rw [e]
  exact shapeCast_a_1a_apply _ _ 0 co

/-- The second convolution's bias as one row. -/
theorem v17_apply (co : Fin 128) :
    (Gen.V m c main_v17 : S1x128.Idx → EReal) (ix2 0 co) = aB2 m c co := by
  have e : (Gen.V m c main_v17 : S1x128.Idx → EReal)
      = shapeCast S1x128 (m ((c.tc : Thread nD τ).loc main_arg7)) shapeCasts_S128_S1x128 := by
    show StableHlo.after hostOps0 (fun b => m (c, b)) (Proc.devRef .tc main_v17) = _
    after_results
    rfl
  rw [e]
  exact shapeCast_a_1a_apply _ _ 0 co

/-- The identity branch's bias as one row. -/
theorem v18_apply (co : Fin 128) :
    (Gen.V m c main_v18 : S1x128.Idx → EReal) (ix2 0 co) = aBID m c co := by
  have e : (Gen.V m c main_v18 : S1x128.Idx → EReal)
      = shapeCast S1x128 (m ((c.tc : Thread nD τ).loc main_arg9)) shapeCasts_S128_S1x128 := by
    show StableHlo.after hostOps0 (fun b => m (c, b)) (Proc.devRef .tc main_v18) = _
    after_results
    rfl
  rw [e]
  exact shapeCast_a_1a_apply _ _ 0 co

/-- The bridge with its channels moved last: at (n, Y, X, cc) it is the second argument at (n, cc, Y, X). -/
theorem v21_apply (n : Fin 16) (Y Xc : Fin 64) (cc : Fin 128) :
    (Gen.V m c main_v21 : S16x64x64x128.Idx → EReal) (ix4 n Y Xc cc) = aBr m c n cc Y Xc := by
  have e : (Gen.V m c main_v21 : S16x64x64x128.Idx → EReal)
      = truncf (F := Ideal) .bf16 (transpose S16x64x64x128 [0, 2, 3, 1] (m ((c.tc : Thread nD τ).loc main_arg1))
          transposes_S16x128x64x64_S16x64x64x128_0_2_3_1) bitsLt_bf16_f32 := by
    show StableHlo.after hostOps0 (fun b => m (c, b)) (Proc.devRef .tc main_v21) = _
    after_results
  rw [e, truncf_apply]
  exact transpose_apply _ _ _ _ (ix4 n cc Y Xc) fun b => match b with
    | ⟨0, _⟩ => rfl | ⟨1, _⟩ => rfl | ⟨2, _⟩ => rfl | ⟨3, _⟩ => rfl

/-- The 1 x 1 convolution's weights as a 256 x 128 matrix: at (ch, co) the ninth argument at (co, ch, 0, 0). -/
theorem v15_apply (ch : Fin 256) (co : Fin 128) :
    (Gen.V m c main_v15 : S256x128.Idx → EReal) (ix2 ch co) = aWID m c co ch := by
  have e : (Gen.V m c main_v15 : S256x128.Idx → EReal)
      = truncf (F := Ideal) .bf16 (transpose S256x128 [1, 0]
          (shapeCast S128x256 (m ((c.tc : Thread nD τ).loc main_arg8)) shapeCasts_S128x256x1x1_S128x256)
          transposes_S128x256_S256x128_1_0) bitsLt_bf16_f32 := by
    show StableHlo.after hostOps0 (fun b => m (c, b)) (Proc.devRef .tc main_v15) = _
    after_results
    rfl
  rw [e, truncf_apply]
  refine (transpose_ix2_apply _ _ ch co).trans ?_
  exact shapeCast_apply _ _ _ (ix4 co ch 0 0) (by
    rw [Shape.rowMajor_val_four, Shape.rowMajor_val_two]
    show ((co.val * 256 + ch.val) * 1 + 0) * 1 + 0 = co.val * 256 + ch.val
    omega)

/-- The first convolution's weights, taps first: at (k, ch, co) the fifth argument at (co, ch, k / 3, k mod 3). -/
theorem v9_apply (k : Fin 9) (ch : Fin 256) (co : Fin 128) :
    (Gen.V m c main_v9 : S9x256x128.Idx → EReal) (ix3 k ch co)
      = aW1 m c co ch ⟨k.val / 3, by omega⟩ ⟨k.val % 3, by omega⟩ := by
  have e : (Gen.V m c main_v9 : S9x256x128.Idx → EReal)
      = truncf (F := Ideal) .bf16 (shapeCast S9x256x128
          (transpose S3x3x256x128 [2, 3, 1, 0] (m ((c.tc : Thread nD τ).loc main_arg4))
            transposes_S128x256x3x3_S3x3x256x128_2_3_1_0)
          shapeCasts_S3x3x256x128_S9x256x128) bitsLt_bf16_f32 := by
    show StableHlo.after hostOps0 (fun b => m (c, b)) (Proc.devRef .tc main_v9) = _
    after_results
    rfl
  rw [e, truncf_apply]
  have hk := k.isLt
  refine (shapeCast_apply _ _ _ (ix4 (⟨k.val / 3, by omega⟩ : Fin 3) (⟨k.val % 3, by omega⟩ : Fin 3) ch co) (by
    rw [Shape.rowMajor_val_four, Shape.rowMajor_val_three]
    show ((k.val / 3 * 3 + k.val % 3) * 256 + ch.val) * 128 + co.val = (k.val * 256 + ch.val) * 128 + co.val
    have : k.val / 3 * 3 + k.val % 3 = k.val := by omega
    rw [this])).trans ?_
  exact transpose_apply _ _ _ _ (ix4 co ch (⟨k.val / 3, by omega⟩ : Fin 3) (⟨k.val % 3, by omega⟩ : Fin 3)) fun b => match b with
    | ⟨0, _⟩ => rfl | ⟨1, _⟩ => rfl | ⟨2, _⟩ => rfl | ⟨3, _⟩ => rfl

/-- The second convolution's weights, taps first: at (k, cc, co) the seventh argument at (co, cc, k / 3, k mod 3). -/
theorem v12_apply (k : Fin 9) (cc co : Fin 128) :
    (Gen.V m c main_v12 : S9x128x128.Idx → EReal) (ix3 k cc co)
      = aW2 m c co cc ⟨k.val / 3, by omega⟩ ⟨k.val % 3, by omega⟩ := by
  have e : (Gen.V m c main_v12 : S9x128x128.Idx → EReal)
      = truncf (F := Ideal) .bf16 (shapeCast S9x128x128
          (transpose S3x3x128x128 [2, 3, 1, 0] (m ((c.tc : Thread nD τ).loc main_arg6))
            transposes_S128x128x3x3_S3x3x128x128_2_3_1_0)
          shapeCasts_S3x3x128x128_S9x128x128) bitsLt_bf16_f32 := by
    show StableHlo.after hostOps0 (fun b => m (c, b)) (Proc.devRef .tc main_v12) = _
    after_results
    rfl
  rw [e, truncf_apply]
  have hk := k.isLt
  refine (shapeCast_apply _ _ _ (ix4 (⟨k.val / 3, by omega⟩ : Fin 3) (⟨k.val % 3, by omega⟩ : Fin 3) cc co) (by
    rw [Shape.rowMajor_val_four, Shape.rowMajor_val_three]
    show ((k.val / 3 * 3 + k.val % 3) * 128 + cc.val) * 128 + co.val = (k.val * 128 + cc.val) * 128 + co.val
    have : k.val / 3 * 3 + k.val % 3 = k.val := by omega
    rw [this])).trans ?_
  exact transpose_apply _ _ _ _ (ix4 co cc (⟨k.val / 3, by omega⟩ : Fin 3) (⟨k.val % 3, by omega⟩ : Fin 3)) fun b => match b with
    | ⟨0, _⟩ => rfl | ⟨1, _⟩ => rfl | ⟨2, _⟩ => rfl | ⟨3, _⟩ => rfl

/-- The transposed convolution's bias repeated for the four taps: at q the fourth argument at q mod 128. -/
theorem v6_apply (q : Fin 512) :
    (Gen.V m c main_v6 : S1x512.Idx → EReal) (ix2 0 q) = aUB m c ⟨q.val % 128, by omega⟩ := by
  have e : (Gen.V m c main_v6 : S1x512.Idx → EReal)
      = shapeCast S1x512 (shapeCast S512 (broadcastInDim S4x128 ![0, 1] bcast_S1x128_S4x128_0_1
          (shapeCast S1x128 (m ((c.tc : Thread nD τ).loc main_arg3)) shapeCasts_S128_S1x128))
          shapeCasts_S4x128_S512) shapeCasts_S512_S1x512 := by
    show StableHlo.after hostOps0 (fun b => m (c, b)) (Proc.devRef .tc main_v6) = _
    after_results
    rfl
  rw [e]
  have hq := q.isLt
  refine (shapeCast_a_1a_apply _ _ 0 q).trans ?_
  refine (shapeCast_apply _ _ _ (ix2 (⟨q.val / 128, by omega⟩ : Fin 4) (⟨q.val % 128, by omega⟩ : Fin 128)) (by
    rw [Shape.rowMajor_val_two, Shape.rowMajor_val_one]
    show q.val / 128 * 128 + q.val % 128 = q.val
    omega)).trans ?_
  refine (broadcastInDim_apply _ _ _ _ (ix2 (0 : Fin 1) (⟨q.val % 128, by omega⟩ : Fin 128)) (fun a => match a with
    | ⟨0, _⟩ => rfl | ⟨1, _⟩ => rfl)).trans ?_
  exact shapeCast_a_1a_apply _ _ 0 _

/-- The transposed convolution's weights as a 256 x 512 matrix, tap-major in its columns: at (ci, q) the third
    argument at (ci, q mod 128, q / 256, q / 128 mod 2). -/
theorem v2_apply (ci : Fin 256) (q : Fin 512) :
    (Gen.V m c main_v2 : S256x512.Idx → EReal) (ix2 ci q)
      = aUW m c ci ⟨q.val % 128, by omega⟩ ⟨q.val / 256, by omega⟩ ⟨q.val / 128 % 2, by omega⟩ := by
  have e : (Gen.V m c main_v2 : S256x512.Idx → EReal)
      = truncf (F := Ideal) .bf16 (shapeCast S256x512
          (transpose S256x2x2x128 [0, 2, 3, 1] (m ((c.tc : Thread nD τ).loc main_arg2))
            transposes_S256x128x2x2_S256x2x2x128_0_2_3_1)
          shapeCasts_S256x2x2x128_S256x512) bitsLt_bf16_f32 := by
    show StableHlo.after hostOps0 (fun b => m (c, b)) (Proc.devRef .tc main_v2) = _
    after_results
    rfl
  rw [e, truncf_apply]
  have hq := q.isLt
  refine (shapeCast_apply _ _ _ (ix4 ci (⟨q.val / 256, by omega⟩ : Fin 2) (⟨q.val / 128 % 2, by omega⟩ : Fin 2) (⟨q.val % 128, by omega⟩ : Fin 128)) (by
    rw [Shape.rowMajor_val_four, Shape.rowMajor_val_two]
    show ((ci.val * 2 + q.val / 256) * 2 + q.val / 128 % 2) * 128 + q.val % 128 = ci.val * 512 + q.val
    omega)).trans ?_
  exact transpose_apply _ _ _ _ (ix4 ci (⟨q.val % 128, by omega⟩ : Fin 128) (⟨q.val / 256, by omega⟩ : Fin 2) (⟨q.val / 128 % 2, by omega⟩ : Fin 2)) fun b => match b with
    | ⟨0, _⟩ => rfl | ⟨1, _⟩ => rfl | ⟨2, _⟩ => rfl | ⟨3, _⟩ => rfl

end Cert.KernelIdeal.KerValue

end
-- ==== Proof.IdealBlock.lean ====
/-
  The fused kernel's output block as the up-block specification of its input blocks.

  The ten input blocks are the image (channel-major), the bridge (channel-minor), the transposed-convolution
  weights laid out as 256 x (2·2·128) with their bias tiled four times, the two 3 x 3 weights laid out tap by tap,
  the 1 x 1 weights transposed, and the three other biases as rows.  Under these readings of the blocks, the block
  the body leaves (the pieces of a run from zero-filled scratch images, read back) is, at pixel (Y, X) and channel
  co, the specification's result in the fused kernel's grouping.  At grid point `t` the input blocks are those
  readings of the arguments of image `t`.
-/
import proofs.«142322_g2000305194121171_pallasbulk_194_3_alg».proof.Proof.IdealConv
import proofs.«142322_g2000305194121171_pallasbulk_194_3_alg».proof.Proof.KerPrefix

set_option maxRecDepth 16384

noncomputable section

namespace Cert.KernelIdeal.Body

open Cert.KernelIdeal Cert.KernelIdeal.Gen Cert.LibPieces Cert.UpBlockSpec
open Idealize.ShloMosaic Idealize.ShloMosaic.TcCoe Idealize.ShloMosaic.ValueIdx

theorem hz4 : (![0, 0, 0, 0] : Fin 4 → ℕ) = fun _ => 0 := funext fun a => by fin_cases a <;> rfl
theorem hz2 : (![0, 0] : Fin 2 → ℕ) = fun _ => 0 := funext fun a => by fin_cases a <;> rfl

section Loads
variable {s : Shape} {e : EltTy} (arg : Memref sig .tc .vmem s e) (harg : arg.IsWhole) (x : Vec Ideal s e)

/-- A load from a whole buffer holding `x` reads `x` at the rectangle's elements. -/
theorem load_at (R : Rect s) (j : R.toLoadRect.shape.Idx) :
    View.readAt (Elt Ideal) arg.view R.toLoadRect (harg.unread x) j = x (R.toLoadRect.idx j) := by
  rw [View.readAt_eq_ld, harg.read_unread]

/-- A load of the whole buffer reads `x`. -/
theorem load_whole (off : Fin s.rank → ℕ) (hz : off = fun _ => 0) (inb : ∀ a, off a + s.size a ≤ s.size a) :
    View.readAt (Elt Ideal) arg.view (Rect.unit (s := s) off s.size inb).toLoadRect (harg.unread x) = x := by
  rw [View.readAt_eq_ld, harg.read_unread, View.ld_unit_zero (S := s) hz]
end Loads

theorem slice_load256 (arg5 : Memref sig .tc .vmem S9x256x128 .bf16) (harg5 : arg5.IsWhole) (x4 : Vec Ideal S9x256x128 .bf16)
    (k : ℕ) (inb : ∀ a, (![k, 0, 0] : Fin 3 → ℕ) a + S1x256x128.size a ≤ S9x256x128.size a) (hk : k < 9) (ch : Fin 256) (co : Fin 128) :
    (View.readAt (Elt Ideal) arg5.view (Rect.unit (s := S9x256x128) ![k, 0, 0] S1x256x128.size inb).toLoadRect (harg5.unread x4) (ix3 0 ch co) : EReal)
      = x4 (ix3 ⟨k, hk⟩ ch co) := by
  rw [load_at]
  refine congrArg x4 (funext fun a => Fin.ext ?_)
  fin_cases a
  · show k + 1 * (0 : Fin 1).val = k; simp
  · show 0 + 1 * ch.val = ch.val; omega
  · show 0 + 1 * co.val = co.val; omega

theorem slice_load128 (arg7 : Memref sig .tc .vmem S9x128x128 .bf16) (harg7 : arg7.IsWhole) (x6 : Vec Ideal S9x128x128 .bf16)
    (k : ℕ) (inb : ∀ a, (![k, 0, 0] : Fin 3 → ℕ) a + S1x128x128.size a ≤ S9x128x128.size a) (hk : k < 9) (cc : Fin 128) (co : Fin 128) :
    (View.readAt (Elt Ideal) arg7.view (Rect.unit (s := S9x128x128) ![k, 0, 0] S1x128x128.size inb).toLoadRect (harg7.unread x6) (ix3 0 cc co) : EReal)
      = x6 (ix3 ⟨k, hk⟩ cc co) := by
  rw [load_at]
  refine congrArg x6 (funext fun a => Fin.ext ?_)
  fin_cases a
  · show k + 1 * (0 : Fin 1).val = k; simp
  · show 0 + 1 * cc.val = cc.val; omega
  · show 0 + 1 * co.val = co.val; omega

/-- The centre tap of a padded image is the image. -/
theorem pad_centre (f : Fin 64 → Fin 64 → EReal) (Y X : Fin 64) : UpBlockSpec.pad f (sh Y 1) (sh X 1) = f Y X := by
  have hY := Y.isLt
  have hX := X.isLt
  unfold UpBlockSpec.pad
  rw [dif_pos (show 1 ≤ (sh Y 1).val ∧ (sh Y 1).val ≤ 64 ∧ 1 ≤ (sh X 1).val ∧ (sh X 1).val ≤ 64 by
    show 1 ≤ Y.val + (1 : Fin 3).val ∧ Y.val + (1 : Fin 3).val ≤ 64 ∧ 1 ≤ X.val + (1 : Fin 3).val ∧ X.val + (1 : Fin 3).val ≤ 64
    have e : ((1 : Fin 3).val) = 1 := rfl
    omega)]
  congr 1 <;> exact Fin.ext (by show _ + (1 : Fin 3).val - 1 = _; have e : ((1 : Fin 3).val) = 1 := rfl; omega)

section Block

variable (c : Dev nD) (i : grid0.Coords) (arg1 : Memref sig .tc .vmem S1x256x32x32 .bf16) (harg1 : arg1.IsWhole) (arg2 : Memref sig .tc .vmem S1x64x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x128 .bf16) (harg5 : arg5.IsWhole) (arg6 : Memref sig .tc .vmem S1x128 .f32) (harg6 : arg6.IsWhole) (arg7 : Memref sig .tc .vmem S9x128x128 .bf16) (harg7 : arg7.IsWhole) (arg8 : Memref sig .tc .vmem S1x128 .f32) (harg8 : arg8.IsWhole) (arg9 : Memref sig .tc .vmem S256x128 .bf16) (harg9 : arg9.IsWhole) (arg10 : Memref sig .tc .vmem S1x128 .f32) (harg10 : arg10.IsWhole) (arg11 : Memref sig .tc .vmem S1x64x64x128 .f32) (harg11 : arg11.IsWhole) (arg12 : Memref sig .tc .vmem S66x66x256 .bf16) (harg12 : arg12.IsWhole) (arg13 : Memref sig .tc .vmem S66x66x128 .bf16) (harg13 : arg13.IsWhole)
  (x0 : Vec Ideal S1x256x32x32 .bf16) (x1 : Vec Ideal S1x64x64x128 .bf16) (x2 : Vec Ideal S256x512 .bf16) (x3 : Vec Ideal S1x512 .f32) (x4 : Vec Ideal S9x256x128 .bf16) (x5 : Vec Ideal S1x128 .f32) (x6 : Vec Ideal S9x128x128 .bf16) (x7 : Vec Ideal S1x128 .f32) (x8 : Vec Ideal S256x128 .bf16) (x9 : Vec Ideal S1x128 .f32)
  (Xn : Fin 256 → Fin 32 → Fin 32 → EReal) (Brn : Fin 128 → Fin 64 → Fin 64 → EReal)
  (UW : Fin 256 → Fin 128 → Fin 2 → Fin 2 → EReal) (UB : Fin 128 → EReal)
  (W1 : Fin 128 → Fin 256 → Fin 3 → Fin 3 → EReal) (B1 : Fin 128 → EReal)
  (W2 : Fin 128 → Fin 128 → Fin 3 → Fin 3 → EReal) (B2 : Fin 128 → EReal)
  (WID : Fin 128 → Fin 256 → EReal) (BID : Fin 128 → EReal) (n : Fin 16)

/-- The up-sampled block is the specification's transposed convolution. -/
theorem up_blk
    (hx0 : ∀ ci a b, (x0 (ix4 0 ci a b) : EReal) = Xn ci a b)
    (hx2 : ∀ (ci : Fin 256) (q : Fin 512), (x2 (ix2 ci q) : EReal) = UW ci ⟨q.val % 128, by omega⟩ ⟨q.val / 256, by omega⟩ ⟨q.val / 128 % 2, by omega⟩)
    (hx3 : ∀ (q : Fin 512), (x3 (ix2 0 q) : EReal) = UB ⟨q.val % 128, by omega⟩)
    (a b : Fin 64) (cc : Fin 128) :
    ((upBlk arg1 harg1 arg3 harg3 arg4 harg4 x0 x2 x3) (ix3 a b cc) : EReal) = up (fun _ => Xn) UW UB n a b cc := by
  have ha := a.isLt
  have hb := b.isLt
  have hc := cc.isLt
  refine (up_at _ _ _ a b cc).trans ?_
  rw [load_whole arg1 harg1 x0 _ hz4, load_whole arg3 harg3 x2 _ hz2, load_whole arg4 harg4 x3 _ hz2]
  unfold up
  congr 1
  · refine Finset.sum_congr rfl fun ci _ => ?_
    rw [hx0, hx2]
    show Xn ci (half a) (half b) * UW ci _ _ _ = Xn ci (half a) (half b) * UW ci cc (par a) (par b)
    congr 2 <;> exact Fin.ext (by show _ = _; simp only [qcol, par]; omega)
  · rw [hx3]
    congr 1
    exact Fin.ext (by show _ = _; simp only [qcol]; omega)

/-- The bridge block as the body reads it. -/
theorem br_blk (hx1 : ∀ Y X cc, (x1 (ix4 0 Y X cc) : EReal) = Brn cc Y X) (a b : Fin 64) (cc : Fin 128) :
    ((brBlk arg2 harg2 x1) (ix3 a b cc) : EReal) = Brn cc a b := by
  show (k0_pay15 (F := Ideal) _ (ix3 a b cc) : EReal) = _
  unfold k0_pay15
  try dsimp only
  rw [shapeCast_self, load_whole arg2 harg2 x1 _ hz4]
  refine (shapeCast_apply _ _ (ix3 a b cc) (ix4 0 a b cc) (by
    rw [Shape.rowMajor_val_four, Shape.rowMajor_val_three]
    show (((0 : Fin 1).val * 64 + a.val) * 64 + b.val) * 128 + cc.val = (a.val * 64 + b.val) * 128 + cc.val
    simp)).trans ?_
  exact hx1 a b cc

variable (hx0 : ∀ ci a b, (x0 (ix4 0 ci a b) : EReal) = Xn ci a b)
  (hx1 : ∀ Y X cc, (x1 (ix4 0 Y X cc) : EReal) = Brn cc Y X)
  (hx2 : ∀ (ci : Fin 256) (q : Fin 512), (x2 (ix2 ci q) : EReal) = UW ci ⟨q.val % 128, by omega⟩ ⟨q.val / 256, by omega⟩ ⟨q.val / 128 % 2, by omega⟩)
  (hx3 : ∀ (q : Fin 512), (x3 (ix2 0 q) : EReal) = UB ⟨q.val % 128, by omega⟩)
  (hx4 : ∀ (k : Fin 9) (ch : Fin 256) (co : Fin 128), (x4 (ix3 k ch co) : EReal) = W1 co ch ⟨k.val / 3, by omega⟩ ⟨k.val % 3, by omega⟩)
  (hx5 : ∀ co : Fin 128, (x5 (ix2 0 co) : EReal) = B1 co)
  (hx6 : ∀ (k : Fin 9) (cc co : Fin 128), (x6 (ix3 k cc co) : EReal) = W2 co cc ⟨k.val / 3, by omega⟩ ⟨k.val % 3, by omega⟩)
  (hx7 : ∀ co : Fin 128, (x7 (ix2 0 co) : EReal) = B2 co)
  (hx8 : ∀ (ch : Fin 256) (co : Fin 128), (x8 (ix2 ch co) : EReal) = WID co ch)
  (hx9 : ∀ co : Fin 128, (x9 (ix2 0 co) : EReal) = BID co)

include hx0 hx1 hx2 hx3 hx4 hx5 in
set_option maxHeartbeats 2000000 in
/-- The block stored into the second padded image is the first convolution's result. -/
theorem mid_val (a b : Fin 64) (cc : Fin 128) :
    (k0_pay22 (fusedRun.sl.r_4 c arg1 harg1 arg2 harg2 arg3 harg3 arg4 harg4 arg5 harg5 arg6 harg6 arg12 harg12 x0 x1 x2 x3 x4 x5 (Valued.z0 (F := Ideal))) (ix3 a b cc) : EReal) = y1K (fun _ => Xn) (fun _ => Brn) UW UB W1 B1 n a b cc := by
  unfold k0_pay22
  try dsimp only
  rw [shapeCast_self, truncf_apply]
  refine (unflat128 _ a b cc).trans ?_
  unfold fusedRun.sl.r_4
  simp only [fusedRun.sl.r_2, fusedRun.sl.r_3, fusedRun.sl.r, fusedRun.sl.r_1, fusedRun.sl.v51, fusedRun.sl.v57, fusedRun.sl.v63, fusedRun.sl.v69, fusedRun.sl.v75, fusedRun.sl.v81, fusedRun.sl.v87, fusedRun.sl.v93, fusedRun.sl.v99, cat_load']
  exact conv1_at Xn Brn UW UB W1 B1 n _ _ _ _ _ _ _ _ _ _ _ _ _ _ _ _ _ _ _
    (fun Y X ch => (congrArg (padCatSpec (upBlk arg1 harg1 arg3 harg3 arg4 harg4 x0 x2 x3) (brBlk arg2 harg2 x1) (zb (F := Ideal))) (idx_window256 ![0, 0, 0] _ 0 0 rfl rfl rfl Y X ch)).trans (padCat_pad Xn Brn UW UB n _ _ (up_blk arg1 harg1 arg3 harg3 arg4 harg4 x0 x2 x3 Xn UW UB n hx0 hx2 hx3) (br_blk arg2 harg2 x1 Brn hx1) _ _ ch))
    (fun Y X ch => (congrArg (padCatSpec (upBlk arg1 harg1 arg3 harg3 arg4 harg4 x0 x2 x3) (brBlk arg2 harg2 x1) (zb (F := Ideal))) (idx_window256 ![0, 1, 0] _ 0 1 rfl rfl rfl Y X ch)).trans (padCat_pad Xn Brn UW UB n _ _ (up_blk arg1 harg1 arg3 harg3 arg4 harg4 x0 x2 x3 Xn UW UB n hx0 hx2 hx3) (br_blk arg2 harg2 x1 Brn hx1) _ _ ch))
    (fun Y X ch => (congrArg (padCatSpec (upBlk arg1 harg1 arg3 harg3 arg4 harg4 x0 x2 x3) (brBlk arg2 harg2 x1) (zb (F := Ideal))) (idx_window256 ![0, 2, 0] _ 0 2 rfl rfl rfl Y X ch)).trans (padCat_pad Xn Brn UW UB n _ _ (up_blk arg1 harg1 arg3 harg3 arg4 harg4 x0 x2 x3 Xn UW UB n hx0 hx2 hx3) (br_blk arg2 harg2 x1 Brn hx1) _ _ ch))
    (fun Y X ch => (congrArg (padCatSpec (upBlk arg1 harg1 arg3 harg3 arg4 harg4 x0 x2 x3) (brBlk arg2 harg2 x1) (zb (F := Ideal))) (idx_window256 ![1, 0, 0] _ 1 0 rfl rfl rfl Y X ch)).trans (padCat_pad Xn Brn UW UB n _ _ (up_blk arg1 harg1 arg3 harg3 arg4 harg4 x0 x2 x3 Xn UW UB n hx0 hx2 hx3) (br_blk arg2 harg2 x1 Brn hx1) _ _ ch))
    (fun Y X ch => (congrArg (padCatSpec (upBlk arg1 harg1 arg3 harg3 arg4 harg4 x0 x2 x3) (brBlk arg2 harg2 x1) (zb (F := Ideal))) (idx_window256 ![1, 1, 0] _ 1 1 rfl rfl rfl Y X ch)).trans (padCat_pad Xn Brn UW UB n _ _ (up_blk arg1 harg1 arg3 harg3 arg4 harg4 x0 x2 x3 Xn UW UB n hx0 hx2 hx3) (br_blk arg2 harg2 x1 Brn hx1) _ _ ch))
    (fun Y X ch => (congrArg (padCatSpec (upBlk arg1 harg1 arg3 harg3 arg4 harg4 x0 x2 x3) (brBlk arg2 harg2 x1) (zb (F := Ideal))) (idx_window256 ![1, 2, 0] _ 1 2 rfl rfl rfl Y X ch)).trans (padCat_pad Xn Brn UW UB n _ _ (up_blk arg1 harg1 arg3 harg3 arg4 harg4 x0 x2 x3 Xn UW UB n hx0 hx2 hx3) (br_blk arg2 harg2 x1 Brn hx1) _ _ ch))
    (fun Y X ch => (congrArg (padCatSpec (upBlk arg1 harg1 arg3 harg3 arg4 harg4 x0 x2 x3) (brBlk arg2 harg2 x1) (zb (F := Ideal))) (idx_window256 ![2, 0, 0] _ 2 0 rfl rfl rfl Y X ch)).trans (padCat_pad Xn Brn UW UB n _ _ (up_blk arg1 harg1 arg3 harg3 arg4 harg4 x0 x2 x3 Xn UW UB n hx0 hx2 hx3) (br_blk arg2 harg2 x1 Brn hx1) _ _ ch))
    (fun Y X ch => (congrArg (padCatSpec (upBlk arg1 harg1 arg3 harg3 arg4 harg4 x0 x2 x3) (brBlk arg2 harg2 x1) (zb (F := Ideal))) (idx_window256 ![2, 1, 0] _ 2 1 rfl rfl rfl Y X ch)).trans (padCat_pad Xn Brn UW UB n _ _ (up_blk arg1 harg1 arg3 harg3 arg4 harg4 x0 x2 x3 Xn UW UB n hx0 hx2 hx3) (br_blk arg2 harg2 x1 Brn hx1) _ _ ch))
    (fun Y X ch => (congrArg (padCatSpec (upBlk arg1 harg1 arg3 harg3 arg4 harg4 x0 x2 x3) (brBlk arg2 harg2 x1) (zb (F := Ideal))) (idx_window256 ![2, 2, 0] _ 2 2 rfl rfl rfl Y X ch)).trans (padCat_pad Xn Brn UW UB n _ _ (up_blk arg1 harg1 arg3 harg3 arg4 harg4 x0 x2 x3 Xn UW UB n hx0 hx2 hx3) (br_blk arg2 harg2 x1 Brn hx1) _ _ ch))
    (fun ch co => (slice_load256 arg5 harg5 x4 0 _ (by decide) ch co).trans ((hx4 ⟨0, by decide⟩ ch co).trans rfl))
    (fun ch co => (slice_load256 arg5 harg5 x4 1 _ (by decide) ch co).trans ((hx4 ⟨1, by decide⟩ ch co).trans rfl))
    (fun ch co => (slice_load256 arg5 harg5 x4 2 _ (by decide) ch co).trans ((hx4 ⟨2, by decide⟩ ch co).trans rfl))
    (fun ch co => (slice_load256 arg5 harg5 x4 3 _ (by decide) ch co).trans ((hx4 ⟨3, by decide⟩ ch co).trans rfl))
    (fun ch co => (slice_load256 arg5 harg5 x4 4 _ (by decide) ch co).trans ((hx4 ⟨4, by decide⟩ ch co).trans rfl))
    (fun ch co => (slice_load256 arg5 harg5 x4 5 _ (by decide) ch co).trans ((hx4 ⟨5, by decide⟩ ch co).trans rfl))
    (fun ch co => (slice_load256 arg5 harg5 x4 6 _ (by decide) ch co).trans ((hx4 ⟨6, by decide⟩ ch co).trans rfl))
    (fun ch co => (slice_load256 arg5 harg5 x4 7 _ (by decide) ch co).trans ((hx4 ⟨7, by decide⟩ ch co).trans rfl))
    (fun ch co => (slice_load256 arg5 harg5 x4 8 _ (by decide) ch co).trans ((hx4 ⟨8, by decide⟩ ch co).trans rfl))
    (fun co => (congrFun (load_whole arg6 harg6 x5 _ hz2 _) (ix2 0 co)).trans (hx5 co)) a b cc

include hx0 hx1 hx2 hx3 hx4 hx5 hx6 hx7 hx8 hx9 in
set_option maxHeartbeats 2000000 in
/-- THE BLOCK: what the body leaves in the output buffer is the specification's result of the block readings. -/
theorem block_value (Y X : Fin 64) (co : Fin 128) :
    (Valued.outBlock c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix4 0 Y X co) : EReal)
      = outK (fun _ => Xn) (fun _ => Brn) UW UB W1 B1 W2 B2 WID BID n co Y X := by
  have hmid := mid_val c arg1 harg1 arg2 harg2 arg3 harg3 arg4 harg4 arg5 harg5 arg6 harg6 arg12 harg12 x0 x1 x2 x3 x4 x5 Xn Brn UW UB W1 B1 n hx0 hx1 hx2 hx3 hx4 hx5
  unfold Valued.outBlock
  rw [View.read_writes_junk_eq_canon]
  unfold fusedRun
  dsimp only
  rw [View.canon_unit_zero hz4]
  simp only [fusedRun.sl.r_8, fusedRun.sl.r_9, fusedRun.sl.r_5, fusedRun.sl.r_6, fusedRun.sl.r_7, fusedRun.sl.v120, fusedRun.sl.v126, fusedRun.sl.v132, fusedRun.sl.v138, fusedRun.sl.v144, fusedRun.sl.v150, fusedRun.sl.v156, fusedRun.sl.v162, fusedRun.sl.v168, fusedRun.sl.v183, mid_load', cat_load']
  exact out_at Xn Brn UW UB W1 B1 W2 B2 WID BID n _ _ _ _ _ _ _ _ _ _ _ _ _ _ _ _ _ _ _ _ _ _
    (fun Y X cc => (congrArg (padMidSpec (k0_pay22 (fusedRun.sl.r_4 c arg1 harg1 arg2 harg2 arg3 harg3 arg4 harg4 arg5 harg5 arg6 harg6 arg12 harg12 x0 x1 x2 x3 x4 x5 (Valued.z0 (F := Ideal)))) (zb (F := Ideal))) (idx_window128 ![0, 0, 0] _ 0 0 rfl rfl rfl Y X cc)).trans (padMid_pad _ _ hmid _ _ cc))
    (fun Y X cc => (congrArg (padMidSpec (k0_pay22 (fusedRun.sl.r_4 c arg1 harg1 arg2 harg2 arg3 harg3 arg4 harg4 arg5 harg5 arg6 harg6 arg12 harg12 x0 x1 x2 x3 x4 x5 (Valued.z0 (F := Ideal)))) (zb (F := Ideal))) (idx_window128 ![0, 1, 0] _ 0 1 rfl rfl rfl Y X cc)).trans (padMid_pad _ _ hmid _ _ cc))
    (fun Y X cc => (congrArg (padMidSpec (k0_pay22 (fusedRun.sl.r_4 c arg1 harg1 arg2 harg2 arg3 harg3 arg4 harg4 arg5 harg5 arg6 harg6 arg12 harg12 x0 x1 x2 x3 x4 x5 (Valued.z0 (F := Ideal)))) (zb (F := Ideal))) (idx_window128 ![0, 2, 0] _ 0 2 rfl rfl rfl Y X cc)).trans (padMid_pad _ _ hmid _ _ cc))
    (fun Y X cc => (congrArg (padMidSpec (k0_pay22 (fusedRun.sl.r_4 c arg1 harg1 arg2 harg2 arg3 harg3 arg4 harg4 arg5 harg5 arg6 harg6 arg12 harg12 x0 x1 x2 x3 x4 x5 (Valued.z0 (F := Ideal)))) (zb (F := Ideal))) (idx_window128 ![1, 0, 0] _ 1 0 rfl rfl rfl Y X cc)).trans (padMid_pad _ _ hmid _ _ cc))
    (fun Y X cc => (congrArg (padMidSpec (k0_pay22 (fusedRun.sl.r_4 c arg1 harg1 arg2 harg2 arg3 harg3 arg4 harg4 arg5 harg5 arg6 harg6 arg12 harg12 x0 x1 x2 x3 x4 x5 (Valued.z0 (F := Ideal)))) (zb (F := Ideal))) (idx_window128 ![1, 1, 0] _ 1 1 rfl rfl rfl Y X cc)).trans (padMid_pad _ _ hmid _ _ cc))
    (fun Y X cc => (congrArg (padMidSpec (k0_pay22 (fusedRun.sl.r_4 c arg1 harg1 arg2 harg2 arg3 harg3 arg4 harg4 arg5 harg5 arg6 harg6 arg12 harg12 x0 x1 x2 x3 x4 x5 (Valued.z0 (F := Ideal)))) (zb (F := Ideal))) (idx_window128 ![1, 2, 0] _ 1 2 rfl rfl rfl Y X cc)).trans (padMid_pad _ _ hmid _ _ cc))
    (fun Y X cc => (congrArg (padMidSpec (k0_pay22 (fusedRun.sl.r_4 c arg1 harg1 arg2 harg2 arg3 harg3 arg4 harg4 arg5 harg5 arg6 harg6 arg12 harg12 x0 x1 x2 x3 x4 x5 (Valued.z0 (F := Ideal)))) (zb (F := Ideal))) (idx_window128 ![2, 0, 0] _ 2 0 rfl rfl rfl Y X cc)).trans (padMid_pad _ _ hmid _ _ cc))
    (fun Y X cc => (congrArg (padMidSpec (k0_pay22 (fusedRun.sl.r_4 c arg1 harg1 arg2 harg2 arg3 harg3 arg4 harg4 arg5 harg5 arg6 harg6 arg12 harg12 x0 x1 x2 x3 x4 x5 (Valued.z0 (F := Ideal)))) (zb (F := Ideal))) (idx_window128 ![2, 1, 0] _ 2 1 rfl rfl rfl Y X cc)).trans (padMid_pad _ _ hmid _ _ cc))
    (fun Y X cc => (congrArg (padMidSpec (k0_pay22 (fusedRun.sl.r_4 c arg1 harg1 arg2 harg2 arg3 harg3 arg4 harg4 arg5 harg5 arg6 harg6 arg12 harg12 x0 x1 x2 x3 x4 x5 (Valued.z0 (F := Ideal)))) (zb (F := Ideal))) (idx_window128 ![2, 2, 0] _ 2 2 rfl rfl rfl Y X cc)).trans (padMid_pad _ _ hmid _ _ cc))
    (fun cc co => (slice_load128 arg7 harg7 x6 0 _ (by decide) cc co).trans ((hx6 ⟨0, by decide⟩ cc co).trans rfl))
    (fun cc co => (slice_load128 arg7 harg7 x6 1 _ (by decide) cc co).trans ((hx6 ⟨1, by decide⟩ cc co).trans rfl))
    (fun cc co => (slice_load128 arg7 harg7 x6 2 _ (by decide) cc co).trans ((hx6 ⟨2, by decide⟩ cc co).trans rfl))
    (fun cc co => (slice_load128 arg7 harg7 x6 3 _ (by decide) cc co).trans ((hx6 ⟨3, by decide⟩ cc co).trans rfl))
    (fun cc co => (slice_load128 arg7 harg7 x6 4 _ (by decide) cc co).trans ((hx6 ⟨4, by decide⟩ cc co).trans rfl))
    (fun cc co => (slice_load128 arg7 harg7 x6 5 _ (by decide) cc co).trans ((hx6 ⟨5, by decide⟩ cc co).trans rfl))
    (fun cc co => (slice_load128 arg7 harg7 x6 6 _ (by decide) cc co).trans ((hx6 ⟨6, by decide⟩ cc co).trans rfl))
    (fun cc co => (slice_load128 arg7 harg7 x6 7 _ (by decide) cc co).trans ((hx6 ⟨7, by decide⟩ cc co).trans rfl))
    (fun cc co => (slice_load128 arg7 harg7 x6 8 _ (by decide) cc co).trans ((hx6 ⟨8, by decide⟩ cc co).trans rfl))
    (fun co => (congrFun (load_whole arg8 harg8 x7 _ hz2 _) (ix2 0 co)).trans (hx7 co))
    (fun Y X ch => ((congrArg (padCatSpec (upBlk arg1 harg1 arg3 harg3 arg4 harg4 x0 x2 x3) (brBlk arg2 harg2 x1) (zb (F := Ideal))) (idx_window256 ![1, 1, 0] _ 1 1 rfl rfl rfl Y X ch)).trans (padCat_pad Xn Brn UW UB n _ _ (up_blk arg1 harg1 arg3 harg3 arg4 harg4 x0 x2 x3 Xn UW UB n hx0 hx2 hx3) (br_blk arg2 harg2 x1 Brn hx1) _ _ ch)).trans (pad_centre _ Y X))
    (fun ch co => (congrFun (load_whole arg9 harg9 x8 _ hz2 _) (ix2 ch co)).trans (hx8 ch co))
    (fun co => (congrFun (load_whole arg10 harg10 x9 _ hz2 _) (ix2 0 co)).trans (hx9 co)) Y X co

end Block

end Cert.KernelIdeal.Body

end
-- ==== Proof.IdealPoint.lean ====
/-
  The fused kernel's output block at a grid point, as the specification of the arguments.

  Point `t` of the grid handles image `t`: the image and bridge windows hold block `t` of their arrays (one
  image each), the weight and bias windows hold their whole arrays at every point.  The arrays themselves are the
  host re-layouts of the arguments.  So the ten input blocks at point `t` are the block readings the body's value
  was stated under, of image `t`'s arguments.
-/
import proofs.«142322_g2000305194121171_pallasbulk_194_3_alg».proof.Proof.IdealBlock

set_option maxRecDepth 16384

noncomputable section

namespace Cert.KernelIdeal.KerValue

open Cert.KernelIdeal Cert.KernelIdeal.Gen Cert.KernelIdeal.Body Cert.UpBlockSpec
open Idealize.ShloMosaic Idealize.ShloMosaic.TcCoe Idealize.ShloMosaic.ValueIdx Idealize.SL.Sem

variable (m : (ℓ : Loc nD τ sig) → Buf (Elt Ideal) ℓ) (c : Dev nD)

/-- The image a grid point handles. -/
def imgOf (t : Fin cfg0.N) : Fin 16 := ⟨t.val, lt_of_lt_of_eq t.isLt Gen.N_0⟩

/-- The windows' index maps over the grid: the image and the bridge move with the point, everything else stays. -/
theorem idx_facts : ∀ t : Fin cfg0.N,
    win0_0.index t (0 : Fin 4) = t.val
    ∧ win0_0.index t (1 : Fin 4) = 0
    ∧ win0_0.index t (2 : Fin 4) = 0
    ∧ win0_0.index t (3 : Fin 4) = 0
    ∧ win0_1.index t (0 : Fin 4) = t.val
    ∧ win0_1.index t (1 : Fin 4) = 0
    ∧ win0_1.index t (2 : Fin 4) = 0
    ∧ win0_1.index t (3 : Fin 4) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 3) = 0
    ∧ win0_4.index t (1 : Fin 3) = 0
    ∧ win0_4.index t (2 : Fin 3) = 0
    ∧ win0_5.index t (0 : Fin 2) = 0
    ∧ win0_5.index t (1 : Fin 2) = 0
    ∧ win0_6.index t (0 : Fin 3) = 0
    ∧ win0_6.index t (1 : Fin 3) = 0
    ∧ win0_6.index t (2 : Fin 3) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0 :=
  (by decide +kernel : ∀ t : Fin grid0.N, _)

theorem iblk0_at (t : Fin cfg0.N) (j1 : Fin 256) (j2 : Fin 32) (j3 : Fin 32) :
    (iblk (F := Ideal) m c 0 t : S1x256x32x32.Idx → EReal) (ix4 0 j1 j2 j3) = (V m c main_v19 : S16x256x32x32.Idx → EReal) (ix4 (imgOf t) j1 j2 j3) := by
  obtain ⟨e0_0, e0_1, e0_2, e0_3, e1_0, e1_1, e1_2, e1_3, e2_0, e2_1, e3_0, e3_1, e4_0, e4_1, e4_2, e5_0, e5_1, e6_0, e6_1, e6_2, e7_0, e7_1, e8_0, e8_1, e9_0, e9_1⟩ := idx_facts t
  show (V m c main_v19 : S16x256x32x32.Idx → EReal) (((cfg0.win 0).blk t).view.emb (ix4 0 j1 j2 j3)) = _
  refine congrArg _ (funext fun ax => Fin.ext ?_)
  match ax with
  | ⟨0, _⟩ => show win0_0.index t (0 : Fin 4) * 1 + 1 * (0 : Fin 1).val = t.val; rw [e0_0]; simp
  | ⟨1, _⟩ => show win0_0.index t (1 : Fin 4) * 256 + 1 * j1.val = j1.val; rw [e0_1]; simp
  | ⟨2, _⟩ => show win0_0.index t (2 : Fin 4) * 32 + 1 * j2.val = j2.val; rw [e0_2]; simp
  | ⟨3, _⟩ => show win0_0.index t (3 : Fin 4) * 32 + 1 * j3.val = j3.val; rw [e0_3]; simp

theorem iblk1_at (t : Fin cfg0.N) (j1 : Fin 64) (j2 : Fin 64) (j3 : Fin 128) :
    (iblk (F := Ideal) m c 1 t : S1x64x64x128.Idx → EReal) (ix4 0 j1 j2 j3) = (V m c main_v21 : S16x64x64x128.Idx → EReal) (ix4 (imgOf t) j1 j2 j3) := by
  obtain ⟨e0_0, e0_1, e0_2, e0_3, e1_0, e1_1, e1_2, e1_3, e2_0, e2_1, e3_0, e3_1, e4_0, e4_1, e4_2, e5_0, e5_1, e6_0, e6_1, e6_2, e7_0, e7_1, e8_0, e8_1, e9_0, e9_1⟩ := idx_facts t
  show (V m c main_v21 : S16x64x64x128.Idx → EReal) (((cfg0.win 1).blk t).view.emb (ix4 0 j1 j2 j3)) = _
  refine congrArg _ (funext fun ax => Fin.ext ?_)
  match ax with
  | ⟨0, _⟩ => show win0_1.index t (0 : Fin 4) * 1 + 1 * (0 : Fin 1).val = t.val; rw [e1_0]; simp
  | ⟨1, _⟩ => show win0_1.index t (1 : Fin 4) * 64 + 1 * j1.val = j1.val; rw [e1_1]; simp
  | ⟨2, _⟩ => show win0_1.index t (2 : Fin 4) * 64 + 1 * j2.val = j2.val; rw [e1_2]; simp
  | ⟨3, _⟩ => show win0_1.index t (3 : Fin 4) * 128 + 1 * j3.val = j3.val; rw [e1_3]; simp

theorem iblk2_at (t : Fin cfg0.N) (j0 : Fin 256) (j1 : Fin 512) :
    (iblk (F := Ideal) m c 2 t : S256x512.Idx → EReal) (ix2 j0 j1) = (V m c main_v2 : S256x512.Idx → EReal) (ix2 j0 j1) := by
  obtain ⟨e0_0, e0_1, e0_2, e0_3, e1_0, e1_1, e1_2, e1_3, e2_0, e2_1, e3_0, e3_1, e4_0, e4_1, e4_2, e5_0, e5_1, e6_0, e6_1, e6_2, e7_0, e7_1, e8_0, e8_1, e9_0, e9_1⟩ := idx_facts t
  show (V m c main_v2 : S256x512.Idx → EReal) (((cfg0.win 2).blk t).view.emb (ix2 j0 j1)) = _
  refine congrArg _ (funext fun ax => Fin.ext ?_)
  match ax with
  | ⟨0, _⟩ => show win0_2.index t (0 : Fin 2) * 256 + 1 * j0.val = j0.val; rw [e2_0]; simp
  | ⟨1, _⟩ => show win0_2.index t (1 : Fin 2) * 512 + 1 * j1.val = j1.val; rw [e2_1]; simp

theorem iblk3_at (t : Fin cfg0.N) (j0 : Fin 1) (j1 : Fin 512) :
    (iblk (F := Ideal) m c 3 t : S1x512.Idx → EReal) (ix2 j0 j1) = (V m c main_v6 : S1x512.Idx → EReal) (ix2 j0 j1) := by
  obtain ⟨e0_0, e0_1, e0_2, e0_3, e1_0, e1_1, e1_2, e1_3, e2_0, e2_1, e3_0, e3_1, e4_0, e4_1, e4_2, e5_0, e5_1, e6_0, e6_1, e6_2, e7_0, e7_1, e8_0, e8_1, e9_0, e9_1⟩ := idx_facts t
  show (V m c main_v6 : S1x512.Idx → EReal) (((cfg0.win 3).blk t).view.emb (ix2 j0 j1)) = _
  refine congrArg _ (funext fun ax => Fin.ext ?_)
  match ax with
  | ⟨0, _⟩ => show win0_3.index t (0 : Fin 2) * 1 + 1 * j0.val = j0.val; rw [e3_0]; simp
  | ⟨1, _⟩ => show win0_3.index t (1 : Fin 2) * 512 + 1 * j1.val = j1.val; rw [e3_1]; simp

theorem iblk4_at (t : Fin cfg0.N) (j0 : Fin 9) (j1 : Fin 256) (j2 : Fin 128) :
    (iblk (F := Ideal) m c 4 t : S9x256x128.Idx → EReal) (ix3 j0 j1 j2) = (V m c main_v9 : S9x256x128.Idx → EReal) (ix3 j0 j1 j2) := by
  obtain ⟨e0_0, e0_1, e0_2, e0_3, e1_0, e1_1, e1_2, e1_3, e2_0, e2_1, e3_0, e3_1, e4_0, e4_1, e4_2, e5_0, e5_1, e6_0, e6_1, e6_2, e7_0, e7_1, e8_0, e8_1, e9_0, e9_1⟩ := idx_facts t
  show (V m c main_v9 : S9x256x128.Idx → EReal) (((cfg0.win 4).blk t).view.emb (ix3 j0 j1 j2)) = _
  refine congrArg _ (funext fun ax => Fin.ext ?_)
  match ax with
  | ⟨0, _⟩ => show win0_4.index t (0 : Fin 3) * 9 + 1 * j0.val = j0.val; rw [e4_0]; simp
  | ⟨1, _⟩ => show win0_4.index t (1 : Fin 3) * 256 + 1 * j1.val = j1.val; rw [e4_1]; simp
  | ⟨2, _⟩ => show win0_4.index t (2 : Fin 3) * 128 + 1 * j2.val = j2.val; rw [e4_2]; simp

theorem iblk5_at (t : Fin cfg0.N) (j0 : Fin 1) (j1 : Fin 128) :
    (iblk (F := Ideal) m c 5 t : S1x128.Idx → EReal) (ix2 j0 j1) = (V m c main_v16 : S1x128.Idx → EReal) (ix2 j0 j1) := by
  obtain ⟨e0_0, e0_1, e0_2, e0_3, e1_0, e1_1, e1_2, e1_3, e2_0, e2_1, e3_0, e3_1, e4_0, e4_1, e4_2, e5_0, e5_1, e6_0, e6_1, e6_2, e7_0, e7_1, e8_0, e8_1, e9_0, e9_1⟩ := idx_facts t
  show (V m c main_v16 : S1x128.Idx → EReal) (((cfg0.win 5).blk t).view.emb (ix2 j0 j1)) = _
  refine congrArg _ (funext fun ax => Fin.ext ?_)
  match ax with
  | ⟨0, _⟩ => show win0_5.index t (0 : Fin 2) * 1 + 1 * j0.val = j0.val; rw [e5_0]; simp
  | ⟨1, _⟩ => show win0_5.index t (1 : Fin 2) * 128 + 1 * j1.val = j1.val; rw [e5_1]; simp

theorem iblk6_at (t : Fin cfg0.N) (j0 : Fin 9) (j1 : Fin 128) (j2 : Fin 128) :
    (iblk (F := Ideal) m c 6 t : S9x128x128.Idx → EReal) (ix3 j0 j1 j2) = (V m c main_v12 : S9x128x128.Idx → EReal) (ix3 j0 j1 j2) := by
  obtain ⟨e0_0, e0_1, e0_2, e0_3, e1_0, e1_1, e1_2, e1_3, e2_0, e2_1, e3_0, e3_1, e4_0, e4_1, e4_2, e5_0, e5_1, e6_0, e6_1, e6_2, e7_0, e7_1, e8_0, e8_1, e9_0, e9_1⟩ := idx_facts t
  show (V m c main_v12 : S9x128x128.Idx → EReal) (((cfg0.win 6).blk t).view.emb (ix3 j0 j1 j2)) = _
  refine congrArg _ (funext fun ax => Fin.ext ?_)
  match ax with
  | ⟨0, _⟩ => show win0_6.index t (0 : Fin 3) * 9 + 1 * j0.val = j0.val; rw [e6_0]; simp
  | ⟨1, _⟩ => show win0_6.index t (1 : Fin 3) * 128 + 1 * j1.val = j1.val; rw [e6_1]; simp
  | ⟨2, _⟩ => show win0_6.index t (2 : Fin 3) * 128 + 1 * j2.val = j2.val; rw [e6_2]; simp

theorem iblk7_at (t : Fin cfg0.N) (j0 : Fin 1) (j1 : Fin 128) :
    (iblk (F := Ideal) m c 7 t : S1x128.Idx → EReal) (ix2 j0 j1) = (V m c main_v17 : S1x128.Idx → EReal) (ix2 j0 j1) := by
  obtain ⟨e0_0, e0_1, e0_2, e0_3, e1_0, e1_1, e1_2, e1_3, e2_0, e2_1, e3_0, e3_1, e4_0, e4_1, e4_2, e5_0, e5_1, e6_0, e6_1, e6_2, e7_0, e7_1, e8_0, e8_1, e9_0, e9_1⟩ := idx_facts t
  show (V m c main_v17 : S1x128.Idx → EReal) (((cfg0.win 7).blk t).view.emb (ix2 j0 j1)) = _
  refine congrArg _ (funext fun ax => Fin.ext ?_)
  match ax with
  | ⟨0, _⟩ => show win0_7.index t (0 : Fin 2) * 1 + 1 * j0.val = j0.val; rw [e7_0]; simp
  | ⟨1, _⟩ => show win0_7.index t (1 : Fin 2) * 128 + 1 * j1.val = j1.val; rw [e7_1]; simp

theorem iblk8_at (t : Fin cfg0.N) (j0 : Fin 256) (j1 : Fin 128) :
    (iblk (F := Ideal) m c 8 t : S256x128.Idx → EReal) (ix2 j0 j1) = (V m c main_v15 : S256x128.Idx → EReal) (ix2 j0 j1) := by
  obtain ⟨e0_0, e0_1, e0_2, e0_3, e1_0, e1_1, e1_2, e1_3, e2_0, e2_1, e3_0, e3_1, e4_0, e4_1, e4_2, e5_0, e5_1, e6_0, e6_1, e6_2, e7_0, e7_1, e8_0, e8_1, e9_0, e9_1⟩ := idx_facts t
  show (V m c main_v15 : S256x128.Idx → EReal) (((cfg0.win 8).blk t).view.emb (ix2 j0 j1)) = _
  refine congrArg _ (funext fun ax => Fin.ext ?_)
  match ax with
  | ⟨0, _⟩ => show win0_8.index t (0 : Fin 2) * 256 + 1 * j0.val = j0.val; rw [e8_0]; simp
  | ⟨1, _⟩ => show win0_8.index t (1 : Fin 2) * 128 + 1 * j1.val = j1.val; rw [e8_1]; simp

theorem iblk9_at (t : Fin cfg0.N) (j0 : Fin 1) (j1 : Fin 128) :
    (iblk (F := Ideal) m c 9 t : S1x128.Idx → EReal) (ix2 j0 j1) = (V m c main_v18 : S1x128.Idx → EReal) (ix2 j0 j1) := by
  obtain ⟨e0_0, e0_1, e0_2, e0_3, e1_0, e1_1, e1_2, e1_3, e2_0, e2_1, e3_0, e3_1, e4_0, e4_1, e4_2, e5_0, e5_1, e6_0, e6_1, e6_2, e7_0, e7_1, e8_0, e8_1, e9_0, e9_1⟩ := idx_facts t
  show (V m c main_v18 : S1x128.Idx → EReal) (((cfg0.win 9).blk t).view.emb (ix2 j0 j1)) = _
  refine congrArg _ (funext fun ax => Fin.ext ?_)
  match ax with
  | ⟨0, _⟩ => show win0_9.index t (0 : Fin 2) * 1 + 1 * j0.val = j0.val; rw [e9_0]; simp
  | ⟨1, _⟩ => show win0_9.index t (1 : Fin 2) * 128 + 1 * j1.val = j1.val; rw [e9_1]; simp

/-- The output block at point `t` is the specification at image `t`. -/
theorem block_at (t : Fin cfg0.N) (Y X : Fin 64) (co : Fin 128) :
    (Valued.outAt m c t : S1x64x64x128.Idx → EReal) (ix4 0 Y X co) = specOut m c (imgOf t) co Y X := by
  unfold Valued.outAt specOut
  exact block_value c (grid0.coords t) _ _ _ _ _ _ _ _ _ _ _ _ _ _ _ _ _ _ _ _ _ _ _ _ _ _ (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t)
    (aX m c (imgOf t)) (aBr m c (imgOf t)) (aUW m c) (aUB m c) (aW1 m c) (aB1 m c) (aW2 m c) (aB2 m c) (aWID m c) (aBID m c) (imgOf t)
    (fun ci a b => (iblk0_at m c t ci a b).trans (v19_apply m c (imgOf t) ci a b))
    (fun Y X cc => (iblk1_at m c t Y X cc).trans (v21_apply m c (imgOf t) Y X cc))
    (fun ci q => (iblk2_at m c t ci q).trans (v2_apply m c ci q))
    (fun q => (iblk3_at m c t 0 q).trans (v6_apply m c q))
    (fun k ch co => (iblk4_at m c t k ch co).trans (v9_apply m c k ch co))
    (fun co => (iblk5_at m c t 0 co).trans (v16_apply m c co))
    (fun k cc co => (iblk6_at m c t k cc co).trans (v12_apply m c k cc co))
    (fun co => (iblk7_at m c t 0 co).trans (v17_apply m c co))
    (fun ch co => (iblk8_at m c t ch co).trans (v15_apply m c ch co))
    (fun co => (iblk9_at m c t 0 co).trans (v18_apply m c co)) Y X co

end Cert.KernelIdeal.KerValue

end
-- ==== Proof.lean ====
/-
  The up-block of a U-Net, fused into one kernel, against its two-kernel reference.

  Both programs compute, for each image of the batch, the 2 x 2 transposed convolution of the input (stride 2:
  every input pixel becomes a 2 x 2 patch), concatenate the bridge image along the channels, apply two 3 x 3
  convolutions with zero padding, each followed by a bias and a leaky rectifier of slope 0.2, and add the 1 x 1
  convolution of the concatenation and its bias.  The fused kernel keeps the concatenation in one padded image
  of 256 channels and multiplies with whole weight matrices; the reference keeps the two halves in separate
  padded images and splits every weight matrix in two, so its sums over the 256 channels are pairs of sums over
  128.  Read over the extended reals the two results are the same sums in a different grouping.

  The three frames: each program terminates from any memory and leaves its arguments unchanged.  The fused
  kernel's body is run once symbolically on arbitrary buffers (Proof/IdealBodyRun.lean, Proof/BitsBodyRun.lean)
  and launched at every grid point (Proof/IdealBody.lean, Proof/BitsBody.lean); the reference's frame is the
  generated one.  The idealization rewrote no operation, so there is nothing to preserve.

  The value claim.  The fused kernel stores its padded scratch images through rectangles wider than the data, so
  the terms its run leaves mention the scratch's entry contents; Proof/IdealPadCat.lean and Proof/IdealPadMid.lean
  read the images back index by index (zero border, stored block inside), Proof/IdealIndep.lean concludes that the
  written output does not depend on those contents, and Proof/IdealValued.lean names the output block and launches
  the kernel with it.  Proof/IdealTaps.lean, IdealUp.lean, IdealConv.lean, IdealBlock.lean and IdealPoint.lean read
  the block at a pixel as the specification of image t's arguments (Proof/Spec.lean, Proof/KerPrefix.lean for the
  host re-layouts), and Proof/KerGlobal.lean assembles the blocks into the result array and moves the channels
  back.  For the reference, Proof/RefRun.lean is its run with the result named, Proof/RefPrefix.lean reads the
  arrays its second kernel is launched on (the re-laid arguments and the first kernel's product),
  Proof/RefConvBlock.lean reads the second kernel's block at a pixel as the specification in the reference's
  grouping, and Proof/RefGlobal.lean assembles the result array.  The two groupings are equal on the extended
  reals (`outK_eq_outR`).
-/
import proofs.«142322_g2000305194121171_pallasbulk_194_3_alg».proof.Defs
import proofs.«142322_g2000305194121171_pallasbulk_194_3_alg».proof.Proof.Gen.Kernel
import proofs.«142322_g2000305194121171_pallasbulk_194_3_alg».proof.Proof.Gen.KernelIdeal
import proofs.«142322_g2000305194121171_pallasbulk_194_3_alg».proof.Proof.Gen.ReferenceIdeal
import proofs.«142322_g2000305194121171_pallasbulk_194_3_alg».proof.Proof.Gen.ReferenceIdeal.Frame
import proofs.«142322_g2000305194121171_pallasbulk_194_3_alg».proof.Proof.Gen.Pre_finite_inputs
import proofs.«142322_g2000305194121171_pallasbulk_194_3_alg».proof.Proof.BitsBody
import proofs.«142322_g2000305194121171_pallasbulk_194_3_alg».proof.Proof.IdealBody
import proofs.«142322_g2000305194121171_pallasbulk_194_3_alg».proof.Proof.RefRun
import proofs.«142322_g2000305194121171_pallasbulk_194_3_alg».proof.Proof.RefPrefix
import proofs.«142322_g2000305194121171_pallasbulk_194_3_alg».proof.Proof.RefConvBlock
import proofs.«142322_g2000305194121171_pallasbulk_194_3_alg».proof.Proof.RefGlobal
import proofs.«142322_g2000305194121171_pallasbulk_194_3_alg».proof.Proof.KerGlobal
import proofs.«142322_g2000305194121171_pallasbulk_194_3_alg».proof.Proof.IdealPoint
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Body.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Body.frame m ρ

theorem frame_reference : Cert.frame_ReferenceIdeal (hReferenceIdeal := Cert.ReferenceIdeal.Gen.facts) (hPre_finite_inputs := Cert.Pre_finite_inputs.Gen.facts) :=
  fun m ρ _ => Cert.ReferenceIdeal.Gen.frame m ρ

theorem preserves : Cert.preserves_Kernel_KernelIdeal := trivial

/-- The reference's result, index by index, is the specification in the reference's grouping: the arrays at the
    second kernel's entry are the re-laid arguments and the first kernel's product (Proof/RefPrefix.lean), the block
    the second kernel leaves at each image is the specification (Proof/RefConvBlock.lean), and the result is the
    blocks' array with the channels moved back (Proof/RefGlobal.lean). -/
theorem reference_result (m : (ℓ : Loc Cert.ReferenceIdeal.nD Cert.ReferenceIdeal.τ Cert.ReferenceIdeal.sig) → Buf (Elt Ideal) ℓ)
    (ρ : Dev Cert.ReferenceIdeal.nD → PrngReg) (c : Dev Cert.ReferenceIdeal.nD) (i : Cert.ReferenceIdeal.S16x128x64x64.Idx) :
    (Cert.ReferenceIdeal.Gen.W5 m ρ c (Proc.devRef .tc Cert.ReferenceIdeal.main_v26) : Cert.ReferenceIdeal.S16x128x64x64.Idx → EReal) i
      = Cert.ReferenceIdeal.RefValue.specOut m c (i 0) (i 1) (i 2) (i 3) :=
  Cert.ReferenceIdeal.RefValue.result_of_blocks m ρ c (fun t Y X co =>
    Cert.ReferenceIdeal.RefValue.ref_block_at m ρ c
      (Cert.ReferenceIdeal.RefValue.v11_apply m ρ c) (Cert.ReferenceIdeal.RefValue.v1_apply m ρ c)
      (Cert.ReferenceIdeal.RefValue.v14_apply m ρ c) (Cert.ReferenceIdeal.RefValue.v15_apply m ρ c)
      (Cert.ReferenceIdeal.RefValue.v22_apply m ρ c) (Cert.ReferenceIdeal.RefValue.v17_apply m ρ c)
      (Cert.ReferenceIdeal.RefValue.v23_apply m ρ c) (Cert.ReferenceIdeal.RefValue.v20_apply m ρ c)
      (Cert.ReferenceIdeal.RefValue.v21_apply m ρ c) (Cert.ReferenceIdeal.RefValue.v24_apply m ρ c) t Y X co) i

/-- On memories that agree on the arguments the two specifications are the same number: the reference's grouping of
    the sums equals the fused kernel's (Proof/Spec.lean `outK_eq_outR`). -/
theorem spec_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (n : Fin 16) (co : Fin 128) (Y X : Fin 64) :
    Cert.ReferenceIdeal.RefValue.specOut m' c n co Y X = Cert.KernelIdeal.KerValue.specOut m c n co Y X := by
  unfold Cert.ReferenceIdeal.RefValue.specOut Cert.KernelIdeal.KerValue.specOut
  rw [← Cert.UpBlockSpec.outK_eq_outR]
  have e0 : Cert.ReferenceIdeal.RefValue.aX m' c = Cert.KernelIdeal.KerValue.aX m c := by
    unfold Cert.ReferenceIdeal.RefValue.aX Cert.KernelIdeal.KerValue.aX; rw [(hagree c).1]
  have e1 : Cert.ReferenceIdeal.RefValue.aBr m' c = Cert.KernelIdeal.KerValue.aBr m c := by
    unfold Cert.ReferenceIdeal.RefValue.aBr Cert.KernelIdeal.KerValue.aBr; rw [(hagree c).2.1]
  have e2 : Cert.ReferenceIdeal.RefValue.aUW m' c = Cert.KernelIdeal.KerValue.aUW m c := by
    unfold Cert.ReferenceIdeal.RefValue.aUW Cert.KernelIdeal.KerValue.aUW; rw [(hagree c).2.2.1]
  have e3 : Cert.ReferenceIdeal.RefValue.aUB m' c = Cert.KernelIdeal.KerValue.aUB m c := by
    unfold Cert.ReferenceIdeal.RefValue.aUB Cert.KernelIdeal.KerValue.aUB; rw [(hagree c).2.2.2.1]
  have e4 : Cert.ReferenceIdeal.RefValue.aW1 m' c = Cert.KernelIdeal.KerValue.aW1 m c := by
    unfold Cert.ReferenceIdeal.RefValue.aW1 Cert.KernelIdeal.KerValue.aW1; rw [(hagree c).2.2.2.2.1]
  have e5 : Cert.ReferenceIdeal.RefValue.aB1 m' c = Cert.KernelIdeal.KerValue.aB1 m c := by
    unfold Cert.ReferenceIdeal.RefValue.aB1 Cert.KernelIdeal.KerValue.aB1; rw [(hagree c).2.2.2.2.2.1]
  have e6 : Cert.ReferenceIdeal.RefValue.aW2 m' c = Cert.KernelIdeal.KerValue.aW2 m c := by
    unfold Cert.ReferenceIdeal.RefValue.aW2 Cert.KernelIdeal.KerValue.aW2; rw [(hagree c).2.2.2.2.2.2.1]
  have e7 : Cert.ReferenceIdeal.RefValue.aB2 m' c = Cert.KernelIdeal.KerValue.aB2 m c := by
    unfold Cert.ReferenceIdeal.RefValue.aB2 Cert.KernelIdeal.KerValue.aB2; rw [(hagree c).2.2.2.2.2.2.2.1]
  have e8 : Cert.ReferenceIdeal.RefValue.aWID m' c = Cert.KernelIdeal.KerValue.aWID m c := by
    unfold Cert.ReferenceIdeal.RefValue.aWID Cert.KernelIdeal.KerValue.aWID; rw [(hagree c).2.2.2.2.2.2.2.2.1]
  have e9 : Cert.ReferenceIdeal.RefValue.aBID m' c = Cert.KernelIdeal.KerValue.aBID m c := by
    unfold Cert.ReferenceIdeal.RefValue.aBID Cert.KernelIdeal.KerValue.aBID; rw [(hagree c).2.2.2.2.2.2.2.2.2]
  rw [e0, e1, e2, e3, e4, e5, e6, e7, e8, e9]

/-- Over the extended reals the fused kernel and the reference end with the same result: each is the up-block
    specification of the arguments, in its own grouping of the sums, and the two groupings are equal
    (Proof/Spec.lean `outK_eq_outR`).  No finiteness of the inputs is used: only associativity of addition and the
    splitting of a sum over 256 channels into its two halves. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => (fun i : Cert.KernelIdeal.S16x128x64x64.Idx => (Cert.KernelIdeal.KerValue.specOut m c (i 0) (i 1) (i 2) (i 3) : EReal)),
    Cert.KernelIdeal.KerValue.run_of_blocks m ρ (fun c t Y X co => Cert.KernelIdeal.KerValue.block_at m c t Y X co), ?_⟩
  refine (θ_run Cert.ReferenceIdeal.defs _ _).mono (fun r h c => ⟨(h c).1.trans ?_, (h c).2⟩)
    (Cert.ReferenceIdeal.RefValue.run (F := Ideal) m' ρ')
  funext i
  refine (reference_result m' ρ' c i).trans ?_
  exact spec_agree m m' c hagree (i 0) (i 1) (i 2) (i 3)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
